-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v150)) (v1 : (c : Dev Cert.KernelIdeal.nD) → Buf (Elt Ideal) ((c.tc : Thread Cert.KernelIdeal.nD Cert.KernelIdeal.τ).loc Cert.KernelIdeal.main_v151)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v150) = v0 c
          ∧ r.2.mem ((c.tc : Thread Cert.KernelIdeal.nD Cert.KernelIdeal.τ).loc Cert.KernelIdeal.main_v151) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_v145) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x64x64 : Shape := ⟨4, ![4, 128, 64, 64]⟩
abbrev S4x64x2x64x64 : Shape := ⟨5, ![4, 64, 2, 64, 64]⟩
abbrev S4x64x64x64 : Shape := ⟨4, ![4, 64, 64, 64]⟩
abbrev S_ : Shape := ⟨0, ![]⟩

class Facts : Prop where
  bcast_S_S4x128x64x64 : S_.BroadcastsInDim S4x128x64x64 (![] : Fin 0 → Fin S4x128x64x64.rank)
  reducesTo_S4x128x64x64_S_d0_1_2_3 : S4x128x64x64.ReducesTo [0, 1, 2, 3] S_
  h_S_ : 0 < S_.numel
  bcast_S_S4x64x2x64x64 : S_.BroadcastsInDim S4x64x2x64x64 (![] : Fin 0 → Fin S4x64x2x64x64.rank)
  reducesTo_S4x64x2x64x64_S_d0_1_2_3_4 : S4x64x2x64x64.ReducesTo [0, 1, 2, 3, 4] S_
  bcast_S_S4x64x64x64 : S_.BroadcastsInDim S4x64x64x64 (![] : Fin 0 → Fin S4x64x64x64.rank)
  reducesTo_S4x64x64x64_S_d0_1_2_3 : S4x64x64x64.ReducesTo [0, 1, 2, 3] S_

variable [Facts]

def fn_part1 {F : FTy → Type} [FloatOps F] (main_v13 : IVec S_ 1) (main_v16 : IVec S4x64x64x64 1) : IVec S_ 1 :=
  let main_c_5 : IVec S_ 1 := constantI S_ 1 1#1
  let main_v17 : IVec S_ 1 := (fun x v => Host.reduce IntOp.andi x v reducesTo_S4x64x64x64_S_d0_1_2_3 h_S_) main_v16 main_c_5
  let main_v18 : IVec S_ 1 := andi main_v13 main_v17
  main_v18

def fn {F : FTy → Type} [FloatOps F] (main_arg0 : FVec F S4x128x64x64 .f32) (main_arg1 : FVec F S4x128x64x64 .f32) (main_arg2 : FVec F S4x64x2x64x64 .f32) (main_arg3 : FVec F S4x64x64x64 .f32) : IVec S_ 1 :=
  let main_v0 : FVec F S4x128x64x64 .f32 := Host.absf main_arg0
  let main_cst : FVec F S_ .f32 := constant S_ .f32 0x7F800000#32
  let main_v1 : FVec F S4x128x64x64 .f32 := broadcastInDim S4x128x64x64 ![] bcast_S_S4x128x64x64 main_cst
  let main_v2 : IVec S4x128x64x64 1 := cmpf .olt main_v0 main_v1
  let main_c : IVec S_ 1 := constantI S_ 1 1#1
  let main_v3 : IVec S_ 1 := (fun x v => Host.reduce IntOp.andi x v reducesTo_S4x128x64x64_S_d0_1_2_3 h_S_) main_v2 main_c
  let main_v4 : FVec F S4x128x64x64 .f32 := Host.absf main_arg1
  let main_cst_0 : FVec F S_ .f32 := constant S_ .f32 0x7F800000#32
  let main_v5 : FVec F S4x128x64x64 .f32 := broadcastInDim S4x128x64x64 ![] bcast_S_S4x128x64x64 main_cst_0
  let main_v6 : IVec S4x128x64x64 1 := cmpf .olt main_v4 main_v5
  let main_c_1 : IVec S_ 1 := constantI S_ 1 1#1
  let main_v7 : IVec S_ 1 := (fun x v => Host.reduce IntOp.andi x v reducesTo_S4x128x64x64_S_d0_1_2_3 h_S_) main_v6 main_c_1
  let main_v8 : IVec S_ 1 := andi main_v3 main_v7
  let main_v9 : FVec F S4x64x2x64x64 .f32 := Host.absf main_arg2
  let main_cst_2 : FVec F S_ .f32 := constant S_ .f32 0x7F800000#32
  let main_v10 : FVec F S4x64x2x64x64 .f32 := broadcastInDim S4x64x2x64x64 ![] bcast_S_S4x64x2x64x64 main_cst_2
  let main_v11 : IVec S4x64x2x64x64 1 := cmpf .olt main_v9 main_v10
  let main_c_3 : IVec S_ 1 := constantI S_ 1 1#1
  let main_v12 : IVec S_ 1 := (fun x v => Host.reduce IntOp.andi x v reducesTo_S4x64x2x64x64_S_d0_1_2_3_4 h_S_) main_v11 main_c_3
  let main_v13 : IVec S_ 1 := andi main_v8 main_v12
  let main_v14 : FVec F S4x64x64x64 .f32 := Host.absf main_arg3
  let main_cst_4 : FVec F S_ .f32 := constant S_ .f32 0x7F800000#32
  let main_v15 : FVec F S4x64x64x64 .f32 := broadcastInDim S4x64x64x64 ![] bcast_S_S4x64x64x64 main_cst_4
  let main_v16 : IVec S4x64x64x64 1 := cmpf .olt main_v14 main_v15
  fn_part1 (F := F) main_v13 main_v16
-- ==== Kernel.lean ====
abbrev S4x128x64x64 : Shape := ⟨4, ![4, 128, 64, 64]⟩
abbrev S4x64x2x64x64 : Shape := ⟨5, ![4, 64, 2, 64, 64]⟩
abbrev S4x64x64x64 : Shape := ⟨4, ![4, 64, 64, 64]⟩
abbrev S4x128x4096 : Shape := ⟨3, ![4, 128, 4096]⟩
abbrev S4x4096x4096 : Shape := ⟨3, ![4, 4096, 4096]⟩
abbrev S1x128x256 : Shape := ⟨3, ![1, 128, 256]⟩
abbrev S1x128x4096 : Shape := ⟨3, ![1, 128, 4096]⟩
abbrev S1x256x4096 : Shape := ⟨3, ![1, 256, 4096]⟩
abbrev S128x256 : Shape := ⟨2, ![128, 256]⟩
abbrev S128x4096 : Shape := ⟨2, ![128, 4096]⟩
abbrev S256x4096 : Shape := ⟨2, ![256, 4096]⟩
abbrev S4x64x64x2x64 : Shape := ⟨5, ![4, 64, 64, 2, 64]⟩
abbrev S4x4096x2x64 : Shape := ⟨4, ![4, 4096, 2, 64]⟩
abbrev S4x4096x1x64 : Shape := ⟨4, ![4, 4096, 1, 64]⟩
abbrev S4x4096x64 : Shape := ⟨3, ![4, 4096, 64]⟩
abbrev S_ : Shape := ⟨0, ![]⟩
abbrev S4x4096x256 : Shape := ⟨3, ![4, 4096, 256]⟩
abbrev S4x4096x256x1 : Shape := ⟨4, ![4, 4096, 256, 1]⟩
abbrev S1 : Shape := ⟨1, ![1]⟩
abbrev S1x1x1x1 : Shape := ⟨4, ![1, 1, 1, 1]⟩

abbrev nBuf : Space → Nat
  | .hbm => 274
  | .vmem => 5
  | .smem => 0
  | _ => 0

abbrev hbmTy0_0 (i : Nat) : BufTy := match i % 128 with
  | 0 => ⟨S4x128x64x64, .f32⟩
  | 1 => ⟨S4x128x64x64, .f32⟩
  | 2 => ⟨S4x64x2x64x64, .f32⟩
  | 3 => ⟨S4x64x64x64, .f32⟩
  | 4 => ⟨S4x128x4096, .f32⟩
  | 5 => ⟨S4x128x4096, .bf16⟩
  | 6 => ⟨S4x128x4096, .f32⟩
  | 7 => ⟨S4x128x4096, .bf16⟩
  | 8 => ⟨S4x4096x4096, .f32⟩
  | 9 => ⟨S4x64x64x2x64, .f32⟩
  | 10 => ⟨S4x4096x2x64, .f32⟩
  | 11 => ⟨S4x4096x1x64, .f32⟩
  | 12 => ⟨S4x4096x64, .f32⟩
  | 13 => ⟨S4x4096x1x64, .f32⟩
  | 14 => ⟨S4x4096x64, .f32⟩
  | 15 => ⟨S_, .f32⟩
  | 16 => ⟨S4x4096x64, .f32⟩
  | 17 => ⟨S4x4096x64, .f32⟩
  | 18 => ⟨S_, .f32⟩
  | 19 => ⟨S4x4096x64, .f32⟩
  | 20 => ⟨S4x4096x64, .f32⟩
  | 21 => ⟨S4x4096x64, .f32⟩
  | 22 => ⟨S4x4096x64, .f32⟩
  | 23 => ⟨S4x4096x64, .f32⟩
  | 24 => ⟨S4x4096x64, .f32⟩
  | 25 => ⟨S4x4096x64, .i32⟩
  | 26 => ⟨S4x4096x64, .i32⟩
  | 27 => ⟨S_, .i32⟩
  | 28 => ⟨S4x4096x64, .i32⟩
  | 29 => ⟨S4x4096x64, .i32⟩
  | 30 => ⟨S_, .i32⟩
  | 31 => ⟨S4x4096x64, .i32⟩
  | 32 => ⟨S4x4096x64, .i32⟩
  | 33 => ⟨S_, .i32⟩
  | 34 => ⟨S4x4096x64, .i32⟩
  | 35 => ⟨S4x4096x64, .i1⟩
  | 36 => ⟨S_, .i32⟩
  | 37 => ⟨S4x4096x64, .i32⟩
  | 38 => ⟨S4x4096x64, .i1⟩
  | 39 => ⟨S4x4096x64, .i1⟩
  | 40 => ⟨S_, .i32⟩
  | 41 => ⟨S4x4096x64, .i32⟩
  | 42 => ⟨S4x4096x64, .i1⟩
  | 43 => ⟨S4x4096x64, .i1⟩
  | 44 => ⟨S_, .i32⟩
  | 45 => ⟨S4x4096x64, .i32⟩
  | 46 => ⟨S4x4096x64, .i1⟩
  | 47 => ⟨S4x4096x64, .i1⟩
  | 48 => ⟨S4x4096x64, .f32⟩
  | 49 => ⟨S_, .i32⟩
  | 50 => ⟨S_, .i32⟩
  | 51 => ⟨S_, .i32⟩
  | 52 => ⟨S4x4096x64, .i32⟩
  | 53 => ⟨S4x4096x64, .i32⟩
  | 54 => ⟨S_, .i32⟩
  | 55 => ⟨S4x4096x64, .i32⟩
  | 56 => ⟨S4x4096x64, .i32⟩
  | 57 => ⟨S_, .i32⟩
  | 58 => ⟨S4x4096x64, .i32⟩
  | 59 => ⟨S4x4096x64, .i32⟩
  | 60 => ⟨S_, .i32⟩
  | 61 => ⟨S_, .i32⟩
  | 62 => ⟨S_, .i32⟩
  | 63 => ⟨S4x4096x64, .i32⟩
  | 64 => ⟨S4x4096x64, .i32⟩
  | 65 => ⟨S_, .i32⟩
  | 66 => ⟨S4x4096x64, .i32⟩
  | 67 => ⟨S4x4096x64, .i32⟩
  | 68 => ⟨S4x4096x64, .i32⟩
  | 69 => ⟨S_, .f32⟩
  | 70 => ⟨S4x4096x64, .f32⟩
  | 71 => ⟨S4x4096x64, .f32⟩
  | 72 => ⟨S_, .f32⟩
  | 73 => ⟨S4x4096x64, .f32⟩
  | 74 => ⟨S4x4096x64, .f32⟩
  | 75 => ⟨S4x4096x64, .f32⟩
  | 76 => ⟨S4x4096x64, .f32⟩
  | 77 => ⟨S_, .i32⟩
  | 78 => ⟨S4x4096x64, .i32⟩
  | 79 => ⟨S4x4096x64, .i32⟩
  | 80 => ⟨S_, .i32⟩
  | 81 => ⟨S4x4096x64, .i32⟩
  | 82 => ⟨S4x4096x64, .i32⟩
  | 83 => ⟨S_, .i32⟩
  | 84 => ⟨S4x4096x64, .i32⟩
  | 85 => ⟨S4x4096x64, .i1⟩
  | 86 => ⟨S_, .i32⟩
  | 87 => ⟨S4x4096x64, .i32⟩
  | 88 => ⟨S4x4096x64, .i1⟩
  | 89 => ⟨S4x4096x64, .i1⟩
  | 90 => ⟨S_, .i32⟩
  | 91 => ⟨S4x4096x64, .i32⟩
  | 92 => ⟨S4x4096x64, .i1⟩
  | 93 => ⟨S4x4096x64, .i1⟩
  | 94 => ⟨S_, .i32⟩
  | 95 => ⟨S4x4096x64, .i32⟩
  | 96 => ⟨S4x4096x64, .i1⟩
  | 97 => ⟨S4x4096x64, .i1⟩
  | 98 => ⟨S4x4096x64, .f32⟩
  | 99 => ⟨S_, .i32⟩
  | 100 => ⟨S_, .i32⟩
  | 101 => ⟨S_, .i32⟩
  | 102 => ⟨S4x4096x64, .i32⟩
  | 103 => ⟨S4x4096x64, .i32⟩
  | 104 => ⟨S_, .i32⟩
  | 105 => ⟨S4x4096x64, .i32⟩
  | 106 => ⟨S4x4096x64, .i32⟩
  | 107 => ⟨S_, .i32⟩
  | 108 => ⟨S4x4096x64, .i32⟩
  | 109 => ⟨S4x4096x64, .i32⟩
  | 110 => ⟨S_, .i32⟩
  | 111 => ⟨S_, .i32⟩
  | 112 => ⟨S_, .i32⟩
  | 113 => ⟨S4x4096x64, .i32⟩
  | 114 => ⟨S4x4096x64, .i32⟩
  | 115 => ⟨S_, .i32⟩
  | 116 => ⟨S4x4096x64, .i32⟩
  | 117 => ⟨S4x4096x64, .i32⟩
  | 118 => ⟨S4x4096x64, .i32⟩
  | 119 => ⟨S_, .f32⟩
  | 120 => ⟨S4x4096x64, .f32⟩
  | 121 => ⟨S4x4096x64, .f32⟩
  | 122 => ⟨S4x4096x64, .f32⟩
  | 123 => ⟨S4x4096x64, .f32⟩
  | 124 => ⟨S_, .i32⟩
  | 125 => ⟨S4x4096x64, .i32⟩
  | 126 => ⟨S4x4096x64, .i32⟩
  | 127 => ⟨S_, .i32⟩
  | _ => ⟨S4x128x64x64, .f32⟩

abbrev hbmTy0_1 (i : Nat) : BufTy := match i % 128 with
  | 0 => ⟨S4x4096x64, .i32⟩
  | 1 => ⟨S4x4096x64, .i32⟩
  | 2 => ⟨S_, .i32⟩
  | 3 => ⟨S4x4096x64, .i32⟩
  | 4 => ⟨S4x4096x64, .i1⟩
  | 5 => ⟨S_, .i32⟩
  | 6 => ⟨S4x4096x64, .i32⟩
  | 7 => ⟨S4x4096x64, .i1⟩
  | 8 => ⟨S4x4096x64, .i1⟩
  | 9 => ⟨S_, .i32⟩
  | 10 => ⟨S4x4096x64, .i32⟩
  | 11 => ⟨S4x4096x64, .i1⟩
  | 12 => ⟨S4x4096x64, .i1⟩
  | 13 => ⟨S_, .i32⟩
  | 14 => ⟨S4x4096x64, .i32⟩
  | 15 => ⟨S4x4096x64, .i1⟩
  | 16 => ⟨S4x4096x64, .i1⟩
  | 17 => ⟨S4x4096x64, .f32⟩
  | 18 => ⟨S_, .i32⟩
  | 19 => ⟨S_, .i32⟩
  | 20 => ⟨S_, .i32⟩
  | 21 => ⟨S4x4096x64, .i32⟩
  | 22 => ⟨S4x4096x64, .i32⟩
  | 23 => ⟨S_, .i32⟩
  | 24 => ⟨S4x4096x64, .i32⟩
  | 25 => ⟨S4x4096x64, .i32⟩
  | 26 => ⟨S_, .i32⟩
  | 27 => ⟨S4x4096x64, .i32⟩
  | 28 => ⟨S4x4096x64, .i32⟩
  | 29 => ⟨S_, .i32⟩
  | 30 => ⟨S_, .i32⟩
  | 31 => ⟨S_, .i32⟩
  | 32 => ⟨S4x4096x64, .i32⟩
  | 33 => ⟨S4x4096x64, .i32⟩
  | 34 => ⟨S_, .i32⟩
  | 35 => ⟨S4x4096x64, .i32⟩
  | 36 => ⟨S4x4096x64, .i32⟩
  | 37 => ⟨S4x4096x64, .i32⟩
  | 38 => ⟨S_, .f32⟩
  | 39 => ⟨S4x4096x64, .f32⟩
  | 40 => ⟨S4x4096x64, .f32⟩
  | 41 => ⟨S4x4096x64, .f32⟩
  | 42 => ⟨S4x4096x64, .f32⟩
  | 43 => ⟨S_, .i32⟩
  | 44 => ⟨S4x4096x64, .i32⟩
  | 45 => ⟨S4x4096x64, .i32⟩
  | 46 => ⟨S_, .i32⟩
  | 47 => ⟨S4x4096x64, .i32⟩
  | 48 => ⟨S4x4096x64, .i32⟩
  | 49 => ⟨S_, .i32⟩
  | 50 => ⟨S4x4096x64, .i32⟩
  | 51 => ⟨S4x4096x64, .i1⟩
  | 52 => ⟨S_, .i32⟩
  | 53 => ⟨S4x4096x64, .i32⟩
  | 54 => ⟨S4x4096x64, .i1⟩
  | 55 => ⟨S4x4096x64, .i1⟩
  | 56 => ⟨S_, .i32⟩
  | 57 => ⟨S4x4096x64, .i32⟩
  | 58 => ⟨S4x4096x64, .i1⟩
  | 59 => ⟨S4x4096x64, .i1⟩
  | 60 => ⟨S_, .i32⟩
  | 61 => ⟨S4x4096x64, .i32⟩
  | 62 => ⟨S4x4096x64, .i1⟩
  | 63 => ⟨S4x4096x64, .i1⟩
  | 64 => ⟨S4x4096x64, .f32⟩
  | 65 => ⟨S_, .i32⟩
  | 66 => ⟨S_, .i32⟩
  | 67 => ⟨S_, .i32⟩
  | 68 => ⟨S4x4096x64, .i32⟩
  | 69 => ⟨S4x4096x64, .i32⟩
  | 70 => ⟨S_, .i32⟩
  | 71 => ⟨S4x4096x64, .i32⟩
  | 72 => ⟨S4x4096x64, .i32⟩
  | 73 => ⟨S_, .i32⟩
  | 74 => ⟨S4x4096x64, .i32⟩
  | 75 => ⟨S4x4096x64, .i32⟩
  | 76 => ⟨S_, .i32⟩
  | 77 => ⟨S_, .i32⟩
  | 78 => ⟨S_, .i32⟩
  | 79 => ⟨S4x4096x64, .i32⟩
  | 80 => ⟨S4x4096x64, .i32⟩
  | 81 => ⟨S_, .i32⟩
  | 82 => ⟨S4x4096x64, .i32⟩
  | 83 => ⟨S4x4096x64, .i32⟩
  | 84 => ⟨S4x4096x64, .i32⟩
  | 85 => ⟨S4x4096x64, .f32⟩
  | 86 => ⟨S4x4096x64, .f32⟩
  | 87 => ⟨S4x4096x256, .i32⟩
  | 88 => ⟨S_, .i32⟩
  | 89 => ⟨S4x4096x256, .i32⟩
  | 90 => ⟨S4x4096x256, .i1⟩
  | 91 => ⟨S_, .i32⟩
  | 92 => ⟨S4x4096x256, .i32⟩
  | 93 => ⟨S4x4096x256, .i32⟩
  | 94 => ⟨S4x4096x256, .i32⟩
  | 95 => ⟨S4x4096x256x1, .i32⟩
  | 96 => ⟨S1, .i32⟩
  | 97 => ⟨S_, .i32⟩
  | 98 => ⟨S4x4096x256x1, .i32⟩
  | 99 => ⟨S4x4096x256x1, .i1⟩
  | 100 => ⟨S1x1x1x1, .i32⟩
  | 101 => ⟨S4x4096x256x1, .i32⟩
  | 102 => ⟨S4x4096x256x1, .i1⟩
  | 103 => ⟨S4x4096x256x1, .i1⟩
  | 104 => ⟨S_, .i1⟩
  | 105 => ⟨S4x4096x256, .i1⟩
  | 106 => ⟨S4x4096x256, .f32⟩
  | 107 => ⟨S_, .f32⟩
  | 108 => ⟨S4x4096x256, .f32⟩
  | 109 => ⟨S4x4096x256, .f32⟩
  | 110 => ⟨S4x4096x64, .f32⟩
  | 111 => ⟨S4x4096x64, .f32⟩
  | 112 => ⟨S4x4096x64, .f32⟩
  | 113 => ⟨S4x4096x64, .f32⟩
  | 114 => ⟨S_, .f32⟩
  | 115 => ⟨S4x4096x64, .f32⟩
  | 116 => ⟨S_, .f32⟩
  | 117 => ⟨S4x4096x64, .f32⟩
  | 118 => ⟨S4x4096x64, .f32⟩
  | 119 => ⟨S4x4096x64, .f32⟩
  | 120 => ⟨S4x4096x64, .f32⟩
  | 121 => ⟨S4x4096x64, .f32⟩
  | 122 => ⟨S4x4096x64, .f32⟩
  | 123 => ⟨S4x4096x64, .f32⟩
  | 124 => ⟨S4x4096x64, .f32⟩
  | 125 => ⟨S4x4096x64, .f32⟩
  | 126 => ⟨S4x4096x64, .f32⟩
  | 127 => ⟨S4x4096x64, .f32⟩
  | _ => ⟨S4x128x64x64, .f32⟩

abbrev hbmTy0_2 (i : Nat) : BufTy := match i % 128 with
  | 0 => ⟨S4x4096x64, .f32⟩
  | 1 => ⟨S4x4096x64, .f32⟩
  | 2 => ⟨S_, .f32⟩
  | 3 => ⟨S4x4096x64, .f32⟩
  | 4 => ⟨S4x4096x64, .i1⟩
  | 5 => ⟨S_, .f32⟩
  | 6 => ⟨S_, .f32⟩
  | 7 => ⟨S4x4096x64, .f32⟩
  | 8 => ⟨S4x4096x64, .f32⟩
  | 9 => ⟨S4x4096x64, .f32⟩
  | 10 => ⟨S4x4096x64, .f32⟩
  | 11 => ⟨S4x4096x64, .f32⟩
  | 12 => ⟨S4x64x64x64, .f32⟩
  | 13 => ⟨S4x64x64x64, .f32⟩
  | 14 => ⟨S4x64x64x64, .f32⟩
  | 15 => ⟨S4x64x64x64, .f32⟩
  | 16 => ⟨S4x64x64x64, .f32⟩
  | 17 => ⟨S4x64x64x64, .f32⟩
  | _ => ⟨S4x128x64x64, .f32⟩

abbrev hbmTy (i : Nat) : BufTy := match i / 128 with
  | 0 => hbmTy0_0 i
  | 1 => hbmTy0_1 i
  | 2 => hbmTy0_2 i
  | _ => ⟨S4x128x64x64, .f32⟩

abbrev bufTy : (tb : Table) → Fin (tcTables nBuf tb) → BufTy
  | .hbm, ⟨i, _⟩ => hbmTy i
  | .local _ .vmem, ⟨0, _⟩ => ⟨S1x128x256, .bf16⟩
  | .local _ .vmem, ⟨1, _⟩ => ⟨S1x128x256, .bf16⟩
  | .local _ .vmem, ⟨2, _⟩ => ⟨S1x128x4096, .bf16⟩
  | .local _ .vmem, ⟨3, _⟩ => ⟨S1x256x4096, .f32⟩
  | .local _ .vmem, ⟨4, _⟩ => ⟨S1x256x4096, .f32⟩
  | _, _ => ⟨S4x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_v21 : Ref sig .tc := ⟨.hbm, 28, rfl⟩
abbrev main_v22 : Ref sig .tc := ⟨.hbm, 29, rfl⟩
abbrev main_c_1 : Ref sig .tc := ⟨.hbm, 30, rfl⟩
abbrev main_v23 : Ref sig .tc := ⟨.hbm, 31, rfl⟩
abbrev main_v24 : Ref sig .tc := ⟨.hbm, 32, rfl⟩
abbrev main_c_2 : Ref sig .tc := ⟨.hbm, 33, rfl⟩
abbrev main_v25 : Ref sig .tc := ⟨.hbm, 34, rfl⟩
abbrev main_v26 : Ref sig .tc := ⟨.hbm, 35, rfl⟩
abbrev main_c_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_6 : Ref sig .tc := ⟨.hbm, 49, rfl⟩
abbrev main_c_7 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_c_9 : Ref sig .tc := ⟨.hbm, 60, rfl⟩
abbrev main_c_10 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_v40 : Ref sig .tc := ⟨.hbm, 67, rfl⟩
abbrev main_v41 : Ref sig .tc := ⟨.hbm, 68, rfl⟩
abbrev main_cst_11 : Ref sig .tc := ⟨.hbm, 69, rfl⟩
abbrev main_v42 : Ref sig .tc := ⟨.hbm, 70, rfl⟩
abbrev main_v43 : Ref sig .tc := ⟨.hbm, 71, rfl⟩
abbrev main_cst_12 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_13 : Ref sig .tc := ⟨.hbm, 77, rfl⟩
abbrev main_v48 : Ref sig .tc := ⟨.hbm, 78, rfl⟩
abbrev main_v49 : Ref sig .tc := ⟨.hbm, 79, rfl⟩
abbrev main_c_14 : Ref sig .tc := ⟨.hbm, 80, rfl⟩
abbrev main_v50 : Ref sig .tc := ⟨.hbm, 81, rfl⟩
abbrev main_v51 : Ref sig .tc := ⟨.hbm, 82, rfl⟩
abbrev main_c_15 : Ref sig .tc := ⟨.hbm, 83, rfl⟩
abbrev main_v52 : Ref sig .tc := ⟨.hbm, 84, rfl⟩
abbrev main_v53 : Ref sig .tc := ⟨.hbm, 85, rfl⟩
abbrev main_c_16 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_c_17 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_c_18 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_c_19 : Ref sig .tc := ⟨.hbm, 99, rfl⟩
abbrev main_c_20 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_v64 : Ref sig .tc := ⟨.hbm, 106, rfl⟩
abbrev main_c_21 : Ref sig .tc := ⟨.hbm, 107, rfl⟩
abbrev main_v65 : Ref sig .tc := ⟨.hbm, 108, rfl⟩
abbrev main_v66 : Ref sig .tc := ⟨.hbm, 109, rfl⟩
abbrev main_c_22 : Ref sig .tc := ⟨.hbm, 110, rfl⟩
abbrev main_c_23 : Ref sig .tc := ⟨.hbm, 111, rfl⟩
abbrev main_call3_v0 : Ref sig .tc := ⟨.hbm, 112, rfl⟩
abbrev main_call3_v1 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_v67 : Ref sig .tc := ⟨.hbm, 117, rfl⟩
abbrev main_v68 : Ref sig .tc := ⟨.hbm, 118, rfl⟩
abbrev main_cst_24 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_c_25 : Ref sig .tc := ⟨.hbm, 124, rfl⟩
abbrev main_v73 : Ref sig .tc := ⟨.hbm, 125, rfl⟩
abbrev main_v74 : Ref sig .tc := ⟨.hbm, 126, rfl⟩
abbrev main_c_26 : Ref sig .tc := ⟨.hbm, 127, rfl⟩
abbrev main_v75 : Ref sig .tc := ⟨.hbm, 128, rfl⟩
abbrev main_v76 : Ref sig .tc := ⟨.hbm, 129, rfl⟩
abbrev main_c_27 : Ref sig .tc := ⟨.hbm, 130, rfl⟩
abbrev main_v77 : Ref sig .tc := ⟨.hbm, 131, rfl⟩
abbrev main_v78 : Ref sig .tc := ⟨.hbm, 132, rfl⟩
abbrev main_c_28 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_c_29 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_c_30 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_c_31 : Ref sig .tc := ⟨.hbm, 146, rfl⟩
abbrev main_c_32 : Ref sig .tc := ⟨.hbm, 147, rfl⟩
abbrev main_call4_v0 : Ref sig .tc := ⟨.hbm, 148, rfl⟩
abbrev main_call4_v1 : Ref sig .tc := ⟨.hbm, 149, rfl⟩
abbrev main_call4_v2 : Ref sig .tc := ⟨.hbm, 150, rfl⟩
abbrev main_call4_v3 : Ref sig .tc := ⟨.hbm, 151, rfl⟩
abbrev main_call4_v4 : Ref sig .tc := ⟨.hbm, 152, rfl⟩
abbrev main_v89 : Ref sig .tc := ⟨.hbm, 153, rfl⟩
abbrev main_c_33 : Ref sig .tc := ⟨.hbm, 154, rfl⟩
abbrev main_v90 : Ref sig .tc := ⟨.hbm, 155, rfl⟩
abbrev main_v91 : Ref sig .tc := ⟨.hbm, 156, rfl⟩
abbrev main_c_34 : Ref sig .tc := ⟨.hbm, 157, rfl⟩
abbrev main_c_35 : Ref sig .tc := ⟨.hbm, 158, rfl⟩
abbrev main_call5_v0 : Ref sig .tc := ⟨.hbm, 159, rfl⟩
abbrev main_call5_v1 : Ref sig .tc := ⟨.hbm, 160, rfl⟩
abbrev main_call5_v2 : Ref sig .tc := ⟨.hbm, 161, rfl⟩
abbrev main_call5_v3 : Ref sig .tc := ⟨.hbm, 162, rfl⟩
abbrev main_call5_v4 : Ref sig .tc := ⟨.hbm, 163, rfl⟩
abbrev main_v92 : Ref sig .tc := ⟨.hbm, 164, rfl⟩
abbrev main_v93 : Ref sig .tc := ⟨.hbm, 165, rfl⟩
abbrev main_cst_36 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_c_37 : Ref sig .tc := ⟨.hbm, 171, rfl⟩
abbrev main_v98 : Ref sig .tc := ⟨.hbm, 172, rfl⟩
abbrev main_v99 : Ref sig .tc := ⟨.hbm, 173, rfl⟩
abbrev main_c_38 : Ref sig .tc := ⟨.hbm, 174, rfl⟩
abbrev main_v100 : Ref sig .tc := ⟨.hbm, 175, rfl⟩
abbrev main_v101 : Ref sig .tc := ⟨.hbm, 176, rfl⟩
abbrev main_c_39 : Ref sig .tc := ⟨.hbm, 177, rfl⟩
abbrev main_v102 : Ref sig .tc := ⟨.hbm, 178, rfl⟩
abbrev main_v103 : Ref sig .tc := ⟨.hbm, 179, rfl⟩
abbrev main_c_40 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_c_41 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_c_42 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_c_43 : Ref sig .tc := ⟨.hbm, 193, rfl⟩
abbrev main_c_44 : Ref sig .tc := ⟨.hbm, 194, rfl⟩
abbrev main_call6_v0 : Ref sig .tc := ⟨.hbm, 195, rfl⟩
abbrev main_call6_v1 : Ref sig .tc := ⟨.hbm, 196, rfl⟩
abbrev main_call6_v2 : Ref sig .tc := ⟨.hbm, 197, rfl⟩
abbrev main_call6_v3 : Ref sig .tc := ⟨.hbm, 198, rfl⟩
abbrev main_call6_v4 : Ref sig .tc := ⟨.hbm, 199, rfl⟩
abbrev main_v114 : Ref sig .tc := ⟨.hbm, 200, rfl⟩
abbrev main_c_45 : Ref sig .tc := ⟨.hbm, 201, rfl⟩
abbrev main_v115 : Ref sig .tc := ⟨.hbm, 202, rfl⟩
abbrev main_v116 : Ref sig .tc := ⟨.hbm, 203, rfl⟩
abbrev main_c_46 : Ref sig .tc := ⟨.hbm, 204, rfl⟩
abbrev main_c_47 : Ref sig .tc := ⟨.hbm, 205, rfl⟩
abbrev main_call7_v0 : Ref sig .tc := ⟨.hbm, 206, rfl⟩
abbrev main_call7_v1 : Ref sig .tc := ⟨.hbm, 207, rfl⟩
abbrev main_call7_v2 : Ref sig .tc := ⟨.hbm, 208, rfl⟩
abbrev main_call7_v3 : Ref sig .tc := ⟨.hbm, 209, rfl⟩
abbrev main_call7_v4 : Ref sig .tc := ⟨.hbm, 210, rfl⟩
abbrev main_v117 : Ref sig .tc := ⟨.hbm, 211, rfl⟩
abbrev main_v118 : Ref sig .tc := ⟨.hbm, 212, rfl⟩
abbrev main_v119 : Ref sig .tc := ⟨.hbm, 213, rfl⟩
abbrev main_v120 : Ref sig .tc := ⟨.hbm, 214, rfl⟩
abbrev main_v121 : Ref sig .tc := ⟨.hbm, 215, rfl⟩
abbrev main_call8_c : Ref sig .tc := ⟨.hbm, 216, rfl⟩
abbrev main_call8_v0 : Ref sig .tc := ⟨.hbm, 217, rfl⟩
abbrev main_call8_v1 : Ref sig .tc := ⟨.hbm, 218, rfl⟩
abbrev main_call8_c_0 : Ref sig .tc := ⟨.hbm, 219, rfl⟩
abbrev main_call8_v2 : Ref sig .tc := ⟨.hbm, 220, rfl⟩
abbrev main_call8_v3 : Ref sig .tc := ⟨.hbm, 221, rfl⟩
abbrev main_call8_v4 : Ref sig .tc := ⟨.hbm, 222, rfl⟩
abbrev main_call8_v5 : Ref sig .tc := ⟨.hbm, 223, rfl⟩
abbrev main_call8_c_1 : Ref sig .tc := ⟨.hbm, 224, rfl⟩
abbrev main_call8_c_2 : Ref sig .tc := ⟨.hbm, 225, rfl⟩
abbrev main_call8_v6 : Ref sig .tc := ⟨.hbm, 226, rfl⟩
abbrev main_call8_v7 : Ref sig .tc := ⟨.hbm, 227, rfl⟩
abbrev main_call8_v8 : Ref sig .tc := ⟨.hbm, 228, rfl⟩
abbrev main_call8_v9 : Ref sig .tc := ⟨.hbm, 229, rfl⟩
abbrev main_call8_v10 : Ref sig .tc := ⟨.hbm, 230, rfl⟩
abbrev main_call8_v11 : Ref sig .tc := ⟨.hbm, 231, rfl⟩
abbrev main_call8_c_3 : Ref sig .tc := ⟨.hbm, 232, rfl⟩
abbrev main_call8_v12 : Ref sig .tc := ⟨.hbm, 233, rfl⟩
abbrev main_call8_v13 : Ref sig .tc := ⟨.hbm, 234, rfl⟩
abbrev main_call8_cst : Ref sig .tc := ⟨.hbm, 235, rfl⟩
abbrev main_call8_v14 : Ref sig .tc := ⟨.hbm, 236, rfl⟩
abbrev main_v122 : Ref sig .tc := ⟨.hbm, 237, rfl⟩
abbrev main_v123 : Ref sig .tc := ⟨.hbm, 238, rfl⟩
abbrev main_v124 : Ref sig .tc := ⟨.hbm, 239, rfl⟩
abbrev main_v125 : Ref sig .tc := ⟨.hbm, 240, rfl⟩
abbrev main_v126 : Ref sig .tc := ⟨.hbm, 241, rfl⟩
abbrev main_cst_48 : Ref sig .tc := ⟨.hbm, 242, rfl⟩
abbrev main_v127 : Ref sig .tc := ⟨.hbm, 243, rfl⟩
abbrev main_cst_49 : Ref sig .tc := ⟨.hbm, 244, rfl⟩
abbrev main_v128 : Ref sig .tc := ⟨.hbm, 245, rfl⟩
abbrev main_v129 : Ref sig .tc := ⟨.hbm, 246, rfl⟩
abbrev main_v130 : Ref sig .tc := ⟨.hbm, 247, rfl⟩
abbrev main_v131 : Ref sig .tc := ⟨.hbm, 248, rfl⟩
abbrev main_v132 : Ref sig .tc := ⟨.hbm, 249, rfl⟩
abbrev main_v133 : Ref sig .tc := ⟨.hbm, 250, rfl⟩
abbrev main_v134 : Ref sig .tc := ⟨.hbm, 251, rfl⟩
abbrev main_v135 : Ref sig .tc := ⟨.hbm, 252, rfl⟩
abbrev main_v136 : Ref sig .tc := ⟨.hbm, 253, rfl⟩
abbrev main_v137 : Ref sig .tc := ⟨.hbm, 254, rfl⟩
abbrev main_v138 : Ref sig .tc := ⟨.hbm, 255, rfl⟩
abbrev main_v139 : Ref sig .tc := ⟨.hbm, 256, rfl⟩
abbrev main_v140 : Ref sig .tc := ⟨.hbm, 257, rfl⟩
abbrev main_cst_50 : Ref sig .tc := ⟨.hbm, 258, rfl⟩
abbrev main_v141 : Ref sig .tc := ⟨.hbm, 259, rfl⟩
abbrev main_v142 : Ref sig .tc := ⟨.hbm, 260, rfl⟩
abbrev main_cst_51 : Ref sig .tc := ⟨.hbm, 261, rfl⟩
abbrev main_cst_52 : Ref sig .tc := ⟨.hbm, 262, rfl⟩
abbrev main_call9_v0 : Ref sig .tc := ⟨.hbm, 263, rfl⟩
abbrev main_call9_v1 : Ref sig .tc := ⟨.hbm, 264, rfl⟩
abbrev main_v143 : Ref sig .tc := ⟨.hbm, 265, rfl⟩
abbrev main_v144 : Ref sig .tc := ⟨.hbm, 266, rfl⟩
abbrev main_v145 : Ref sig .tc := ⟨.hbm, 267, rfl⟩
abbrev main_v146 : Ref sig .tc := ⟨.hbm, 268, rfl⟩
abbrev main_v147 : Ref sig .tc := ⟨.hbm, 269, rfl⟩
abbrev main_v148 : Ref sig .tc := ⟨.hbm, 270, rfl⟩
abbrev main_v149 : Ref sig .tc := ⟨.hbm, 271, rfl⟩
abbrev main_v150 : Ref sig .tc := ⟨.hbm, 272, rfl⟩
abbrev main_v151 : Ref sig .tc := ⟨.hbm, 273, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S4x128x64x64_S4x128x4096 : S4x128x64x64.ShapeCasts S4x128x4096
  bitsLt_bf16_f32 : FTy.bits .bf16 < FTy.bits .f32
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S1x256x4096 : S256x4096.ShapeCasts S1x256x4096
  transposes_S4x64x2x64x64_S4x64x64x2x64_0_3_4_2_1 : S4x64x2x64x64.Transposes [0, 3, 4, 2, 1] S4x64x64x2x64
  shapeCasts_S4x64x64x2x64_S4x4096x2x64 : S4x64x64x2x64.ShapeCasts S4x4096x2x64
  slices_S4x4096x2x64_S4x4096x1x64_0_0_0_0 : S4x4096x2x64.Slices ![0, 0, 0, 0] S4x4096x1x64
  shapeCasts_S4x4096x1x64_S4x4096x64 : S4x4096x1x64.ShapeCasts S4x4096x64
  slices_S4x4096x2x64_S4x4096x1x64_0_0_1_0 : S4x4096x2x64.Slices ![0, 0, 1, 0] S4x4096x1x64
  bcast_S_S4x4096x64 : S_.BroadcastsInDim S4x4096x64 (![] : Fin 0 → Fin S4x4096x64.rank)
  concatenates_S4x4096x64_S4x4096x64_S4x4096x64_S4x4096x64_S4x4096x256_d2 : Shape.Concatenates [S4x4096x64, S4x4096x64, S4x4096x64, S4x4096x64] S4x4096x256 2
  bcast_S_S4x4096x256 : S_.BroadcastsInDim S4x4096x256 (![] : Fin 0 → Fin S4x4096x256.rank)
  shapeCasts_S4x4096x256_S4x4096x256x1 : S4x4096x256.ShapeCasts S4x4096x256x1
  bcast_S_S4x4096x256x1 : S_.BroadcastsInDim S4x4096x256x1 (![] : Fin 0 → Fin S4x4096x256x1.rank)
  bcast_S1_S1x1x1x1_3 : S1.BroadcastsInDim S1x1x1x1 (![3] : Fin 1 → Fin S1x1x1x1.rank)
  bcast_S1x1x1x1_S4x4096x256x1_0_1_2_3 : S1x1x1x1.BroadcastsInDim S4x4096x256x1 (![0, 1, 2, 3] : Fin 4 → Fin S4x4096x256x1.rank)
  reducesTo_S4x4096x256x1_S4x4096x256_d3 : S4x4096x256x1.ReducesTo [3] S4x4096x256
  h_S_ : 0 < S_.numel
  slices_S4x4096x256_S4x4096x64_0_0_0 : S4x4096x256.Slices ![0, 0, 0] S4x4096x64
  slices_S4x4096x256_S4x4096x64_0_0_64 : S4x4096x256.Slices ![0, 0, 64] S4x4096x64
  slices_S4x4096x256_S4x4096x64_0_0_128 : S4x4096x256.Slices ![0, 0, 128] S4x4096x64
  slices_S4x4096x256_S4x4096x64_0_0_192 : S4x4096x256.Slices ![0, 0, 192] S4x4096x64
  shapeCasts_S4x4096x64_S4x64x64x64 : S4x4096x64.ShapeCasts S4x64x64x64
  transposes_S4x64x64x64_S4x64x64x64_0_3_1_2 : S4x64x64x64.Transposes [0, 3, 1, 2] S4x64x64x64
  dot_S128x256_S128x4096_S256x4096_0_0_1_1_n_n_wf : DotDims.WF S128x256 S128x4096 S256x4096 [0] [0] [1] [1] [] []
  gather_S4x4096x4096_S4x4096x256x1_S4x4096x256_n_2_01_01_2_3_111_wf : GatherDims.WF S4x4096x4096 S4x4096x256x1 S4x4096x256 [] [2] [0, 1] [2] [0, 1] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x256.size a ≤ S4x128x4096.size a
  hwx0_0 : ∀ i : grid0.Coords, EltTy.bits .bf16 = 32 ∨ (Rect.block (s := S4x128x4096) S1x128x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128x4096.size a ≤ S4x128x4096.size a
  hwx0_1 : ∀ i : grid0.Coords, EltTy.bits .bf16 = 32 ∨ (Rect.block (s := S4x128x4096) S1x128x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x4096.size a ≤ S4x4096x4096.size a
  hwx0_2 : ∀ i : grid0.Coords, EltTy.bits .f32 = 32 ∨ (Rect.block (s := S4x4096x4096) S1x256x4096.size (cc0_transform_2 i) (hinb0_2 i)).WholeWords (EltTy.packing .f32)

variable [Facts₀]

def dot_S128x256_S128x4096_S256x4096_0_0_1_1_n_n : DotDims S128x256 S128x4096 S256x4096 where
  lhsContracting := [0]
  rhsContracting := [0]
  lhsNonContracting := [1]
  rhsNonContracting := [1]
  lhsBatch := []
  rhsBatch := []
  wf := dot_S128x256_S128x4096_S256x4096_0_0_1_1_n_n_wf
def gather_S4x4096x4096_S4x4096x256x1_S4x4096x256_n_2_01_01_2_3_111 : GatherDims S4x4096x4096 S4x4096x256x1 S4x4096x256 where
  offsetDims := []
  collapsedSliceDims := [2]
  operandBatchingDims := [0, 1]
  startIndicesBatchingDims := [0, 1]
  startIndexMap := [2]
  indexVectorDim := 3
  sliceSizes := ![1, 1, 1]
  wf := gather_S4x4096x4096_S4x4096x256x1_S4x4096x256_n_2_01_01_2_3_111_wf

abbrev win0_0 : Pipeline.Window sig grid0 :=
  Pipeline.Window.ofSpec (Memref.whole main_v1) S1x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x128x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x128x64x64 : Shape := ⟨4, ![4, 128, 64, 64]⟩
abbrev S4x64x2x64x64 : Shape := ⟨5, ![4, 64, 2, 64, 64]⟩
abbrev S4x64x64x64 : Shape := ⟨4, ![4, 64, 64, 64]⟩
abbrev S4x128x4096 : Shape := ⟨3, ![4, 128, 4096]⟩
abbrev S4x4096x4096 : Shape := ⟨3, ![4, 4096, 4096]⟩
abbrev S4x64x64x2x64 : Shape := ⟨5, ![4, 64, 64, 2, 64]⟩
abbrev S4x4096x2x64 : Shape := ⟨4, ![4, 4096, 2, 64]⟩
abbrev S4x4096x1x64 : Shape := ⟨4, ![4, 4096, 1, 64]⟩
abbrev S4x4096x64 : Shape := ⟨3, ![4, 4096, 64]⟩
abbrev S_ : Shape := ⟨0, ![]⟩
abbrev S4x4096x64x1 : Shape := ⟨4, ![4, 4096, 64, 1]⟩
abbrev S1 : Shape := ⟨1, ![1]⟩
abbrev S1x1x1x1 : Shape := ⟨4, ![1, 1, 1, 1]⟩

abbrev nBuf : Space → Nat
  | .hbm => 330
  | .vmem => 0
  | .smem => 0
  | _ => 0

abbrev hbmTy0_0 (i : Nat) : BufTy := match i % 128 with
  | 0 => ⟨S4x128x64x64, .f32⟩
  | 1 => ⟨S4x128x64x64, .f32⟩
  | 2 => ⟨S4x64x2x64x64, .f32⟩
  | 3 => ⟨S4x64x64x64, .f32⟩
  | 4 => ⟨S4x128x4096, .f32⟩
  | 5 => ⟨S4x128x4096, .f32⟩
  | 6 => ⟨S4x4096x4096, .f32⟩
  | 7 => ⟨S4x64x64x2x64, .f32⟩
  | 8 => ⟨S4x4096x2x64, .f32⟩
  | 9 => ⟨S4x4096x1x64, .f32⟩
  | 10 => ⟨S4x4096x64, .f32⟩
  | 11 => ⟨S4x4096x1x64, .f32⟩
  | 12 => ⟨S4x4096x64, .f32⟩
  | 13 => ⟨S_, .f32⟩
  | 14 => ⟨S4x4096x64, .f32⟩
  | 15 => ⟨S4x4096x64, .f32⟩
  | 16 => ⟨S_, .f32⟩
  | 17 => ⟨S4x4096x64, .f32⟩
  | 18 => ⟨S4x4096x64, .f32⟩
  | 19 => ⟨S4x4096x64, .f32⟩
  | 20 => ⟨S4x4096x64, .f32⟩
  | 21 => ⟨S4x4096x64, .f32⟩
  | 22 => ⟨S4x4096x64, .f32⟩
  | 23 => ⟨S4x4096x64, .i32⟩
  | 24 => ⟨S4x4096x64, .i32⟩
  | 25 => ⟨S_, .f32⟩
  | 26 => ⟨S4x4096x64, .f32⟩
  | 27 => ⟨S_, .f32⟩
  | 28 => ⟨S4x4096x64, .f32⟩
  | 29 => ⟨S_, .f32⟩
  | 30 => ⟨S4x4096x64, .f32⟩
  | 31 => ⟨S4x4096x64, .f32⟩
  | 32 => ⟨S_, .f32⟩
  | 33 => ⟨S4x4096x64, .f32⟩
  | 34 => ⟨S4x4096x64, .f32⟩
  | 35 => ⟨S_, .i32⟩
  | 36 => ⟨S4x4096x64, .i32⟩
  | 37 => ⟨S4x4096x64, .i32⟩
  | 38 => ⟨S_, .i32⟩
  | 39 => ⟨S4x4096x64, .i32⟩
  | 40 => ⟨S4x4096x64, .i32⟩
  | 41 => ⟨S_, .i32⟩
  | 42 => ⟨S4x4096x64, .i32⟩
  | 43 => ⟨S4x4096x64, .i1⟩
  | 44 => ⟨S_, .i32⟩
  | 45 => ⟨S4x4096x64, .i32⟩
  | 46 => ⟨S4x4096x64, .i1⟩
  | 47 => ⟨S4x4096x64, .i1⟩
  | 48 => ⟨S_, .i32⟩
  | 49 => ⟨S4x4096x64, .i32⟩
  | 50 => ⟨S4x4096x64, .i1⟩
  | 51 => ⟨S4x4096x64, .i1⟩
  | 52 => ⟨S_, .i32⟩
  | 53 => ⟨S4x4096x64, .i32⟩
  | 54 => ⟨S4x4096x64, .i1⟩
  | 55 => ⟨S4x4096x64, .i1⟩
  | 56 => ⟨S4x4096x64, .f32⟩
  | 57 => ⟨S_, .i32⟩
  | 58 => ⟨S_, .i32⟩
  | 59 => ⟨S_, .i32⟩
  | 60 => ⟨S4x4096x64, .i32⟩
  | 61 => ⟨S4x4096x64, .i32⟩
  | 62 => ⟨S_, .i32⟩
  | 63 => ⟨S4x4096x64, .i32⟩
  | 64 => ⟨S4x4096x64, .i32⟩
  | 65 => ⟨S_, .i32⟩
  | 66 => ⟨S4x4096x64, .i32⟩
  | 67 => ⟨S4x4096x64, .i32⟩
  | 68 => ⟨S_, .i32⟩
  | 69 => ⟨S_, .i32⟩
  | 70 => ⟨S_, .i32⟩
  | 71 => ⟨S4x4096x64, .i32⟩
  | 72 => ⟨S4x4096x64, .i32⟩
  | 73 => ⟨S_, .i32⟩
  | 74 => ⟨S4x4096x64, .i32⟩
  | 75 => ⟨S4x4096x64, .i32⟩
  | 76 => ⟨S4x4096x64, .i32⟩
  | 77 => ⟨S_, .i32⟩
  | 78 => ⟨S4x4096x64, .i32⟩
  | 79 => ⟨S4x4096x64, .i1⟩
  | 80 => ⟨S_, .i32⟩
  | 81 => ⟨S4x4096x64, .i32⟩
  | 82 => ⟨S4x4096x64, .i32⟩
  | 83 => ⟨S4x4096x64, .i32⟩
  | 84 => ⟨S4x4096x64x1, .i32⟩
  | 85 => ⟨S1, .i32⟩
  | 86 => ⟨S_, .i32⟩
  | 87 => ⟨S4x4096x64x1, .i32⟩
  | 88 => ⟨S4x4096x64x1, .i1⟩
  | 89 => ⟨S1x1x1x1, .i32⟩
  | 90 => ⟨S4x4096x64x1, .i32⟩
  | 91 => ⟨S4x4096x64x1, .i1⟩
  | 92 => ⟨S4x4096x64x1, .i1⟩
  | 93 => ⟨S_, .i1⟩
  | 94 => ⟨S4x4096x64, .i1⟩
  | 95 => ⟨S4x4096x64, .f32⟩
  | 96 => ⟨S_, .f32⟩
  | 97 => ⟨S4x4096x64, .f32⟩
  | 98 => ⟨S4x4096x64, .f32⟩
  | 99 => ⟨S4x4096x64, .f32⟩
  | 100 => ⟨S4x4096x64, .f32⟩
  | 101 => ⟨S4x4096x64, .f32⟩
  | 102 => ⟨S4x4096x64, .f32⟩
  | 103 => ⟨S4x4096x64, .f32⟩
  | 104 => ⟨S_, .i32⟩
  | 105 => ⟨S4x4096x64, .i32⟩
  | 106 => ⟨S4x4096x64, .i32⟩
  | 107 => ⟨S_, .i32⟩
  | 108 => ⟨S4x4096x64, .i32⟩
  | 109 => ⟨S4x4096x64, .i32⟩
  | 110 => ⟨S_, .i32⟩
  | 111 => ⟨S4x4096x64, .i32⟩
  | 112 => ⟨S4x4096x64, .i1⟩
  | 113 => ⟨S_, .i32⟩
  | 114 => ⟨S4x4096x64, .i32⟩
  | 115 => ⟨S4x4096x64, .i1⟩
  | 116 => ⟨S4x4096x64, .i1⟩
  | 117 => ⟨S_, .i32⟩
  | 118 => ⟨S4x4096x64, .i32⟩
  | 119 => ⟨S4x4096x64, .i1⟩
  | 120 => ⟨S4x4096x64, .i1⟩
  | 121 => ⟨S_, .i32⟩
  | 122 => ⟨S4x4096x64, .i32⟩
  | 123 => ⟨S4x4096x64, .i1⟩
  | 124 => ⟨S4x4096x64, .i1⟩
  | 125 => ⟨S4x4096x64, .f32⟩
  | 126 => ⟨S_, .i32⟩
  | 127 => ⟨S_, .i32⟩
  | _ => ⟨S4x128x64x64, .f32⟩

abbrev hbmTy0_1 (i : Nat) : BufTy := match i % 128 with
  | 0 => ⟨S_, .i32⟩
  | 1 => ⟨S4x4096x64, .i32⟩
  | 2 => ⟨S4x4096x64, .i32⟩
  | 3 => ⟨S_, .i32⟩
  | 4 => ⟨S4x4096x64, .i32⟩
  | 5 => ⟨S4x4096x64, .i32⟩
  | 6 => ⟨S_, .i32⟩
  | 7 => ⟨S4x4096x64, .i32⟩
  | 8 => ⟨S4x4096x64, .i32⟩
  | 9 => ⟨S_, .i32⟩
  | 10 => ⟨S_, .i32⟩
  | 11 => ⟨S_, .i32⟩
  | 12 => ⟨S4x4096x64, .i32⟩
  | 13 => ⟨S4x4096x64, .i32⟩
  | 14 => ⟨S_, .i32⟩
  | 15 => ⟨S4x4096x64, .i32⟩
  | 16 => ⟨S4x4096x64, .i32⟩
  | 17 => ⟨S4x4096x64, .i32⟩
  | 18 => ⟨S_, .i32⟩
  | 19 => ⟨S4x4096x64, .i32⟩
  | 20 => ⟨S4x4096x64, .i1⟩
  | 21 => ⟨S_, .i32⟩
  | 22 => ⟨S4x4096x64, .i32⟩
  | 23 => ⟨S4x4096x64, .i32⟩
  | 24 => ⟨S4x4096x64, .i32⟩
  | 25 => ⟨S4x4096x64x1, .i32⟩
  | 26 => ⟨S1, .i32⟩
  | 27 => ⟨S_, .i32⟩
  | 28 => ⟨S4x4096x64x1, .i32⟩
  | 29 => ⟨S4x4096x64x1, .i1⟩
  | 30 => ⟨S1x1x1x1, .i32⟩
  | 31 => ⟨S4x4096x64x1, .i32⟩
  | 32 => ⟨S4x4096x64x1, .i1⟩
  | 33 => ⟨S4x4096x64x1, .i1⟩
  | 34 => ⟨S_, .i1⟩
  | 35 => ⟨S4x4096x64, .i1⟩
  | 36 => ⟨S4x4096x64, .f32⟩
  | 37 => ⟨S_, .f32⟩
  | 38 => ⟨S4x4096x64, .f32⟩
  | 39 => ⟨S4x4096x64, .f32⟩
  | 40 => ⟨S4x4096x64, .f32⟩
  | 41 => ⟨S4x4096x64, .f32⟩
  | 42 => ⟨S4x4096x64, .f32⟩
  | 43 => ⟨S4x4096x64, .f32⟩
  | 44 => ⟨S4x4096x64, .f32⟩
  | 45 => ⟨S_, .f32⟩
  | 46 => ⟨S4x4096x64, .f32⟩
  | 47 => ⟨S4x4096x64, .f32⟩
  | 48 => ⟨S_, .i32⟩
  | 49 => ⟨S4x4096x64, .i32⟩
  | 50 => ⟨S4x4096x64, .i32⟩
  | 51 => ⟨S_, .i32⟩
  | 52 => ⟨S4x4096x64, .i32⟩
  | 53 => ⟨S4x4096x64, .i32⟩
  | 54 => ⟨S_, .i32⟩
  | 55 => ⟨S4x4096x64, .i32⟩
  | 56 => ⟨S4x4096x64, .i1⟩
  | 57 => ⟨S_, .i32⟩
  | 58 => ⟨S4x4096x64, .i32⟩
  | 59 => ⟨S4x4096x64, .i1⟩
  | 60 => ⟨S4x4096x64, .i1⟩
  | 61 => ⟨S_, .i32⟩
  | 62 => ⟨S4x4096x64, .i32⟩
  | 63 => ⟨S4x4096x64, .i1⟩
  | 64 => ⟨S4x4096x64, .i1⟩
  | 65 => ⟨S_, .i32⟩
  | 66 => ⟨S4x4096x64, .i32⟩
  | 67 => ⟨S4x4096x64, .i1⟩
  | 68 => ⟨S4x4096x64, .i1⟩
  | 69 => ⟨S4x4096x64, .f32⟩
  | 70 => ⟨S_, .i32⟩
  | 71 => ⟨S_, .i32⟩
  | 72 => ⟨S_, .i32⟩
  | 73 => ⟨S4x4096x64, .i32⟩
  | 74 => ⟨S4x4096x64, .i32⟩
  | 75 => ⟨S_, .i32⟩
  | 76 => ⟨S4x4096x64, .i32⟩
  | 77 => ⟨S4x4096x64, .i32⟩
  | 78 => ⟨S_, .i32⟩
  | 79 => ⟨S4x4096x64, .i32⟩
  | 80 => ⟨S4x4096x64, .i32⟩
  | 81 => ⟨S_, .i32⟩
  | 82 => ⟨S_, .i32⟩
  | 83 => ⟨S_, .i32⟩
  | 84 => ⟨S4x4096x64, .i32⟩
  | 85 => ⟨S4x4096x64, .i32⟩
  | 86 => ⟨S_, .i32⟩
  | 87 => ⟨S4x4096x64, .i32⟩
  | 88 => ⟨S4x4096x64, .i32⟩
  | 89 => ⟨S4x4096x64, .i32⟩
  | 90 => ⟨S_, .i32⟩
  | 91 => ⟨S4x4096x64, .i32⟩
  | 92 => ⟨S4x4096x64, .i1⟩
  | 93 => ⟨S_, .i32⟩
  | 94 => ⟨S4x4096x64, .i32⟩
  | 95 => ⟨S4x4096x64, .i32⟩
  | 96 => ⟨S4x4096x64, .i32⟩
  | 97 => ⟨S4x4096x64x1, .i32⟩
  | 98 => ⟨S1, .i32⟩
  | 99 => ⟨S_, .i32⟩
  | 100 => ⟨S4x4096x64x1, .i32⟩
  | 101 => ⟨S4x4096x64x1, .i1⟩
  | 102 => ⟨S1x1x1x1, .i32⟩
  | 103 => ⟨S4x4096x64x1, .i32⟩
  | 104 => ⟨S4x4096x64x1, .i1⟩
  | 105 => ⟨S4x4096x64x1, .i1⟩
  | 106 => ⟨S_, .i1⟩
  | 107 => ⟨S4x4096x64, .i1⟩
  | 108 => ⟨S4x4096x64, .f32⟩
  | 109 => ⟨S_, .f32⟩
  | 110 => ⟨S4x4096x64, .f32⟩
  | 111 => ⟨S4x4096x64, .f32⟩
  | 112 => ⟨S4x4096x64, .f32⟩
  | 113 => ⟨S4x4096x64, .f32⟩
  | 114 => ⟨S4x4096x64, .f32⟩
  | 115 => ⟨S4x4096x64, .f32⟩
  | 116 => ⟨S4x4096x64, .f32⟩
  | 117 => ⟨S_, .i32⟩
  | 118 => ⟨S4x4096x64, .i32⟩
  | 119 => ⟨S4x4096x64, .i32⟩
  | 120 => ⟨S_, .i32⟩
  | 121 => ⟨S4x4096x64, .i32⟩
  | 122 => ⟨S4x4096x64, .i32⟩
  | 123 => ⟨S_, .i32⟩
  | 124 => ⟨S4x4096x64, .i32⟩
  | 125 => ⟨S4x4096x64, .i1⟩
  | 126 => ⟨S_, .i32⟩
  | 127 => ⟨S4x4096x64, .i32⟩
  | _ => ⟨S4x128x64x64, .f32⟩

abbrev hbmTy0_2 (i : Nat) : BufTy := match i % 128 with
  | 0 => ⟨S4x4096x64, .i1⟩
  | 1 => ⟨S4x4096x64, .i1⟩
  | 2 => ⟨S_, .i32⟩
  | 3 => ⟨S4x4096x64, .i32⟩
  | 4 => ⟨S4x4096x64, .i1⟩
  | 5 => ⟨S4x4096x64, .i1⟩
  | 6 => ⟨S_, .i32⟩
  | 7 => ⟨S4x4096x64, .i32⟩
  | 8 => ⟨S4x4096x64, .i1⟩
  | 9 => ⟨S4x4096x64, .i1⟩
  | 10 => ⟨S4x4096x64, .f32⟩
  | 11 => ⟨S_, .i32⟩
  | 12 => ⟨S_, .i32⟩
  | 13 => ⟨S_, .i32⟩
  | 14 => ⟨S4x4096x64, .i32⟩
  | 15 => ⟨S4x4096x64, .i32⟩
  | 16 => ⟨S_, .i32⟩
  | 17 => ⟨S4x4096x64, .i32⟩
  | 18 => ⟨S4x4096x64, .i32⟩
  | 19 => ⟨S_, .i32⟩
  | 20 => ⟨S4x4096x64, .i32⟩
  | 21 => ⟨S4x4096x64, .i32⟩
  | 22 => ⟨S_, .i32⟩
  | 23 => ⟨S_, .i32⟩
  | 24 => ⟨S_, .i32⟩
  | 25 => ⟨S4x4096x64, .i32⟩
  | 26 => ⟨S4x4096x64, .i32⟩
  | 27 => ⟨S_, .i32⟩
  | 28 => ⟨S4x4096x64, .i32⟩
  | 29 => ⟨S4x4096x64, .i32⟩
  | 30 => ⟨S4x4096x64, .i32⟩
  | 31 => ⟨S_, .i32⟩
  | 32 => ⟨S4x4096x64, .i32⟩
  | 33 => ⟨S4x4096x64, .i1⟩
  | 34 => ⟨S_, .i32⟩
  | 35 => ⟨S4x4096x64, .i32⟩
  | 36 => ⟨S4x4096x64, .i32⟩
  | 37 => ⟨S4x4096x64, .i32⟩
  | 38 => ⟨S4x4096x64x1, .i32⟩
  | 39 => ⟨S1, .i32⟩
  | 40 => ⟨S_, .i32⟩
  | 41 => ⟨S4x4096x64x1, .i32⟩
  | 42 => ⟨S4x4096x64x1, .i1⟩
  | 43 => ⟨S1x1x1x1, .i32⟩
  | 44 => ⟨S4x4096x64x1, .i32⟩
  | 45 => ⟨S4x4096x64x1, .i1⟩
  | 46 => ⟨S4x4096x64x1, .i1⟩
  | 47 => ⟨S_, .i1⟩
  | 48 => ⟨S4x4096x64, .i1⟩
  | 49 => ⟨S4x4096x64, .f32⟩
  | 50 => ⟨S_, .f32⟩
  | 51 => ⟨S4x4096x64, .f32⟩
  | 52 => ⟨S4x4096x64, .f32⟩
  | 53 => ⟨S4x4096x64, .f32⟩
  | 54 => ⟨S4x4096x64, .f32⟩
  | 55 => ⟨S4x4096x64, .f32⟩
  | 56 => ⟨S4x4096x64, .f32⟩
  | 57 => ⟨S4x4096x64, .f32⟩
  | 58 => ⟨S_, .f32⟩
  | 59 => ⟨S4x4096x64, .f32⟩
  | 60 => ⟨S4x4096x64, .i1⟩
  | 61 => ⟨S_, .f32⟩
  | 62 => ⟨S_, .f32⟩
  | 63 => ⟨S4x4096x64, .f32⟩
  | 64 => ⟨S4x4096x64, .f32⟩
  | 65 => ⟨S4x4096x64, .f32⟩
  | 66 => ⟨S4x4096x64, .f32⟩
  | 67 => ⟨S4x4096x64, .f32⟩
  | 68 => ⟨S4x64x64x64, .f32⟩
  | 69 => ⟨S4x64x64x64, .f32⟩
  | 70 => ⟨S4x64x64x64, .f32⟩
  | 71 => ⟨S4x64x64x64, .f32⟩
  | 72 => ⟨S4x64x64x64, .f32⟩
  | 73 => ⟨S4x64x64x64, .f32⟩
  | _ => ⟨S4x128x64x64, .f32⟩

abbrev hbmTy (i : Nat) : BufTy := match i / 128 with
  | 0 => hbmTy0_0 i
  | 1 => hbmTy0_1 i
  | 2 => hbmTy0_2 i
  | _ => ⟨S4x128x64x64, .f32⟩

abbrev bufTy : (tb : Table) → Fin (tcTables nBuf tb) → BufTy
  | .hbm, ⟨i, _⟩ => hbmTy i
  | _, _ => ⟨S4x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_c : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_c_6 : Ref sig .tc := ⟨.hbm, 41, rfl⟩
abbrev main_v29 : Ref sig .tc := ⟨.hbm, 42, rfl⟩
abbrev main_v30 : Ref sig .tc := ⟨.hbm, 43, rfl⟩
abbrev main_c_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_10 : Ref sig .tc := ⟨.hbm, 57, rfl⟩
abbrev main_c_11 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v41 : Ref sig .tc := ⟨.hbm, 64, rfl⟩
abbrev main_c_12 : Ref sig .tc := ⟨.hbm, 65, rfl⟩
abbrev main_v42 : Ref sig .tc := ⟨.hbm, 66, rfl⟩
abbrev main_v43 : Ref sig .tc := ⟨.hbm, 67, rfl⟩
abbrev main_c_13 : Ref sig .tc := ⟨.hbm, 68, rfl⟩
abbrev main_c_14 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_v44 : Ref sig .tc := ⟨.hbm, 75, rfl⟩
abbrev main_v45 : Ref sig .tc := ⟨.hbm, 76, rfl⟩
abbrev main_call2_c : Ref sig .tc := ⟨.hbm, 77, rfl⟩
abbrev main_call2_v0 : Ref sig .tc := ⟨.hbm, 78, rfl⟩
abbrev main_call2_v1 : Ref sig .tc := ⟨.hbm, 79, rfl⟩
abbrev main_call2_c_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_c_1 : Ref sig .tc := ⟨.hbm, 85, rfl⟩
abbrev main_call2_c_2 : Ref sig .tc := ⟨.hbm, 86, rfl⟩
abbrev main_call2_v6 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_c_3 : Ref sig .tc := ⟨.hbm, 93, rfl⟩
abbrev main_call2_v12 : Ref sig .tc := ⟨.hbm, 94, rfl⟩
abbrev main_call2_v13 : Ref sig .tc := ⟨.hbm, 95, rfl⟩
abbrev main_call2_cst : Ref sig .tc := ⟨.hbm, 96, rfl⟩
abbrev main_call2_v14 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_c_15 : Ref sig .tc := ⟨.hbm, 104, rfl⟩
abbrev main_v52 : Ref sig .tc := ⟨.hbm, 105, rfl⟩
abbrev main_v53 : Ref sig .tc := ⟨.hbm, 106, rfl⟩
abbrev main_c_16 : Ref sig .tc := ⟨.hbm, 107, rfl⟩
abbrev main_v54 : Ref sig .tc := ⟨.hbm, 108, rfl⟩
abbrev main_v55 : Ref sig .tc := ⟨.hbm, 109, rfl⟩
abbrev main_c_17 : Ref sig .tc := ⟨.hbm, 110, rfl⟩
abbrev main_v56 : Ref sig .tc := ⟨.hbm, 111, rfl⟩
abbrev main_v57 : Ref sig .tc := ⟨.hbm, 112, rfl⟩
abbrev main_c_18 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_c_19 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_c_20 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_c_21 : Ref sig .tc := ⟨.hbm, 126, rfl⟩
abbrev main_c_22 : Ref sig .tc := ⟨.hbm, 127, rfl⟩
abbrev main_call3_v0 : Ref sig .tc := ⟨.hbm, 128, rfl⟩
abbrev main_call3_v1 : Ref sig .tc := ⟨.hbm, 129, rfl⟩
abbrev main_call3_v2 : Ref sig .tc := ⟨.hbm, 130, rfl⟩
abbrev main_call3_v3 : Ref sig .tc := ⟨.hbm, 131, rfl⟩
abbrev main_call3_v4 : Ref sig .tc := ⟨.hbm, 132, rfl⟩
abbrev main_v68 : Ref sig .tc := ⟨.hbm, 133, rfl⟩
abbrev main_c_23 : Ref sig .tc := ⟨.hbm, 134, rfl⟩
abbrev main_v69 : Ref sig .tc := ⟨.hbm, 135, rfl⟩
abbrev main_v70 : Ref sig .tc := ⟨.hbm, 136, rfl⟩
abbrev main_c_24 : Ref sig .tc := ⟨.hbm, 137, rfl⟩
abbrev main_c_25 : Ref sig .tc := ⟨.hbm, 138, rfl⟩
abbrev main_call4_v0 : Ref sig .tc := ⟨.hbm, 139, rfl⟩
abbrev main_call4_v1 : Ref sig .tc := ⟨.hbm, 140, rfl⟩
abbrev main_call4_v2 : Ref sig .tc := ⟨.hbm, 141, rfl⟩
abbrev main_call4_v3 : Ref sig .tc := ⟨.hbm, 142, rfl⟩
abbrev main_call4_v4 : Ref sig .tc := ⟨.hbm, 143, rfl⟩
abbrev main_v71 : Ref sig .tc := ⟨.hbm, 144, rfl⟩
abbrev main_v72 : Ref sig .tc := ⟨.hbm, 145, rfl⟩
abbrev main_call5_c : Ref sig .tc := ⟨.hbm, 146, rfl⟩
abbrev main_call5_v0 : Ref sig .tc := ⟨.hbm, 147, rfl⟩
abbrev main_call5_v1 : Ref sig .tc := ⟨.hbm, 148, rfl⟩
abbrev main_call5_c_0 : Ref sig .tc := ⟨.hbm, 149, rfl⟩
abbrev main_call5_v2 : Ref sig .tc := ⟨.hbm, 150, rfl⟩
abbrev main_call5_v3 : Ref sig .tc := ⟨.hbm, 151, rfl⟩
abbrev main_call5_v4 : Ref sig .tc := ⟨.hbm, 152, rfl⟩
abbrev main_call5_v5 : Ref sig .tc := ⟨.hbm, 153, rfl⟩
abbrev main_call5_c_1 : Ref sig .tc := ⟨.hbm, 154, rfl⟩
abbrev main_call5_c_2 : Ref sig .tc := ⟨.hbm, 155, rfl⟩
abbrev main_call5_v6 : Ref sig .tc := ⟨.hbm, 156, rfl⟩
abbrev main_call5_v7 : Ref sig .tc := ⟨.hbm, 157, rfl⟩
abbrev main_call5_v8 : Ref sig .tc := ⟨.hbm, 158, rfl⟩
abbrev main_call5_v9 : Ref sig .tc := ⟨.hbm, 159, rfl⟩
abbrev main_call5_v10 : Ref sig .tc := ⟨.hbm, 160, rfl⟩
abbrev main_call5_v11 : Ref sig .tc := ⟨.hbm, 161, rfl⟩
abbrev main_call5_c_3 : Ref sig .tc := ⟨.hbm, 162, rfl⟩
abbrev main_call5_v12 : Ref sig .tc := ⟨.hbm, 163, rfl⟩
abbrev main_call5_v13 : Ref sig .tc := ⟨.hbm, 164, rfl⟩
abbrev main_call5_cst : Ref sig .tc := ⟨.hbm, 165, rfl⟩
abbrev main_call5_v14 : Ref sig .tc := ⟨.hbm, 166, rfl⟩
abbrev main_v73 : Ref sig .tc := ⟨.hbm, 167, rfl⟩
abbrev main_v74 : Ref sig .tc := ⟨.hbm, 168, rfl⟩
abbrev main_v75 : Ref sig .tc := ⟨.hbm, 169, rfl⟩
abbrev main_v76 : Ref sig .tc := ⟨.hbm, 170, rfl⟩
abbrev main_v77 : Ref sig .tc := ⟨.hbm, 171, rfl⟩
abbrev main_v78 : Ref sig .tc := ⟨.hbm, 172, rfl⟩
abbrev main_cst_26 : Ref sig .tc := ⟨.hbm, 173, rfl⟩
abbrev main_v79 : Ref sig .tc := ⟨.hbm, 174, rfl⟩
abbrev main_v80 : Ref sig .tc := ⟨.hbm, 175, rfl⟩
abbrev main_c_27 : Ref sig .tc := ⟨.hbm, 176, rfl⟩
abbrev main_v81 : Ref sig .tc := ⟨.hbm, 177, rfl⟩
abbrev main_v82 : Ref sig .tc := ⟨.hbm, 178, rfl⟩
abbrev main_c_28 : Ref sig .tc := ⟨.hbm, 179, rfl⟩
abbrev main_v83 : Ref sig .tc := ⟨.hbm, 180, rfl⟩
abbrev main_v84 : Ref sig .tc := ⟨.hbm, 181, rfl⟩
abbrev main_c_29 : Ref sig .tc := ⟨.hbm, 182, rfl⟩
abbrev main_v85 : Ref sig .tc := ⟨.hbm, 183, rfl⟩
abbrev main_v86 : Ref sig .tc := ⟨.hbm, 184, rfl⟩
abbrev main_c_30 : Ref sig .tc := ⟨.hbm, 185, rfl⟩
abbrev main_v87 : Ref sig .tc := ⟨.hbm, 186, rfl⟩
abbrev main_v88 : Ref sig .tc := ⟨.hbm, 187, rfl⟩
abbrev main_v89 : Ref sig .tc := ⟨.hbm, 188, rfl⟩
abbrev main_c_31 : Ref sig .tc := ⟨.hbm, 189, rfl⟩
abbrev main_v90 : Ref sig .tc := ⟨.hbm, 190, rfl⟩
abbrev main_v91 : Ref sig .tc := ⟨.hbm, 191, rfl⟩
abbrev main_v92 : Ref sig .tc := ⟨.hbm, 192, rfl⟩
abbrev main_c_32 : Ref sig .tc := ⟨.hbm, 193, rfl⟩
abbrev main_v93 : Ref sig .tc := ⟨.hbm, 194, rfl⟩
abbrev main_v94 : Ref sig .tc := ⟨.hbm, 195, rfl⟩
abbrev main_v95 : Ref sig .tc := ⟨.hbm, 196, rfl⟩
abbrev main_v96 : Ref sig .tc := ⟨.hbm, 197, rfl⟩
abbrev main_c_33 : Ref sig .tc := ⟨.hbm, 198, rfl⟩
abbrev main_c_34 : Ref sig .tc := ⟨.hbm, 199, rfl⟩
abbrev main_call6_v0 : Ref sig .tc := ⟨.hbm, 200, rfl⟩
abbrev main_call6_v1 : Ref sig .tc := ⟨.hbm, 201, rfl⟩
abbrev main_call6_v2 : Ref sig .tc := ⟨.hbm, 202, rfl⟩
abbrev main_call6_v3 : Ref sig .tc := ⟨.hbm, 203, rfl⟩
abbrev main_call6_v4 : Ref sig .tc := ⟨.hbm, 204, rfl⟩
abbrev main_v97 : Ref sig .tc := ⟨.hbm, 205, rfl⟩
abbrev main_c_35 : Ref sig .tc := ⟨.hbm, 206, rfl⟩
abbrev main_v98 : Ref sig .tc := ⟨.hbm, 207, rfl⟩
abbrev main_v99 : Ref sig .tc := ⟨.hbm, 208, rfl⟩
abbrev main_c_36 : Ref sig .tc := ⟨.hbm, 209, rfl⟩
abbrev main_c_37 : Ref sig .tc := ⟨.hbm, 210, rfl⟩
abbrev main_call7_v0 : Ref sig .tc := ⟨.hbm, 211, rfl⟩
abbrev main_call7_v1 : Ref sig .tc := ⟨.hbm, 212, rfl⟩
abbrev main_call7_v2 : Ref sig .tc := ⟨.hbm, 213, rfl⟩
abbrev main_call7_v3 : Ref sig .tc := ⟨.hbm, 214, rfl⟩
abbrev main_call7_v4 : Ref sig .tc := ⟨.hbm, 215, rfl⟩
abbrev main_v100 : Ref sig .tc := ⟨.hbm, 216, rfl⟩
abbrev main_v101 : Ref sig .tc := ⟨.hbm, 217, rfl⟩
abbrev main_call8_c : Ref sig .tc := ⟨.hbm, 218, rfl⟩
abbrev main_call8_v0 : Ref sig .tc := ⟨.hbm, 219, rfl⟩
abbrev main_call8_v1 : Ref sig .tc := ⟨.hbm, 220, rfl⟩
abbrev main_call8_c_0 : Ref sig .tc := ⟨.hbm, 221, rfl⟩
abbrev main_call8_v2 : Ref sig .tc := ⟨.hbm, 222, rfl⟩
abbrev main_call8_v3 : Ref sig .tc := ⟨.hbm, 223, rfl⟩
abbrev main_call8_v4 : Ref sig .tc := ⟨.hbm, 224, rfl⟩
abbrev main_call8_v5 : Ref sig .tc := ⟨.hbm, 225, rfl⟩
abbrev main_call8_c_1 : Ref sig .tc := ⟨.hbm, 226, rfl⟩
abbrev main_call8_c_2 : Ref sig .tc := ⟨.hbm, 227, rfl⟩
abbrev main_call8_v6 : Ref sig .tc := ⟨.hbm, 228, rfl⟩
abbrev main_call8_v7 : Ref sig .tc := ⟨.hbm, 229, rfl⟩
abbrev main_call8_v8 : Ref sig .tc := ⟨.hbm, 230, rfl⟩
abbrev main_call8_v9 : Ref sig .tc := ⟨.hbm, 231, rfl⟩
abbrev main_call8_v10 : Ref sig .tc := ⟨.hbm, 232, rfl⟩
abbrev main_call8_v11 : Ref sig .tc := ⟨.hbm, 233, rfl⟩
abbrev main_call8_c_3 : Ref sig .tc := ⟨.hbm, 234, rfl⟩
abbrev main_call8_v12 : Ref sig .tc := ⟨.hbm, 235, rfl⟩
abbrev main_call8_v13 : Ref sig .tc := ⟨.hbm, 236, rfl⟩
abbrev main_call8_cst : Ref sig .tc := ⟨.hbm, 237, rfl⟩
abbrev main_call8_v14 : Ref sig .tc := ⟨.hbm, 238, rfl⟩
abbrev main_v102 : Ref sig .tc := ⟨.hbm, 239, rfl⟩
abbrev main_v103 : Ref sig .tc := ⟨.hbm, 240, rfl⟩
abbrev main_v104 : Ref sig .tc := ⟨.hbm, 241, rfl⟩
abbrev main_v105 : Ref sig .tc := ⟨.hbm, 242, rfl⟩
abbrev main_v106 : Ref sig .tc := ⟨.hbm, 243, rfl⟩
abbrev main_v107 : Ref sig .tc := ⟨.hbm, 244, rfl⟩
abbrev main_c_38 : Ref sig .tc := ⟨.hbm, 245, rfl⟩
abbrev main_v108 : Ref sig .tc := ⟨.hbm, 246, rfl⟩
abbrev main_v109 : Ref sig .tc := ⟨.hbm, 247, rfl⟩
abbrev main_c_39 : Ref sig .tc := ⟨.hbm, 248, rfl⟩
abbrev main_v110 : Ref sig .tc := ⟨.hbm, 249, rfl⟩
abbrev main_v111 : Ref sig .tc := ⟨.hbm, 250, rfl⟩
abbrev main_c_40 : Ref sig .tc := ⟨.hbm, 251, rfl⟩
abbrev main_v112 : Ref sig .tc := ⟨.hbm, 252, rfl⟩
abbrev main_v113 : Ref sig .tc := ⟨.hbm, 253, rfl⟩
abbrev main_c_41 : Ref sig .tc := ⟨.hbm, 254, rfl⟩
abbrev main_v114 : Ref sig .tc := ⟨.hbm, 255, rfl⟩
abbrev main_v115 : Ref sig .tc := ⟨.hbm, 256, rfl⟩
abbrev main_v116 : Ref sig .tc := ⟨.hbm, 257, rfl⟩
abbrev main_c_42 : Ref sig .tc := ⟨.hbm, 258, rfl⟩
abbrev main_v117 : Ref sig .tc := ⟨.hbm, 259, rfl⟩
abbrev main_v118 : Ref sig .tc := ⟨.hbm, 260, rfl⟩
abbrev main_v119 : Ref sig .tc := ⟨.hbm, 261, rfl⟩
abbrev main_c_43 : Ref sig .tc := ⟨.hbm, 262, rfl⟩
abbrev main_v120 : Ref sig .tc := ⟨.hbm, 263, rfl⟩
abbrev main_v121 : Ref sig .tc := ⟨.hbm, 264, rfl⟩
abbrev main_v122 : Ref sig .tc := ⟨.hbm, 265, rfl⟩
abbrev main_v123 : Ref sig .tc := ⟨.hbm, 266, rfl⟩
abbrev main_c_44 : Ref sig .tc := ⟨.hbm, 267, rfl⟩
abbrev main_c_45 : Ref sig .tc := ⟨.hbm, 268, rfl⟩
abbrev main_call9_v0 : Ref sig .tc := ⟨.hbm, 269, rfl⟩
abbrev main_call9_v1 : Ref sig .tc := ⟨.hbm, 270, rfl⟩
abbrev main_call9_v2 : Ref sig .tc := ⟨.hbm, 271, rfl⟩
abbrev main_call9_v3 : Ref sig .tc := ⟨.hbm, 272, rfl⟩
abbrev main_call9_v4 : Ref sig .tc := ⟨.hbm, 273, rfl⟩
abbrev main_v124 : Ref sig .tc := ⟨.hbm, 274, rfl⟩
abbrev main_c_46 : Ref sig .tc := ⟨.hbm, 275, rfl⟩
abbrev main_v125 : Ref sig .tc := ⟨.hbm, 276, rfl⟩
abbrev main_v126 : Ref sig .tc := ⟨.hbm, 277, rfl⟩
abbrev main_c_47 : Ref sig .tc := ⟨.hbm, 278, rfl⟩
abbrev main_c_48 : Ref sig .tc := ⟨.hbm, 279, rfl⟩
abbrev main_call10_v0 : Ref sig .tc := ⟨.hbm, 280, rfl⟩
abbrev main_call10_v1 : Ref sig .tc := ⟨.hbm, 281, rfl⟩
abbrev main_call10_v2 : Ref sig .tc := ⟨.hbm, 282, rfl⟩
abbrev main_call10_v3 : Ref sig .tc := ⟨.hbm, 283, rfl⟩
abbrev main_call10_v4 : Ref sig .tc := ⟨.hbm, 284, rfl⟩
abbrev main_v127 : Ref sig .tc := ⟨.hbm, 285, rfl⟩
abbrev main_v128 : Ref sig .tc := ⟨.hbm, 286, rfl⟩
abbrev main_call11_c : Ref sig .tc := ⟨.hbm, 287, rfl⟩
abbrev main_call11_v0 : Ref sig .tc := ⟨.hbm, 288, rfl⟩
abbrev main_call11_v1 : Ref sig .tc := ⟨.hbm, 289, rfl⟩
abbrev main_call11_c_0 : Ref sig .tc := ⟨.hbm, 290, rfl⟩
abbrev main_call11_v2 : Ref sig .tc := ⟨.hbm, 291, rfl⟩
abbrev main_call11_v3 : Ref sig .tc := ⟨.hbm, 292, rfl⟩
abbrev main_call11_v4 : Ref sig .tc := ⟨.hbm, 293, rfl⟩
abbrev main_call11_v5 : Ref sig .tc := ⟨.hbm, 294, rfl⟩
abbrev main_call11_c_1 : Ref sig .tc := ⟨.hbm, 295, rfl⟩
abbrev main_call11_c_2 : Ref sig .tc := ⟨.hbm, 296, rfl⟩
abbrev main_call11_v6 : Ref sig .tc := ⟨.hbm, 297, rfl⟩
abbrev main_call11_v7 : Ref sig .tc := ⟨.hbm, 298, rfl⟩
abbrev main_call11_v8 : Ref sig .tc := ⟨.hbm, 299, rfl⟩
abbrev main_call11_v9 : Ref sig .tc := ⟨.hbm, 300, rfl⟩
abbrev main_call11_v10 : Ref sig .tc := ⟨.hbm, 301, rfl⟩
abbrev main_call11_v11 : Ref sig .tc := ⟨.hbm, 302, rfl⟩
abbrev main_call11_c_3 : Ref sig .tc := ⟨.hbm, 303, rfl⟩
abbrev main_call11_v12 : Ref sig .tc := ⟨.hbm, 304, rfl⟩
abbrev main_call11_v13 : Ref sig .tc := ⟨.hbm, 305, rfl⟩
abbrev main_call11_cst : Ref sig .tc := ⟨.hbm, 306, rfl⟩
abbrev main_call11_v14 : Ref sig .tc := ⟨.hbm, 307, rfl⟩
abbrev main_v129 : Ref sig .tc := ⟨.hbm, 308, rfl⟩
abbrev main_v130 : Ref sig .tc := ⟨.hbm, 309, rfl⟩
abbrev main_v131 : Ref sig .tc := ⟨.hbm, 310, rfl⟩
abbrev main_v132 : Ref sig .tc := ⟨.hbm, 311, rfl⟩
abbrev main_v133 : Ref sig .tc := ⟨.hbm, 312, rfl⟩
abbrev main_v134 : Ref sig .tc := ⟨.hbm, 313, rfl⟩
abbrev main_cst_49 : Ref sig .tc := ⟨.hbm, 314, rfl⟩
abbrev main_v135 : Ref sig .tc := ⟨.hbm, 315, rfl⟩
abbrev main_v136 : Ref sig .tc := ⟨.hbm, 316, rfl⟩
abbrev main_cst_50 : Ref sig .tc := ⟨.hbm, 317, rfl⟩
abbrev main_cst_51 : Ref sig .tc := ⟨.hbm, 318, rfl⟩
abbrev main_call12_v0 : Ref sig .tc := ⟨.hbm, 319, rfl⟩
abbrev main_call12_v1 : Ref sig .tc := ⟨.hbm, 320, rfl⟩
abbrev main_v137 : Ref sig .tc := ⟨.hbm, 321, rfl⟩
abbrev main_v138 : Ref sig .tc := ⟨.hbm, 322, rfl⟩
abbrev main_v139 : Ref sig .tc := ⟨.hbm, 323, rfl⟩
abbrev main_v140 : Ref sig .tc := ⟨.hbm, 324, rfl⟩
abbrev main_v141 : Ref sig .tc := ⟨.hbm, 325, rfl⟩
abbrev main_v142 : Ref sig .tc := ⟨.hbm, 326, rfl⟩
abbrev main_v143 : Ref sig .tc := ⟨.hbm, 327, rfl⟩
abbrev main_v144 : Ref sig .tc := ⟨.hbm, 328, rfl⟩
abbrev main_v145 : Ref sig .tc := ⟨.hbm, 329, rfl⟩

abbrev nD : Nat := 1
abbrev τ : Topo := Topo.v7x

variable {F : FTy → Type} [FloatOps F]

class Facts₀ : Prop where
  shapeCasts_S4x128x64x64_S4x128x4096 : S4x128x64x64.ShapeCasts S4x128x4096
  transposes_S4x64x2x64x64_S4x64x64x2x64_0_3_4_2_1 : S4x64x2x64x64.Transposes [0, 3, 4, 2, 1] S4x64x64x2x64
  shapeCasts_S4x64x64x2x64_S4x4096x2x64 : S4x64x64x2x64.ShapeCasts S4x4096x2x64
  slices_S4x4096x2x64_S4x4096x1x64_0_0_0_0 : S4x4096x2x64.Slices ![0, 0, 0, 0] S4x4096x1x64
  shapeCasts_S4x4096x1x64_S4x4096x64 : S4x4096x1x64.ShapeCasts S4x4096x64
  slices_S4x4096x2x64_S4x4096x1x64_0_0_1_0 : S4x4096x2x64.Slices ![0, 0, 1, 0] S4x4096x1x64
  bcast_S_S4x4096x64 : S_.BroadcastsInDim S4x4096x64 (![] : Fin 0 → Fin S4x4096x64.rank)
  shapeCasts_S4x4096x64_S4x4096x64x1 : S4x4096x64.ShapeCasts S4x4096x64x1
  bcast_S_S4x4096x64x1 : S_.BroadcastsInDim S4x4096x64x1 (![] : Fin 0 → Fin S4x4096x64x1.rank)
  bcast_S1_S1x1x1x1_3 : S1.BroadcastsInDim S1x1x1x1 (![3] : Fin 1 → Fin S1x1x1x1.rank)
  bcast_S1x1x1x1_S4x4096x64x1_0_1_2_3 : S1x1x1x1.BroadcastsInDim S4x4096x64x1 (![0, 1, 2, 3] : Fin 4 → Fin S4x4096x64x1.rank)
  reducesTo_S4x4096x64x1_S4x4096x64_d3 : S4x4096x64x1.ReducesTo [3] S4x4096x64
  h_S_ : 0 < S_.numel
  shapeCasts_S4x4096x64_S4x64x64x64 : S4x4096x64.ShapeCasts S4x64x64x64
  transposes_S4x64x64x64_S4x64x64x64_0_3_1_2 : S4x64x64x64.Transposes [0, 3, 1, 2] S4x64x64x64
  dot_S4x128x4096_S4x128x4096_S4x4096x4096_1_1_2_2_0_0_wf : DotDims.WF S4x128x4096 S4x128x4096 S4x4096x4096 [1] [1] [2] [2] [0] [0]
  gather_S4x4096x4096_S4x4096x64x1_S4x4096x64_n_2_01_01_2_3_111_wf : GatherDims.WF S4x4096x4096 S4x4096x64x1 S4x4096x64 [] [2] [0, 1] [2] [0, 1] 3 ![1, 1, 1]

variable [Facts₀]

def dot_S4x128x4096_S4x128x4096_S4x4096x4096_1_1_2_2_0_0 : DotDims S4x128x4096 S4x128x4096 S4x4096x4096 where
  lhsContracting := [1]
  rhsContracting := [1]
  lhsNonContracting := [2]
  rhsNonContracting := [2]
  lhsBatch := [0]
  rhsBatch := [0]
  wf := dot_S4x128x4096_S4x128x4096_S4x4096x4096_1_1_2_2_0_0_wf
def gather_S4x4096x4096_S4x4096x64x1_S4x4096x64_n_2_01_01_2_3_111 : GatherDims S4x4096x4096 S4x4096x64x1 S4x4096x64 where
  offsetDims := []
  collapsedSliceDims := [2]
  operandBatchingDims := [0, 1]
  startIndicesBatchingDims := [0, 1]
  startIndexMap := [2]
  indexVectorDim := 3
  sliceSizes := ![1, 1, 1]
  wf := gather_S4x4096x4096_S4x4096x64x1_S4x4096x64_n_2_01_01_2_3_111_wf

class Facts : Prop extends Facts₀ where

variable [Facts]
-- ==== Proof.KernelWindow1.lean ====
/-
  The second window of `Kernel`'s host program (its statements 61 to 120) cut in three.

  The window is sixty host lines in a row: twenty-seven plain lines, a call of the clipping function, five plain lines, a
  second call of it, and twenty-six plain lines. As a program it is the first twenty-seven lines, then the two calls with the
  five lines between them, then the last twenty-six, run one after the other — sequencing is associative, so cutting the
  window anywhere changes nothing. Each of the three parts is restated here with the window's own lines, and the window is
  shown equal to their sequence; from that, the window is the chain of ANY five stretches of operations that the three
  parts are the chains of.
-/
import proofs.«152563_j67370857005292_2_alg».proof.Proof.Gen.Kernel
import Idealize.ShloMosaic.Lib.Pipeline.Kit
import Idealize.ShloMosaic.Lib.Pipeline.Regions

set_option maxRecDepth 1628

noncomputable section

namespace Cert.Kernel.Win1

open Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

set_option maxHeartbeats 40000000 in
/-- The window's first twenty-seven lines. -/
noncomputable def W1a : Dev nD → Prog (TpuEff nD τ sig (Elt F) (Pipeline.Sig Λ₀ (Fin 1) fun p => (pcfgs (F := F) p).Adm) .tc) PUnit := fun _ => do
  hlo rfl (StableHlo.binary main_v44 main_v18 main_v45 (subf : (⟨S4x4096x64, .f32⟩ : BufTy).Contents (Elt F) → (⟨S4x4096x64, .f32⟩ : BufTy).Contents (Elt F) → (⟨S4x4096x64, .f32⟩ : BufTy).Contents (Elt F))) (fun _ => .ret ⟨⟩)
  hlo rfl (StableHlo.binary main_v43 main_v45 main_v46 (mulf : (⟨S4x4096x64, .f32⟩ : BufTy).Contents (Elt F) → (⟨S4x4096x64, .f32⟩ : BufTy).Contents (Elt F) → (⟨S4x4096x64, .f32⟩ : BufTy).Contents (Elt F))) (fun _ => .ret ⟨⟩)
  hlo rfl (StableHlo.binary main_v46 main_v36 main_v47 (mulf : (⟨S4x4096x64, .f32⟩ : BufTy).Contents (Elt F) → (⟨S4x4096x64, .f32⟩ : BufTy).Contents (Elt F) → (⟨S4x4096x64, .f32⟩ : BufTy).Contents (Elt F))) (fun _ => .ret ⟨⟩)
  hlo rfl (StableHlo.nullary main_c_13 (constantI S_ 32 0#32)) (fun _ => .ret ⟨⟩)
  hlo rfl (StableHlo.unary main_c_13 main_v48 (broadcastInDim S4x4096x64 ![] bcast_S_S4x4096x64 : (⟨S_, .i32⟩ : BufTy).Contents (Elt F) → (⟨S4x4096x64, .i32⟩ : BufTy).Contents (Elt F))) (fun _ => .ret ⟨⟩)
  hlo rfl (StableHlo.binary main_v19 main_v48 main_v49 (addi : (⟨S4x4096x64, .i32⟩ : BufTy).Contents (Elt F) → (⟨S4x4096x64, .i32⟩ : BufTy).Contents (Elt F) → (⟨S4x4096x64, .i32⟩ : BufTy).Contents (Elt F))) (fun _ => .ret ⟨⟩)
  hlo rfl (StableHlo.nullary main_c_14 (constantI S_ 32 1#32)) (fun _ => .ret ⟨⟩)
  hlo rfl (StableHlo.unary main_c_14 main_v50 (broadcastInDim S4x4096x64 ![] bcast_S_S4x4096x64 : (⟨S_, .i32⟩ : BufTy).Contents (Elt F) → (⟨S4x4096x64, .i32⟩ : BufTy).Contents (Elt F))) (fun _ => .ret ⟨⟩)
  hlo rfl (StableHlo.binary main_v20 main_v50 main_v51 (addi : (⟨S4x4096x64, .i32⟩ : BufTy).Contents (Elt F) → (⟨S4x4096x64, .i32⟩ : BufTy).Contents (Elt F) → (⟨S4x4096x64, .i32⟩ : BufTy).Contents (Elt F))) (fun _ => .ret ⟨⟩)
  hlo rfl (StableHlo.nullary main_c_15 (constantI S_ 32 0#32)) (fun _ => .ret ⟨⟩)
  hlo rfl (StableHlo.unary main_c_15 main_v52 (broadcastInDim S4x4096x64 ![] bcast_S_S4x4096x64 : (⟨S_, .i32⟩ : BufTy).Contents (Elt F) → (⟨S4x4096x64, .i32⟩ : BufTy).Contents (Elt F))) (fun _ => .ret ⟨⟩)
  hlo rfl (StableHlo.binary main_v49 main_v52 main_v53 (cmpi .sge : (⟨S4x4096x64, .i32⟩ : BufTy).Contents (Elt F) → (⟨S4x4096x64, .i32⟩ : BufTy).Contents (Elt F) → (⟨S4x4096x64, .i1⟩ : BufTy).Contents (Elt F))) (fun _ => .ret ⟨⟩)
  hlo rfl (StableHlo.nullary main_c_16 (constantI S_ 32 64#32)) (fun _ => .ret ⟨⟩)
  hlo rfl (StableHlo.unary main_c_16 main_v54 (broadcastInDim S4x4096x64 ![] bcast_S_S4x4096x64 : (⟨S_, .i32⟩ : BufTy).Contents (Elt F) → (⟨S4x4096x64, .i32⟩ : BufTy).Contents (Elt F))) (fun _ => .ret ⟨⟩)
  hlo rfl (StableHlo.binary main_v49 main_v54 main_v55 (cmpi .slt : (⟨S4x4096x64, .i32⟩ : BufTy).Contents (Elt F) → (⟨S4x4096x64, .i32⟩ : BufTy).Contents (Elt F) → (⟨S4x4096x64, .i1⟩ : BufTy).Contents (Elt F))) (fun _ => .ret ⟨⟩)
  hlo rfl (StableHlo.binary main_v53 main_v55 main_v56 (andi : (⟨S4x4096x64, .i1⟩ : BufTy).Contents (Elt F) → (⟨S4x4096x64, .i1⟩ : BufTy).Contents (Elt F) → (⟨S4x4096x64, .i1⟩ : BufTy).Contents (Elt F))) (fun _ => .ret ⟨⟩)
  hlo rfl (StableHlo.nullary main_c_17 (constantI S_ 32 0#32)) (fun _ => .ret ⟨⟩)
  hlo rfl (StableHlo.unary main_c_17 main_v57 (broadcastInDim S4x4096x64 ![] bcast_S_S4x4096x64 : (⟨S_, .i32⟩ : BufTy).Contents (Elt F) → (⟨S4x4096x64, .i32⟩ : BufTy).Contents (Elt F))) (fun _ => .ret ⟨⟩)
  hlo rfl (StableHlo.binary main_v51 main_v57 main_v58 (cmpi .sge : (⟨S4x4096x64, .i32⟩ : BufTy).Contents (Elt F) → (⟨S4x4096x64, .i32⟩ : BufTy).Contents (Elt F) → (⟨S4x4096x64, .i1⟩ : BufTy).Contents (Elt F))) (fun _ => .ret ⟨⟩)
  hlo rfl (StableHlo.binary main_v56 main_v58 main_v59 (andi : (⟨S4x4096x64, .i1⟩ : BufTy).Contents (Elt F) → (⟨S4x4096x64, .i1⟩ : BufTy).Contents (Elt F) → (⟨S4x4096x64, .i1⟩ : BufTy).Contents (Elt F))) (fun _ => .ret ⟨⟩)
  hlo rfl (StableHlo.nullary main_c_18 (constantI S_ 32 64#32)) (fun _ => .ret ⟨⟩)
  hlo rfl (StableHlo.unary main_c_18 main_v60 (broadcastInDim S4x4096x64 ![] bcast_S_S4x4096x64 : (⟨S_, .i32⟩ : BufTy).Contents (Elt F) → (⟨S4x4096x64, .i32⟩ : BufTy).Contents (Elt F))) (fun _ => .ret ⟨⟩)
  hlo rfl (StableHlo.binary main_v51 main_v60 main_v61 (cmpi .slt : (⟨S4x4096x64, .i32⟩ : BufTy).Contents (Elt F) → (⟨S4x4096x64, .i32⟩ : BufTy).Contents (Elt F) → (⟨S4x4096x64, .i1⟩ : BufTy).Contents (Elt F))) (fun _ => .ret ⟨⟩)
  hlo rfl (StableHlo.binary main_v59 main_v61 main_v62 (andi : (⟨S4x4096x64, .i1⟩ : BufTy).Contents (Elt F) → (⟨S4x4096x64, .i1⟩ : BufTy).Contents (Elt F) → (⟨S4x4096x64, .i1⟩ : BufTy).Contents (Elt F))) (fun _ => .ret ⟨⟩)
  hlo rfl (StableHlo.unary main_v62 main_v63 (uitofp .f32 : (⟨S4x4096x64, .i1⟩ : BufTy).Contents (Elt F) → (⟨S4x4096x64, .f32⟩ : BufTy).Contents (Elt F))) (fun _ => .ret ⟨⟩)
  hlo rfl (StableHlo.nullary main_c_19 (constantI S_ 32 0#32)) (fun _ => .ret ⟨⟩)
  hlo rfl (StableHlo.nullary main_c_20 (constantI S_ 32 63#32)) (fun _ => .ret ⟨⟩)

set_option maxHeartbeats 40000000 in
/-- The two calls of the clipping function and the five lines between them. -/
noncomputable def W1b : Dev nD → Prog (TpuEff nD τ sig (Elt F) (Pipeline.Sig Λ₀ (Fin 1) fun p => (pcfgs (F := F) p).Adm) .tc) PUnit := fun _ => do
  fn_clip.body (.of main_v51) (.of main_c_19) (.of main_c_20) main_call2
  hlo rfl (StableHlo.nullary main_c_21 (constantI S_ 32 64#32)) (fun _ => .ret ⟨⟩)
  hlo rfl (StableHlo.unary main_c_21 main_v65 (broadcastInDim S4x4096x64 ![] bcast_S_S4x4096x64 : (⟨S_, .i32⟩ : BufTy).Contents (Elt F) → (⟨S4x4096x64, .i32⟩ : BufTy).Contents (Elt F))) (fun _ => .ret ⟨⟩)
  hlo rfl (StableHlo.binary main_v64 main_v65 main_v66 (muli : (⟨S4x4096x64, .i32⟩ : BufTy).Contents (Elt F) → (⟨S4x4096x64, .i32⟩ : BufTy).Contents (Elt F) → (⟨S4x4096x64, .i32⟩ : BufTy).Contents (Elt F))) (fun _ => .ret ⟨⟩)
  hlo rfl (StableHlo.nullary main_c_22 (constantI S_ 32 0#32)) (fun _ => .ret ⟨⟩)
  hlo rfl (StableHlo.nullary main_c_23 (constantI S_ 32 63#32)) (fun _ => .ret ⟨⟩)
  fn_clip.body (.of main_v49) (.of main_c_22) (.of main_c_23) main_call3

set_option maxHeartbeats 40000000 in
/-- The window's last twenty-six lines. -/
noncomputable def W1c : Dev nD → Prog (TpuEff nD τ sig (Elt F) (Pipeline.Sig Λ₀ (Fin 1) fun p => (pcfgs (F := F) p).Adm) .tc) PUnit := fun _ => do
  hlo rfl (StableHlo.binary main_v66 main_v67 main_v68 (addi : (⟨S4x4096x64, .i32⟩ : BufTy).Contents (Elt F) → (⟨S4x4096x64, .i32⟩ : BufTy).Contents (Elt F) → (⟨S4x4096x64, .i32⟩ : BufTy).Contents (Elt F))) (fun _ => .ret ⟨⟩)
  hlo rfl (StableHlo.nullary main_cst_24 (constant S_ .f32 0x3F800000#32)) (fun _ => .ret ⟨⟩)
  hlo rfl (StableHlo.unary main_cst_24 main_v69 (broadcastInDim S4x4096x64 ![] bcast_S_S4x4096x64 : (⟨S_, .f32⟩ : BufTy).Contents (Elt F) → (⟨S4x4096x64, .f32⟩ : BufTy).Contents (Elt F))) (fun _ => .ret ⟨⟩)
  hlo rfl (StableHlo.binary main_v69 main_v17 main_v70 (subf : (⟨S4x4096x64, .f32⟩ : BufTy).Contents (Elt F) → (⟨S4x4096x64, .f32⟩ : BufTy).Contents (Elt F) → (⟨S4x4096x64, .f32⟩ : BufTy).Contents (Elt F))) (fun _ => .ret ⟨⟩)
  hlo rfl (StableHlo.binary main_v70 main_v18 main_v71 (mulf : (⟨S4x4096x64, .f32⟩ : BufTy).Contents (Elt F) → (⟨S4x4096x64, .f32⟩ : BufTy).Contents (Elt F) → (⟨S4x4096x64, .f32⟩ : BufTy).Contents (Elt F))) (fun _ => .ret ⟨⟩)
  hlo rfl (StableHlo.binary main_v71 main_v63 main_v72 (mulf : (⟨S4x4096x64, .f32⟩ : BufTy).Contents (Elt F) → (⟨S4x4096x64, .f32⟩ : BufTy).Contents (Elt F) → (⟨S4x4096x64, .f32⟩ : BufTy).Contents (Elt F))) (fun _ => .ret ⟨⟩)
  hlo rfl (StableHlo.nullary main_c_25 (constantI S_ 32 1#32)) (fun _ => .ret ⟨⟩)
  hlo rfl (StableHlo.unary main_c_25 main_v73 (broadcastInDim S4x4096x64 ![] bcast_S_S4x4096x64 : (⟨S_, .i32⟩ : BufTy).Contents (Elt F) → (⟨S4x4096x64, .i32⟩ : BufTy).Contents (Elt F))) (fun _ => .ret ⟨⟩)
  hlo rfl (StableHlo.binary main_v19 main_v73 main_v74 (addi : (⟨S4x4096x64, .i32⟩ : BufTy).Contents (Elt F) → (⟨S4x4096x64, .i32⟩ : BufTy).Contents (Elt F) → (⟨S4x4096x64, .i32⟩ : BufTy).Contents (Elt F))) (fun _ => .ret ⟨⟩)
  hlo rfl (StableHlo.nullary main_c_26 (constantI S_ 32 0#32)) (fun _ => .ret ⟨⟩)
  hlo rfl (StableHlo.unary main_c_26 main_v75 (broadcastInDim S4x4096x64 ![] bcast_S_S4x4096x64 : (⟨S_, .i32⟩ : BufTy).Contents (Elt F) → (⟨S4x4096x64, .i32⟩ : BufTy).Contents (Elt F))) (fun _ => .ret ⟨⟩)
  hlo rfl (StableHlo.binary main_v20 main_v75 main_v76 (addi : (⟨S4x4096x64, .i32⟩ : BufTy).Contents (Elt F) → (⟨S4x4096x64, .i32⟩ : BufTy).Contents (Elt F) → (⟨S4x4096x64, .i32⟩ : BufTy).Contents (Elt F))) (fun _ => .ret ⟨⟩)
  hlo rfl (StableHlo.nullary main_c_27 (constantI S_ 32 0#32)) (fun _ => .ret ⟨⟩)
  hlo rfl (StableHlo.unary main_c_27 main_v77 (broadcastInDim S4x4096x64 ![] bcast_S_S4x4096x64 : (⟨S_, .i32⟩ : BufTy).Contents (Elt F) → (⟨S4x4096x64, .i32⟩ : BufTy).Contents (Elt F))) (fun _ => .ret ⟨⟩)
  hlo rfl (StableHlo.binary main_v74 main_v77 main_v78 (cmpi .sge : (⟨S4x4096x64, .i32⟩ : BufTy).Contents (Elt F) → (⟨S4x4096x64, .i32⟩ : BufTy).Contents (Elt F) → (⟨S4x4096x64, .i1⟩ : BufTy).Contents (Elt F))) (fun _ => .ret ⟨⟩)
  hlo rfl (StableHlo.nullary main_c_28 (constantI S_ 32 64#32)) (fun _ => .ret ⟨⟩)
  hlo rfl (StableHlo.unary main_c_28 main_v79 (broadcastInDim S4x4096x64 ![] bcast_S_S4x4096x64 : (⟨S_, .i32⟩ : BufTy).Contents (Elt F) → (⟨S4x4096x64, .i32⟩ : BufTy).Contents (Elt F))) (fun _ => .ret ⟨⟩)
  hlo rfl (StableHlo.binary main_v74 main_v79 main_v80 (cmpi .slt : (⟨S4x4096x64, .i32⟩ : BufTy).Contents (Elt F) → (⟨S4x4096x64, .i32⟩ : BufTy).Contents (Elt F) → (⟨S4x4096x64, .i1⟩ : BufTy).Contents (Elt F))) (fun _ => .ret ⟨⟩)
  hlo rfl (StableHlo.binary main_v78 main_v80 main_v81 (andi : (⟨S4x4096x64, .i1⟩ : BufTy).Contents (Elt F) → (⟨S4x4096x64, .i1⟩ : BufTy).Contents (Elt F) → (⟨S4x4096x64, .i1⟩ : BufTy).Contents (Elt F))) (fun _ => .ret ⟨⟩)
  hlo rfl (StableHlo.nullary main_c_29 (constantI S_ 32 0#32)) (fun _ => .ret ⟨⟩)
  hlo rfl (StableHlo.unary main_c_29 main_v82 (broadcastInDim S4x4096x64 ![] bcast_S_S4x4096x64 : (⟨S_, .i32⟩ : BufTy).Contents (Elt F) → (⟨S4x4096x64, .i32⟩ : BufTy).Contents (Elt F))) (fun _ => .ret ⟨⟩)
  hlo rfl (StableHlo.binary main_v76 main_v82 main_v83 (cmpi .sge : (⟨S4x4096x64, .i32⟩ : BufTy).Contents (Elt F) → (⟨S4x4096x64, .i32⟩ : BufTy).Contents (Elt F) → (⟨S4x4096x64, .i1⟩ : BufTy).Contents (Elt F))) (fun _ => .ret ⟨⟩)
  hlo rfl (StableHlo.binary main_v81 main_v83 main_v84 (andi : (⟨S4x4096x64, .i1⟩ : BufTy).Contents (Elt F) → (⟨S4x4096x64, .i1⟩ : BufTy).Contents (Elt F) → (⟨S4x4096x64, .i1⟩ : BufTy).Contents (Elt F))) (fun _ => .ret ⟨⟩)
  hlo rfl (StableHlo.nullary main_c_30 (constantI S_ 32 64#32)) (fun _ => .ret ⟨⟩)
  hlo rfl (StableHlo.unary main_c_30 main_v85 (broadcastInDim S4x4096x64 ![] bcast_S_S4x4096x64 : (⟨S_, .i32⟩ : BufTy).Contents (Elt F) → (⟨S4x4096x64, .i32⟩ : BufTy).Contents (Elt F))) (fun _ => .ret ⟨⟩)
  hlo rfl (StableHlo.binary main_v76 main_v85 main_v86 (cmpi .slt : (⟨S4x4096x64, .i32⟩ : BufTy).Contents (Elt F) → (⟨S4x4096x64, .i32⟩ : BufTy).Contents (Elt F) → (⟨S4x4096x64, .i1⟩ : BufTy).Contents (Elt F))) (fun _ => .ret ⟨⟩)

/-- The window is its three parts in sequence. -/
theorem window_eq (c : Dev nD) : main_part1 (F := F) c = (W1a (F := F) c >>= fun _ => W1b (F := F) c >>= fun _ => W1c (F := F) c) := by
  chain_rfl

/-- So it is the chain of any five stretches of operations of which the first part is the first, the middle part the
    chain of the next three, and the last part the fifth. -/
theorem main_part1_chain_of (c : Dev nD) (o0 o1 o2 o3 o4 : List (HloOp τ sig (Elt F)))
    (ha : W1a (F := F) c = (StableHlo.seq o0 : Prog (TpuEff nD τ sig (Elt F) (Pipeline.Sig Λ₀ (Fin 1) fun p => (pcfgs (F := F) p).Adm) .tc) PUnit))
    (hb : W1b (F := F) c = (Pipeline.chainK [StableHlo.seq o1, StableHlo.seq o2] (StableHlo.seq o3) : Prog (TpuEff nD τ sig (Elt F) (Pipeline.Sig Λ₀ (Fin 1) fun p => (pcfgs (F := F) p).Adm) .tc) PUnit))
    (hc : W1c (F := F) c = (StableHlo.seq o4 : Prog (TpuEff nD τ sig (Elt F) (Pipeline.Sig Λ₀ (Fin 1) fun p => (pcfgs (F := F) p).Adm) .tc) PUnit)) :
    main_part1 (F := F) c = (Pipeline.chainK [StableHlo.seq o0, StableHlo.seq o1, StableHlo.seq o2, StableHlo.seq o3] (StableHlo.seq o4) : Prog (TpuEff nD τ sig (Elt F) (Pipeline.Sig Λ₀ (Fin 1) fun p => (pcfgs (F := F) p).Adm) .tc) PUnit) := by
  rw [window_eq c, ha, hb, hc]
  simp only [Pipeline.chainK, bind_assoc]

end Cert.Kernel.Win1

end
-- ==== Proof.KernelFrame.lean ====
/-
  The frame of `Kernel`, at any float instance: the program is four host lines (two reshapes and two
  changes of float format), ONE kernel region on a grid of 4 × 16 points, and then 265 host lines that read
  the region's result.

  The region. Window 0 stages the block [1, 128, 256] of the first operand at block index (n, 0, i), window 1 the
  block [1, 128, 4096] of the second at (n, 0, 0) (fetched only when n moves: every 16th point), window 2 is the
  result's block [1, 256, 4096] at (n, i, 0), written back at every point. The body loads the two input blocks
  whole, loads the result's buffer (and does nothing with what it read), and stores ONE value over the whole
  result buffer: the matrix product of the two blocks contracted over their 128 rows. So after the body the result's
  buffer is the canonical form of that one store, a function of the two input blocks alone; the inputs' buffers are
  as found; nothing else is touched.

  The host lines. None of the 4 lines before the region and none of the 265 after it writes an argument array or
  an array the region stages; each writes only its own fresh result buffer. Hence every argument array ends as
  launched, which is the frame claim; and each result buffer ends at the value the later lines compute from the
  region's result array and the arguments (the run's post below names it, for the value claim to read).
-/
import proofs.«152563_j67370857005292_2_alg».proof.Proof.KernelLaunch
import proofs.«152563_j67370857005292_2_alg».proof.Proof.Gen.Kernel.Skeleton
import proofs.«152563_j67370857005292_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- What core `c`'s buffers hold when the region is entered: the launch contents after the four host lines. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The host lines after the region, stretch by stretch (a called function's lines are a stretch of their own). -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20]

/-! Every host line allocates nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor
theorem hostOps1_17_fresh : (hostOps1_17 : List (HloOp τ sig (Elt F))).Forall fun op => op.fresh = ∅ := by
  simp only [List.Forall]; repeat' constructor
theorem hostOps1_18_fresh : (hostOps1_18 : List (HloOp τ sig (Elt F))).Forall fun op => op.fresh = ∅ := by
  simp only [List.Forall]; repeat' constructor
theorem hostOps1_19_fresh : (hostOps1_19 : List (HloOp τ sig (Elt F))).Forall fun op => op.fresh = ∅ := by
  simp only [List.Forall]; repeat' constructor
theorem hostOps1_20_fresh : (hostOps1_20 : List (HloOp τ sig (Elt F))).Forall fun op => op.fresh = ∅ := by
  simp only [List.Forall]; repeat' constructor

/-- The program is the four lines, the region, the later lines: it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- A host line keeps the four argument arrays and the three arrays the region stages: it writes none of them. -/
abbrev Keeps (op : HloOp τ sig (Elt F)) : Prop :=
  Proc.devRef .tc main_arg0 ∉ op.writes ∧ Proc.devRef .tc main_arg1 ∉ op.writes ∧ Proc.devRef .tc main_arg2 ∉ op.writes
    ∧ Proc.devRef .tc main_arg3 ∉ op.writes ∧ Proc.devRef .tc main_v1 ∉ op.writes ∧ Proc.devRef .tc main_v3 ∉ op.writes
    ∧ Proc.devRef .tc main_v4 ∉ op.writes

/-! Each later line writes only its own result buffer, which is none of those seven. -/
theorem hostOps1_keeps : (hostOps1 : List (HloOp τ sig (Elt F))).Forall Keeps := by
  simp only [hostOps1, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_1_keeps : (hostOps1_1 : List (HloOp τ sig (Elt F))).Forall Keeps := by
  simp only [hostOps1_1, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_2_keeps : (hostOps1_2 : List (HloOp τ sig (Elt F))).Forall Keeps := by
  simp only [hostOps1_2, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_3_keeps : (hostOps1_3 : List (HloOp τ sig (Elt F))).Forall Keeps := by
  simp only [hostOps1_3, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_4_keeps : (hostOps1_4 : List (HloOp τ sig (Elt F))).Forall Keeps := by
  simp only [hostOps1_4, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_5_keeps : (hostOps1_5 : List (HloOp τ sig (Elt F))).Forall Keeps := by
  simp only [hostOps1_5, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_6_keeps : (hostOps1_6 : List (HloOp τ sig (Elt F))).Forall Keeps := by
  simp only [hostOps1_6, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_7_keeps : (hostOps1_7 : List (HloOp τ sig (Elt F))).Forall Keeps := by
  simp only [hostOps1_7, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_8_keeps : (hostOps1_8 : List (HloOp τ sig (Elt F))).Forall Keeps := by
  simp only [hostOps1_8, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_9_keeps : (hostOps1_9 : List (HloOp τ sig (Elt F))).Forall Keeps := by
  simp only [hostOps1_9, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_10_keeps : (hostOps1_10 : List (HloOp τ sig (Elt F))).Forall Keeps := by
  simp only [hostOps1_10, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_11_keeps : (hostOps1_11 : List (HloOp τ sig (Elt F))).Forall Keeps := by
  simp only [hostOps1_11, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_12_keeps : (hostOps1_12 : List (HloOp τ sig (Elt F))).Forall Keeps := by
  simp only [hostOps1_12, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_13_keeps : (hostOps1_13 : List (HloOp τ sig (Elt F))).Forall Keeps := by
  simp only [hostOps1_13, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_14_keeps : (hostOps1_14 : List (HloOp τ sig (Elt F))).Forall Keeps := by
  simp only [hostOps1_14, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_15_keeps : (hostOps1_15 : List (HloOp τ sig (Elt F))).Forall Keeps := by
  simp only [hostOps1_15, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_16_keeps : (hostOps1_16 : List (HloOp τ sig (Elt F))).Forall Keeps := by
  simp only [hostOps1_16, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_17_keeps : (hostOps1_17 : List (HloOp τ sig (Elt F))).Forall Keeps := by
  simp only [hostOps1_17, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_18_keeps : (hostOps1_18 : List (HloOp τ sig (Elt F))).Forall Keeps := by
  simp only [hostOps1_18, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_19_keeps : (hostOps1_19 : List (HloOp τ sig (Elt F))).Forall Keeps := by
  simp only [hostOps1_19, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_20_keeps : (hostOps1_20 : List (HloOp τ sig (Elt F))).Forall Keeps := by
  simp only [hostOps1_20, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)

theorem tail_keeps : ∀ ops ∈ (tailOps : List (List (HloOp τ sig (Elt F)))), ∀ op ∈ ops, Keeps op := by
  have h : (tailOps : List (List (HloOp τ sig (Elt F)))).Forall fun ops => ops.Forall Keeps :=
    ⟨hostOps1_keeps, hostOps1_1_keeps, hostOps1_2_keeps, hostOps1_3_keeps, hostOps1_4_keeps, hostOps1_5_keeps, hostOps1_6_keeps, hostOps1_7_keeps, hostOps1_8_keeps, hostOps1_9_keeps, hostOps1_10_keeps, hostOps1_11_keeps, hostOps1_12_keeps, hostOps1_13_keeps, hostOps1_14_keeps, hostOps1_15_keeps, hostOps1_16_keeps, hostOps1_17_keeps, hostOps1_18_keeps, hostOps1_19_keeps, hostOps1_20_keeps⟩
  exact fun ops ho op h' => List.forall_iff_forall_mem.mp (List.forall_iff_forall_mem.mp h ops ho) op h'

/-- The later lines touch only unscoped TensorCore buffers: the pipeline's arrays and the buffers that bypass it. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  have h : (tailOps : List (List (HloOp τ sig (Elt F)))).Forall fun ops => ops.Forall fun op => op.bufs ⊆ StableHlo.tcRefs τ sig :=
    ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub⟩
  exact fun ops ho op h' => Pipeline.sub_ucRefs op (List.forall_iff_forall_mem.mp (List.forall_iff_forall_mem.mp h ops ho) op h')

/-- They allocate nothing. -/
theorem sfx_fresh : ∀ ops ∈ (tailOps : List (List (HloOp τ sig (Elt F)))), ∀ op ∈ ops, op.fresh = ∅ := by
  have h : (tailOps : List (List (HloOp τ sig (Elt F)))).Forall fun ops => ops.Forall fun op => op.fresh = ∅ :=
    ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh, hostOps1_13_fresh, hostOps1_14_fresh, hostOps1_15_fresh, hostOps1_16_fresh, hostOps1_17_fresh, hostOps1_18_fresh, hostOps1_19_fresh, hostOps1_20_fresh⟩
  exact fun ops ho op h' => List.forall_iff_forall_mem.mp (List.forall_iff_forall_mem.mp h ops ho) op h'

/-- And write no array the region stages. -/
theorem sfx_keeps : ∀ ops ∈ (tailOps : List (List (HloOp τ sig (Elt F)))), ∀ op ∈ ops,
    ∀ w, Proc.devRef .tc (Pipeline.arrRef spec0 w) ∉ op.writes := by
  intro ops ho op h' w
  have hk := tail_keeps ops ho op h'
  fin_cases w
  · exact hk.2.2.2.2.1
  · exact hk.2.2.2.2.2.1
  · exact hk.2.2.2.2.2.2

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 0 either, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (fun op hop => by
      obtain ⟨ops, ho, h'⟩ := List.mem_flatten.mp hop
      have hk := tail_keeps ops ho op h'
      exact hk.1),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 1 either, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (fun op hop => by
      obtain ⟨ops, ho, h'⟩ := List.mem_flatten.mp hop
      have hk := tail_keeps ops ho op h'
      exact hk.2.1),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 2 either, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (fun op hop => by
      obtain ⟨ops, ho, h'⟩ := List.mem_flatten.mp hop
      have hk := tail_keeps ops ho op h'
      exact hk.2.2.1),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 3 either, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (fun op hop => by
      obtain ⟨ops, ho, h'⟩ := List.mem_flatten.mp hop
      have hk := tail_keeps ops ho op h'
      exact hk.2.2.2.1),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first operand's staging buffer holds its block at every point, for any proof data over these arrays that leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The second operand's staging buffer holds its block at every point, fetched there or not: where it is not fetched the block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run whose post has every bypassing buffer at what the later lines leave in it, the frame claim: each
    argument array bypasses the region, and no line writes it. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c)⟩) h

/-! ## The body's accesses -/

abbrev r0_0 : Rect S1x128x256 := Rect.unit (s := S1x128x256) ![0, 0, 0] S1x128x256.size inb_S1x128x256_S1x128x256_0_0_0
abbrev r0_1 : Rect S1x128x4096 := Rect.unit (s := S1x128x4096) ![0, 0, 0] S1x128x4096.size inb_S1x128x4096_S1x128x4096_0_0_0
abbrev r0_2 : Rect S1x256x4096 := Rect.unit (s := S1x256x4096) ![0, 0, 0] S1x256x4096.size inb_S1x256x4096_S1x256x4096_0_0_0

/-! ## What the body leaves in the result's buffer -/

/-- The result's staging buffer after the body, from the two input blocks: its one store, over the whole buffer. -/
def out0_2 (x0 : Vec F S1x128x256 .bf16) (x1 : Vec F S1x128x4096 .bf16) : Vec F S1x256x4096 .f32 :=
  View.canon [⟨r0_2, k0_pay1 (View.ld x0 r0_0) (View.ld x1 r0_1)⟩]

/-- The one store covers the buffer. -/
theorem cover0_2 (p0 : Vec F S1x256x4096 .f32) (y : S1x256x4096.Idx) :
    ∃ pc ∈ ([⟨r0_2, p0⟩] : List (View.Piece (Elt F) S1x256x4096 .f32)), y ∈ pc.1.set :=
  View.cover_of_tiled [⟨r0_2, p0⟩] S1x256x4096.size (by rfl) y

/-! ## The body's triple -/

set_option maxHeartbeats 1000000 in
/-- The body on whole staging memrefs — the inputs' at contents `x0`, `x1`, the result's at anything — runs to its end
    holding the inputs' as they were and the result's at `out0_2 x0 x1`. -/
theorem sound_kernel (c : Dev nD) (E : Set ℕ) (i : grid0.Coords) (arg2 : Memref sig .tc .vmem S1x128x256 .bf16) (harg2 : arg2.IsWhole) (arg3 : Memref sig .tc .vmem S1x128x4096 .bf16) (harg3 : arg3.IsWhole) (arg4 : Memref sig .tc .vmem S1x256x4096 .f32) (harg4 : arg4.IsWhole)
    (x0 : Vec F S1x128x256 .bf16) (x1 : Vec F S1x128x4096 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__corr_matmul_kernel i arg2 harg2 arg3 harg3 arg4 harg4) K := by
  simp only [cc0__corr_matmul_kernel_eq_skeleton]; unfold cc0__corr_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at point `t` each input's buffer at its block and the
    result's at `out0_2` of the two input blocks; the invariant is the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program on the TensorCores terminates, and every final state has each array the
    region stages at what the write-backs leave in it and every other unscoped buffer at what the later lines compute. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim at any float instance: the program runs to its end, faults nowhere, and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.Kernel.Frm

end
-- ==== Proof.KernelIdealWindow1.lean ====
/-
  The second window of `KernelIdeal`'s host program (its statements 61 to 120) cut in three.

  The window is sixty host lines in a row: twenty-seven plain lines, a call of the clipping function, five plain lines, a
  second call of it, and twenty-six plain lines. As a program it is the first twenty-seven lines, then the two calls with the
  five lines between them, then the last twenty-six, run one after the other — sequencing is associative, so cutting the
  window anywhere changes nothing. Each of the three parts is restated here with the window's own lines, and the window is
  shown equal to their sequence; from that, the window is the chain of ANY five stretches of operations that the three
  parts are the chains of.
-/
import proofs.«152563_j67370857005292_2_alg».proof.Proof.Gen.KernelIdeal
import Idealize.ShloMosaic.Lib.Pipeline.Kit
import Idealize.ShloMosaic.Lib.Pipeline.Regions

set_option maxRecDepth 1628

noncomputable section

namespace Cert.KernelIdeal.Win1

open Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

set_option maxHeartbeats 40000000 in
/-- The window's first twenty-seven lines. -/
noncomputable def W1a : Dev nD → Prog (TpuEff nD τ sig (Elt F) (Pipeline.Sig Λ₀ (Fin 1) fun p => (pcfgs (F := F) p).Adm) .tc) PUnit := fun _ => do
  hlo rfl (StableHlo.binary main_v44 main_v18 main_v45 (subf : (⟨S4x4096x64, .f32⟩ : BufTy).Contents (Elt F) → (⟨S4x4096x64, .f32⟩ : BufTy).Contents (Elt F) → (⟨S4x4096x64, .f32⟩ : BufTy).Contents (Elt F))) (fun _ => .ret ⟨⟩)
  hlo rfl (StableHlo.binary main_v43 main_v45 main_v46 (mulf : (⟨S4x4096x64, .f32⟩ : BufTy).Contents (Elt F) → (⟨S4x4096x64, .f32⟩ : BufTy).Contents (Elt F) → (⟨S4x4096x64, .f32⟩ : BufTy).Contents (Elt F))) (fun _ => .ret ⟨⟩)
  hlo rfl (StableHlo.binary main_v46 main_v36 main_v47 (mulf : (⟨S4x4096x64, .f32⟩ : BufTy).Contents (Elt F) → (⟨S4x4096x64, .f32⟩ : BufTy).Contents (Elt F) → (⟨S4x4096x64, .f32⟩ : BufTy).Contents (Elt F))) (fun _ => .ret ⟨⟩)
  hlo rfl (StableHlo.nullary main_c_13 (constantI S_ 32 0#32)) (fun _ => .ret ⟨⟩)
  hlo rfl (StableHlo.unary main_c_13 main_v48 (broadcastInDim S4x4096x64 ![] bcast_S_S4x4096x64 : (⟨S_, .i32⟩ : BufTy).Contents (Elt F) → (⟨S4x4096x64, .i32⟩ : BufTy).Contents (Elt F))) (fun _ => .ret ⟨⟩)
  hlo rfl (StableHlo.binary main_v19 main_v48 main_v49 (addi : (⟨S4x4096x64, .i32⟩ : BufTy).Contents (Elt F) → (⟨S4x4096x64, .i32⟩ : BufTy).Contents (Elt F) → (⟨S4x4096x64, .i32⟩ : BufTy).Contents (Elt F))) (fun _ => .ret ⟨⟩)
  hlo rfl (StableHlo.nullary main_c_14 (constantI S_ 32 1#32)) (fun _ => .ret ⟨⟩)
  hlo rfl (StableHlo.unary main_c_14 main_v50 (broadcastInDim S4x4096x64 ![] bcast_S_S4x4096x64 : (⟨S_, .i32⟩ : BufTy).Contents (Elt F) → (⟨S4x4096x64, .i32⟩ : BufTy).Contents (Elt F))) (fun _ => .ret ⟨⟩)
  hlo rfl (StableHlo.binary main_v20 main_v50 main_v51 (addi : (⟨S4x4096x64, .i32⟩ : BufTy).Contents (Elt F) → (⟨S4x4096x64, .i32⟩ : BufTy).Contents (Elt F) → (⟨S4x4096x64, .i32⟩ : BufTy).Contents (Elt F))) (fun _ => .ret ⟨⟩)
  hlo rfl (StableHlo.nullary main_c_15 (constantI S_ 32 0#32)) (fun _ => .ret ⟨⟩)
  hlo rfl (StableHlo.unary main_c_15 main_v52 (broadcastInDim S4x4096x64 ![] bcast_S_S4x4096x64 : (⟨S_, .i32⟩ : BufTy).Contents (Elt F) → (⟨S4x4096x64, .i32⟩ : BufTy).Contents (Elt F))) (fun _ => .ret ⟨⟩)
  hlo rfl (StableHlo.binary main_v49 main_v52 main_v53 (cmpi .sge : (⟨S4x4096x64, .i32⟩ : BufTy).Contents (Elt F) → (⟨S4x4096x64, .i32⟩ : BufTy).Contents (Elt F) → (⟨S4x4096x64, .i1⟩ : BufTy).Contents (Elt F))) (fun _ => .ret ⟨⟩)
  hlo rfl (StableHlo.nullary main_c_16 (constantI S_ 32 64#32)) (fun _ => .ret ⟨⟩)
  hlo rfl (StableHlo.unary main_c_16 main_v54 (broadcastInDim S4x4096x64 ![] bcast_S_S4x4096x64 : (⟨S_, .i32⟩ : BufTy).Contents (Elt F) → (⟨S4x4096x64, .i32⟩ : BufTy).Contents (Elt F))) (fun _ => .ret ⟨⟩)
  hlo rfl (StableHlo.binary main_v49 main_v54 main_v55 (cmpi .slt : (⟨S4x4096x64, .i32⟩ : BufTy).Contents (Elt F) → (⟨S4x4096x64, .i32⟩ : BufTy).Contents (Elt F) → (⟨S4x4096x64, .i1⟩ : BufTy).Contents (Elt F))) (fun _ => .ret ⟨⟩)
  hlo rfl (StableHlo.binary main_v53 main_v55 main_v56 (andi : (⟨S4x4096x64, .i1⟩ : BufTy).Contents (Elt F) → (⟨S4x4096x64, .i1⟩ : BufTy).Contents (Elt F) → (⟨S4x4096x64, .i1⟩ : BufTy).Contents (Elt F))) (fun _ => .ret ⟨⟩)
  hlo rfl (StableHlo.nullary main_c_17 (constantI S_ 32 0#32)) (fun _ => .ret ⟨⟩)
  hlo rfl (StableHlo.unary main_c_17 main_v57 (broadcastInDim S4x4096x64 ![] bcast_S_S4x4096x64 : (⟨S_, .i32⟩ : BufTy).Contents (Elt F) → (⟨S4x4096x64, .i32⟩ : BufTy).Contents (Elt F))) (fun _ => .ret ⟨⟩)
  hlo rfl (StableHlo.binary main_v51 main_v57 main_v58 (cmpi .sge : (⟨S4x4096x64, .i32⟩ : BufTy).Contents (Elt F) → (⟨S4x4096x64, .i32⟩ : BufTy).Contents (Elt F) → (⟨S4x4096x64, .i1⟩ : BufTy).Contents (Elt F))) (fun _ => .ret ⟨⟩)
  hlo rfl (StableHlo.binary main_v56 main_v58 main_v59 (andi : (⟨S4x4096x64, .i1⟩ : BufTy).Contents (Elt F) → (⟨S4x4096x64, .i1⟩ : BufTy).Contents (Elt F) → (⟨S4x4096x64, .i1⟩ : BufTy).Contents (Elt F))) (fun _ => .ret ⟨⟩)
  hlo rfl (StableHlo.nullary main_c_18 (constantI S_ 32 64#32)) (fun _ => .ret ⟨⟩)
  hlo rfl (StableHlo.unary main_c_18 main_v60 (broadcastInDim S4x4096x64 ![] bcast_S_S4x4096x64 : (⟨S_, .i32⟩ : BufTy).Contents (Elt F) → (⟨S4x4096x64, .i32⟩ : BufTy).Contents (Elt F))) (fun _ => .ret ⟨⟩)
  hlo rfl (StableHlo.binary main_v51 main_v60 main_v61 (cmpi .slt : (⟨S4x4096x64, .i32⟩ : BufTy).Contents (Elt F) → (⟨S4x4096x64, .i32⟩ : BufTy).Contents (Elt F) → (⟨S4x4096x64, .i1⟩ : BufTy).Contents (Elt F))) (fun _ => .ret ⟨⟩)
  hlo rfl (StableHlo.binary main_v59 main_v61 main_v62 (andi : (⟨S4x4096x64, .i1⟩ : BufTy).Contents (Elt F) → (⟨S4x4096x64, .i1⟩ : BufTy).Contents (Elt F) → (⟨S4x4096x64, .i1⟩ : BufTy).Contents (Elt F))) (fun _ => .ret ⟨⟩)
  hlo rfl (StableHlo.unary main_v62 main_v63 (uitofp .f32 : (⟨S4x4096x64, .i1⟩ : BufTy).Contents (Elt F) → (⟨S4x4096x64, .f32⟩ : BufTy).Contents (Elt F))) (fun _ => .ret ⟨⟩)
  hlo rfl (StableHlo.nullary main_c_19 (constantI S_ 32 0#32)) (fun _ => .ret ⟨⟩)
  hlo rfl (StableHlo.nullary main_c_20 (constantI S_ 32 63#32)) (fun _ => .ret ⟨⟩)

set_option maxHeartbeats 40000000 in
/-- The two calls of the clipping function and the five lines between them. -/
noncomputable def W1b : Dev nD → Prog (TpuEff nD τ sig (Elt F) (Pipeline.Sig Λ₀ (Fin 1) fun p => (pcfgs (F := F) p).Adm) .tc) PUnit := fun _ => do
  fn_clip.body (.of main_v51) (.of main_c_19) (.of main_c_20) main_call2
  hlo rfl (StableHlo.nullary main_c_21 (constantI S_ 32 64#32)) (fun _ => .ret ⟨⟩)
  hlo rfl (StableHlo.unary main_c_21 main_v65 (broadcastInDim S4x4096x64 ![] bcast_S_S4x4096x64 : (⟨S_, .i32⟩ : BufTy).Contents (Elt F) → (⟨S4x4096x64, .i32⟩ : BufTy).Contents (Elt F))) (fun _ => .ret ⟨⟩)
  hlo rfl (StableHlo.binary main_v64 main_v65 main_v66 (muli : (⟨S4x4096x64, .i32⟩ : BufTy).Contents (Elt F) → (⟨S4x4096x64, .i32⟩ : BufTy).Contents (Elt F) → (⟨S4x4096x64, .i32⟩ : BufTy).Contents (Elt F))) (fun _ => .ret ⟨⟩)
  hlo rfl (StableHlo.nullary main_c_22 (constantI S_ 32 0#32)) (fun _ => .ret ⟨⟩)
  hlo rfl (StableHlo.nullary main_c_23 (constantI S_ 32 63#32)) (fun _ => .ret ⟨⟩)
  fn_clip.body (.of main_v49) (.of main_c_22) (.of main_c_23) main_call3

set_option maxHeartbeats 40000000 in
/-- The window's last twenty-six lines. -/
noncomputable def W1c : Dev nD → Prog (TpuEff nD τ sig (Elt F) (Pipeline.Sig Λ₀ (Fin 1) fun p => (pcfgs (F := F) p).Adm) .tc) PUnit := fun _ => do
  hlo rfl (StableHlo.binary main_v66 main_v67 main_v68 (addi : (⟨S4x4096x64, .i32⟩ : BufTy).Contents (Elt F) → (⟨S4x4096x64, .i32⟩ : BufTy).Contents (Elt F) → (⟨S4x4096x64, .i32⟩ : BufTy).Contents (Elt F))) (fun _ => .ret ⟨⟩)
  hlo rfl (StableHlo.nullary main_cst_24 (constant S_ .f32 0x3F800000#32)) (fun _ => .ret ⟨⟩)
  hlo rfl (StableHlo.unary main_cst_24 main_v69 (broadcastInDim S4x4096x64 ![] bcast_S_S4x4096x64 : (⟨S_, .f32⟩ : BufTy).Contents (Elt F) → (⟨S4x4096x64, .f32⟩ : BufTy).Contents (Elt F))) (fun _ => .ret ⟨⟩)
  hlo rfl (StableHlo.binary main_v69 main_v17 main_v70 (subf : (⟨S4x4096x64, .f32⟩ : BufTy).Contents (Elt F) → (⟨S4x4096x64, .f32⟩ : BufTy).Contents (Elt F) → (⟨S4x4096x64, .f32⟩ : BufTy).Contents (Elt F))) (fun _ => .ret ⟨⟩)
  hlo rfl (StableHlo.binary main_v70 main_v18 main_v71 (mulf : (⟨S4x4096x64, .f32⟩ : BufTy).Contents (Elt F) → (⟨S4x4096x64, .f32⟩ : BufTy).Contents (Elt F) → (⟨S4x4096x64, .f32⟩ : BufTy).Contents (Elt F))) (fun _ => .ret ⟨⟩)
  hlo rfl (StableHlo.binary main_v71 main_v63 main_v72 (mulf : (⟨S4x4096x64, .f32⟩ : BufTy).Contents (Elt F) → (⟨S4x4096x64, .f32⟩ : BufTy).Contents (Elt F) → (⟨S4x4096x64, .f32⟩ : BufTy).Contents (Elt F))) (fun _ => .ret ⟨⟩)
  hlo rfl (StableHlo.nullary main_c_25 (constantI S_ 32 1#32)) (fun _ => .ret ⟨⟩)
  hlo rfl (StableHlo.unary main_c_25 main_v73 (broadcastInDim S4x4096x64 ![] bcast_S_S4x4096x64 : (⟨S_, .i32⟩ : BufTy).Contents (Elt F) → (⟨S4x4096x64, .i32⟩ : BufTy).Contents (Elt F))) (fun _ => .ret ⟨⟩)
  hlo rfl (StableHlo.binary main_v19 main_v73 main_v74 (addi : (⟨S4x4096x64, .i32⟩ : BufTy).Contents (Elt F) → (⟨S4x4096x64, .i32⟩ : BufTy).Contents (Elt F) → (⟨S4x4096x64, .i32⟩ : BufTy).Contents (Elt F))) (fun _ => .ret ⟨⟩)
  hlo rfl (StableHlo.nullary main_c_26 (constantI S_ 32 0#32)) (fun _ => .ret ⟨⟩)
  hlo rfl (StableHlo.unary main_c_26 main_v75 (broadcastInDim S4x4096x64 ![] bcast_S_S4x4096x64 : (⟨S_, .i32⟩ : BufTy).Contents (Elt F) → (⟨S4x4096x64, .i32⟩ : BufTy).Contents (Elt F))) (fun _ => .ret ⟨⟩)
  hlo rfl (StableHlo.binary main_v20 main_v75 main_v76 (addi : (⟨S4x4096x64, .i32⟩ : BufTy).Contents (Elt F) → (⟨S4x4096x64, .i32⟩ : BufTy).Contents (Elt F) → (⟨S4x4096x64, .i32⟩ : BufTy).Contents (Elt F))) (fun _ => .ret ⟨⟩)
  hlo rfl (StableHlo.nullary main_c_27 (constantI S_ 32 0#32)) (fun _ => .ret ⟨⟩)
  hlo rfl (StableHlo.unary main_c_27 main_v77 (broadcastInDim S4x4096x64 ![] bcast_S_S4x4096x64 : (⟨S_, .i32⟩ : BufTy).Contents (Elt F) → (⟨S4x4096x64, .i32⟩ : BufTy).Contents (Elt F))) (fun _ => .ret ⟨⟩)
  hlo rfl (StableHlo.binary main_v74 main_v77 main_v78 (cmpi .sge : (⟨S4x4096x64, .i32⟩ : BufTy).Contents (Elt F) → (⟨S4x4096x64, .i32⟩ : BufTy).Contents (Elt F) → (⟨S4x4096x64, .i1⟩ : BufTy).Contents (Elt F))) (fun _ => .ret ⟨⟩)
  hlo rfl (StableHlo.nullary main_c_28 (constantI S_ 32 64#32)) (fun _ => .ret ⟨⟩)
  hlo rfl (StableHlo.unary main_c_28 main_v79 (broadcastInDim S4x4096x64 ![] bcast_S_S4x4096x64 : (⟨S_, .i32⟩ : BufTy).Contents (Elt F) → (⟨S4x4096x64, .i32⟩ : BufTy).Contents (Elt F))) (fun _ => .ret ⟨⟩)
  hlo rfl (StableHlo.binary main_v74 main_v79 main_v80 (cmpi .slt : (⟨S4x4096x64, .i32⟩ : BufTy).Contents (Elt F) → (⟨S4x4096x64, .i32⟩ : BufTy).Contents (Elt F) → (⟨S4x4096x64, .i1⟩ : BufTy).Contents (Elt F))) (fun _ => .ret ⟨⟩)
  hlo rfl (StableHlo.binary main_v78 main_v80 main_v81 (andi : (⟨S4x4096x64, .i1⟩ : BufTy).Contents (Elt F) → (⟨S4x4096x64, .i1⟩ : BufTy).Contents (Elt F) → (⟨S4x4096x64, .i1⟩ : BufTy).Contents (Elt F))) (fun _ => .ret ⟨⟩)
  hlo rfl (StableHlo.nullary main_c_29 (constantI S_ 32 0#32)) (fun _ => .ret ⟨⟩)
  hlo rfl (StableHlo.unary main_c_29 main_v82 (broadcastInDim S4x4096x64 ![] bcast_S_S4x4096x64 : (⟨S_, .i32⟩ : BufTy).Contents (Elt F) → (⟨S4x4096x64, .i32⟩ : BufTy).Contents (Elt F))) (fun _ => .ret ⟨⟩)
  hlo rfl (StableHlo.binary main_v76 main_v82 main_v83 (cmpi .sge : (⟨S4x4096x64, .i32⟩ : BufTy).Contents (Elt F) → (⟨S4x4096x64, .i32⟩ : BufTy).Contents (Elt F) → (⟨S4x4096x64, .i1⟩ : BufTy).Contents (Elt F))) (fun _ => .ret ⟨⟩)
  hlo rfl (StableHlo.binary main_v81 main_v83 main_v84 (andi : (⟨S4x4096x64, .i1⟩ : BufTy).Contents (Elt F) → (⟨S4x4096x64, .i1⟩ : BufTy).Contents (Elt F) → (⟨S4x4096x64, .i1⟩ : BufTy).Contents (Elt F))) (fun _ => .ret ⟨⟩)
  hlo rfl (StableHlo.nullary main_c_30 (constantI S_ 32 64#32)) (fun _ => .ret ⟨⟩)
  hlo rfl (StableHlo.unary main_c_30 main_v85 (broadcastInDim S4x4096x64 ![] bcast_S_S4x4096x64 : (⟨S_, .i32⟩ : BufTy).Contents (Elt F) → (⟨S4x4096x64, .i32⟩ : BufTy).Contents (Elt F))) (fun _ => .ret ⟨⟩)
  hlo rfl (StableHlo.binary main_v76 main_v85 main_v86 (cmpi .slt : (⟨S4x4096x64, .i32⟩ : BufTy).Contents (Elt F) → (⟨S4x4096x64, .i32⟩ : BufTy).Contents (Elt F) → (⟨S4x4096x64, .i1⟩ : BufTy).Contents (Elt F))) (fun _ => .ret ⟨⟩)

/-- The window is its three parts in sequence. -/
theorem window_eq (c : Dev nD) : main_part1 (F := F) c = (W1a (F := F) c >>= fun _ => W1b (F := F) c >>= fun _ => W1c (F := F) c) := by
  chain_rfl

/-- So it is the chain of any five stretches of operations of which the first part is the first, the middle part the
    chain of the next three, and the last part the fifth. -/
theorem main_part1_chain_of (c : Dev nD) (o0 o1 o2 o3 o4 : List (HloOp τ sig (Elt F)))
    (ha : W1a (F := F) c = (StableHlo.seq o0 : Prog (TpuEff nD τ sig (Elt F) (Pipeline.Sig Λ₀ (Fin 1) fun p => (pcfgs (F := F) p).Adm) .tc) PUnit))
    (hb : W1b (F := F) c = (Pipeline.chainK [StableHlo.seq o1, StableHlo.seq o2] (StableHlo.seq o3) : Prog (TpuEff nD τ sig (Elt F) (Pipeline.Sig Λ₀ (Fin 1) fun p => (pcfgs (F := F) p).Adm) .tc) PUnit))
    (hc : W1c (F := F) c = (StableHlo.seq o4 : Prog (TpuEff nD τ sig (Elt F) (Pipeline.Sig Λ₀ (Fin 1) fun p => (pcfgs (F := F) p).Adm) .tc) PUnit)) :
    main_part1 (F := F) c = (Pipeline.chainK [StableHlo.seq o0, StableHlo.seq o1, StableHlo.seq o2, StableHlo.seq o3] (StableHlo.seq o4) : Prog (TpuEff nD τ sig (Elt F) (Pipeline.Sig Λ₀ (Fin 1) fun p => (pcfgs (F := F) p).Adm) .tc) PUnit) := by
  rw [window_eq c, ha, hb, hc]
  simp only [Pipeline.chainK, bind_assoc]

end Cert.KernelIdeal.Win1

end
-- ==== Proof.KernelIdealFrame.lean ====
/-
  The frame of `KernelIdeal`, at any float instance: the program is four host lines (two reshapes and two
  changes of float format), ONE kernel region on a grid of 4 × 16 points, and then 265 host lines that read
  the region's result.

  The region. Window 0 stages the block [1, 128, 256] of the first operand at block index (n, 0, i), window 1 the
  block [1, 128, 4096] of the second at (n, 0, 0) (fetched only when n moves: every 16th point), window 2 is the
  result's block [1, 256, 4096] at (n, i, 0), written back at every point. The body loads the two input blocks
  whole, loads the result's buffer (and does nothing with what it read), and stores ONE value over the whole
  result buffer: the matrix product of the two blocks contracted over their 128 rows. So after the body the result's
  buffer is the canonical form of that one store, a function of the two input blocks alone; the inputs' buffers are
  as found; nothing else is touched.

  The host lines. None of the 4 lines before the region and none of the 265 after it writes an argument array or
  an array the region stages; each writes only its own fresh result buffer. Hence every argument array ends as
  launched, which is the frame claim; and each result buffer ends at the value the later lines compute from the
  region's result array and the arguments (the run's post below names it, for the value claim to read).
-/
import proofs.«152563_j67370857005292_2_alg».proof.Proof.KernelIdealLaunch
import proofs.«152563_j67370857005292_2_alg».proof.Proof.Gen.KernelIdeal.Skeleton
import proofs.«152563_j67370857005292_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- What core `c`'s buffers hold when the region is entered: the launch contents after the four host lines. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The host lines after the region, stretch by stretch (a called function's lines are a stretch of their own). -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20]

/-! Every host line allocates nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor
theorem hostOps1_17_fresh : (hostOps1_17 : List (HloOp τ sig (Elt F))).Forall fun op => op.fresh = ∅ := by
  simp only [List.Forall]; repeat' constructor
theorem hostOps1_18_fresh : (hostOps1_18 : List (HloOp τ sig (Elt F))).Forall fun op => op.fresh = ∅ := by
  simp only [List.Forall]; repeat' constructor
theorem hostOps1_19_fresh : (hostOps1_19 : List (HloOp τ sig (Elt F))).Forall fun op => op.fresh = ∅ := by
  simp only [List.Forall]; repeat' constructor
theorem hostOps1_20_fresh : (hostOps1_20 : List (HloOp τ sig (Elt F))).Forall fun op => op.fresh = ∅ := by
  simp only [List.Forall]; repeat' constructor

/-- The program is the four lines, the region, the later lines: it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- A host line keeps the four argument arrays and the three arrays the region stages: it writes none of them. -/
abbrev Keeps (op : HloOp τ sig (Elt F)) : Prop :=
  Proc.devRef .tc main_arg0 ∉ op.writes ∧ Proc.devRef .tc main_arg1 ∉ op.writes ∧ Proc.devRef .tc main_arg2 ∉ op.writes
    ∧ Proc.devRef .tc main_arg3 ∉ op.writes ∧ Proc.devRef .tc main_v1 ∉ op.writes ∧ Proc.devRef .tc main_v3 ∉ op.writes
    ∧ Proc.devRef .tc main_v4 ∉ op.writes

/-! Each later line writes only its own result buffer, which is none of those seven. -/
theorem hostOps1_keeps : (hostOps1 : List (HloOp τ sig (Elt F))).Forall Keeps := by
  simp only [hostOps1, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_1_keeps : (hostOps1_1 : List (HloOp τ sig (Elt F))).Forall Keeps := by
  simp only [hostOps1_1, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_2_keeps : (hostOps1_2 : List (HloOp τ sig (Elt F))).Forall Keeps := by
  simp only [hostOps1_2, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_3_keeps : (hostOps1_3 : List (HloOp τ sig (Elt F))).Forall Keeps := by
  simp only [hostOps1_3, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_4_keeps : (hostOps1_4 : List (HloOp τ sig (Elt F))).Forall Keeps := by
  simp only [hostOps1_4, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_5_keeps : (hostOps1_5 : List (HloOp τ sig (Elt F))).Forall Keeps := by
  simp only [hostOps1_5, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_6_keeps : (hostOps1_6 : List (HloOp τ sig (Elt F))).Forall Keeps := by
  simp only [hostOps1_6, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_7_keeps : (hostOps1_7 : List (HloOp τ sig (Elt F))).Forall Keeps := by
  simp only [hostOps1_7, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_8_keeps : (hostOps1_8 : List (HloOp τ sig (Elt F))).Forall Keeps := by
  simp only [hostOps1_8, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_9_keeps : (hostOps1_9 : List (HloOp τ sig (Elt F))).Forall Keeps := by
  simp only [hostOps1_9, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_10_keeps : (hostOps1_10 : List (HloOp τ sig (Elt F))).Forall Keeps := by
  simp only [hostOps1_10, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_11_keeps : (hostOps1_11 : List (HloOp τ sig (Elt F))).Forall Keeps := by
  simp only [hostOps1_11, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_12_keeps : (hostOps1_12 : List (HloOp τ sig (Elt F))).Forall Keeps := by
  simp only [hostOps1_12, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_13_keeps : (hostOps1_13 : List (HloOp τ sig (Elt F))).Forall Keeps := by
  simp only [hostOps1_13, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_14_keeps : (hostOps1_14 : List (HloOp τ sig (Elt F))).Forall Keeps := by
  simp only [hostOps1_14, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_15_keeps : (hostOps1_15 : List (HloOp τ sig (Elt F))).Forall Keeps := by
  simp only [hostOps1_15, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_16_keeps : (hostOps1_16 : List (HloOp τ sig (Elt F))).Forall Keeps := by
  simp only [hostOps1_16, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_17_keeps : (hostOps1_17 : List (HloOp τ sig (Elt F))).Forall Keeps := by
  simp only [hostOps1_17, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_18_keeps : (hostOps1_18 : List (HloOp τ sig (Elt F))).Forall Keeps := by
  simp only [hostOps1_18, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_19_keeps : (hostOps1_19 : List (HloOp τ sig (Elt F))).Forall Keeps := by
  simp only [hostOps1_19, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)
theorem hostOps1_20_keeps : (hostOps1_20 : List (HloOp τ sig (Elt F))).Forall Keeps := by
  simp only [hostOps1_20, List.Forall, Keeps, StableHlo.TRef.nullary, StableHlo.TRef.unary, StableHlo.TRef.binary, StableHlo.TRef.ternary, StableHlo.TRef.reshape,
    StableHlo.nullary_writes, StableHlo.unary_writes, StableHlo.binary_writes, StableHlo.ternary_writes, StableHlo.quaternary_writes,
    StableHlo.reshape_writes, StableHlo.binaryIndexed_writes, StableHlo.nary_writes, Finset.mem_singleton]
  repeat' apply And.intro
  all_goals exact StableHlo.devRef_ne_of_ne (by decide)

theorem tail_keeps : ∀ ops ∈ (tailOps : List (List (HloOp τ sig (Elt F)))), ∀ op ∈ ops, Keeps op := by
  have h : (tailOps : List (List (HloOp τ sig (Elt F)))).Forall fun ops => ops.Forall Keeps :=
    ⟨hostOps1_keeps, hostOps1_1_keeps, hostOps1_2_keeps, hostOps1_3_keeps, hostOps1_4_keeps, hostOps1_5_keeps, hostOps1_6_keeps, hostOps1_7_keeps, hostOps1_8_keeps, hostOps1_9_keeps, hostOps1_10_keeps, hostOps1_11_keeps, hostOps1_12_keeps, hostOps1_13_keeps, hostOps1_14_keeps, hostOps1_15_keeps, hostOps1_16_keeps, hostOps1_17_keeps, hostOps1_18_keeps, hostOps1_19_keeps, hostOps1_20_keeps⟩
  exact fun ops ho op h' => List.forall_iff_forall_mem.mp (List.forall_iff_forall_mem.mp h ops ho) op h'

/-- The later lines touch only unscoped TensorCore buffers: the pipeline's arrays and the buffers that bypass it. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  have h : (tailOps : List (List (HloOp τ sig (Elt F)))).Forall fun ops => ops.Forall fun op => op.bufs ⊆ StableHlo.tcRefs τ sig :=
    ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub⟩
  exact fun ops ho op h' => Pipeline.sub_ucRefs op (List.forall_iff_forall_mem.mp (List.forall_iff_forall_mem.mp h ops ho) op h')

/-- They allocate nothing. -/
theorem sfx_fresh : ∀ ops ∈ (tailOps : List (List (HloOp τ sig (Elt F)))), ∀ op ∈ ops, op.fresh = ∅ := by
  have h : (tailOps : List (List (HloOp τ sig (Elt F)))).Forall fun ops => ops.Forall fun op => op.fresh = ∅ :=
    ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh, hostOps1_13_fresh, hostOps1_14_fresh, hostOps1_15_fresh, hostOps1_16_fresh, hostOps1_17_fresh, hostOps1_18_fresh, hostOps1_19_fresh, hostOps1_20_fresh⟩
  exact fun ops ho op h' => List.forall_iff_forall_mem.mp (List.forall_iff_forall_mem.mp h ops ho) op h'

/-- And write no array the region stages. -/
theorem sfx_keeps : ∀ ops ∈ (tailOps : List (List (HloOp τ sig (Elt F)))), ∀ op ∈ ops,
    ∀ w, Proc.devRef .tc (Pipeline.arrRef spec0 w) ∉ op.writes := by
  intro ops ho op h' w
  have hk := tail_keeps ops ho op h'
  fin_cases w
  · exact hk.2.2.2.2.1
  · exact hk.2.2.2.2.2.1
  · exact hk.2.2.2.2.2.2

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 0 either, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (fun op hop => by
      obtain ⟨ops, ho, h'⟩ := List.mem_flatten.mp hop
      have hk := tail_keeps ops ho op h'
      exact hk.1),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 1 either, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (fun op hop => by
      obtain ⟨ops, ho, h'⟩ := List.mem_flatten.mp hop
      have hk := tail_keeps ops ho op h'
      exact hk.2.1),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 2 either, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (fun op hop => by
      obtain ⟨ops, ho, h'⟩ := List.mem_flatten.mp hop
      have hk := tail_keeps ops ho op h'
      exact hk.2.2.1),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 3 either, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (fun op hop => by
      obtain ⟨ops, ho, h'⟩ := List.mem_flatten.mp hop
      have hk := tail_keeps ops ho op h'
      exact hk.2.2.2.1),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first operand's staging buffer holds its block at every point, for any proof data over these arrays that leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The second operand's staging buffer holds its block at every point, fetched there or not: where it is not fetched the block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run whose post has every bypassing buffer at what the later lines leave in it, the frame claim: each
    argument array bypasses the region, and no line writes it. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c)⟩) h

/-! ## The body's accesses -/

abbrev r0_0 : Rect S1x128x256 := Rect.unit (s := S1x128x256) ![0, 0, 0] S1x128x256.size inb_S1x128x256_S1x128x256_0_0_0
abbrev r0_1 : Rect S1x128x4096 := Rect.unit (s := S1x128x4096) ![0, 0, 0] S1x128x4096.size inb_S1x128x4096_S1x128x4096_0_0_0
abbrev r0_2 : Rect S1x256x4096 := Rect.unit (s := S1x256x4096) ![0, 0, 0] S1x256x4096.size inb_S1x256x4096_S1x256x4096_0_0_0

/-! ## What the body leaves in the result's buffer -/

/-- The result's staging buffer after the body, from the two input blocks: its one store, over the whole buffer. -/
def out0_2 (x0 : Vec F S1x128x256 .bf16) (x1 : Vec F S1x128x4096 .bf16) : Vec F S1x256x4096 .f32 :=
  View.canon [⟨r0_2, k0_pay1 (View.ld x0 r0_0) (View.ld x1 r0_1)⟩]

/-- The one store covers the buffer. -/
theorem cover0_2 (p0 : Vec F S1x256x4096 .f32) (y : S1x256x4096.Idx) :
    ∃ pc ∈ ([⟨r0_2, p0⟩] : List (View.Piece (Elt F) S1x256x4096 .f32)), y ∈ pc.1.set :=
  View.cover_of_tiled [⟨r0_2, p0⟩] S1x256x4096.size (by rfl) y

/-! ## The body's triple -/

set_option maxHeartbeats 1000000 in
/-- The body on whole staging memrefs — the inputs' at contents `x0`, `x1`, the result's at anything — runs to its end
    holding the inputs' as they were and the result's at `out0_2 x0 x1`. -/
theorem sound_kernel (c : Dev nD) (E : Set ℕ) (i : grid0.Coords) (arg2 : Memref sig .tc .vmem S1x128x256 .bf16) (harg2 : arg2.IsWhole) (arg3 : Memref sig .tc .vmem S1x128x4096 .bf16) (harg3 : arg3.IsWhole) (arg4 : Memref sig .tc .vmem S1x256x4096 .f32) (harg4 : arg4.IsWhole)
    (x0 : Vec F S1x128x256 .bf16) (x1 : Vec F S1x128x4096 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__corr_matmul_kernel i arg2 harg2 arg3 harg3 arg4 harg4) K := by
  simp only [cc0__corr_matmul_kernel_eq_skeleton]; unfold cc0__corr_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at point `t` each input's buffer at its block and the
    result's at `out0_2` of the two input blocks; the invariant is the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program on the TensorCores terminates, and every final state has each array the
    region stages at what the write-backs leave in it and every other unscoped buffer at what the later lines compute. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim at any float instance: the program runs to its end, faults nowhere, and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.KernelIdeal.Frm

end
-- ==== Proof.CorrAtIndex.lean ====
/-
  The correlation product read at one index, on both sides, at the ideal values (a float an extended real, every float
  operation exact, a change of float format the identity).

  Kernel side: the block body's pure term `k0_pay1 v0 v2` drops the leading unit axis of `v0 : [1,128,256]` and of
  `v2 : [1,128,4096]`, multiplies them contracting axis 0 of both into a zero accumulator, and puts a leading unit axis
  back; at `(0, p, q)` it is `∑ c : Fin 128, v0 (0, c, p) * v2 (0, c, q)` (`k0_pay1_apply`).
  Reference side: the batched product with batch axis 0 and axis 1 of both operands contracted is, at `(n, p, q)`,
  `∑ c : Fin 128, l (n, c, p) * r (n, c, q)` (`ref_dotGeneral_apply`).
  Both are the library's "product at an index is the sum over the contraction index of the operands' products", with
  the one-axis contraction index re-indexed by its coordinate `c : Fin 128` and the operand indices computed coordinate
  by coordinate (`DK_lhsIdx`, `DK_rhsIdx`, `DR_lhsIdx`, `DR_rhsIdx`).
  Last, at the ideal values the narrowing f32 → bf16 is the identity, elementwise and as a function
  (`truncf_bf16_apply`, `truncf_bf16_eq`, and the same for the host prefix's form on buffer contents).
-/
import proofs.«152563_j67370857005292_2_alg».proof.Proof.Gen.KernelIdeal.Skeleton
import proofs.«152563_j67370857005292_2_alg».proof.ReferenceIdeal
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe
open Idealize.ShloMosaic.ValueIdx
open scoped BigOperators

namespace Cert.CorrAtIndex

/-! ## The kernel's product read at an index -/

/-- The kernel's dimension numbers: axis 0 of both operands contracted, no batch axis. -/
abbrev DK : DotDims Cert.KernelIdeal.S128x256 Cert.KernelIdeal.S128x4096 Cert.KernelIdeal.S256x4096 :=
  Cert.KernelIdeal.dot_S128x256_S128x4096_S256x4096_0_0_1_1_n_n

/-- The contraction index of the kernel's product is its one coordinate, in `Fin 128`. -/
abbrev eK : DK.contr.Idx ≃ Fin 128 := contrEquiv1 DK 128 rfl rfl

/-- At output `(p, q)` and contraction coordinate `c` the left operand is read at `(c, p)`. -/
theorem DK_lhsIdx (p : Fin 256) (q : Fin 4096) (c : Fin 128) :
    DK.lhsIdx (ix2 p q) (eK.symm c) = ix2 c p := by
  funext a
  match a with
  | ⟨0, _⟩ =>
    exact Fin.ext ((DK.lhsIdx_val_of_single (cl := 0) rfl _ _).trans (contrEquiv1_symm_val DK 128 rfl rfl c))
  | ⟨1, _⟩ =>
    refine Fin.ext ?_
    simp [DotDims.lhsIdx, DK, Cert.KernelIdeal.dot_S128x256_S128x4096_S256x4096_0_0_1_1_n_n]
    rfl

/-- At output `(p, q)` and contraction coordinate `c` the right operand is read at `(c, q)`. -/
theorem DK_rhsIdx (p : Fin 256) (q : Fin 4096) (c : Fin 128) :
    DK.rhsIdx (ix2 p q) (eK.symm c) = ix2 c q := by
  funext a
  match a with
  | ⟨0, _⟩ =>
    exact Fin.ext ((DK.rhsIdx_val_of_single (cr := 0) rfl _ _).trans (contrEquiv1_symm_val DK 128 rfl rfl c))
  | ⟨1, _⟩ =>
    refine Fin.ext ?_
    simp [DotDims.rhsIdx, DK, Cert.KernelIdeal.dot_S128x256_S128x4096_S256x4096_0_0_1_1_n_n]
    rfl

/-- The block body's value at `(0, p, q)`: the sum over the 128 channels of the two blocks' products. The outer cast
    adds a unit axis (read at `(p, q)`), the product into the zero accumulator is the bare sum over the contraction
    index, that index is re-indexed by `c : Fin 128`, and each inner cast drops a unit axis (read at `(0, c, ·)`). -/
theorem k0_pay1_apply (v0 : Vec Ideal Cert.KernelIdeal.S1x128x256 .bf16) (v2 : Vec Ideal Cert.KernelIdeal.S1x128x4096 .bf16)
    (p : Fin 256) (q : Fin 4096) :
    Cert.KernelIdeal.Gen.k0_pay1 (F := Ideal) v0 v2 (ix3 (0 : Fin 1) p q)
      = ∑ c : Fin 128, v0 (ix3 (0 : Fin 1) c p) * v2 (ix3 (0 : Fin 1) c q) := by
  unfold Cert.KernelIdeal.Gen.k0_pay1
  refine (shapeCast_ab_1ab_apply _ _ (0 : Fin 1) p q).trans ?_
  refine (Ideal.matmul_constant_zero_apply DK none _ _ (ix2 p q)).trans ?_
  rw [← Equiv.sum_comp eK.symm]
  refine Finset.sum_congr rfl fun c _ => ?_
  rw [DK_lhsIdx, DK_rhsIdx, shapeCast_1ab_ab_apply, shapeCast_1ab_ab_apply]

/-! ## The reference's batched product read at an index -/

section Reference
variable [Cert.ReferenceIdeal.Facts₀]

/-- The reference's dimension numbers: batch axis 0, axis 1 of both operands contracted. -/
abbrev DR : DotDims Cert.ReferenceIdeal.S4x128x4096 Cert.ReferenceIdeal.S4x128x4096 Cert.ReferenceIdeal.S4x4096x4096 :=
  Cert.ReferenceIdeal.dot_S4x128x4096_S4x128x4096_S4x4096x4096_1_1_2_2_0_0

/-- Its contraction index is its one coordinate, in `Fin 128`. -/
abbrev eR : DR.contr.Idx ≃ Fin 128 := contrEquiv1 DR 128 rfl rfl

/-- At output `(n, p, q)` and contraction coordinate `c` the left operand is read at `(n, c, p)`. -/
theorem DR_lhsIdx (n : Fin 4) (p q : Fin 4096) (c : Fin 128) :
    DR.lhsIdx (ix3 n p q) (eR.symm c) = ix3 n c p := by
  funext a
  match a with
  | ⟨0, _⟩ =>
    refine Fin.ext ?_
    simp [DotDims.lhsIdx, DR, Cert.ReferenceIdeal.dot_S4x128x4096_S4x128x4096_S4x4096x4096_1_1_2_2_0_0]
    rfl
  | ⟨1, _⟩ =>
    exact Fin.ext ((DR.lhsIdx_val_of_single (cl := 1) rfl _ _).trans (contrEquiv1_symm_val DR 128 rfl rfl c))
  | ⟨2, _⟩ =>
    refine Fin.ext ?_
    simp [DotDims.lhsIdx, DR, Cert.ReferenceIdeal.dot_S4x128x4096_S4x128x4096_S4x4096x4096_1_1_2_2_0_0]
    rfl

/-- At output `(n, p, q)` and contraction coordinate `c` the right operand is read at `(n, c, q)`. -/
theorem DR_rhsIdx (n : Fin 4) (p q : Fin 4096) (c : Fin 128) :
    DR.rhsIdx (ix3 n p q) (eR.symm c) = ix3 n c q := by
  funext a
  match a with
  | ⟨0, _⟩ =>
    refine Fin.ext ?_
    simp [DotDims.rhsIdx, DR, Cert.ReferenceIdeal.dot_S4x128x4096_S4x128x4096_S4x4096x4096_1_1_2_2_0_0]
    rfl
  | ⟨1, _⟩ =>
    exact Fin.ext ((DR.rhsIdx_val_of_single (cr := 1) rfl _ _).trans (contrEquiv1_symm_val DR 128 rfl rfl c))
  | ⟨2, _⟩ =>
    refine Fin.ext ?_
    simp [DotDims.rhsIdx, DR, Cert.ReferenceIdeal.dot_S4x128x4096_S4x128x4096_S4x4096x4096_1_1_2_2_0_0]
    rfl

/-- The reference's product at `(n, p, q)`: the sum over the 128 channels of batch `n`'s products. -/
theorem ref_dotGeneral_apply (l r : FVec Ideal Cert.ReferenceIdeal.S4x128x4096 .f32) (n : Fin 4) (p q : Fin 4096) :
    Host.dotGeneral (F := Ideal) Cert.ReferenceIdeal.dot_S4x128x4096_S4x128x4096_S4x4096x4096_1_1_2_2_0_0 none l r (ix3 n p q)
      = ∑ c : Fin 128, l (ix3 n c p) * r (ix3 n c q) := by
  refine (Ideal.dotGeneral_apply DR none .single l r (ix3 n p q)).trans ?_
  rw [← Equiv.sum_comp eR.symm]
  refine Finset.sum_congr rfl fun c _ => ?_
  rw [DR_lhsIdx, DR_rhsIdx]

end Reference

/-! ## A change of float format at the ideal values -/

/-- At the ideal values the narrowing f32 → bf16 reads, at every index, the operand there. -/
theorem truncf_bf16_apply {S : Shape} (x : FVec Ideal S .f32) (h : FTy.bits .bf16 < FTy.bits .f32) (i : S.Idx) :
    (truncf .bf16 x h : FVec Ideal S .bf16) i = x i := rfl

/-- So it is the identity (the two vector types are the same type at the ideal values). -/
theorem truncf_bf16_eq {S : Shape} (x : FVec Ideal S .f32) (h : FTy.bits .bf16 < FTy.bits .f32) :
    (truncf .bf16 x h : FVec Ideal S .bf16) = x := rfl

/-- The same in the form of the host prefix's conversion, a function between two buffers' contents, at an index. -/
theorem truncf_contents_apply (h : FTy.bits .bf16 < FTy.bits .f32)
    (x : (⟨Cert.KernelIdeal.S4x128x4096, .f32⟩ : BufTy).Contents (Elt Ideal)) (i : Cert.KernelIdeal.S4x128x4096.Idx) :
    ((truncf (F := Ideal) .bf16 · h) : (⟨Cert.KernelIdeal.S4x128x4096, .f32⟩ : BufTy).Contents (Elt Ideal)
        → (⟨Cert.KernelIdeal.S4x128x4096, .bf16⟩ : BufTy).Contents (Elt Ideal)) x i = x i := rfl

/-- and as a function: the identity on the contents. -/
theorem truncf_contents_eq (h : FTy.bits .bf16 < FTy.bits .f32)
    (x : (⟨Cert.KernelIdeal.S4x128x4096, .f32⟩ : BufTy).Contents (Elt Ideal)) :
    ((truncf (F := Ideal) .bf16 · h) : (⟨Cert.KernelIdeal.S4x128x4096, .f32⟩ : BufTy).Contents (Elt Ideal)
        → (⟨Cert.KernelIdeal.S4x128x4096, .bf16⟩ : BufTy).Contents (Elt Ideal)) x = x := rfl

end Cert.CorrAtIndex
-- ==== Proof.KernelIdealCorr.lean ====
/-
  The kernel region's result array, as one function of the two arrays it stages.

  The grid has 4 × 16 points; point (n, i) stages rows-block i of batch n of the first operand — the [128, 256] slab
  a[n, ·, 256 i .. 256 i + 255] —, the whole batch n of the second — b[n, ·, ·], [128, 4096] —, and writes back the block
  [256, 4096] of the result at (n, 256 i .. 256 i + 255, ·). The body stores the product of the two slabs contracted over
  their 128 rows, so entry (p, q) of what point (n, i) writes back is  Σ_c a[n, c, 256 i + p] · b[n, c, q] : block (n, i) of
  the ONE array  corr a b [n, P, q] = Σ_c a[n, c, P] · b[n, c, q].  The 64 blocks tile the result array (every index
  (n, P, q) lies in the block of point (n, P / 256)), so after the region the result array IS corr a b.
-/
import proofs.«152563_j67370857005292_2_alg».proof.Proof.KernelIdealFrame
import proofs.«152563_j67370857005292_2_alg».proof.Proof.CorrAtIndex
import Idealize.ShloMosaic.Lib.Pipeline.Value
import Idealize.ShloMosaic.Lib.ValueIdx

set_option maxRecDepth 16384

noncomputable section

namespace Cert.KernelIdeal.Corr

open Cert.KernelIdeal Cert.KernelIdeal.Gen Cert.KernelIdeal.GenP Cert.KernelIdeal.Frm
open Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ) (ρ : Dev nD → PrngReg)

/-- The correlation volume of two arrays of shape [4, 128, 4096]: entry (n, P, q) is the sum over the 128 channels
    c of a[n, c, P] · b[n, c, q], on the extended reals. -/
def corr (a b : Vec Ideal S4x128x4096 .bf16) : FVec Ideal S4x4096x4096 .f32 :=
  fun i => ∑ c : Fin 128, a (ix3 (i 0) c (i 1)) * b (ix3 (i 0) c (i 2))

theorem hz3 : (![0, 0, 0] : Fin 3 → Nat) = fun _ => 0 := funext fun a => by fin_cases a <;> rfl

/-- The printed index maps, decided over the 64 points: the first operand's block index is (n, 0, i), the second's
    (n, 0, 0), the result's (n, i, 0), with n ≤ 3 and i ≤ 15. -/
theorem idx_facts : ∀ t : Fin cfg0.N,
    win0_0.index t (0 : Fin 3) = win0_2.index t (0 : Fin 3) ∧ win0_0.index t (1 : Fin 3) = 0
    ∧ win0_0.index t (2 : Fin 3) = win0_2.index t (1 : Fin 3)
    ∧ win0_1.index t (0 : Fin 3) = win0_2.index t (0 : Fin 3) ∧ win0_1.index t (1 : Fin 3) = 0 ∧ win0_1.index t (2 : Fin 3) = 0
    ∧ win0_2.index t (2 : Fin 3) = 0 ∧ win0_2.index t (0 : Fin 3) ≤ 3 ∧ win0_2.index t (1 : Fin 3) ≤ 15 :=
  (by decide +kernel : ∀ t : Fin grid0.N, _)

/-- The result's block index in closed form: point t is (n, i) = (t / 16, t % 16). -/
theorem idx_closed : ∀ t : Fin cfg0.N, win0_2.index t (0 : Fin 3) = t.val / 16 ∧ win0_2.index t (1 : Fin 3) = t.val % 16 :=
  (by decide +kernel : ∀ t : Fin grid0.N, _)

set_option maxHeartbeats 4000000 in
/-- What point `t` writes back is block `t` of the correlation volume of the two staged arrays. -/
theorem flushed_eq (c : Dev nD) (t : Fin cfg0.N) :
    (dats m 0 c).flushed 2 t = ((cfg0.win 2).blk t).view.read (Elt Ideal) (corr (V m c main_v1) (V m c main_v3)) := by
  show (cfg0.win 2).cut (grid0.coords t) ((dats m 0 c).after 2 t) = _
  rw [after0_2]
  unfold out0_2
  rw [View.canon_unit_zero hz3]
  simp only [View.ld_unit_zero (S := S1x128x256) hz3, View.ld_unit_zero (S := S1x128x4096) hz3]
  obtain ⟨e0, e1, e2, e3, e4, e5, e6, e7, e8⟩ := idx_facts t
  funext j
  obtain ⟨u, p, q, rfl⟩ : ∃ (u : Fin 1) (p : Fin 256) (q : Fin 4096), j = ix3 u p q := ⟨j 0, j 1, j 2, eq_ix3 j⟩
  obtain rfl : u = 0 := Subsingleton.elim _ _
  show k0_pay1 (iblk m c 0 t) (iblk m c 1 t) (ix3 0 p q)
    = corr (V m c main_v1) (V m c main_v3) (((cfg0.win 2).blk t).view.emb (ix3 0 p q))
  refine (Cert.CorrAtIndex.k0_pay1_apply (iblk m c 0 t) (iblk m c 1 t) p q).trans ?_
  unfold corr
  refine Finset.sum_congr rfl fun cc _ => ?_
  have hA : iblk m c 0 t (ix3 0 cc p)
      = V m c main_v1 (ix3 ((((cfg0.win 2).blk t).view.emb (ix3 0 p q)) 0) cc ((((cfg0.win 2).blk t).view.emb (ix3 0 p q)) 1)) := by
    show V m c main_v1 (((cfg0.win 0).blk t).view.emb (ix3 0 cc p)) = _
    refine congrArg _ (funext fun a => Fin.ext ?_)
    match a with
    | ⟨0, _⟩ => show win0_0.index t (0 : Fin 3) * 1 + 1 * 0 = win0_2.index t (0 : Fin 3) * 1 + 1 * 0; omega
    | ⟨1, _⟩ => show win0_0.index t (1 : Fin 3) * 128 + 1 * cc.val = cc.val; omega
    | ⟨2, _⟩ => show win0_0.index t (2 : Fin 3) * 256 + 1 * p.val = win0_2.index t (1 : Fin 3) * 256 + 1 * p.val; omega
  have hB : iblk m c 1 t (ix3 0 cc q)
      = V m c main_v3 (ix3 ((((cfg0.win 2).blk t).view.emb (ix3 0 p q)) 0) cc ((((cfg0.win 2).blk t).view.emb (ix3 0 p q)) 2)) := by
    show V m c main_v3 (((cfg0.win 1).blk t).view.emb (ix3 0 cc q)) = _
    refine congrArg _ (funext fun a => Fin.ext ?_)
    match a with
    | ⟨0, _⟩ => show win0_1.index t (0 : Fin 3) * 1 + 1 * 0 = win0_2.index t (0 : Fin 3) * 1 + 1 * 0; omega
    | ⟨1, _⟩ => show win0_1.index t (1 : Fin 3) * 128 + 1 * cc.val = cc.val; omega
    | ⟨2, _⟩ => show win0_1.index t (2 : Fin 3) * 4096 + 1 * q.val = win0_2.index t (2 : Fin 3) * 4096 + 1 * q.val; omega
  rw [hA, hB]

/-- An index of the result array is in point `t`'s block iff each coordinate is in the block's range on its axis. -/
theorem mem_blk (t : Fin cfg0.N) (i : S4x4096x4096.Idx) :
    i ∈ ((cfg0.win 2).blk t).view.set ↔ ∀ a : Fin 3, win0_2.index t a * S1x256x4096.size a ≤ (i a).val ∧ (i a).val < win0_2.index t a * S1x256x4096.size a + S1x256x4096.size a := by
  show i ∈ ((View.whole main_v4).slice (win0_2.rect t)).set ↔ _
  rw [View.set_slice_whole, Rect.mem_set_unit]
  exact Iff.rfl

/-- The 64 blocks tile the result array: the index (n, P, q) lies in the block of point (n, P / 256), which is point
    16 n + P / 256 of the grid. -/
theorem cover (i : S4x4096x4096.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 4096 := (i 2).isLt
  have hN : cfg0.N = 64 := N_0
  let t : Fin cfg0.N := ⟨(i 0).val * 16 + (i 1).val / 256, by rw [hN]; omega⟩
  have ht : t.val = (i 0).val * 16 + (i 1).val / 256 := rfl
  obtain ⟨q0, q1⟩ := idx_closed t
  obtain ⟨-, -, -, -, -, -, q2, -, -⟩ := idx_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 4096 ≤ (i 2).val ∧ (i 2).val < win0_2.index t (2 : Fin 3) * 4096 + 4096; omega

set_option maxHeartbeats 4000000 in
/-- After the region the result array is the correlation volume of the two staged arrays. -/
theorem final (c : Dev nD) : (dats m 0 c).arrAt 2 cfg0.N = corr (V m c main_v1) (V m c main_v3) :=
  (dats m 0 c).arrAt_eq_of_cover 2 _ (fun t _ => flushed_eq m c t) cover

end Cert.KernelIdeal.Corr

end
-- ==== Proof.LibTRefPlain.lean ====
/-
  Typed-reference host operations are the plain ones.

  A host operation over typed references applies its function between the references' own buffer types, moved there from
  the carried types along the references' type equations. When the function at the carried types and a function at the
  buffers' own types are the same function (heterogeneously: the two types are equal by those same equations), the typed
  operation IS the plain operation with that function: substitute the type equations and nothing is left to move.
-/
import Idealize.ShloMosaic.Lib.StableHlo

noncomputable section

namespace Idealize.ShloMosaic.StableHlo.TRef

variable {τ : Topo} {sig : RefSig} {Val : EltTy → Type}

/-- A constant written through a typed reference is the plain write of the same constant. -/
theorem nullary_eq_plain {Ty : BufTy} (y : TRef sig Ty) (v : Ty.Contents Val) (v' : y.ref.ty.Contents Val) (h : HEq v v') :
    TRef.nullary (τ := τ) y v = StableHlo.nullary y.ref v' y.dev := by
  obtain ⟨ry, hy, dy, uy⟩ := y
  subst hy
  cases h
  rfl

/-- A one-operand operation over typed references is the plain one with the same function. -/
theorem unary_eq_plain {Tx Ty : BufTy} (x : TRef sig Tx) (y : TRef sig Ty) (f : Tx.Contents Val → Ty.Contents Val)
    (g : x.ref.ty.Contents Val → y.ref.ty.Contents Val) (h : HEq f g) :
    TRef.unary (τ := τ) x y f = StableHlo.unary x.ref y.ref g x.dev y.dev := by
  obtain ⟨rx, hx, dx, ux⟩ := x
  obtain ⟨ry, hy, dy, uy⟩ := y
  subst hx
  subst hy
  cases h
  rfl

/-- A two-operand operation over typed references is the plain one with the same function. -/
theorem binary_eq_plain {Ta Tb Ty : BufTy} (a : TRef sig Ta) (b : TRef sig Tb) (y : TRef sig Ty)
    (f : Ta.Contents Val → Tb.Contents Val → Ty.Contents Val)
    (g : a.ref.ty.Contents Val → b.ref.ty.Contents Val → y.ref.ty.Contents Val) (h : HEq f g) :
    TRef.binary (τ := τ) a b y f = StableHlo.binary a.ref b.ref y.ref g a.dev b.dev y.dev := by
  obtain ⟨ra, ha, da, ua⟩ := a
  obtain ⟨rb, hb, db, ub⟩ := b
  obtain ⟨ry, hy, dy, uy⟩ := y
  subst ha
  subst hb
  subst hy
  cases h
  rfl

/-- A three-operand operation over typed references is the plain one with the same function. -/
theorem ternary_eq_plain {Tc Ta Tb Ty : BufTy} (c : TRef sig Tc) (a : TRef sig Ta) (b : TRef sig Tb) (y : TRef sig Ty)
    (f : Tc.Contents Val → Ta.Contents Val → Tb.Contents Val → Ty.Contents Val)
    (g : c.ref.ty.Contents Val → a.ref.ty.Contents Val → b.ref.ty.Contents Val → y.ref.ty.Contents Val) (h : HEq f g) :
    TRef.ternary (τ := τ) c a b y f = StableHlo.ternary c.ref a.ref b.ref y.ref g c.dev a.dev b.dev y.dev := by
  obtain ⟨rc, hc, dc, uc⟩ := c
  obtain ⟨ra, ha, da, ua⟩ := a
  obtain ⟨rb, hb, db, ub⟩ := b
  obtain ⟨ry, hy, dy, uy⟩ := y
  subst hc
  subst ha
  subst hb
  subst hy
  cases h
  rfl

/-- A reshape over typed references is the plain reshape (its two side conditions are propositions). -/
theorem reshape_eq_plain {Tx Ty : BufTy} (x : TRef sig Tx) (y : TRef sig Ty) (he : Tx.elt = Ty.elt) (hn : Tx.shape.ShapeCasts Ty.shape)
    (he' : x.ref.ty.elt = y.ref.ty.elt) (hn' : x.ref.ty.shape.ShapeCasts y.ref.ty.shape) :
    TRef.reshape (τ := τ) (Val := Val) x y he hn = StableHlo.reshape x.ref y.ref he' hn' x.dev y.dev := rfl

end Idealize.ShloMosaic.StableHlo.TRef

end
-- ==== Proof.KernelIdealPlain.lean ====
/-
  The called functions' stretches of `KernelIdeal`'s host lines — the eight calls of the clipping function, the take along the
  last axis, the select — restated with the plain operation builders: the same references, the same functions at the same
  types. Each generated stretch, written over typed references, equals its plain restatement operation by operation.
-/
import proofs.«152563_j67370857005292_2_alg».proof.Proof.KernelIdealLaunch
import proofs.«152563_j67370857005292_2_alg».proof.Proof.LibTRefPlain

noncomputable section

namespace Cert.KernelIdeal.Plain

open Cert.KernelIdeal Cert.KernelIdeal.Gen Cert.KernelIdeal.GenP
open Idealize.ShloMosaic Idealize.ShloMosaic.TcCoe Idealize.SL.Sem

variable {F : FTy → Type} [FloatOps F]

/-- The stretch `hostOps1_1` with the plain builders. -/
abbrev plainOps1_1 : List (HloOp τ sig (Elt F)) :=
  [ StableHlo.unary main_c_6 main_call0_v0 ((id) : (⟨S_, .i32⟩ : BufTy).Contents (Elt F) → (⟨S_, .i32⟩ : BufTy).Contents (Elt F)),
    StableHlo.unary main_call0_v0 main_call0_v1 (((broadcastInDim S4x4096x64 ![] bcast_S_S4x4096x64)) : (⟨S_, .i32⟩ : BufTy).Contents (Elt F) → (⟨S4x4096x64, .i32⟩ : BufTy).Contents (Elt F)),
    StableHlo.binary main_call0_v1 main_v24 main_call0_v2 ((maxsi) : (⟨S4x4096x64, .i32⟩ : BufTy).Contents (Elt F) → (⟨S4x4096x64, .i32⟩ : BufTy).Contents (Elt F) → (⟨S4x4096x64, .i32⟩ : BufTy).Contents (Elt F)),
    StableHlo.unary main_c_7 main_call0_v3 ((id) : (⟨S_, .i32⟩ : BufTy).Contents (Elt F) → (⟨S_, .i32⟩ : BufTy).Contents (Elt F)),
    StableHlo.unary main_call0_v3 main_call0_v4 (((broadcastInDim S4x4096x64 ![] bcast_S_S4x4096x64)) : (⟨S_, .i32⟩ : BufTy).Contents (Elt F) → (⟨S4x4096x64, .i32⟩ : BufTy).Contents (Elt F)),
    StableHlo.binary main_call0_v4 main_call0_v2 main_v37 ((minsi) : (⟨S4x4096x64, .i32⟩ : BufTy).Contents (Elt F) → (⟨S4x4096x64, .i32⟩ : BufTy).Contents (Elt F) → (⟨S4x4096x64, .i32⟩ : BufTy).Contents (Elt F)) ]

set_option maxHeartbeats 4000000 in
theorem hostOps1_1_eq : (hostOps1_1 : List (HloOp τ sig (Elt F))) = plainOps1_1 :=
  (List.cons_eq_cons.mpr ⟨StableHlo.TRef.unary_eq_plain _ _ _ _ HEq.rfl, (List.cons_eq_cons.mpr ⟨StableHlo.TRef.unary_eq_plain _ _ _ _ HEq.rfl, (List.cons_eq_cons.mpr ⟨StableHlo.TRef.binary_eq_plain _ _ _ _ _ HEq.rfl, (List.cons_eq_cons.mpr ⟨StableHlo.TRef.unary_eq_plain _ _ _ _ HEq.rfl, (List.cons_eq_cons.mpr ⟨StableHlo.TRef.unary_eq_plain _ _ _ _ HEq.rfl, (List.cons_eq_cons.mpr ⟨StableHlo.TRef.binary_eq_plain _ _ _ _ _ HEq.rfl, rfl⟩)⟩)⟩)⟩)⟩)⟩)

/-- The stretch `hostOps1_3` with the plain builders. -/
abbrev plainOps1_3 : List (HloOp τ sig (Elt F)) :=
  [ StableHlo.unary main_c_9 main_call1_v0 ((id) : (⟨S_, .i32⟩ : BufTy).Contents (Elt F) → (⟨S_, .i32⟩ : BufTy).Contents (Elt F)),
    StableHlo.unary main_call1_v0 main_call1_v1 (((broadcastInDim S4x4096x64 ![] bcast_S_S4x4096x64)) : (⟨S_, .i32⟩ : BufTy).Contents (Elt F) → (⟨S4x4096x64, .i32⟩ : BufTy).Contents (Elt F)),
    StableHlo.binary main_call1_v1 main_v22 main_call1_v2 ((maxsi) : (⟨S4x4096x64, .i32⟩ : BufTy).Contents (Elt F) → (⟨S4x4096x64, .i32⟩ : BufTy).Contents (Elt F) → (⟨S4x4096x64, .i32⟩ : BufTy).Contents (Elt F)),
    StableHlo.unary main_c_10 main_call1_v3 ((id) : (⟨S_, .i32⟩ : BufTy).Contents (Elt F) → (⟨S_, .i32⟩ : BufTy).Contents (Elt F)),
    StableHlo.unary main_call1_v3 main_call1_v4 (((broadcastInDim S4x4096x64 ![] bcast_S_S4x4096x64)) : (⟨S_, .i32⟩ : BufTy).Contents (Elt F) → (⟨S4x4096x64, .i32⟩ : BufTy).Contents (Elt F)),
    StableHlo.binary main_call1_v4 main_call1_v2 main_v40 ((minsi) : (⟨S4x4096x64, .i32⟩ : BufTy).Contents (Elt F) → (⟨S4x4096x64, .i32⟩ : BufTy).Contents (Elt F) → (⟨S4x4096x64, .i32⟩ : BufTy).Contents (Elt F)) ]

set_option maxHeartbeats 4000000 in
theorem hostOps1_3_eq : (hostOps1_3 : List (HloOp τ sig (Elt F))) = plainOps1_3 :=
  (List.cons_eq_cons.mpr ⟨StableHlo.TRef.unary_eq_plain _ _ _ _ HEq.rfl, (List.cons_eq_cons.mpr ⟨StableHlo.TRef.unary_eq_plain _ _ _ _ HEq.rfl, (List.cons_eq_cons.mpr ⟨StableHlo.TRef.binary_eq_plain _ _ _ _ _ HEq.rfl, (List.cons_eq_cons.mpr ⟨StableHlo.TRef.unary_eq_plain _ _ _ _ HEq.rfl, (List.cons_eq_cons.mpr ⟨StableHlo.TRef.unary_eq_plain _ _ _ _ HEq.rfl, (List.cons_eq_cons.mpr ⟨StableHlo.TRef.binary_eq_plain _ _ _ _ _ HEq.rfl, rfl⟩)⟩)⟩)⟩)⟩)⟩)

/-- The stretch `hostOps1_5` with the plain builders. -/
abbrev plainOps1_5 : List (HloOp τ sig (Elt F)) :=
  [ StableHlo.unary main_c_19 main_call2_v0 ((id) : (⟨S_, .i32⟩ : BufTy).Contents (Elt F) → (⟨S_, .i32⟩ : BufTy).Contents (Elt F)),
    StableHlo.unary main_call2_v0 main_call2_v1 (((broadcastInDim S4x4096x64 ![] bcast_S_S4x4096x64)) : (⟨S_, .i32⟩ : BufTy).Contents (Elt F) → (⟨S4x4096x64, .i32⟩ : BufTy).Contents (Elt F)),
    StableHlo.binary main_call2_v1 main_v51 main_call2_v2 ((maxsi) : (⟨S4x4096x64, .i32⟩ : BufTy).Contents (Elt F) → (⟨S4x4096x64, .i32⟩ : BufTy).Contents (Elt F) → (⟨S4x4096x64, .i32⟩ : BufTy).Contents (Elt F)),
    StableHlo.unary main_c_20 main_call2_v3 ((id) : (⟨S_, .i32⟩ : BufTy).Contents (Elt F) → (⟨S_, .i32⟩ : BufTy).Contents (Elt F)),
    StableHlo.unary main_call2_v3 main_call2_v4 (((broadcastInDim S4x4096x64 ![] bcast_S_S4x4096x64)) : (⟨S_, .i32⟩ : BufTy).Contents (Elt F) → (⟨S4x4096x64, .i32⟩ : BufTy).Contents (Elt F)),
    StableHlo.binary main_call2_v4 main_call2_v2 main_v64 ((minsi) : (⟨S4x4096x64, .i32⟩ : BufTy).Contents (Elt F) → (⟨S4x4096x64, .i32⟩ : BufTy).Contents (Elt F) → (⟨S4x4096x64, .i32⟩ : BufTy).Contents (Elt F)) ]

set_option maxHeartbeats 4000000 in
theorem hostOps1_5_eq : (hostOps1_5 : List (HloOp τ sig (Elt F))) = plainOps1_5 :=
  (List.cons_eq_cons.mpr ⟨StableHlo.TRef.unary_eq_plain _ _ _ _ HEq.rfl, (List.cons_eq_cons.mpr ⟨StableHlo.TRef.unary_eq_plain _ _ _ _ HEq.rfl, (List.cons_eq_cons.mpr ⟨StableHlo.TRef.binary_eq_plain _ _ _ _ _ HEq.rfl, (List.cons_eq_cons.mpr ⟨StableHlo.TRef.unary_eq_plain _ _ _ _ HEq.rfl, (List.cons_eq_cons.mpr ⟨StableHlo.TRef.unary_eq_plain _ _ _ _ HEq.rfl, (List.cons_eq_cons.mpr ⟨StableHlo.TRef.binary_eq_plain _ _ _ _ _ HEq.rfl, rfl⟩)⟩)⟩)⟩)⟩)⟩)

/-- The stretch `hostOps1_7` with the plain builders. -/
abbrev plainOps1_7 : List (HloOp τ sig (Elt F)) :=
  [ StableHlo.unary main_c_22 main_call3_v0 ((id) : (⟨S_, .i32⟩ : BufTy).Contents (Elt F) → (⟨S_, .i32⟩ : BufTy).Contents (Elt F)),
    StableHlo.unary main_call3_v0 main_call3_v1 (((broadcastInDim S4x4096x64 ![] bcast_S_S4x4096x64)) : (⟨S_, .i32⟩ : BufTy).Contents (Elt F) → (⟨S4x4096x64, .i32⟩ : BufTy).Contents (Elt F)),
    StableHlo.binary main_call3_v1 main_v49 main_call3_v2 ((maxsi) : (⟨S4x4096x64, .i32⟩ : BufTy).Contents (Elt F) → (⟨S4x4096x64, .i32⟩ : BufTy).Contents (Elt F) → (⟨S4x4096x64, .i32⟩ : BufTy).Contents (Elt F)),
    StableHlo.unary main_c_23 main_call3_v3 ((id) : (⟨S_, .i32⟩ : BufTy).Contents (Elt F) → (⟨S_, .i32⟩ : BufTy).Contents (Elt F)),
    StableHlo.unary main_call3_v3 main_call3_v4 (((broadcastInDim S4x4096x64 ![] bcast_S_S4x4096x64)) : (⟨S_, .i32⟩ : BufTy).Contents (Elt F) → (⟨S4x4096x64, .i32⟩ : BufTy).Contents (Elt F)),
    StableHlo.binary main_call3_v4 main_call3_v2 main_v67 ((minsi) : (⟨S4x4096x64, .i32⟩ : BufTy).Contents (Elt F) → (⟨S4x4096x64, .i32⟩ : BufTy).Contents (Elt F) → (⟨S4x4096x64, .i32⟩ : BufTy).Contents (Elt F)) ]

set_option maxHeartbeats 4000000 in
theorem hostOps1_7_eq : (hostOps1_7 : List (HloOp τ sig (Elt F))) = plainOps1_7 :=
  (List.cons_eq_cons.mpr ⟨StableHlo.TRef.unary_eq_plain _ _ _ _ HEq.rfl, (List.cons_eq_cons.mpr ⟨StableHlo.TRef.unary_eq_plain _ _ _ _ HEq.rfl, (List.cons_eq_cons.mpr ⟨StableHlo.TRef.binary_eq_plain _ _ _ _ _ HEq.rfl, (List.cons_eq_cons.mpr ⟨StableHlo.TRef.unary_eq_plain _ _ _ _ HEq.rfl, (List.cons_eq_cons.mpr ⟨StableHlo.TRef.unary_eq_plain _ _ _ _ HEq.rfl, (List.cons_eq_cons.mpr ⟨StableHlo.TRef.binary_eq_plain _ _ _ _ _ HEq.rfl, rfl⟩)⟩)⟩)⟩)⟩)⟩)

/-- The stretch `hostOps1_9` with the plain builders. -/
abbrev plainOps1_9 : List (HloOp τ sig (Elt F)) :=
  [ StableHlo.unary main_c_31 main_call4_v0 ((id) : (⟨S_, .i32⟩ : BufTy).Contents (Elt F) → (⟨S_, .i32⟩ : BufTy).Contents (Elt F)),
    StableHlo.unary main_call4_v0 main_call4_v1 (((broadcastInDim S4x4096x64 ![] bcast_S_S4x4096x64)) : (⟨S_, .i32⟩ : BufTy).Contents (Elt F) → (⟨S4x4096x64, .i32⟩ : BufTy).Contents (Elt F)),
    StableHlo.binary main_call4_v1 main_v76 main_call4_v2 ((maxsi) : (⟨S4x4096x64, .i32⟩ : BufTy).Contents (Elt F) → (⟨S4x4096x64, .i32⟩ : BufTy).Contents (Elt F) → (⟨S4x4096x64, .i32⟩ : BufTy).Contents (Elt F)),
    StableHlo.unary main_c_32 main_call4_v3 ((id) : (⟨S_, .i32⟩ : BufTy).Contents (Elt F) → (⟨S_, .i32⟩ : BufTy).Contents (Elt F)),
    StableHlo.unary main_call4_v3 main_call4_v4 (((broadcastInDim S4x4096x64 ![] bcast_S_S4x4096x64)) : (⟨S_, .i32⟩ : BufTy).Contents (Elt F) → (⟨S4x4096x64, .i32⟩ : BufTy).Contents (Elt F)),
    StableHlo.binary main_call4_v4 main_call4_v2 main_v89 ((minsi) : (⟨S4x4096x64, .i32⟩ : BufTy).Contents (Elt F) → (⟨S4x4096x64, .i32⟩ : BufTy).Contents (Elt F) → (⟨S4x4096x64, .i32⟩ : BufTy).Contents (Elt F)) ]

set_option maxHeartbeats 4000000 in
theorem hostOps1_9_eq : (hostOps1_9 : List (HloOp τ sig (Elt F))) = plainOps1_9 :=
  (List.cons_eq_cons.mpr ⟨StableHlo.TRef.unary_eq_plain _ _ _ _ HEq.rfl, (List.cons_eq_cons.mpr ⟨StableHlo.TRef.unary_eq_plain _ _ _ _ HEq.rfl, (List.cons_eq_cons.mpr ⟨StableHlo.TRef.binary_eq_plain _ _ _ _ _ HEq.rfl, (List.cons_eq_cons.mpr ⟨StableHlo.TRef.unary_eq_plain _ _ _ _ HEq.rfl, (List.cons_eq_cons.mpr ⟨StableHlo.TRef.unary_eq_plain _ _ _ _ HEq.rfl, (List.cons_eq_cons.mpr ⟨StableHlo.TRef.binary_eq_plain _ _ _ _ _ HEq.rfl, rfl⟩)⟩)⟩)⟩)⟩)⟩)

/-- The stretch `hostOps1_11` with the plain builders. -/
abbrev plainOps1_11 : List (HloOp τ sig (Elt F)) :=
  [ StableHlo.unary main_c_34 main_call5_v0 ((id) : (⟨S_, .i32⟩ : BufTy).Contents (Elt F) → (⟨S_, .i32⟩ : BufTy).Contents (Elt F)),
    StableHlo.unary main_call5_v0 main_call5_v1 (((broadcastInDim S4x4096x64 ![] bcast_S_S4x4096x64)) : (⟨S_, .i32⟩ : BufTy).Contents (Elt F) → (⟨S4x4096x64, .i32⟩ : BufTy).Contents (Elt F)),
    StableHlo.binary main_call5_v1 main_v74 main_call5_v2 ((maxsi) : (⟨S4x4096x64, .i32⟩ : BufTy).Contents (Elt F) → (⟨S4x4096x64, .i32⟩ : BufTy).Contents (Elt F) → (⟨S4x4096x64, .i32⟩ : BufTy).Contents (Elt F)),
    StableHlo.unary main_c_35 main_call5_v3 ((id) : (⟨S_, .i32⟩ : BufTy).Contents (Elt F) → (⟨S_, .i32⟩ : BufTy).Contents (Elt F)),
    StableHlo.unary main_call5_v3 main_call5_v4 (((broadcastInDim S4x4096x64 ![] bcast_S_S4x4096x64)) : (⟨S_, .i32⟩ : BufTy).Contents (Elt F) → (⟨S4x4096x64, .i32⟩ : BufTy).Contents (Elt F)),
    StableHlo.binary main_call5_v4 main_call5_v2 main_v92 ((minsi) : (⟨S4x4096x64, .i32⟩ : BufTy).Contents (Elt F) → (⟨S4x4096x64, .i32⟩ : BufTy).Contents (Elt F) → (⟨S4x4096x64, .i32⟩ : BufTy).Contents (Elt F)) ]

set_option maxHeartbeats 4000000 in
theorem hostOps1_11_eq : (hostOps1_11 : List (HloOp τ sig (Elt F))) = plainOps1_11 :=
  (List.cons_eq_cons.mpr ⟨StableHlo.TRef.unary_eq_plain _ _ _ _ HEq.rfl, (List.cons_eq_cons.mpr ⟨StableHlo.TRef.unary_eq_plain _ _ _ _ HEq.rfl, (List.cons_eq_cons.mpr ⟨StableHlo.TRef.binary_eq_plain _ _ _ _ _ HEq.rfl, (List.cons_eq_cons.mpr ⟨StableHlo.TRef.unary_eq_plain _ _ _ _ HEq.rfl, (List.cons_eq_cons.mpr ⟨StableHlo.TRef.unary_eq_plain _ _ _ _ HEq.rfl, (List.cons_eq_cons.mpr ⟨StableHlo.TRef.binary_eq_plain _ _ _ _ _ HEq.rfl, rfl⟩)⟩)⟩)⟩)⟩)⟩)

/-- The stretch `hostOps1_13` with the plain builders. -/
abbrev plainOps1_13 : List (HloOp τ sig (Elt F)) :=
  [ StableHlo.unary main_c_43 main_call6_v0 ((id) : (⟨S_, .i32⟩ : BufTy).Contents (Elt F) → (⟨S_, .i32⟩ : BufTy).Contents (Elt F)),
    StableHlo.unary main_call6_v0 main_call6_v1 (((broadcastInDim S4x4096x64 ![] bcast_S_S4x4096x64)) : (⟨S_, .i32⟩ : BufTy).Contents (Elt F) → (⟨S4x4096x64, .i32⟩ : BufTy).Contents (Elt F)),
    StableHlo.binary main_call6_v1 main_v101 main_call6_v2 ((maxsi) : (⟨S4x4096x64, .i32⟩ : BufTy).Contents (Elt F) → (⟨S4x4096x64, .i32⟩ : BufTy).Contents (Elt F) → (⟨S4x4096x64, .i32⟩ : BufTy).Contents (Elt F)),
    StableHlo.unary main_c_44 main_call6_v3 ((id) : (⟨S_, .i32⟩ : BufTy).Contents (Elt F) → (⟨S_, .i32⟩ : BufTy).Contents (Elt F)),
    StableHlo.unary main_call6_v3 main_call6_v4 (((broadcastInDim S4x4096x64 ![] bcast_S_S4x4096x64)) : (⟨S_, .i32⟩ : BufTy).Contents (Elt F) → (⟨S4x4096x64, .i32⟩ : BufTy).Contents (Elt F)),
    StableHlo.binary main_call6_v4 main_call6_v2 main_v114 ((minsi) : (⟨S4x4096x64, .i32⟩ : BufTy).Contents (Elt F) → (⟨S4x4096x64, .i32⟩ : BufTy).Contents (Elt F) → (⟨S4x4096x64, .i32⟩ : BufTy).Contents (Elt F)) ]

set_option maxHeartbeats 4000000 in
theorem hostOps1_13_eq : (hostOps1_13 : List (HloOp τ sig (Elt F))) = plainOps1_13 :=
  (List.cons_eq_cons.mpr ⟨StableHlo.TRef.unary_eq_plain _ _ _ _ HEq.rfl, (List.cons_eq_cons.mpr ⟨StableHlo.TRef.unary_eq_plain _ _ _ _ HEq.rfl, (List.cons_eq_cons.mpr ⟨StableHlo.TRef.binary_eq_plain _ _ _ _ _ HEq.rfl, (List.cons_eq_cons.mpr ⟨StableHlo.TRef.unary_eq_plain _ _ _ _ HEq.rfl, (List.cons_eq_cons.mpr ⟨StableHlo.TRef.unary_eq_plain _ _ _ _ HEq.rfl, (List.cons_eq_cons.mpr ⟨StableHlo.TRef.binary_eq_plain _ _ _ _ _ HEq.rfl, rfl⟩)⟩)⟩)⟩)⟩)⟩)

/-- The stretch `hostOps1_15` with the plain builders. -/
abbrev plainOps1_15 : List (HloOp τ sig (Elt F)) :=
  [ StableHlo.unary main_c_46 main_call7_v0 ((id) : (⟨S_, .i32⟩ : BufTy).Contents (Elt F) → (⟨S_, .i32⟩ : BufTy).Contents (Elt F)),
    StableHlo.unary main_call7_v0 main_call7_v1 (((broadcastInDim S4x4096x64 ![] bcast_S_S4x4096x64)) : (⟨S_, .i32⟩ : BufTy).Contents (Elt F) → (⟨S4x4096x64, .i32⟩ : BufTy).Contents (Elt F)),
    StableHlo.binary main_call7_v1 main_v99 main_call7_v2 ((maxsi) : (⟨S4x4096x64, .i32⟩ : BufTy).Contents (Elt F) → (⟨S4x4096x64, .i32⟩ : BufTy).Contents (Elt F) → (⟨S4x4096x64, .i32⟩ : BufTy).Contents (Elt F)),
    StableHlo.unary main_c_47 main_call7_v3 ((id) : (⟨S_, .i32⟩ : BufTy).Contents (Elt F) → (⟨S_, .i32⟩ : BufTy).Contents (Elt F)),
    StableHlo.unary main_call7_v3 main_call7_v4 (((broadcastInDim S4x4096x64 ![] bcast_S_S4x4096x64)) : (⟨S_, .i32⟩ : BufTy).Contents (Elt F) → (⟨S4x4096x64, .i32⟩ : BufTy).Contents (Elt F)),
    StableHlo.binary main_call7_v4 main_call7_v2 main_v117 ((minsi) : (⟨S4x4096x64, .i32⟩ : BufTy).Contents (Elt F) → (⟨S4x4096x64, .i32⟩ : BufTy).Contents (Elt F) → (⟨S4x4096x64, .i32⟩ : BufTy).Contents (Elt F)) ]

set_option maxHeartbeats 4000000 in
theorem hostOps1_15_eq : (hostOps1_15 : List (HloOp τ sig (Elt F))) = plainOps1_15 :=
  (List.cons_eq_cons.mpr ⟨StableHlo.TRef.unary_eq_plain _ _ _ _ HEq.rfl, (List.cons_eq_cons.mpr ⟨StableHlo.TRef.unary_eq_plain _ _ _ _ HEq.rfl, (List.cons_eq_cons.mpr ⟨StableHlo.TRef.binary_eq_plain _ _ _ _ _ HEq.rfl, (List.cons_eq_cons.mpr ⟨StableHlo.TRef.unary_eq_plain _ _ _ _ HEq.rfl, (List.cons_eq_cons.mpr ⟨StableHlo.TRef.unary_eq_plain _ _ _ _ HEq.rfl, (List.cons_eq_cons.mpr ⟨StableHlo.TRef.binary_eq_plain _ _ _ _ _ HEq.rfl, rfl⟩)⟩)⟩)⟩)⟩)⟩)

/-- The stretch `hostOps1_17` with the plain builders. -/
abbrev plainOps1_17 : List (HloOp τ sig (Elt F)) :=
  [ StableHlo.nullary main_call8_c ((constantI S_ 32 0#32) : (⟨S_, .i32⟩ : BufTy).Contents (Elt F)),
    StableHlo.unary main_call8_c main_call8_v0 (((broadcastInDim S4x4096x256 ![] bcast_S_S4x4096x256)) : (⟨S_, .i32⟩ : BufTy).Contents (Elt F) → (⟨S4x4096x256, .i32⟩ : BufTy).Contents (Elt F)),
    StableHlo.binary main_v121 main_call8_v0 main_call8_v1 (((cmpi .slt)) : (⟨S4x4096x256, .i32⟩ : BufTy).Contents (Elt F) → (⟨S4x4096x256, .i32⟩ : BufTy).Contents (Elt F) → (⟨S4x4096x256, .i1⟩ : BufTy).Contents (Elt F)),
    StableHlo.nullary main_call8_c_0 ((constantI S_ 32 4096#32) : (⟨S_, .i32⟩ : BufTy).Contents (Elt F)),
    StableHlo.unary main_call8_c_0 main_call8_v2 (((broadcastInDim S4x4096x256 ![] bcast_S_S4x4096x256)) : (⟨S_, .i32⟩ : BufTy).Contents (Elt F) → (⟨S4x4096x256, .i32⟩ : BufTy).Contents (Elt F)),
    StableHlo.binary main_v121 main_call8_v2 main_call8_v3 ((addi) : (⟨S4x4096x256, .i32⟩ : BufTy).Contents (Elt F) → (⟨S4x4096x256, .i32⟩ : BufTy).Contents (Elt F) → (⟨S4x4096x256, .i32⟩ : BufTy).Contents (Elt F)),
    StableHlo.ternary main_call8_v1 main_call8_v3 main_v121 main_call8_v4 ((select) : (⟨S4x4096x256, .i1⟩ : BufTy).Contents (Elt F) → (⟨S4x4096x256, .i32⟩ : BufTy).Contents (Elt F) → (⟨S4x4096x256, .i32⟩ : BufTy).Contents (Elt F) → (⟨S4x4096x256, .i32⟩ : BufTy).Contents (Elt F)),
    StableHlo.reshape main_call8_v4 main_call8_v5 rfl shapeCasts_S4x4096x256_S4x4096x256x1,
    StableHlo.nullary main_call8_c_1 ((constantI S1 32 4095#32) : (⟨S1, .i32⟩ : BufTy).Contents (Elt F)),
    StableHlo.nullary main_call8_c_2 ((constantI S_ 32 0#32) : (⟨S_, .i32⟩ : BufTy).Contents (Elt F)),
    StableHlo.unary main_call8_c_2 main_call8_v6 (((broadcastInDim S4x4096x256x1 ![] bcast_S_S4x4096x256x1)) : (⟨S_, .i32⟩ : BufTy).Contents (Elt F) → (⟨S4x4096x256x1, .i32⟩ : BufTy).Contents (Elt F)),
    StableHlo.binary main_call8_v5 main_call8_v6 main_call8_v7 (((cmpi .sge)) : (⟨S4x4096x256x1, .i32⟩ : BufTy).Contents (Elt F) → (⟨S4x4096x256x1, .i32⟩ : BufTy).Contents (Elt F) → (⟨S4x4096x256x1, .i1⟩ : BufTy).Contents (Elt F)),
    StableHlo.unary main_call8_c_1 main_call8_v8 (((broadcastInDim S1x1x1x1 ![3] bcast_S1_S1x1x1x1_3)) : (⟨S1, .i32⟩ : BufTy).Contents (Elt F) → (⟨S1x1x1x1, .i32⟩ : BufTy).Contents (Elt F)),
    StableHlo.unary main_call8_v8 main_call8_v9 (((broadcastInDim S4x4096x256x1 ![0, 1, 2, 3] bcast_S1x1x1x1_S4x4096x256x1_0_1_2_3)) : (⟨S1x1x1x1, .i32⟩ : BufTy).Contents (Elt F) → (⟨S4x4096x256x1, .i32⟩ : BufTy).Contents (Elt F)),
    StableHlo.binary main_call8_v5 main_call8_v9 main_call8_v10 (((cmpi .sle)) : (⟨S4x4096x256x1, .i32⟩ : BufTy).Contents (Elt F) → (⟨S4x4096x256x1, .i32⟩ : BufTy).Contents (Elt F) → (⟨S4x4096x256x1, .i1⟩ : BufTy).Contents (Elt F)),
    StableHlo.binary main_call8_v7 main_call8_v10 main_call8_v11 ((andi) : (⟨S4x4096x256x1, .i1⟩ : BufTy).Contents (Elt F) → (⟨S4x4096x256x1, .i1⟩ : BufTy).Contents (Elt F) → (⟨S4x4096x256x1, .i1⟩ : BufTy).Contents (Elt F)),
    StableHlo.nullary main_call8_c_3 ((constantI S_ 1 1#1) : (⟨S_, .i1⟩ : BufTy).Contents (Elt F)),
    StableHlo.binary main_call8_v11 main_call8_c_3 main_call8_v12 (((fun x v => Host.reduce IntOp.andi x v reducesTo_S4x4096x256x1_S4x4096x256_d3 h_S_)) : (⟨S4x4096x256x1, .i1⟩ : BufTy).Contents (Elt F) → (⟨S_, .i1⟩ : BufTy).Contents (Elt F) → (⟨S4x4096x256, .i1⟩ : BufTy).Contents (Elt F)),
    StableHlo.binary main_v4 main_call8_v5 main_call8_v13 (((fun x i => Host.gather gather_S4x4096x4096_S4x4096x256x1_S4x4096x256_n_2_01_01_2_3_111 x i)) : (⟨S4x4096x4096, .f32⟩ : BufTy).Contents (Elt F) → (⟨S4x4096x256x1, .i32⟩ : BufTy).Contents (Elt F) → (⟨S4x4096x256, .f32⟩ : BufTy).Contents (Elt F)),
    StableHlo.nullary main_call8_cst ((constant S_ .f32 0x7FC00000#32) : (⟨S_, .f32⟩ : BufTy).Contents (Elt F)),
    StableHlo.unary main_call8_cst main_call8_v14 (((broadcastInDim S4x4096x256 ![] bcast_S_S4x4096x256)) : (⟨S_, .f32⟩ : BufTy).Contents (Elt F) → (⟨S4x4096x256, .f32⟩ : BufTy).Contents (Elt F)),
    StableHlo.ternary main_call8_v12 main_call8_v13 main_call8_v14 main_v122 ((select) : (⟨S4x4096x256, .i1⟩ : BufTy).Contents (Elt F) → (⟨S4x4096x256, .f32⟩ : BufTy).Contents (Elt F) → (⟨S4x4096x256, .f32⟩ : BufTy).Contents (Elt F) → (⟨S4x4096x256, .f32⟩ : BufTy).Contents (Elt F)) ]

set_option maxHeartbeats 4000000 in
theorem hostOps1_17_eq : (hostOps1_17 : List (HloOp τ sig (Elt F))) = plainOps1_17 :=
  (List.cons_eq_cons.mpr ⟨StableHlo.TRef.nullary_eq_plain _ _ _ HEq.rfl, (List.cons_eq_cons.mpr ⟨StableHlo.TRef.unary_eq_plain _ _ _ _ HEq.rfl, (List.cons_eq_cons.mpr ⟨StableHlo.TRef.binary_eq_plain _ _ _ _ _ HEq.rfl, (List.cons_eq_cons.mpr ⟨StableHlo.TRef.nullary_eq_plain _ _ _ HEq.rfl, (List.cons_eq_cons.mpr ⟨StableHlo.TRef.unary_eq_plain _ _ _ _ HEq.rfl, (List.cons_eq_cons.mpr ⟨StableHlo.TRef.binary_eq_plain _ _ _ _ _ HEq.rfl, (List.cons_eq_cons.mpr ⟨StableHlo.TRef.ternary_eq_plain _ _ _ _ _ _ HEq.rfl, (List.cons_eq_cons.mpr ⟨StableHlo.TRef.reshape_eq_plain _ _ _ _ _ _, (List.cons_eq_cons.mpr ⟨StableHlo.TRef.nullary_eq_plain _ _ _ HEq.rfl, (List.cons_eq_cons.mpr ⟨StableHlo.TRef.nullary_eq_plain _ _ _ HEq.rfl, (List.cons_eq_cons.mpr ⟨StableHlo.TRef.unary_eq_plain _ _ _ _ HEq.rfl, (List.cons_eq_cons.mpr ⟨StableHlo.TRef.binary_eq_plain _ _ _ _ _ HEq.rfl, (List.cons_eq_cons.mpr ⟨StableHlo.TRef.unary_eq_plain _ _ _ _ HEq.rfl, (List.cons_eq_cons.mpr ⟨StableHlo.TRef.unary_eq_plain _ _ _ _ HEq.rfl, (List.cons_eq_cons.mpr ⟨StableHlo.TRef.binary_eq_plain _ _ _ _ _ HEq.rfl, (List.cons_eq_cons.mpr ⟨StableHlo.TRef.binary_eq_plain _ _ _ _ _ HEq.rfl, (List.cons_eq_cons.mpr ⟨StableHlo.TRef.nullary_eq_plain _ _ _ HEq.rfl, (List.cons_eq_cons.mpr ⟨StableHlo.TRef.binary_eq_plain _ _ _ _ _ HEq.rfl, (List.cons_eq_cons.mpr ⟨StableHlo.TRef.binary_eq_plain _ _ _ _ _ HEq.rfl, (List.cons_eq_cons.mpr ⟨StableHlo.TRef.nullary_eq_plain _ _ _ HEq.rfl, (List.cons_eq_cons.mpr ⟨StableHlo.TRef.unary_eq_plain _ _ _ _ HEq.rfl, (List.cons_eq_cons.mpr ⟨StableHlo.TRef.ternary_eq_plain _ _ _ _ _ _ HEq.rfl, rfl⟩)⟩)⟩)⟩)⟩)⟩)⟩)⟩)⟩)⟩)⟩)⟩)⟩)⟩)⟩)⟩)⟩)⟩)⟩)⟩)⟩)⟩)

/-- The stretch `hostOps1_19` with the plain builders. -/
abbrev plainOps1_19 : List (HloOp τ sig (Elt F)) :=
  [ StableHlo.unary main_cst_51 main_call9_v0 (((broadcastInDim S4x4096x64 ![] bcast_S_S4x4096x64)) : (⟨S_, .f32⟩ : BufTy).Contents (Elt F) → (⟨S4x4096x64, .f32⟩ : BufTy).Contents (Elt F)),
    StableHlo.unary main_cst_52 main_call9_v1 (((broadcastInDim S4x4096x64 ![] bcast_S_S4x4096x64)) : (⟨S_, .f32⟩ : BufTy).Contents (Elt F) → (⟨S4x4096x64, .f32⟩ : BufTy).Contents (Elt F)),
    StableHlo.ternary main_v142 main_call9_v0 main_call9_v1 main_v143 ((select) : (⟨S4x4096x64, .i1⟩ : BufTy).Contents (Elt F) → (⟨S4x4096x64, .f32⟩ : BufTy).Contents (Elt F) → (⟨S4x4096x64, .f32⟩ : BufTy).Contents (Elt F) → (⟨S4x4096x64, .f32⟩ : BufTy).Contents (Elt F)) ]

set_option maxHeartbeats 4000000 in
theorem hostOps1_19_eq : (hostOps1_19 : List (HloOp τ sig (Elt F))) = plainOps1_19 :=
  (List.cons_eq_cons.mpr ⟨StableHlo.TRef.unary_eq_plain _ _ _ _ HEq.rfl, (List.cons_eq_cons.mpr ⟨StableHlo.TRef.unary_eq_plain _ _ _ _ HEq.rfl, (List.cons_eq_cons.mpr ⟨StableHlo.TRef.ternary_eq_plain _ _ _ _ _ _ HEq.rfl, rfl⟩)⟩)⟩)

end Cert.KernelIdeal.Plain

end
-- ==== Proof.FusedTake.lean ====
/-
  A fused take along the last axis, sliced, is the separate takes.

  The kernel's host code gathers ONCE, with the four index arrays [4, 4096, 64] concatenated along the last axis into
  one [4, 4096, 256] array, and slices the result in four; the reference gathers four times. Both calls are the same
  22 operations at their own shapes (`takeWide`, `takeNarrow`, written as printed): a negative index word has 4096
  added; the words get a trailing unit axis; the gather reads row (n, p) of the operand at the word, read signed and
  clamped into the row; and where the word is outside [0, 4095] the result is the value of the word `0x7FC00000`
  instead. Every operation acts on one position (n, p, j) at a time, so each result element is ONE function
  (`takeElt`) of row (n, p) of the operand and of the index word at (n, p, j) — `takeWide_apply`,
  `takeNarrow_apply` — and the concatenated array at (n, p, 64 k + j) holds the k-th array's word at (n, p, j):
  slice k of the fused take is the k-th separate take (`slice0_takeWide` … `slice3_takeWide`).
-/
import proofs.«152563_j67370857005292_2_alg».proof.KernelIdeal
import proofs.«152563_j67370857005292_2_alg».proof.ReferenceIdeal
import Idealize.ShloMosaic.Lib.ValueIdx
import Idealize.ShloMosaic.Lib.Pipeline.Value
import Idealize.ShloMosaic.PureOps.Reduce

noncomputable section

namespace Cert.FusedTake

open Idealize.ShloMosaic Idealize.ShloMosaic.TcCoe
open Idealize.ShloMosaic.ValueIdx

/-! ## One element of a take -/

/-- A negative index word counts from the end of the row: 4096 is added to it. -/
def fixIdx (w : BitVec 32) : BitVec 32 :=
  Scalar.select (IntOp.cmpi .slt w 0#32) (IntOp.addi w 4096#32) w

/-- One element of a take along the last axis from the ADJUSTED index word: the row at that word (read signed,
    clamped into the row) where the word is inside the row, and the value of the word `0x7FC00000` where it is not. -/
def eltOf (row : Fin 4096 → Ideal .f32) (w : BitVec 32) : Ideal .f32 :=
  Scalar.select
    (IntOp.andi (IntOp.andi (IntOp.cmpi .sge w 0#32) (IntOp.cmpi .sle w 4095#32)) 1#1)
    (row ⟨min w.toInt.toNat 4095, by omega⟩)
    (FloatOps.ofBits .f32 0x7FC00000#32)

/-- One element of a take along the last axis, as a function of the row it reads and of the index word alone. -/
def takeElt (row : Fin 4096 → Ideal .f32) (w : BitVec 32) : Ideal .f32 := eltOf row (fixIdx w)

/-- A fold over a one-element range combines its one value with the initial value. -/
theorem fold_one {β : Type} (op : β → β → β) [Std.Commutative op] [Std.Associative op] (N : Nat) (hN : N = 1)
    (g : Fin N → β) (b : β) : (Finset.univ : Finset (Fin N)).fold op b g = op (g ⟨0, by omega⟩) b := by
  subst hN
  rw [Finset.univ_unique, Finset.fold_singleton]
  rfl

/-! ## The fused take: one call on the concatenated index array [4, 4096, 256] -/

section Wide
variable [Cert.KernelIdeal.Facts₀]
open Cert.KernelIdeal Cert.KernelIdeal.Facts₀

/-- The take along the last axis of `x` at the index array `J : [4, 4096, 256]`: the call's 22 operations, composed as printed. -/
def takeWide (x : (⟨S4x4096x4096, .f32⟩ : BufTy).Contents (Elt Ideal))
    (J : (⟨S4x4096x256, .i32⟩ : BufTy).Contents (Elt Ideal)) : (⟨S4x4096x256, .f32⟩ : BufTy).Contents (Elt Ideal) :=
  let c : (⟨S_, .i32⟩ : BufTy).Contents (Elt Ideal) := constantI S_ 32 0#32
  let v0 : (⟨S4x4096x256, .i32⟩ : BufTy).Contents (Elt Ideal) := broadcastInDim S4x4096x256 ![] bcast_S_S4x4096x256 c
  let v1 : (⟨S4x4096x256, .i1⟩ : BufTy).Contents (Elt Ideal) := cmpi .slt J v0
  let c_0 : (⟨S_, .i32⟩ : BufTy).Contents (Elt Ideal) := constantI S_ 32 4096#32
  let v2 : (⟨S4x4096x256, .i32⟩ : BufTy).Contents (Elt Ideal) := broadcastInDim S4x4096x256 ![] bcast_S_S4x4096x256 c_0
  let v3 : (⟨S4x4096x256, .i32⟩ : BufTy).Contents (Elt Ideal) := addi J v2
  let v4 : (⟨S4x4096x256, .i32⟩ : BufTy).Contents (Elt Ideal) := select v1 v3 J
  let v5 : (⟨S4x4096x256x1, .i32⟩ : BufTy).Contents (Elt Ideal) := shapeCast S4x4096x256x1 v4 shapeCasts_S4x4096x256_S4x4096x256x1
  let c_1 : (⟨S1, .i32⟩ : BufTy).Contents (Elt Ideal) := constantI S1 32 4095#32
  let c_2 : (⟨S_, .i32⟩ : BufTy).Contents (Elt Ideal) := constantI S_ 32 0#32
  let v6 : (⟨S4x4096x256x1, .i32⟩ : BufTy).Contents (Elt Ideal) := broadcastInDim S4x4096x256x1 ![] bcast_S_S4x4096x256x1 c_2
  let v7 : (⟨S4x4096x256x1, .i1⟩ : BufTy).Contents (Elt Ideal) := cmpi .sge v5 v6
  let v8 : (⟨S1x1x1x1, .i32⟩ : BufTy).Contents (Elt Ideal) := broadcastInDim S1x1x1x1 ![3] bcast_S1_S1x1x1x1_3 c_1
  let v9 : (⟨S4x4096x256x1, .i32⟩ : BufTy).Contents (Elt Ideal) := broadcastInDim S4x4096x256x1 ![0, 1, 2, 3] bcast_S1x1x1x1_S4x4096x256x1_0_1_2_3 v8
  let v10 : (⟨S4x4096x256x1, .i1⟩ : BufTy).Contents (Elt Ideal) := cmpi .sle v5 v9
  let v11 : (⟨S4x4096x256x1, .i1⟩ : BufTy).Contents (Elt Ideal) := andi v7 v10
  let c_3 : (⟨S_, .i1⟩ : BufTy).Contents (Elt Ideal) := constantI S_ 1 1#1
  let v12 : (⟨S4x4096x256, .i1⟩ : BufTy).Contents (Elt Ideal) := Host.reduce IntOp.andi v11 c_3 reducesTo_S4x4096x256x1_S4x4096x256_d3 h_S_
  let v13 : (⟨S4x4096x256, .f32⟩ : BufTy).Contents (Elt Ideal) := Host.gather gather_S4x4096x4096_S4x4096x256x1_S4x4096x256_n_2_01_01_2_3_111 x v5
  let cst : (⟨S_, .f32⟩ : BufTy).Contents (Elt Ideal) := constant (F := Ideal) S_ .f32 0x7FC00000#32
  let v14 : (⟨S4x4096x256, .f32⟩ : BufTy).Contents (Elt Ideal) := broadcastInDim S4x4096x256 ![] bcast_S_S4x4096x256 cst
  select v12 v13 v14

/-- Its first eight operations: the index words adjusted and given a trailing unit axis. -/
def fixW (J : (⟨S4x4096x256, .i32⟩ : BufTy).Contents (Elt Ideal)) : (⟨S4x4096x256x1, .i32⟩ : BufTy).Contents (Elt Ideal) :=
  let c : (⟨S_, .i32⟩ : BufTy).Contents (Elt Ideal) := constantI S_ 32 0#32
  let v0 : (⟨S4x4096x256, .i32⟩ : BufTy).Contents (Elt Ideal) := broadcastInDim S4x4096x256 ![] bcast_S_S4x4096x256 c
  let v1 : (⟨S4x4096x256, .i1⟩ : BufTy).Contents (Elt Ideal) := cmpi .slt J v0
  let c_0 : (⟨S_, .i32⟩ : BufTy).Contents (Elt Ideal) := constantI S_ 32 4096#32
  let v2 : (⟨S4x4096x256, .i32⟩ : BufTy).Contents (Elt Ideal) := broadcastInDim S4x4096x256 ![] bcast_S_S4x4096x256 c_0
  let v3 : (⟨S4x4096x256, .i32⟩ : BufTy).Contents (Elt Ideal) := addi J v2
  let v4 : (⟨S4x4096x256, .i32⟩ : BufTy).Contents (Elt Ideal) := select v1 v3 J
  shapeCast S4x4096x256x1 v4 shapeCasts_S4x4096x256_S4x4096x256x1

/-- The other fourteen, over the adjusted index words. -/
def tailW (x : (⟨S4x4096x4096, .f32⟩ : BufTy).Contents (Elt Ideal))
    (v5 : (⟨S4x4096x256x1, .i32⟩ : BufTy).Contents (Elt Ideal)) : (⟨S4x4096x256, .f32⟩ : BufTy).Contents (Elt Ideal) :=
  let c_1 : (⟨S1, .i32⟩ : BufTy).Contents (Elt Ideal) := constantI S1 32 4095#32
  let c_2 : (⟨S_, .i32⟩ : BufTy).Contents (Elt Ideal) := constantI S_ 32 0#32
  let v6 : (⟨S4x4096x256x1, .i32⟩ : BufTy).Contents (Elt Ideal) := broadcastInDim S4x4096x256x1 ![] bcast_S_S4x4096x256x1 c_2
  let v7 : (⟨S4x4096x256x1, .i1⟩ : BufTy).Contents (Elt Ideal) := cmpi .sge v5 v6
  let v8 : (⟨S1x1x1x1, .i32⟩ : BufTy).Contents (Elt Ideal) := broadcastInDim S1x1x1x1 ![3] bcast_S1_S1x1x1x1_3 c_1
  let v9 : (⟨S4x4096x256x1, .i32⟩ : BufTy).Contents (Elt Ideal) := broadcastInDim S4x4096x256x1 ![0, 1, 2, 3] bcast_S1x1x1x1_S4x4096x256x1_0_1_2_3 v8
  let v10 : (⟨S4x4096x256x1, .i1⟩ : BufTy).Contents (Elt Ideal) := cmpi .sle v5 v9
  let v11 : (⟨S4x4096x256x1, .i1⟩ : BufTy).Contents (Elt Ideal) := andi v7 v10
  let c_3 : (⟨S_, .i1⟩ : BufTy).Contents (Elt Ideal) := constantI S_ 1 1#1
  let v12 : (⟨S4x4096x256, .i1⟩ : BufTy).Contents (Elt Ideal) := Host.reduce IntOp.andi v11 c_3 reducesTo_S4x4096x256x1_S4x4096x256_d3 h_S_
  let v13 : (⟨S4x4096x256, .f32⟩ : BufTy).Contents (Elt Ideal) := Host.gather gather_S4x4096x4096_S4x4096x256x1_S4x4096x256_n_2_01_01_2_3_111 x v5
  let cst : (⟨S_, .f32⟩ : BufTy).Contents (Elt Ideal) := constant (F := Ideal) S_ .f32 0x7FC00000#32
  let v14 : (⟨S4x4096x256, .f32⟩ : BufTy).Contents (Elt Ideal) := broadcastInDim S4x4096x256 ![] bcast_S_S4x4096x256 cst
  select v12 v13 v14

theorem takeWide_eq (x : (⟨S4x4096x4096, .f32⟩ : BufTy).Contents (Elt Ideal))
    (J : (⟨S4x4096x256, .i32⟩ : BufTy).Contents (Elt Ideal)) : takeWide x J = tailW x (fixW J) := rfl

/-- The gather at result index (n, p, j) reads row (n, p) of the operand at the start index found at (n, p, j, 0),
    read signed and clamped into the row: axes 0 and 1 are batching axes, axis 2 is collapsed and is the one the
    start index addresses. -/
theorem gatherW_apply {α : Type} (x : S4x4096x4096.Idx → α) (idx : IVec S4x4096x256x1 32)
    (n : Fin 4) (p : Fin 4096) (j : Fin 256) :
    Host.gather gather_S4x4096x4096_S4x4096x256x1_S4x4096x256_n_2_01_01_2_3_111 x idx (ix3 n p j)
      = x (ix3 n p ⟨min (idx (ix4 n p j (0 : Fin 1))).toInt.toNat 4095, by omega⟩) := by
  unfold Host.gather
  refine congrArg x ?_
  funext a
  refine Fin.ext ?_
  let d := gather_S4x4096x4096_S4x4096x256x1_S4x4096x256_n_2_01_01_2_3_111
  show d.start (ix3 n p j) idx a + d.batchCoord (ix3 n p j) a + d.offCoord (ix3 n p j) a = _
  match a with
  | ⟨0, h0⟩ =>
    have hb : (⟨0, h0⟩ : Fin S4x4096x4096.rank) ∈ d.operandBatchingDims := List.mem_cons_self ..
    rw [d.start_batching _ _ _ hb, d.offCoord_eq_zero _ _ (fun h => ((d.mem_sKept _).1 h).2 hb), Nat.zero_add, Nat.add_zero]
    unfold GatherDims.batchCoord
    rw [dif_pos hb]
    rfl
  | ⟨1, h1⟩ =>
    have hb : (⟨1, h1⟩ : Fin S4x4096x4096.rank) ∈ d.operandBatchingDims := List.mem_cons_of_mem _ (List.mem_cons_self ..)
    rw [d.start_batching _ _ _ hb, d.offCoord_eq_zero _ _ (fun h => ((d.mem_sKept _).1 h).2 hb), Nat.zero_add, Nat.add_zero]
    unfold GatherDims.batchCoord
    rw [dif_pos hb]
    rfl
  | ⟨2, h2⟩ =>
    have hc : (⟨2, h2⟩ : Fin S4x4096x4096.rank) ∈ d.collapsedSliceDims := List.mem_cons_self ..
    have hm : (⟨2, h2⟩ : Fin S4x4096x4096.rank) ∈ d.startIndexMap := List.mem_cons_self ..
    have hnb : (⟨2, h2⟩ : Fin S4x4096x4096.rank) ∉ d.operandBatchingDims := fun h => d.sim_disjoint _ hm h
    rw [d.batchCoord_eq_zero _ _ hnb, d.offCoord_eq_zero _ _ (fun h => ((d.mem_sKept _).1 h).1 hc), Nat.add_zero]
    unfold GatherDims.start
    rw [dif_pos hm]
    have hsi : d.siIdx (ix3 n p j) ⟨List.idxOf (⟨2, h2⟩ : Fin S4x4096x4096.rank) d.startIndexMap,
        List.idxOf_lt_length_iff.2 hm⟩ = ix4 n p j (0 : Fin 1) := by
      funext b; refine Fin.ext ?_
      match b with
      | ⟨0, _⟩ => rfl
      | ⟨1, _⟩ => rfl
      | ⟨2, _⟩ => rfl
      | ⟨3, _⟩ => rfl
    rw [hsi]
    rfl

/-- Adding a trailing unit axis keeps the element at (n, p, j) at (n, p, j, 0). -/
theorem castW_apply {α : Type} (v : S4x4096x256.Idx → α) (n : Fin 4) (p : Fin 4096) (j : Fin 256) :
    shapeCast S4x4096x256x1 v shapeCasts_S4x4096x256_S4x4096x256x1 (ix4 n p j (0 : Fin 1)) = v (ix3 n p j) := by
  refine shapeCast_apply v _ _ _ ?_
  rw [Shape.rowMajor_val_three, Shape.rowMajor_val_four]
  show (n.val * 4096 + p.val) * 256 + j.val = ((n.val * 4096 + p.val) * 256 + j.val) * 1 + 0
  omega

/-- The reduction over the trailing unit axis combines the one element there with the initial value. -/
theorem reduceW_apply (m : IVec S4x4096x256x1 1) (c : IVec S_ 1) (n : Fin 4) (p : Fin 4096) (j : Fin 256) :
    Host.reduce IntOp.andi m c reducesTo_S4x4096x256x1_S4x4096x256_d3 h_S_ (ix3 n p j)
      = IntOp.andi (m (ix4 n p j (0 : Fin 1))) (c (Shape.Idx.first h_S_)) := by
  have h : Shape.Reduces S4x4096x256x1 [3] S4x4096x256 := by decide
  rw [Host.reduce_eq_fold_single IntOp.andi m c reducesTo_S4x4096x256x1_S4x4096x256_d3 h h_S_ (ix3 n p j)]
  refine (fold_one IntOp.andi _ rfl _ _).trans ?_
  have hl : h.lift (ix3 n p j) ⟨0, by decide⟩ = ix4 n p j (0 : Fin 1) := by
    funext b; refine Fin.ext ?_
    match b with
    | ⟨0, _⟩ => rfl
    | ⟨1, _⟩ => rfl
    | ⟨2, _⟩ => rfl
    | ⟨3, _⟩ => rfl
  exact congrArg (fun z => IntOp.andi (m z) (c (Shape.Idx.first h_S_))) hl

theorem fixW_apply (J : (⟨S4x4096x256, .i32⟩ : BufTy).Contents (Elt Ideal)) (n : Fin 4) (p : Fin 4096) (j : Fin 256) :
    fixW J (ix4 n p j (0 : Fin 1)) = fixIdx (J (ix3 n p j)) := by
  unfold fixW
  exact (castW_apply _ n p j).trans rfl

theorem tailW_apply (x : (⟨S4x4096x4096, .f32⟩ : BufTy).Contents (Elt Ideal))
    (v5 : (⟨S4x4096x256x1, .i32⟩ : BufTy).Contents (Elt Ideal)) (n : Fin 4) (p : Fin 4096) (j : Fin 256) :
    tailW x v5 (ix3 n p j) = eltOf (fun q => x (ix3 n p q)) (v5 (ix4 n p j (0 : Fin 1))) := by
  unfold tailW
  dsimp only
  rw [select_apply, reduceW_apply, gatherW_apply]
  rfl

/-- THE FUSED TAKE AT (n, p, j): a function of row (n, p) of the operand and of the index word at (n, p, j) alone. -/
theorem takeWide_apply (x : (⟨S4x4096x4096, .f32⟩ : BufTy).Contents (Elt Ideal))
    (J : (⟨S4x4096x256, .i32⟩ : BufTy).Contents (Elt Ideal)) (n : Fin 4) (p : Fin 4096) (j : Fin 256) :
    takeWide x J (ix3 n p j) = takeElt (fun q => x (ix3 n p q)) (J (ix3 n p j)) := by
  rw [takeWide_eq, tailW_apply, fixW_apply]
  rfl

end Wide

/-! ## A separate take: one call on an index array [4, 4096, 64] -/

section Narrow
variable [Cert.ReferenceIdeal.Facts₀]
open Cert.ReferenceIdeal Cert.ReferenceIdeal.Facts₀

/-- The take along the last axis of `x` at the index array `I : [4, 4096, 64]`: the call's 22 operations, composed as printed. -/
def takeNarrow (x : (⟨S4x4096x4096, .f32⟩ : BufTy).Contents (Elt Ideal))
    (I : (⟨S4x4096x64, .i32⟩ : BufTy).Contents (Elt Ideal)) : (⟨S4x4096x64, .f32⟩ : BufTy).Contents (Elt Ideal) :=
  let c : (⟨S_, .i32⟩ : BufTy).Contents (Elt Ideal) := constantI S_ 32 0#32
  let v0 : (⟨S4x4096x64, .i32⟩ : BufTy).Contents (Elt Ideal) := broadcastInDim S4x4096x64 ![] bcast_S_S4x4096x64 c
  let v1 : (⟨S4x4096x64, .i1⟩ : BufTy).Contents (Elt Ideal) := cmpi .slt I v0
  let c_0 : (⟨S_, .i32⟩ : BufTy).Contents (Elt Ideal) := constantI S_ 32 4096#32
  let v2 : (⟨S4x4096x64, .i32⟩ : BufTy).Contents (Elt Ideal) := broadcastInDim S4x4096x64 ![] bcast_S_S4x4096x64 c_0
  let v3 : (⟨S4x4096x64, .i32⟩ : BufTy).Contents (Elt Ideal) := addi I v2
  let v4 : (⟨S4x4096x64, .i32⟩ : BufTy).Contents (Elt Ideal) := select v1 v3 I
  let v5 : (⟨S4x4096x64x1, .i32⟩ : BufTy).Contents (Elt Ideal) := shapeCast S4x4096x64x1 v4 shapeCasts_S4x4096x64_S4x4096x64x1
  let c_1 : (⟨S1, .i32⟩ : BufTy).Contents (Elt Ideal) := constantI S1 32 4095#32
  let c_2 : (⟨S_, .i32⟩ : BufTy).Contents (Elt Ideal) := constantI S_ 32 0#32
  let v6 : (⟨S4x4096x64x1, .i32⟩ : BufTy).Contents (Elt Ideal) := broadcastInDim S4x4096x64x1 ![] bcast_S_S4x4096x64x1 c_2
  let v7 : (⟨S4x4096x64x1, .i1⟩ : BufTy).Contents (Elt Ideal) := cmpi .sge v5 v6
  let v8 : (⟨S1x1x1x1, .i32⟩ : BufTy).Contents (Elt Ideal) := broadcastInDim S1x1x1x1 ![3] bcast_S1_S1x1x1x1_3 c_1
  let v9 : (⟨S4x4096x64x1, .i32⟩ : BufTy).Contents (Elt Ideal) := broadcastInDim S4x4096x64x1 ![0, 1, 2, 3] bcast_S1x1x1x1_S4x4096x64x1_0_1_2_3 v8
  let v10 : (⟨S4x4096x64x1, .i1⟩ : BufTy).Contents (Elt Ideal) := cmpi .sle v5 v9
  let v11 : (⟨S4x4096x64x1, .i1⟩ : BufTy).Contents (Elt Ideal) := andi v7 v10
  let c_3 : (⟨S_, .i1⟩ : BufTy).Contents (Elt Ideal) := constantI S_ 1 1#1
  let v12 : (⟨S4x4096x64, .i1⟩ : BufTy).Contents (Elt Ideal) := Host.reduce IntOp.andi v11 c_3 reducesTo_S4x4096x64x1_S4x4096x64_d3 h_S_
  let v13 : (⟨S4x4096x64, .f32⟩ : BufTy).Contents (Elt Ideal) := Host.gather gather_S4x4096x4096_S4x4096x64x1_S4x4096x64_n_2_01_01_2_3_111 x v5
  let cst : (⟨S_, .f32⟩ : BufTy).Contents (Elt Ideal) := constant (F := Ideal) S_ .f32 0x7FC00000#32
  let v14 : (⟨S4x4096x64, .f32⟩ : BufTy).Contents (Elt Ideal) := broadcastInDim S4x4096x64 ![] bcast_S_S4x4096x64 cst
  select v12 v13 v14

/-- Its first eight operations: the index words adjusted and given a trailing unit axis. -/
def fixN (I : (⟨S4x4096x64, .i32⟩ : BufTy).Contents (Elt Ideal)) : (⟨S4x4096x64x1, .i32⟩ : BufTy).Contents (Elt Ideal) :=
  let c : (⟨S_, .i32⟩ : BufTy).Contents (Elt Ideal) := constantI S_ 32 0#32
  let v0 : (⟨S4x4096x64, .i32⟩ : BufTy).Contents (Elt Ideal) := broadcastInDim S4x4096x64 ![] bcast_S_S4x4096x64 c
  let v1 : (⟨S4x4096x64, .i1⟩ : BufTy).Contents (Elt Ideal) := cmpi .slt I v0
  let c_0 : (⟨S_, .i32⟩ : BufTy).Contents (Elt Ideal) := constantI S_ 32 4096#32
  let v2 : (⟨S4x4096x64, .i32⟩ : BufTy).Contents (Elt Ideal) := broadcastInDim S4x4096x64 ![] bcast_S_S4x4096x64 c_0
  let v3 : (⟨S4x4096x64, .i32⟩ : BufTy).Contents (Elt Ideal) := addi I v2
  let v4 : (⟨S4x4096x64, .i32⟩ : BufTy).Contents (Elt Ideal) := select v1 v3 I
  shapeCast S4x4096x64x1 v4 shapeCasts_S4x4096x64_S4x4096x64x1

/-- The other fourteen, over the adjusted index words. -/
def tailN (x : (⟨S4x4096x4096, .f32⟩ : BufTy).Contents (Elt Ideal))
    (v5 : (⟨S4x4096x64x1, .i32⟩ : BufTy).Contents (Elt Ideal)) : (⟨S4x4096x64, .f32⟩ : BufTy).Contents (Elt Ideal) :=
  let c_1 : (⟨S1, .i32⟩ : BufTy).Contents (Elt Ideal) := constantI S1 32 4095#32
  let c_2 : (⟨S_, .i32⟩ : BufTy).Contents (Elt Ideal) := constantI S_ 32 0#32
  let v6 : (⟨S4x4096x64x1, .i32⟩ : BufTy).Contents (Elt Ideal) := broadcastInDim S4x4096x64x1 ![] bcast_S_S4x4096x64x1 c_2
  let v7 : (⟨S4x4096x64x1, .i1⟩ : BufTy).Contents (Elt Ideal) := cmpi .sge v5 v6
  let v8 : (⟨S1x1x1x1, .i32⟩ : BufTy).Contents (Elt Ideal) := broadcastInDim S1x1x1x1 ![3] bcast_S1_S1x1x1x1_3 c_1
  let v9 : (⟨S4x4096x64x1, .i32⟩ : BufTy).Contents (Elt Ideal) := broadcastInDim S4x4096x64x1 ![0, 1, 2, 3] bcast_S1x1x1x1_S4x4096x64x1_0_1_2_3 v8
  let v10 : (⟨S4x4096x64x1, .i1⟩ : BufTy).Contents (Elt Ideal) := cmpi .sle v5 v9
  let v11 : (⟨S4x4096x64x1, .i1⟩ : BufTy).Contents (Elt Ideal) := andi v7 v10
  let c_3 : (⟨S_, .i1⟩ : BufTy).Contents (Elt Ideal) := constantI S_ 1 1#1
  let v12 : (⟨S4x4096x64, .i1⟩ : BufTy).Contents (Elt Ideal) := Host.reduce IntOp.andi v11 c_3 reducesTo_S4x4096x64x1_S4x4096x64_d3 h_S_
  let v13 : (⟨S4x4096x64, .f32⟩ : BufTy).Contents (Elt Ideal) := Host.gather gather_S4x4096x4096_S4x4096x64x1_S4x4096x64_n_2_01_01_2_3_111 x v5
  let cst : (⟨S_, .f32⟩ : BufTy).Contents (Elt Ideal) := constant (F := Ideal) S_ .f32 0x7FC00000#32
  let v14 : (⟨S4x4096x64, .f32⟩ : BufTy).Contents (Elt Ideal) := broadcastInDim S4x4096x64 ![] bcast_S_S4x4096x64 cst
  select v12 v13 v14

theorem takeNarrow_eq (x : (⟨S4x4096x4096, .f32⟩ : BufTy).Contents (Elt Ideal))
    (I : (⟨S4x4096x64, .i32⟩ : BufTy).Contents (Elt Ideal)) : takeNarrow x I = tailN x (fixN I) := rfl

/-- The gather at result index (n, p, j) reads row (n, p) of the operand at the start index found at (n, p, j, 0),
    read signed and clamped into the row: axes 0 and 1 are batching axes, axis 2 is collapsed and is the one the
    start index addresses. -/
theorem gatherN_apply {α : Type} (x : S4x4096x4096.Idx → α) (idx : IVec S4x4096x64x1 32)
    (n : Fin 4) (p : Fin 4096) (j : Fin 64) :
    Host.gather gather_S4x4096x4096_S4x4096x64x1_S4x4096x64_n_2_01_01_2_3_111 x idx (ix3 n p j)
      = x (ix3 n p ⟨min (idx (ix4 n p j (0 : Fin 1))).toInt.toNat 4095, by omega⟩) := by
  unfold Host.gather
  refine congrArg x ?_
  funext a
  refine Fin.ext ?_
  let d := gather_S4x4096x4096_S4x4096x64x1_S4x4096x64_n_2_01_01_2_3_111
  show d.start (ix3 n p j) idx a + d.batchCoord (ix3 n p j) a + d.offCoord (ix3 n p j) a = _
  match a with
  | ⟨0, h0⟩ =>
    have hb : (⟨0, h0⟩ : Fin S4x4096x4096.rank) ∈ d.operandBatchingDims := List.mem_cons_self ..
    rw [d.start_batching _ _ _ hb, d.offCoord_eq_zero _ _ (fun h => ((d.mem_sKept _).1 h).2 hb), Nat.zero_add, Nat.add_zero]
    unfold GatherDims.batchCoord
    rw [dif_pos hb]
    rfl
  | ⟨1, h1⟩ =>
    have hb : (⟨1, h1⟩ : Fin S4x4096x4096.rank) ∈ d.operandBatchingDims := List.mem_cons_of_mem _ (List.mem_cons_self ..)
    rw [d.start_batching _ _ _ hb, d.offCoord_eq_zero _ _ (fun h => ((d.mem_sKept _).1 h).2 hb), Nat.zero_add, Nat.add_zero]
    unfold GatherDims.batchCoord
    rw [dif_pos hb]
    rfl
  | ⟨2, h2⟩ =>
    have hc : (⟨2, h2⟩ : Fin S4x4096x4096.rank) ∈ d.collapsedSliceDims := List.mem_cons_self ..
    have hm : (⟨2, h2⟩ : Fin S4x4096x4096.rank) ∈ d.startIndexMap := List.mem_cons_self ..
    have hnb : (⟨2, h2⟩ : Fin S4x4096x4096.rank) ∉ d.operandBatchingDims := fun h => d.sim_disjoint _ hm h
    rw [d.batchCoord_eq_zero _ _ hnb, d.offCoord_eq_zero _ _ (fun h => ((d.mem_sKept _).1 h).1 hc), Nat.add_zero]
    unfold GatherDims.start
    rw [dif_pos hm]
    have hsi : d.siIdx (ix3 n p j) ⟨List.idxOf (⟨2, h2⟩ : Fin S4x4096x4096.rank) d.startIndexMap,
        List.idxOf_lt_length_iff.2 hm⟩ = ix4 n p j (0 : Fin 1) := by
      funext b; refine Fin.ext ?_
      match b with
      | ⟨0, _⟩ => rfl
      | ⟨1, _⟩ => rfl
      | ⟨2, _⟩ => rfl
      | ⟨3, _⟩ => rfl
    rw [hsi]
    rfl

/-- Adding a trailing unit axis keeps the element at (n, p, j) at (n, p, j, 0). -/
theorem castN_apply {α : Type} (v : S4x4096x64.Idx → α) (n : Fin 4) (p : Fin 4096) (j : Fin 64) :
    shapeCast S4x4096x64x1 v shapeCasts_S4x4096x64_S4x4096x64x1 (ix4 n p j (0 : Fin 1)) = v (ix3 n p j) := by
  refine shapeCast_apply v _ _ _ ?_
  rw [Shape.rowMajor_val_three, Shape.rowMajor_val_four]
  show (n.val * 4096 + p.val) * 64 + j.val = ((n.val * 4096 + p.val) * 64 + j.val) * 1 + 0
  omega

/-- The reduction over the trailing unit axis combines the one element there with the initial value. -/
theorem reduceN_apply (m : IVec S4x4096x64x1 1) (c : IVec S_ 1) (n : Fin 4) (p : Fin 4096) (j : Fin 64) :
    Host.reduce IntOp.andi m c reducesTo_S4x4096x64x1_S4x4096x64_d3 h_S_ (ix3 n p j)
      = IntOp.andi (m (ix4 n p j (0 : Fin 1))) (c (Shape.Idx.first h_S_)) := by
  have h : Shape.Reduces S4x4096x64x1 [3] S4x4096x64 := by decide
  rw [Host.reduce_eq_fold_single IntOp.andi m c reducesTo_S4x4096x64x1_S4x4096x64_d3 h h_S_ (ix3 n p j)]
  refine (fold_one IntOp.andi _ rfl _ _).trans ?_
  have hl : h.lift (ix3 n p j) ⟨0, by decide⟩ = ix4 n p j (0 : Fin 1) := by
    funext b; refine Fin.ext ?_
    match b with
    | ⟨0, _⟩ => rfl
    | ⟨1, _⟩ => rfl
    | ⟨2, _⟩ => rfl
    | ⟨3, _⟩ => rfl
  exact congrArg (fun z => IntOp.andi (m z) (c (Shape.Idx.first h_S_))) hl

theorem fixN_apply (I : (⟨S4x4096x64, .i32⟩ : BufTy).Contents (Elt Ideal)) (n : Fin 4) (p : Fin 4096) (j : Fin 64) :
    fixN I (ix4 n p j (0 : Fin 1)) = fixIdx (I (ix3 n p j)) := by
  unfold fixN
  exact (castN_apply _ n p j).trans rfl

theorem tailN_apply (x : (⟨S4x4096x4096, .f32⟩ : BufTy).Contents (Elt Ideal))
    (v5 : (⟨S4x4096x64x1, .i32⟩ : BufTy).Contents (Elt Ideal)) (n : Fin 4) (p : Fin 4096) (j : Fin 64) :
    tailN x v5 (ix3 n p j) = eltOf (fun q => x (ix3 n p q)) (v5 (ix4 n p j (0 : Fin 1))) := by
  unfold tailN
  dsimp only
  rw [select_apply, reduceN_apply, gatherN_apply]
  rfl

/-- A SEPARATE TAKE AT (n, p, j): the same function of row (n, p) of the operand and of the index word at (n, p, j). -/
theorem takeNarrow_apply (x : (⟨S4x4096x4096, .f32⟩ : BufTy).Contents (Elt Ideal))
    (I : (⟨S4x4096x64, .i32⟩ : BufTy).Contents (Elt Ideal)) (n : Fin 4) (p : Fin 4096) (j : Fin 64) :
    takeNarrow x I (ix3 n p j) = takeElt (fun q => x (ix3 n p q)) (I (ix3 n p j)) := by
  rw [takeNarrow_eq, tailN_apply, fixN_apply]
  rfl

end Narrow

/-! ## The fused take, sliced, is the separate takes -/

section Main
variable [Cert.KernelIdeal.Facts₀] [Cert.ReferenceIdeal.Facts₀]
open Cert.KernelIdeal Cert.KernelIdeal.Facts₀

/-- The concatenation of four [4, 4096, 64] arrays along the last axis holds, at (n, p, 0 + j), array 0's element at
    (n, p, j). -/
theorem concat_apply_0 {α : Type} (I0 I1 I2 I3 : S4x4096x64.Idx → α) (n : Fin 4) (p : Fin 4096) (j : Fin 64) :
    concatenate S4x4096x256 2 [⟨S4x4096x64, I0⟩, ⟨S4x4096x64, I1⟩, ⟨S4x4096x64, I2⟩, ⟨S4x4096x64, I3⟩] concatenates_S4x4096x64_S4x4096x64_S4x4096x64_S4x4096x64_S4x4096x256_d2
      (ix3 n p (⟨0 + j.val, by omega⟩ : Fin 256)) = I0 (ix3 n p j) := by
  refine concatenate_apply_piece 2 [⟨S4x4096x64, I0⟩, ⟨S4x4096x64, I1⟩, ⟨S4x4096x64, I2⟩, ⟨S4x4096x64, I3⟩] concatenates_S4x4096x64_S4x4096x64_S4x4096x64_S4x4096x64_S4x4096x256_d2
    (ix3 n p (⟨0 + j.val, by omega⟩ : Fin 256)) 0 (by show (0 : Nat) < 4; omega) S4x4096x64 I0 rfl rfl 0 rfl (ix3 n p j) ?_ rfl
  intro b hb
  match b, hb with
  | ⟨0, _⟩, _ => rfl
  | ⟨1, _⟩, _ => rfl
  | ⟨2, _⟩, hb => exact absurd (Fin.ext rfl) hb

/-- SLICE 0 OF THE FUSED TAKE IS THE TAKE AT INDEX ARRAY 0. -/
theorem slice0_takeWide (x : (⟨S4x4096x4096, .f32⟩ : BufTy).Contents (Elt Ideal))
    (I0 I1 I2 I3 : (⟨S4x4096x64, .i32⟩ : BufTy).Contents (Elt Ideal)) :
    extractStridedSlice S4x4096x64 ![0, 0, 0]
        (takeWide x (concatenate S4x4096x256 2 [⟨S4x4096x64, I0⟩, ⟨S4x4096x64, I1⟩, ⟨S4x4096x64, I2⟩, ⟨S4x4096x64, I3⟩]
          concatenates_S4x4096x64_S4x4096x64_S4x4096x64_S4x4096x64_S4x4096x256_d2))
        slices_S4x4096x256_S4x4096x64_0_0_0
      = takeNarrow x I0 := by
  funext i
  obtain ⟨n, p, j, rfl⟩ : ∃ (n : Fin 4) (p : Fin 4096) (j : Fin 64), i = ix3 n p j := ⟨i 0, i 1, i 2, eq_ix3 i⟩
  refine (extractStridedSlice_apply _ _ _ (ix3 n p j) (ix3 n p (⟨0 + j.val, by omega⟩ : Fin 256)) ?_).trans ?_
  · intro a
    match a with
    | ⟨0, _⟩ => exact (Nat.zero_add _).symm
    | ⟨1, _⟩ => exact (Nat.zero_add _).symm
    | ⟨2, _⟩ => rfl
  rw [takeWide_apply, takeNarrow_apply]
  exact congrArg (takeElt fun q => x (ix3 n p q)) (concat_apply_0 I0 I1 I2 I3 n p j)

/-- The concatenation of four [4, 4096, 64] arrays along the last axis holds, at (n, p, 64 + j), array 1's element at
    (n, p, j). -/
theorem concat_apply_1 {α : Type} (I0 I1 I2 I3 : S4x4096x64.Idx → α) (n : Fin 4) (p : Fin 4096) (j : Fin 64) :
    concatenate S4x4096x256 2 [⟨S4x4096x64, I0⟩, ⟨S4x4096x64, I1⟩, ⟨S4x4096x64, I2⟩, ⟨S4x4096x64, I3⟩] concatenates_S4x4096x64_S4x4096x64_S4x4096x64_S4x4096x64_S4x4096x256_d2
      (ix3 n p (⟨64 + j.val, by omega⟩ : Fin 256)) = I1 (ix3 n p j) := by
  refine concatenate_apply_piece 2 [⟨S4x4096x64, I0⟩, ⟨S4x4096x64, I1⟩, ⟨S4x4096x64, I2⟩, ⟨S4x4096x64, I3⟩] concatenates_S4x4096x64_S4x4096x64_S4x4096x64_S4x4096x64_S4x4096x256_d2
    (ix3 n p (⟨64 + j.val, by omega⟩ : Fin 256)) 1 (by show (1 : Nat) < 4; omega) S4x4096x64 I1 rfl rfl 64 rfl (ix3 n p j) ?_ rfl
  intro b hb
  match b, hb with
  | ⟨0, _⟩, _ => rfl
  | ⟨1, _⟩, _ => rfl
  | ⟨2, _⟩, hb => exact absurd (Fin.ext rfl) hb

/-- SLICE 1 OF THE FUSED TAKE IS THE TAKE AT INDEX ARRAY 1. -/
theorem slice1_takeWide (x : (⟨S4x4096x4096, .f32⟩ : BufTy).Contents (Elt Ideal))
    (I0 I1 I2 I3 : (⟨S4x4096x64, .i32⟩ : BufTy).Contents (Elt Ideal)) :
    extractStridedSlice S4x4096x64 ![0, 0, 64]
        (takeWide x (concatenate S4x4096x256 2 [⟨S4x4096x64, I0⟩, ⟨S4x4096x64, I1⟩, ⟨S4x4096x64, I2⟩, ⟨S4x4096x64, I3⟩]
          concatenates_S4x4096x64_S4x4096x64_S4x4096x64_S4x4096x64_S4x4096x256_d2))
        slices_S4x4096x256_S4x4096x64_0_0_64
      = takeNarrow x I1 := by
  funext i
  obtain ⟨n, p, j, rfl⟩ : ∃ (n : Fin 4) (p : Fin 4096) (j : Fin 64), i = ix3 n p j := ⟨i 0, i 1, i 2, eq_ix3 i⟩
  refine (extractStridedSlice_apply _ _ _ (ix3 n p j) (ix3 n p (⟨64 + j.val, by omega⟩ : Fin 256)) ?_).trans ?_
  · intro a
    match a with
    | ⟨0, _⟩ => exact (Nat.zero_add _).symm
    | ⟨1, _⟩ => exact (Nat.zero_add _).symm
    | ⟨2, _⟩ => rfl
  rw [takeWide_apply, takeNarrow_apply]
  exact congrArg (takeElt fun q => x (ix3 n p q)) (concat_apply_1 I0 I1 I2 I3 n p j)

/-- The concatenation of four [4, 4096, 64] arrays along the last axis holds, at (n, p, 128 + j), array 2's element at
    (n, p, j). -/
theorem concat_apply_2 {α : Type} (I0 I1 I2 I3 : S4x4096x64.Idx → α) (n : Fin 4) (p : Fin 4096) (j : Fin 64) :
    concatenate S4x4096x256 2 [⟨S4x4096x64, I0⟩, ⟨S4x4096x64, I1⟩, ⟨S4x4096x64, I2⟩, ⟨S4x4096x64, I3⟩] concatenates_S4x4096x64_S4x4096x64_S4x4096x64_S4x4096x64_S4x4096x256_d2
      (ix3 n p (⟨128 + j.val, by omega⟩ : Fin 256)) = I2 (ix3 n p j) := by
  refine concatenate_apply_piece 2 [⟨S4x4096x64, I0⟩, ⟨S4x4096x64, I1⟩, ⟨S4x4096x64, I2⟩, ⟨S4x4096x64, I3⟩] concatenates_S4x4096x64_S4x4096x64_S4x4096x64_S4x4096x64_S4x4096x256_d2
    (ix3 n p (⟨128 + j.val, by omega⟩ : Fin 256)) 2 (by show (2 : Nat) < 4; omega) S4x4096x64 I2 rfl rfl 128 rfl (ix3 n p j) ?_ rfl
  intro b hb
  match b, hb with
  | ⟨0, _⟩, _ => rfl
  | ⟨1, _⟩, _ => rfl
  | ⟨2, _⟩, hb => exact absurd (Fin.ext rfl) hb

/-- SLICE 2 OF THE FUSED TAKE IS THE TAKE AT INDEX ARRAY 2. -/
theorem slice2_takeWide (x : (⟨S4x4096x4096, .f32⟩ : BufTy).Contents (Elt Ideal))
    (I0 I1 I2 I3 : (⟨S4x4096x64, .i32⟩ : BufTy).Contents (Elt Ideal)) :
    extractStridedSlice S4x4096x64 ![0, 0, 128]
        (takeWide x (concatenate S4x4096x256 2 [⟨S4x4096x64, I0⟩, ⟨S4x4096x64, I1⟩, ⟨S4x4096x64, I2⟩, ⟨S4x4096x64, I3⟩]
          concatenates_S4x4096x64_S4x4096x64_S4x4096x64_S4x4096x64_S4x4096x256_d2))
        slices_S4x4096x256_S4x4096x64_0_0_128
      = takeNarrow x I2 := by
  funext i
  obtain ⟨n, p, j, rfl⟩ : ∃ (n : Fin 4) (p : Fin 4096) (j : Fin 64), i = ix3 n p j := ⟨i 0, i 1, i 2, eq_ix3 i⟩
  refine (extractStridedSlice_apply _ _ _ (ix3 n p j) (ix3 n p (⟨128 + j.val, by omega⟩ : Fin 256)) ?_).trans ?_
  · intro a
    match a with
    | ⟨0, _⟩ => exact (Nat.zero_add _).symm
    | ⟨1, _⟩ => exact (Nat.zero_add _).symm
    | ⟨2, _⟩ => rfl
  rw [takeWide_apply, takeNarrow_apply]
  exact congrArg (takeElt fun q => x (ix3 n p q)) (concat_apply_2 I0 I1 I2 I3 n p j)

/-- The concatenation of four [4, 4096, 64] arrays along the last axis holds, at (n, p, 192 + j), array 3's element at
    (n, p, j). -/
theorem concat_apply_3 {α : Type} (I0 I1 I2 I3 : S4x4096x64.Idx → α) (n : Fin 4) (p : Fin 4096) (j : Fin 64) :
    concatenate S4x4096x256 2 [⟨S4x4096x64, I0⟩, ⟨S4x4096x64, I1⟩, ⟨S4x4096x64, I2⟩, ⟨S4x4096x64, I3⟩] concatenates_S4x4096x64_S4x4096x64_S4x4096x64_S4x4096x64_S4x4096x256_d2
      (ix3 n p (⟨192 + j.val, by omega⟩ : Fin 256)) = I3 (ix3 n p j) := by
  refine concatenate_apply_piece 2 [⟨S4x4096x64, I0⟩, ⟨S4x4096x64, I1⟩, ⟨S4x4096x64, I2⟩, ⟨S4x4096x64, I3⟩] concatenates_S4x4096x64_S4x4096x64_S4x4096x64_S4x4096x64_S4x4096x256_d2
    (ix3 n p (⟨192 + j.val, by omega⟩ : Fin 256)) 3 (by show (3 : Nat) < 4; omega) S4x4096x64 I3 rfl rfl 192 rfl (ix3 n p j) ?_ rfl
  intro b hb
  match b, hb with
  | ⟨0, _⟩, _ => rfl
  | ⟨1, _⟩, _ => rfl
  | ⟨2, _⟩, hb => exact absurd (Fin.ext rfl) hb

/-- SLICE 3 OF THE FUSED TAKE IS THE TAKE AT INDEX ARRAY 3. -/
theorem slice3_takeWide (x : (⟨S4x4096x4096, .f32⟩ : BufTy).Contents (Elt Ideal))
    (I0 I1 I2 I3 : (⟨S4x4096x64, .i32⟩ : BufTy).Contents (Elt Ideal)) :
    extractStridedSlice S4x4096x64 ![0, 0, 192]
        (takeWide x (concatenate S4x4096x256 2 [⟨S4x4096x64, I0⟩, ⟨S4x4096x64, I1⟩, ⟨S4x4096x64, I2⟩, ⟨S4x4096x64, I3⟩]
          concatenates_S4x4096x64_S4x4096x64_S4x4096x64_S4x4096x64_S4x4096x256_d2))
        slices_S4x4096x256_S4x4096x64_0_0_192
      = takeNarrow x I3 := by
  funext i
  obtain ⟨n, p, j, rfl⟩ : ∃ (n : Fin 4) (p : Fin 4096) (j : Fin 64), i = ix3 n p j := ⟨i 0, i 1, i 2, eq_ix3 i⟩
  refine (extractStridedSlice_apply _ _ _ (ix3 n p j) (ix3 n p (⟨192 + j.val, by omega⟩ : Fin 256)) ?_).trans ?_
  · intro a
    match a with
    | ⟨0, _⟩ => exact (Nat.zero_add _).symm
    | ⟨1, _⟩ => exact (Nat.zero_add _).symm
    | ⟨2, _⟩ => rfl
  rw [takeWide_apply, takeNarrow_apply]
  exact congrArg (takeElt fun q => x (ix3 n p q)) (concat_apply_3 I0 I1 I2 I3 n p j)

end Main

end Cert.FusedTake

end
-- ==== Proof.TailK.lean ====
/-
  The kernel program's host arithmetic after its region, as two functions of the region's result `x : [4, 4096, 4096]`, the
  sampling grid `g : [4, 64, 2, 64, 64]` and the mask `k : [4, 64, 64, 64]`: the program's 265 operations composed in order
  (every operation applied to its operands' terms, nothing simplified), with one abbreviation — the 22 operations of the
  take along the last axis stand as `Cert.FusedTake.takeWide x J`, and `takeWide_printed` says the abbreviation is those
  22 operations. The grid's two coordinates are split off, shifted by one half and floored; the four corner taps' weights
  are products of the fractional parts and their complements, masked where a corner falls outside the 64 × 64 image; each
  corner's flat position (64 · row + column, both clamped into the image) is an index word into the last axis of `x`; the
  four index arrays are concatenated, the taps read in one call and cut apart, weighted and summed; the sum is set against
  the summed mask weights, and both results are transposed back to [4, 64, 64, 64] and multiplied by `k`.
-/
import proofs.«152563_j67370857005292_2_alg».proof.Proof.Gen.KernelIdeal
import proofs.«152563_j67370857005292_2_alg».proof.Proof.FusedTake
import Idealize.ShloMosaic.PureOps.Ideal
import Idealize.ShloMosaic.PureOps.Reduce

noncomputable section

open Idealize.ShloMosaic Idealize.ShloMosaic.TcCoe

namespace Cert.TailBridge

/-! ## The kernel program's two results as functions of the region's result and the two other arguments -/

section Kernel
open Cert.KernelIdeal Cert.KernelIdeal.Gen

set_option maxRecDepth 8192 in
/-- The kernel program's second result. -/
def tailK1 (x : FVec Ideal Cert.KernelIdeal.S4x4096x4096 .f32) (g : FVec Ideal Cert.KernelIdeal.S4x64x2x64x64 .f32) (k : FVec Ideal Cert.KernelIdeal.S4x64x64x64 .f32) : FVec Ideal Cert.KernelIdeal.S4x64x64x64 .f32 :=
  mulf (transpose S4x64x64x64 [0, 3, 1, 2] (shapeCast _ (id (select (cmpf .olt (addf (addf (addf (addf (broadcastInDim S4x4096x64 ![] bcast_S_S4x4096x64 (constant S_ .f32 0x00000000#32)) (mulf (mulf (subf (broadcastInDim S4x4096x64 ![] bcast_S_S4x4096x64 (constant S_ .f32 0x3F800000#32)) (subf (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32)))))) (subf (broadcastInDim S4x4096x64 ![] bcast_S_S4x4096x64 (constant S_ .f32 0x3F800000#32)) (subf (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))))) (uitofp .f32 (andi (andi (andi (cmpi .sge (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 0#32))) (cmpi .slt (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 64#32)))) (cmpi .sge (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 0#32)))) (cmpi .slt (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 64#32))))))) (mulf (mulf (subf (broadcastInDim S4x4096x64 ![] bcast_S_S4x4096x64 (constant S_ .f32 0x3F800000#32)) (subf (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32)))))) (subf (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32)))))) (uitofp .f32 (andi (andi (andi (cmpi .sge (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 0#32))) (cmpi .slt (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 64#32)))) (cmpi .sge (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 0#32)))) (cmpi .slt (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 64#32))))))) (mulf (mulf (subf (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (subf (broadcastInDim S4x4096x64 ![] bcast_S_S4x4096x64 (constant S_ .f32 0x3F800000#32)) (subf (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))))) (uitofp .f32 (andi (andi (andi (cmpi .sge (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 0#32))) (cmpi .slt (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 64#32)))) (cmpi .sge (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 0#32)))) (cmpi .slt (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 64#32))))))) (mulf (mulf (subf (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (subf (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32)))))) (uitofp .f32 (andi (andi (andi (cmpi .sge (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 0#32))) (cmpi .slt (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 64#32)))) (cmpi .sge (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 0#32)))) (cmpi .slt (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 64#32))))))) (broadcastInDim S4x4096x64 ![] bcast_S_S4x4096x64 (constant S_ .f32 0x3F7FF972#32))) (broadcastInDim S4x4096x64 ![] bcast_S_S4x4096x64 (constant S_ .f32 0x00000000#32)) (broadcastInDim S4x4096x64 ![] bcast_S_S4x4096x64 (constant S_ .f32 0x3F800000#32)))) shapeCasts_S4x4096x64_S4x64x64x64) transposes_S4x64x64x64_S4x64x64x64_0_3_1_2) (k)

set_option maxRecDepth 8192 in
/-- The kernel program's first result. -/
def tailK0 (x : FVec Ideal Cert.KernelIdeal.S4x4096x4096 .f32) (g : FVec Ideal Cert.KernelIdeal.S4x64x2x64x64 .f32) (k : FVec Ideal Cert.KernelIdeal.S4x64x64x64 .f32) : FVec Ideal Cert.KernelIdeal.S4x64x64x64 .f32 :=
  mulf (transpose S4x64x64x64 [0, 3, 1, 2] (shapeCast _ (mulf (addf (addf (addf (addf (broadcastInDim S4x4096x64 ![] bcast_S_S4x4096x64 (constant S_ .f32 0x00000000#32)) (mulf (mulf (mulf (subf (broadcastInDim S4x4096x64 ![] bcast_S_S4x4096x64 (constant S_ .f32 0x3F800000#32)) (subf (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32)))))) (subf (broadcastInDim S4x4096x64 ![] bcast_S_S4x4096x64 (constant S_ .f32 0x3F800000#32)) (subf (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))))) (uitofp .f32 (andi (andi (andi (cmpi .sge (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 0#32))) (cmpi .slt (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 64#32)))) (cmpi .sge (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 0#32)))) (cmpi .slt (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 64#32)))))) (extractStridedSlice S4x4096x64 ![0, 0, 0] (Cert.FusedTake.takeWide (x) (concatenate S4x4096x256 2 [⟨S4x4096x64, (addi (muli (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))))) (broadcastInDim S4x4096x64 ![] bcast_S_S4x4096x64 (constantI S_ 32 64#32))) (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))))))⟩, ⟨S4x4096x64, (addi (muli (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))))) (broadcastInDim S4x4096x64 ![] bcast_S_S4x4096x64 (constantI S_ 32 64#32))) (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))))))⟩, ⟨S4x4096x64, (addi (muli (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))))) (broadcastInDim S4x4096x64 ![] bcast_S_S4x4096x64 (constantI S_ 32 64#32))) (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))))))⟩, ⟨S4x4096x64, (addi (muli (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))))) (broadcastInDim S4x4096x64 ![] bcast_S_S4x4096x64 (constantI S_ 32 64#32))) (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))))))⟩] concatenates_S4x4096x64_S4x4096x64_S4x4096x64_S4x4096x64_S4x4096x256_d2)) slices_S4x4096x256_S4x4096x64_0_0_0))) (mulf (mulf (mulf (subf (broadcastInDim S4x4096x64 ![] bcast_S_S4x4096x64 (constant S_ .f32 0x3F800000#32)) (subf (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32)))))) (subf (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32)))))) (uitofp .f32 (andi (andi (andi (cmpi .sge (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 0#32))) (cmpi .slt (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 64#32)))) (cmpi .sge (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 0#32)))) (cmpi .slt (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 64#32)))))) (extractStridedSlice S4x4096x64 ![0, 0, 64] (Cert.FusedTake.takeWide (x) (concatenate S4x4096x256 2 [⟨S4x4096x64, (addi (muli (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))))) (broadcastInDim S4x4096x64 ![] bcast_S_S4x4096x64 (constantI S_ 32 64#32))) (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))))))⟩, ⟨S4x4096x64, (addi (muli (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))))) (broadcastInDim S4x4096x64 ![] bcast_S_S4x4096x64 (constantI S_ 32 64#32))) (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))))))⟩, ⟨S4x4096x64, (addi (muli (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))))) (broadcastInDim S4x4096x64 ![] bcast_S_S4x4096x64 (constantI S_ 32 64#32))) (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))))))⟩, ⟨S4x4096x64, (addi (muli (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))))) (broadcastInDim S4x4096x64 ![] bcast_S_S4x4096x64 (constantI S_ 32 64#32))) (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))))))⟩] concatenates_S4x4096x64_S4x4096x64_S4x4096x64_S4x4096x64_S4x4096x256_d2)) slices_S4x4096x256_S4x4096x64_0_0_64))) (mulf (mulf (mulf (subf (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (subf (broadcastInDim S4x4096x64 ![] bcast_S_S4x4096x64 (constant S_ .f32 0x3F800000#32)) (subf (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))))) (uitofp .f32 (andi (andi (andi (cmpi .sge (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 0#32))) (cmpi .slt (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 64#32)))) (cmpi .sge (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 0#32)))) (cmpi .slt (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 64#32)))))) (extractStridedSlice S4x4096x64 ![0, 0, 128] (Cert.FusedTake.takeWide (x) (concatenate S4x4096x256 2 [⟨S4x4096x64, (addi (muli (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))))) (broadcastInDim S4x4096x64 ![] bcast_S_S4x4096x64 (constantI S_ 32 64#32))) (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))))))⟩, ⟨S4x4096x64, (addi (muli (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))))) (broadcastInDim S4x4096x64 ![] bcast_S_S4x4096x64 (constantI S_ 32 64#32))) (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))))))⟩, ⟨S4x4096x64, (addi (muli (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))))) (broadcastInDim S4x4096x64 ![] bcast_S_S4x4096x64 (constantI S_ 32 64#32))) (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))))))⟩, ⟨S4x4096x64, (addi (muli (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))))) (broadcastInDim S4x4096x64 ![] bcast_S_S4x4096x64 (constantI S_ 32 64#32))) (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))))))⟩] concatenates_S4x4096x64_S4x4096x64_S4x4096x64_S4x4096x64_S4x4096x256_d2)) slices_S4x4096x256_S4x4096x64_0_0_128))) (mulf (mulf (mulf (subf (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (subf (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32)))))) (uitofp .f32 (andi (andi (andi (cmpi .sge (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 0#32))) (cmpi .slt (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 64#32)))) (cmpi .sge (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 0#32)))) (cmpi .slt (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 64#32)))))) (extractStridedSlice S4x4096x64 ![0, 0, 192] (Cert.FusedTake.takeWide (x) (concatenate S4x4096x256 2 [⟨S4x4096x64, (addi (muli (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))))) (broadcastInDim S4x4096x64 ![] bcast_S_S4x4096x64 (constantI S_ 32 64#32))) (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))))))⟩, ⟨S4x4096x64, (addi (muli (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))))) (broadcastInDim S4x4096x64 ![] bcast_S_S4x4096x64 (constantI S_ 32 64#32))) (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))))))⟩, ⟨S4x4096x64, (addi (muli (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))))) (broadcastInDim S4x4096x64 ![] bcast_S_S4x4096x64 (constantI S_ 32 64#32))) (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))))))⟩, ⟨S4x4096x64, (addi (muli (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))))) (broadcastInDim S4x4096x64 ![] bcast_S_S4x4096x64 (constantI S_ 32 64#32))) (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))))))⟩] concatenates_S4x4096x64_S4x4096x64_S4x4096x64_S4x4096x64_S4x4096x256_d2)) slices_S4x4096x256_S4x4096x64_0_0_192))) (id (select (cmpf .olt (addf (addf (addf (addf (broadcastInDim S4x4096x64 ![] bcast_S_S4x4096x64 (constant S_ .f32 0x00000000#32)) (mulf (mulf (subf (broadcastInDim S4x4096x64 ![] bcast_S_S4x4096x64 (constant S_ .f32 0x3F800000#32)) (subf (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32)))))) (subf (broadcastInDim S4x4096x64 ![] bcast_S_S4x4096x64 (constant S_ .f32 0x3F800000#32)) (subf (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))))) (uitofp .f32 (andi (andi (andi (cmpi .sge (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 0#32))) (cmpi .slt (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 64#32)))) (cmpi .sge (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 0#32)))) (cmpi .slt (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 64#32))))))) (mulf (mulf (subf (broadcastInDim S4x4096x64 ![] bcast_S_S4x4096x64 (constant S_ .f32 0x3F800000#32)) (subf (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32)))))) (subf (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32)))))) (uitofp .f32 (andi (andi (andi (cmpi .sge (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 0#32))) (cmpi .slt (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 64#32)))) (cmpi .sge (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 0#32)))) (cmpi .slt (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 64#32))))))) (mulf (mulf (subf (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (subf (broadcastInDim S4x4096x64 ![] bcast_S_S4x4096x64 (constant S_ .f32 0x3F800000#32)) (subf (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))))) (uitofp .f32 (andi (andi (andi (cmpi .sge (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 0#32))) (cmpi .slt (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 64#32)))) (cmpi .sge (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 0#32)))) (cmpi .slt (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 64#32))))))) (mulf (mulf (subf (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (subf (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32)))))) (uitofp .f32 (andi (andi (andi (cmpi .sge (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 0#32))) (cmpi .slt (addi (fptosi 32 (Host.floor (subf (shapeCast _ (extractStridedSlice S4x4096x1x64 ![0, 0, 0, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 64#32)))) (cmpi .sge (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 0#32)))) (cmpi .slt (addi (fptosi 32 (Host.floor (subf (shapeCast _ (extractStridedSlice S4x4096x1x64 ![0, 0, 1, 0] (shapeCast _ (transpose S4x64x64x2x64 [0, 3, 4, 2, 1] (g) transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 64#32))))))) (broadcastInDim S4x4096x64 ![] bcast_S_S4x4096x64 (constant S_ .f32 0x3F7FF972#32))) (broadcastInDim S4x4096x64 ![] bcast_S_S4x4096x64 (constant S_ .f32 0x00000000#32)) (broadcastInDim S4x4096x64 ![] bcast_S_S4x4096x64 (constant S_ .f32 0x3F800000#32))))) shapeCasts_S4x4096x64_S4x64x64x64) transposes_S4x64x64x64_S4x64x64x64_0_3_1_2) (k)

end Kernel

/-! ## The fused take's definition is the program's 22 operations -/

/-- The fused take is the kernel program's 22 operations of the call, composed in order. -/
theorem takeWide_printed (x : FVec Ideal Cert.KernelIdeal.S4x4096x4096 .f32) (J : IVec Cert.KernelIdeal.S4x4096x256 32) :
    Cert.FusedTake.takeWide x J =
      (open Cert.KernelIdeal Cert.KernelIdeal.Gen in
        select (Host.reduce IntOp.andi (andi (cmpi .sge (shapeCast _ (select (cmpi .slt (J) (broadcastInDim S4x4096x256 ![] bcast_S_S4x4096x256 (constantI S_ 32 0#32))) (addi (J) (broadcastInDim S4x4096x256 ![] bcast_S_S4x4096x256 (constantI S_ 32 4096#32))) (J)) shapeCasts_S4x4096x256_S4x4096x256x1) (broadcastInDim S4x4096x256x1 ![] bcast_S_S4x4096x256x1 (constantI S_ 32 0#32))) (cmpi .sle (shapeCast _ (select (cmpi .slt (J) (broadcastInDim S4x4096x256 ![] bcast_S_S4x4096x256 (constantI S_ 32 0#32))) (addi (J) (broadcastInDim S4x4096x256 ![] bcast_S_S4x4096x256 (constantI S_ 32 4096#32))) (J)) shapeCasts_S4x4096x256_S4x4096x256x1) (broadcastInDim S4x4096x256x1 ![0, 1, 2, 3] bcast_S1x1x1x1_S4x4096x256x1_0_1_2_3 (broadcastInDim S1x1x1x1 ![3] bcast_S1_S1x1x1x1_3 (constantI S1 32 4095#32))))) (constantI S_ 1 1#1) reducesTo_S4x4096x256x1_S4x4096x256_d3 h_S_) (Host.gather gather_S4x4096x4096_S4x4096x256x1_S4x4096x256_n_2_01_01_2_3_111 (x) (shapeCast _ (select (cmpi .slt (J) (broadcastInDim S4x4096x256 ![] bcast_S_S4x4096x256 (constantI S_ 32 0#32))) (addi (J) (broadcastInDim S4x4096x256 ![] bcast_S_S4x4096x256 (constantI S_ 32 4096#32))) (J)) shapeCasts_S4x4096x256_S4x4096x256x1)) (broadcastInDim S4x4096x256 ![] bcast_S_S4x4096x256 (constant S_ .f32 0x7FC00000#32))) := rfl

end Cert.TailBridge

end
-- ==== Proof.KernelIdealTail0.lean ====
/-
  The kernel program's first result after its 265 host lines, as a function of what the lines start from.

  The lines after the region only ever read the region's result array, the sampling grid (argument 2), the mask (argument 3)
  and buffers that earlier lines wrote. Running them from ANY contents `W` of the buffers therefore leaves, in the first
  result buffer, the lines' operations composed in order over `W` at those three buffers: the function `tailK0` (each line
  contributes its own operation applied to its operands' terms). The called functions' stretches are read in their plain
  restatement, which they equal.
-/
import proofs.«152563_j67370857005292_2_alg».proof.Proof.KernelIdealFrame
import proofs.«152563_j67370857005292_2_alg».proof.Proof.KernelIdealPlain
import proofs.«152563_j67370857005292_2_alg».proof.Proof.TailK
import Idealize.ShloMosaic.Lib.StableHlo.Run

noncomputable section

namespace Cert.KernelIdeal.Tail

open Cert.KernelIdeal Cert.KernelIdeal.Gen Cert.KernelIdeal.GenP Cert.KernelIdeal.Frm
open Idealize.ShloMosaic Idealize.ShloMosaic.TcCoe Idealize.SL.Sem Idealize.ShloMosaic.StableHlo

set_option maxRecDepth 1000000 in
set_option maxHeartbeats 400000000 in
/-- The first result buffer after the later lines, from any contents `W`. -/
theorem tail0 (W : Valuation τ sig (Elt Ideal)) :
    StableHlo.after (tailOps (F := Ideal)).flatten W (Proc.devRef .tc main_v150)
      = Cert.TailBridge.tailK0 (W (Proc.devRef .tc main_v4)) (W (Proc.devRef .tc main_arg2)) (W (Proc.devRef .tc main_arg3)) := by
  simp only [tailOps, List.flatten_cons, List.flatten_nil, List.append_nil, StableHlo.after_append]
  rewrite [Cert.KernelIdeal.Plain.hostOps1_1_eq, Cert.KernelIdeal.Plain.hostOps1_3_eq, Cert.KernelIdeal.Plain.hostOps1_5_eq, Cert.KernelIdeal.Plain.hostOps1_7_eq, Cert.KernelIdeal.Plain.hostOps1_9_eq, Cert.KernelIdeal.Plain.hostOps1_11_eq, Cert.KernelIdeal.Plain.hostOps1_13_eq, Cert.KernelIdeal.Plain.hostOps1_15_eq, Cert.KernelIdeal.Plain.hostOps1_17_eq, Cert.KernelIdeal.Plain.hostOps1_19_eq]
  after_results_simp
  unfold Cert.TailBridge.tailK0
  rewrite [Cert.TailBridge.takeWide_printed]
  rfl

end Cert.KernelIdeal.Tail

end
-- ==== Proof.KernelIdealTail1.lean ====
/-
  The kernel program's second result after its 265 host lines, as a function of what the lines start from.

  The lines after the region only ever read the region's result array, the sampling grid (argument 2), the mask (argument 3)
  and buffers that earlier lines wrote. Running them from ANY contents `W` of the buffers therefore leaves, in the second
  result buffer, the lines' operations composed in order over `W` at those three buffers: the function `tailK1` (each line
  contributes its own operation applied to its operands' terms). The called functions' stretches are read in their plain
  restatement, which they equal.
-/
import proofs.«152563_j67370857005292_2_alg».proof.Proof.KernelIdealFrame
import proofs.«152563_j67370857005292_2_alg».proof.Proof.KernelIdealPlain
import proofs.«152563_j67370857005292_2_alg».proof.Proof.TailK
import Idealize.ShloMosaic.Lib.StableHlo.Run

noncomputable section

namespace Cert.KernelIdeal.Tail

open Cert.KernelIdeal Cert.KernelIdeal.Gen Cert.KernelIdeal.GenP Cert.KernelIdeal.Frm
open Idealize.ShloMosaic Idealize.ShloMosaic.TcCoe Idealize.SL.Sem Idealize.ShloMosaic.StableHlo

set_option maxRecDepth 1000000 in
set_option maxHeartbeats 400000000 in
/-- The second result buffer after the later lines, from any contents `W`. -/
theorem tail1 (W : Valuation τ sig (Elt Ideal)) :
    StableHlo.after (tailOps (F := Ideal)).flatten W (Proc.devRef .tc main_v151)
      = Cert.TailBridge.tailK1 (W (Proc.devRef .tc main_v4)) (W (Proc.devRef .tc main_arg2)) (W (Proc.devRef .tc main_arg3)) := by
  simp only [tailOps, List.flatten_cons, List.flatten_nil, List.append_nil, StableHlo.after_append]
  rewrite [Cert.KernelIdeal.Plain.hostOps1_1_eq, Cert.KernelIdeal.Plain.hostOps1_3_eq, Cert.KernelIdeal.Plain.hostOps1_5_eq, Cert.KernelIdeal.Plain.hostOps1_7_eq, Cert.KernelIdeal.Plain.hostOps1_9_eq, Cert.KernelIdeal.Plain.hostOps1_11_eq, Cert.KernelIdeal.Plain.hostOps1_13_eq, Cert.KernelIdeal.Plain.hostOps1_15_eq, Cert.KernelIdeal.Plain.hostOps1_17_eq, Cert.KernelIdeal.Plain.hostOps1_19_eq]
  after_results_simp
  unfold Cert.TailBridge.tailK1
  rfl

end Cert.KernelIdeal.Tail

end
-- ==== Proof.KernelIdealRun.lean ====
/-
  The kernel program's run, with its two results named.

  The four host lines before the region leave, in the two arrays the region stages, the two feature arguments reshaped to
  [4, 128, 4096] (the change of float format between them is the identity on the extended reals). The region leaves their
  correlation volume in its result array. The 265 later lines compute the two results from that array, the sampling grid
  and the mask, and write none of them. So every run ends with the first result at `tailK0` and the second at `tailK1` of
  (the correlation volume of the two reshaped features, the grid, the mask), and with the four arguments as launched.
-/
import proofs.«152563_j67370857005292_2_alg».proof.Proof.KernelIdealCorr
import proofs.«152563_j67370857005292_2_alg».proof.Proof.KernelIdealTail0
import proofs.«152563_j67370857005292_2_alg».proof.Proof.KernelIdealTail1

set_option maxRecDepth 16384

noncomputable section

namespace Cert.KernelIdeal.KRun

open Cert.KernelIdeal Cert.KernelIdeal.Gen Cert.KernelIdeal.GenP Cert.KernelIdeal.Frm Cert.KernelIdeal.Corr
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The first staged array: the first feature argument reshaped (the change of format is the identity). -/
theorem V_main_v1 (c : Dev nD) :
    V m c main_v1 = (shapeCast _ (m ((c.tc : Thread nD τ).loc main_arg0)) shapeCasts_S4x128x64x64_S4x128x4096 : FVec Ideal S4x128x4096 .f32) := by
  show StableHlo.after hostOps0 (fun b => m (c, b)) (Proc.devRef .tc main_v1) = _
  after_results
  rfl

/-- The second staged array: the second feature argument reshaped. -/
theorem V_main_v3 (c : Dev nD) :
    V m c main_v3 = (shapeCast _ (m ((c.tc : Thread nD τ).loc main_arg1)) shapeCasts_S4x128x64x64_S4x128x4096 : FVec Ideal S4x128x4096 .f32) := by
  show StableHlo.after hostOps0 (fun b => m (c, b)) (Proc.devRef .tc main_v3) = _
  after_results
  rfl

/-- What the later lines start from: the region's result array at the correlation volume, the grid and the mask as launched. -/
theorem start_v4 (c : Dev nD) :
    Pipeline.withArrays spec0 c (V0 m c) (fun w => (dats m 0 c).arrAt w cfg0.N) (Proc.devRef .tc main_v4)
      = corr (V m c main_v1) (V m c main_v3) :=
  (Pipeline.withArrays_arr spec0 launch0.win.arr_inj c _ _ 2).trans (final m c)

theorem start_arg2 (c : Dev nD) :
    Pipeline.withArrays spec0 c (V0 m c) (fun w => (dats m 0 c).arrAt w cfg0.N) (Proc.devRef .tc main_arg2)
      = m ((c.tc : Thread nD τ).loc main_arg2) :=
  (Pipeline.withArrays_of_ne _ c (V0 m c) _ main_arg2 (by exact (by decide : ∀ w, Pipeline.arrRef spec0 w ≠ main_arg2))).trans (V_main_arg2 m c)

theorem start_arg3 (c : Dev nD) :
    Pipeline.withArrays spec0 c (V0 m c) (fun w => (dats m 0 c).arrAt w cfg0.N) (Proc.devRef .tc main_arg3)
      = m ((c.tc : Thread nD τ).loc main_arg3) :=
  (Pipeline.withArrays_of_ne _ c (V0 m c) _ main_arg3 (by exact (by decide : ∀ w, Pipeline.arrRef spec0 w ≠ main_arg3))).trans (V_main_arg3 m c)

/-- The first result buffer after the later lines. -/
theorem out0 (c : Dev nD) :
    Pipeline.afterTail₀ cfgs (dats m) 0 (V0 m) tailOps c main_v150
      = Cert.TailBridge.tailK0 (corr (V m c main_v1) (V m c main_v3)) (m ((c.tc : Thread nD τ).loc main_arg2)) (m ((c.tc : Thread nD τ).loc main_arg3)) := by
  unfold Pipeline.afterTail₀
  rw [Cert.KernelIdeal.Tail.tail0, start_v4, start_arg2, start_arg3]

/-- The second result buffer after the later lines. -/
theorem out1 (c : Dev nD) :
    Pipeline.afterTail₀ cfgs (dats m) 0 (V0 m) tailOps c main_v151
      = Cert.TailBridge.tailK1 (corr (V m c main_v1) (V m c main_v3)) (m ((c.tc : Thread nD τ).loc main_arg2)) (m ((c.tc : Thread nD τ).loc main_arg3)) := by
  unfold Pipeline.afterTail₀
  rw [Cert.KernelIdeal.Tail.tail1, start_v4, start_arg2, start_arg3]

/-- Every weakly fair execution of the kernel program terminates with its two results at `tailK0` / `tailK1` of the
    correlation volume of the two staged arrays, the grid and the mask, and its four arguments as launched. -/
theorem run : θ_run defs (onTc (τ := τ) (main (F := Ideal))) ⟨m, fun _ => 0, ρ⟩ fun r => ∀ c : Dev nD,
      r.2.mem ((c.tc : Thread nD τ).loc main_v150)
        = Cert.TailBridge.tailK0 (corr (V m c main_v1) (V m c main_v3)) (m ((c.tc : Thread nD τ).loc main_arg2)) (m ((c.tc : Thread nD τ).loc main_arg3))
      ∧ r.2.mem ((c.tc : Thread nD τ).loc main_v151)
        = Cert.TailBridge.tailK1 (corr (V m c main_v1) (V m c main_v3)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v150 (Pipeline.mem_restRefs_of main_v150 (by decide) (by decide))).trans (out0 m c),
     ((h c).2 main_v151 (Pipeline.mem_restRefs_of main_v151 (by decide) (by decide))).trans (out1 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.KRun

end
-- ==== Proof.TailR.lean ====
/-
  The reference's host arithmetic after its correlation product, as two functions of the product `x : [4, 4096, 4096]`, the
  sampling grid `g : [4, 64, 2, 64, 64]` and the mask `k : [4, 64, 64, 64]`: the reference's operations composed in order
  (every operation applied to its operands' terms, nothing simplified), with one abbreviation — the 22 operations of each
  of the four takes along the last axis stand as `Cert.FusedTake.takeNarrow x I`, and `takeNarrow_printed` says the
  abbreviation is those 22 operations. The grid's two coordinates are split off, shifted by one half and floored; the four
  corner taps' weights are products of the fractional parts and their complements, masked where a corner falls outside the
  64 × 64 image; each corner's flat position (64 · row + column, both clamped into the image) is an index word into the last
  axis of `x`; each corner's taps are read by a call of their own, weighted and summed; the sum is set against the summed
  mask weights, and both results are transposed back to [4, 64, 64, 64] and multiplied by `k`. The second result does not
  read the product.
-/
import proofs.«152563_j67370857005292_2_alg».proof.Proof.Gen.ReferenceIdeal
import proofs.«152563_j67370857005292_2_alg».proof.Proof.FusedTake
import Idealize.ShloMosaic.PureOps.Ideal
import Idealize.ShloMosaic.PureOps.Reduce

noncomputable section

open Idealize.ShloMosaic Idealize.ShloMosaic.TcCoe

namespace Cert.TailBridge

/-! ## The reference's two results as functions of the product and the two other arguments -/

section Reference
open Cert.ReferenceIdeal Cert.ReferenceIdeal.Gen

set_option maxRecDepth 8192 in
/-- The reference's second result. -/
def tailR1 (x : FVec Ideal Cert.ReferenceIdeal.S4x4096x4096 .f32) (g : FVec Ideal Cert.ReferenceIdeal.S4x64x2x64x64 .f32) (k : FVec Ideal Cert.ReferenceIdeal.S4x64x64x64 .f32) : FVec Ideal Cert.ReferenceIdeal.S4x64x64x64 .f32 :=
  mulf (transpose S4x64x64x64 [0, 3, 1, 2] (shapeCast _ (id (select (cmpf .olt (addf (addf (addf (addf (broadcastInDim S4x4096x64 ![] bcast_S_S4x4096x64 (constant S_ .f32 0x00000000#32)) (mulf (mulf (subf (broadcastInDim S4x4096x64 ![] bcast_S_S4x4096x64 (constant S_ .f32 0x3F800000#32)) (subf (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32)))))) (subf (broadcastInDim S4x4096x64 ![] bcast_S_S4x4096x64 (constant S_ .f32 0x3F800000#32)) (subf (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))))) (uitofp .f32 (andi (andi (andi (cmpi .sge (addi (fptosi 32 (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 0#32))) (cmpi .slt (addi (fptosi 32 (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 64#32)))) (cmpi .sge (addi (fptosi 32 (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 0#32)))) (cmpi .slt (addi (fptosi 32 (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 64#32))))))) (mulf (mulf (subf (broadcastInDim S4x4096x64 ![] bcast_S_S4x4096x64 (constant S_ .f32 0x3F800000#32)) (subf (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32)))))) (subf (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32)))))) (uitofp .f32 (andi (andi (andi (cmpi .sge (addi (fptosi 32 (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 0#32))) (cmpi .slt (addi (fptosi 32 (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 64#32)))) (cmpi .sge (addi (fptosi 32 (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 0#32)))) (cmpi .slt (addi (fptosi 32 (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 64#32))))))) (mulf (mulf (subf (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (subf (broadcastInDim S4x4096x64 ![] bcast_S_S4x4096x64 (constant S_ .f32 0x3F800000#32)) (subf (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))))) (uitofp .f32 (andi (andi (andi (cmpi .sge (addi (fptosi 32 (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 0#32))) (cmpi .slt (addi (fptosi 32 (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 64#32)))) (cmpi .sge (addi (fptosi 32 (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 0#32)))) (cmpi .slt (addi (fptosi 32 (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 64#32))))))) (mulf (mulf (subf (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (subf (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32)))))) (uitofp .f32 (andi (andi (andi (cmpi .sge (addi (fptosi 32 (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 0#32))) (cmpi .slt (addi (fptosi 32 (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 64#32)))) (cmpi .sge (addi (fptosi 32 (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 0#32)))) (cmpi .slt (addi (fptosi 32 (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 64#32))))))) (broadcastInDim S4x4096x64 ![] bcast_S_S4x4096x64 (constant S_ .f32 0x3F7FF972#32))) (broadcastInDim S4x4096x64 ![] bcast_S_S4x4096x64 (constant S_ .f32 0x00000000#32)) (broadcastInDim S4x4096x64 ![] bcast_S_S4x4096x64 (constant S_ .f32 0x3F800000#32)))) shapeCasts_S4x4096x64_S4x64x64x64) transposes_S4x64x64x64_S4x64x64x64_0_3_1_2) k

set_option maxRecDepth 8192 in
/-- The reference's first result. -/
def tailR0 (x : FVec Ideal Cert.ReferenceIdeal.S4x4096x4096 .f32) (g : FVec Ideal Cert.ReferenceIdeal.S4x64x2x64x64 .f32) (k : FVec Ideal Cert.ReferenceIdeal.S4x64x64x64 .f32) : FVec Ideal Cert.ReferenceIdeal.S4x64x64x64 .f32 :=
  mulf (transpose S4x64x64x64 [0, 3, 1, 2] (shapeCast _ (mulf (addf (addf (addf (addf (broadcastInDim S4x4096x64 ![] bcast_S_S4x4096x64 (constant S_ .f32 0x00000000#32)) (mulf (mulf (mulf (subf (broadcastInDim S4x4096x64 ![] bcast_S_S4x4096x64 (constant S_ .f32 0x3F800000#32)) (subf (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32)))))) (subf (broadcastInDim S4x4096x64 ![] bcast_S_S4x4096x64 (constant S_ .f32 0x3F800000#32)) (subf (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))))) (uitofp .f32 (andi (andi (andi (cmpi .sge (addi (fptosi 32 (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 0#32))) (cmpi .slt (addi (fptosi 32 (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 64#32)))) (cmpi .sge (addi (fptosi 32 (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 0#32)))) (cmpi .slt (addi (fptosi 32 (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 64#32)))))) (Cert.FusedTake.takeNarrow x (addi (muli (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))))) (broadcastInDim S4x4096x64 ![] bcast_S_S4x4096x64 (constantI S_ 32 64#32))) (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))))))))) (mulf (mulf (mulf (subf (broadcastInDim S4x4096x64 ![] bcast_S_S4x4096x64 (constant S_ .f32 0x3F800000#32)) (subf (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32)))))) (subf (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32)))))) (uitofp .f32 (andi (andi (andi (cmpi .sge (addi (fptosi 32 (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 0#32))) (cmpi .slt (addi (fptosi 32 (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 64#32)))) (cmpi .sge (addi (fptosi 32 (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 0#32)))) (cmpi .slt (addi (fptosi 32 (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 64#32)))))) (Cert.FusedTake.takeNarrow x (addi (muli (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))))) (broadcastInDim S4x4096x64 ![] bcast_S_S4x4096x64 (constantI S_ 32 64#32))) (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))))))))) (mulf (mulf (mulf (subf (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (subf (broadcastInDim S4x4096x64 ![] bcast_S_S4x4096x64 (constant S_ .f32 0x3F800000#32)) (subf (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))))) (uitofp .f32 (andi (andi (andi (cmpi .sge (addi (fptosi 32 (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 0#32))) (cmpi .slt (addi (fptosi 32 (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 64#32)))) (cmpi .sge (addi (fptosi 32 (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 0#32)))) (cmpi .slt (addi (fptosi 32 (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 64#32)))))) (Cert.FusedTake.takeNarrow x (addi (muli (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))))) (broadcastInDim S4x4096x64 ![] bcast_S_S4x4096x64 (constantI S_ 32 64#32))) (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))))))))) (mulf (mulf (mulf (subf (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (subf (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32)))))) (uitofp .f32 (andi (andi (andi (cmpi .sge (addi (fptosi 32 (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 0#32))) (cmpi .slt (addi (fptosi 32 (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 64#32)))) (cmpi .sge (addi (fptosi 32 (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 0#32)))) (cmpi .slt (addi (fptosi 32 (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 64#32)))))) (Cert.FusedTake.takeNarrow x (addi (muli (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))))) (broadcastInDim S4x4096x64 ![] bcast_S_S4x4096x64 (constantI S_ 32 64#32))) (minsi (broadcastInDim S4x4096x64 ![] bcast_S_S4x4096x64 (id (constantI S_ 32 63#32))) (maxsi (broadcastInDim S4x4096x64 ![] bcast_S_S4x4096x64 (id (constantI S_ 32 0#32))) (addi (fptosi 32 (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))))))))) (id (select (cmpf .olt (addf (addf (addf (addf (broadcastInDim S4x4096x64 ![] bcast_S_S4x4096x64 (constant S_ .f32 0x00000000#32)) (mulf (mulf (subf (broadcastInDim S4x4096x64 ![] bcast_S_S4x4096x64 (constant S_ .f32 0x3F800000#32)) (subf (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32)))))) (subf (broadcastInDim S4x4096x64 ![] bcast_S_S4x4096x64 (constant S_ .f32 0x3F800000#32)) (subf (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))))) (uitofp .f32 (andi (andi (andi (cmpi .sge (addi (fptosi 32 (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 0#32))) (cmpi .slt (addi (fptosi 32 (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 64#32)))) (cmpi .sge (addi (fptosi 32 (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 0#32)))) (cmpi .slt (addi (fptosi 32 (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 64#32))))))) (mulf (mulf (subf (broadcastInDim S4x4096x64 ![] bcast_S_S4x4096x64 (constant S_ .f32 0x3F800000#32)) (subf (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32)))))) (subf (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32)))))) (uitofp .f32 (andi (andi (andi (cmpi .sge (addi (fptosi 32 (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 0#32))) (cmpi .slt (addi (fptosi 32 (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 64#32)))) (cmpi .sge (addi (fptosi 32 (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 0#32)))) (cmpi .slt (addi (fptosi 32 (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 64#32))))))) (mulf (mulf (subf (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (subf (broadcastInDim S4x4096x64 ![] bcast_S_S4x4096x64 (constant S_ .f32 0x3F800000#32)) (subf (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))))) (uitofp .f32 (andi (andi (andi (cmpi .sge (addi (fptosi 32 (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 0#32))) (cmpi .slt (addi (fptosi 32 (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 64#32)))) (cmpi .sge (addi (fptosi 32 (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 0#32)))) (cmpi .slt (addi (fptosi 32 (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 0#32))) (broadcastInDim S4x4096x64 ![] bcast_S_S4x4096x64 (constantI S_ 32 64#32))))))) (mulf (mulf (subf (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (subf (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))) (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32)))))) (uitofp .f32 (andi (andi (andi (cmpi .sge (addi (fptosi 32 (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 0#32))) (cmpi .slt (addi (fptosi 32 (Host.floor (subf (shapeCast _ (extractStridedSlice S4x4096x1x64 ![0, 0, 0, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_0_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 64#32)))) (cmpi .sge (addi (fptosi 32 (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 0#32)))) (cmpi .slt (addi (fptosi 32 (Host.floor (subf (shapeCast _ (extractStridedSlice S4x4096x1x64 ![0, 0, 1, 0] (shapeCast _ (transpose S4x64x64x2x64 [0, 3, 4, 2, 1] g transposes_S4x64x2x64x64_S4x64x64x2x64_0_3_4_2_1) shapeCasts_S4x64x64x2x64_S4x4096x2x64) slices_S4x4096x2x64_S4x4096x1x64_0_0_1_0) shapeCasts_S4x4096x1x64_S4x4096x64) (broadcastInDim S4x4096x64 ![] bcast_S_S4x4096x64 (constant S_ .f32 0x3F000000#32))))) (broadcastInDim S4x4096x64 ![] bcast_S_S4x4096x64 (constantI S_ 32 1#32))) (broadcastInDim S4x4096x64 ![] bcast_S_S4x4096x64 (constantI S_ 32 64#32))))))) (broadcastInDim S4x4096x64 ![] bcast_S_S4x4096x64 (constant S_ .f32 0x3F7FF972#32))) (broadcastInDim S4x4096x64 ![] bcast_S_S4x4096x64 (constant S_ .f32 0x00000000#32)) (broadcastInDim S4x4096x64 ![] bcast_S_S4x4096x64 (constant S_ .f32 0x3F800000#32))))) shapeCasts_S4x4096x64_S4x64x64x64) transposes_S4x64x64x64_S4x64x64x64_0_3_1_2) k

end Reference

/-! ## A separate take's definition is the reference's 22 operations -/

/-- A separate take is the reference's 22 operations of the call, composed in order. -/
theorem takeNarrow_printed (x : FVec Ideal Cert.ReferenceIdeal.S4x4096x4096 .f32) (I : IVec Cert.ReferenceIdeal.S4x4096x64 32) :
    Cert.FusedTake.takeNarrow x I =
      (open Cert.ReferenceIdeal Cert.ReferenceIdeal.Gen in
        select (Host.reduce IntOp.andi (andi (cmpi .sge (shapeCast _ (select (cmpi .slt (I) (broadcastInDim S4x4096x64 ![] bcast_S_S4x4096x64 (constantI S_ 32 0#32))) (addi (I) (broadcastInDim S4x4096x64 ![] bcast_S_S4x4096x64 (constantI S_ 32 4096#32))) (I)) shapeCasts_S4x4096x64_S4x4096x64x1) (broadcastInDim S4x4096x64x1 ![] bcast_S_S4x4096x64x1 (constantI S_ 32 0#32))) (cmpi .sle (shapeCast _ (select (cmpi .slt (I) (broadcastInDim S4x4096x64 ![] bcast_S_S4x4096x64 (constantI S_ 32 0#32))) (addi (I) (broadcastInDim S4x4096x64 ![] bcast_S_S4x4096x64 (constantI S_ 32 4096#32))) (I)) shapeCasts_S4x4096x64_S4x4096x64x1) (broadcastInDim S4x4096x64x1 ![0, 1, 2, 3] bcast_S1x1x1x1_S4x4096x64x1_0_1_2_3 (broadcastInDim S1x1x1x1 ![3] bcast_S1_S1x1x1x1_3 (constantI S1 32 4095#32))))) (constantI S_ 1 1#1) reducesTo_S4x4096x64x1_S4x4096x64_d3 h_S_) (Host.gather gather_S4x4096x4096_S4x4096x64x1_S4x4096x64_n_2_01_01_2_3_111 (x) (shapeCast _ (select (cmpi .slt (I) (broadcastInDim S4x4096x64 ![] bcast_S_S4x4096x64 (constantI S_ 32 0#32))) (addi (I) (broadcastInDim S4x4096x64 ![] bcast_S_S4x4096x64 (constantI S_ 32 4096#32))) (I)) shapeCasts_S4x4096x64_S4x4096x64x1)) (broadcastInDim S4x4096x64 ![] bcast_S_S4x4096x64 (constant S_ .f32 0x7FC00000#32))) := rfl

end Cert.TailBridge

end
-- ==== Proof.TailBridge.lean ====
/-
  The bridge between the two programs' host arithmetic after the correlation product.

  `tailK0`, `tailK1` (the kernel program's two results) and `tailR0`, `tailR1` (the reference's) are each program's
  operations composed in order over the product `x : [4, 4096, 4096]`, the sampling grid `g` and the mask `k`; both compute
  the same bilinear lookup of `x` along its last axis at the grid's four corner taps.
  The second results do not read the taps at all and are the same term (`bridge1`). The first results differ only at the
  taps: the kernel program concatenates the four corners' index arrays along the last axis, reads the taps in one call and
  cuts the result into four slices, where the reference reads each corner's taps by a call of its own. The bilinear
  lookup's four taps gathered in one call and cut apart are the four taps gathered separately
  (`Cert.FusedTake.slice0_takeWide` … `slice3_takeWide`), and after those four rewrites the two sides are the same term
  (`bridge0`).
-/
import proofs.«152563_j67370857005292_2_alg».proof.Proof.TailK
import proofs.«152563_j67370857005292_2_alg».proof.Proof.TailR

noncomputable section

open Idealize.ShloMosaic Idealize.ShloMosaic.TcCoe

namespace Cert.TailBridge

/-! ## The bridge -/

set_option maxRecDepth 8192 in
/-- The second results are the same arithmetic on the same values: no tap is read. -/
theorem bridge1 (x : FVec Ideal Cert.KernelIdeal.S4x4096x4096 .f32) (g : FVec Ideal Cert.KernelIdeal.S4x64x2x64x64 .f32) (k : FVec Ideal Cert.KernelIdeal.S4x64x64x64 .f32) :
    tailK1 x g k = tailR1 x g k := by
  unfold tailK1 tailR1
  rfl

set_option maxRecDepth 8192 in
/-- The bilinear lookup's four taps gathered in one call and cut apart are the four taps gathered separately; everything
    else in the two first results is the same arithmetic on the same values (after the four rewrites the two sides agree
    up to the shape abbreviations, which the rewrite closes). -/
theorem bridge0 (x : FVec Ideal Cert.KernelIdeal.S4x4096x4096 .f32) (g : FVec Ideal Cert.KernelIdeal.S4x64x2x64x64 .f32) (k : FVec Ideal Cert.KernelIdeal.S4x64x64x64 .f32) :
    tailK0 x g k = tailR0 x g k := by
  unfold tailK0 tailR0
  rw [Cert.FusedTake.slice0_takeWide, Cert.FusedTake.slice1_takeWide, Cert.FusedTake.slice2_takeWide, Cert.FusedTake.slice3_takeWide]

end Cert.TailBridge

end
-- ==== Proof.ReferencePlain.lean ====
/-
  The reference's operations with one builder throughout.

  The reference's 326 operations, as its program prints them, write the operations of a called function (the clamps, the
  takes along the last axis, the final select) over typed references: the operation's function is stated between the
  carried tensor types and moved to the buffers' own types along the references' type equations. `opsPlain` is the same
  list with each of those 139 operations written like the others — the same function at the buffers' literal types — and
  `ops_eq` says the two lists are equal, operation by operation: a typed-reference operation is the plain one with the
  same function (the two types are equal by the reference's own type equation), and every other line is the same term.
-/
import proofs.«152563_j67370857005292_2_alg».proof.Proof.ReferenceRun
import proofs.«152563_j67370857005292_2_alg».proof.Proof.LibTRefPlain

noncomputable section

namespace Cert.ReferenceIdeal.Plain

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

set_option maxHeartbeats 40000000 in
/-- The reference's 326 operations, every operation of a called function written with the builder of the others (its
    function at the buffers' literal types). -/
abbrev opsPlain : List (HloOp τ sig (Elt F)) :=
  [ reshape main_arg0 main_v0 rfl shapeCasts_S4x128x64x64_S4x128x4096,
    reshape main_arg1 main_v1 rfl shapeCasts_S4x128x64x64_S4x128x4096,
    binary main_v0 main_v1 main_v2 ((fun l r => Host.dotGeneral dot_S4x128x4096_S4x128x4096_S4x4096x4096_1_1_2_2_0_0 none l r) : (⟨S4x128x4096, .f32⟩ : BufTy).Contents (Elt F) → (⟨S4x128x4096, .f32⟩ : BufTy).Contents (Elt F) → (⟨S4x4096x4096, .f32⟩ : BufTy).Contents (Elt F)),
    unary main_arg2 main_v3 ((transpose S4x64x64x2x64 [0, 3, 4, 2, 1] · transposes_S4x64x2x64x64_S4x64x64x2x64_0_3_4_2_1) : (⟨S4x64x2x64x64, .f32⟩ : BufTy).Contents (Elt F) → (⟨S4x64x64x2x64, .f32⟩ : BufTy).Contents (Elt F)),
    reshape main_v3 main_v4 rfl shapeCasts_S4x64x64x2x64_S4x4096x2x64,
    unary main_v4 main_v5 ((extractStridedSlice S4x4096x1x64 ![0, 0, 0, 0] · slices_S4x4096x2x64_S4x4096x1x64_0_0_0_0) : (⟨S4x4096x2x64, .f32⟩ : BufTy).Contents (Elt F) → (⟨S4x4096x1x64, .f32⟩ : BufTy).Contents (Elt F)),
    reshape main_v5 main_v6 rfl shapeCasts_S4x4096x1x64_S4x4096x64,
    unary main_v4 main_v7 ((extractStridedSlice S4x4096x1x64 ![0, 0, 1, 0] · slices_S4x4096x2x64_S4x4096x1x64_0_0_1_0) : (⟨S4x4096x2x64, .f32⟩ : BufTy).Contents (Elt F) → (⟨S4x4096x1x64, .f32⟩ : BufTy).Contents (Elt F)),
    reshape main_v7 main_v8 rfl shapeCasts_S4x4096x1x64_S4x4096x64,
    nullary main_cst (constant S_ .f32 0x3F000000#32),
    unary main_cst main_v9 (broadcastInDim S4x4096x64 ![] bcast_S_S4x4096x64 : (⟨S_, .f32⟩ : BufTy).Contents (Elt F) → (⟨S4x4096x64, .f32⟩ : BufTy).Contents (Elt F)),
    binary main_v6 main_v9 main_v10 (subf : (⟨S4x4096x64, .f32⟩ : BufTy).Contents (Elt F) → (⟨S4x4096x64, .f32⟩ : BufTy).Contents (Elt F) → (⟨S4x4096x64, .f32⟩ : BufTy).Contents (Elt F)),
    nullary main_cst_0 (constant S_ .f32 0x3F000000#32),
    unary main_cst_0 main_v11 (broadcastInDim S4x4096x64 ![] bcast_S_S4x4096x64 : (⟨S_, .f32⟩ : BufTy).Contents (Elt F) → (⟨S4x4096x64, .f32⟩ : BufTy).Contents (Elt F)),
    binary main_v8 main_v11 main_v12 (subf : (⟨S4x4096x64, .f32⟩ : BufTy).Contents (Elt F) → (⟨S4x4096x64, .f32⟩ : BufTy).Contents (Elt F) → (⟨S4x4096x64, .f32⟩ : BufTy).Contents (Elt F)),
    unary main_v10 main_v13 (Host.floor : (⟨S4x4096x64, .f32⟩ : BufTy).Contents (Elt F) → (⟨S4x4096x64, .f32⟩ : BufTy).Contents (Elt F)),
    unary main_v12 main_v14 (Host.floor : (⟨S4x4096x64, .f32⟩ : BufTy).Contents (Elt F) → (⟨S4x4096x64, .f32⟩ : BufTy).Contents (Elt F)),
    binary main_v10 main_v13 main_v15 (subf : (⟨S4x4096x64, .f32⟩ : BufTy).Contents (Elt F) → (⟨S4x4096x64, .f32⟩ : BufTy).Contents (Elt F) → (⟨S4x4096x64, .f32⟩ : BufTy).Contents (Elt F)),
    binary main_v12 main_v14 main_v16 (subf : (⟨S4x4096x64, .f32⟩ : BufTy).Contents (Elt F) → (⟨S4x4096x64, .f32⟩ : BufTy).Contents (Elt F) → (⟨S4x4096x64, .f32⟩ : BufTy).Contents (Elt F)),
    unary main_v13 main_v17 (fptosi 32 : (⟨S4x4096x64, .f32⟩ : BufTy).Contents (Elt F) → (⟨S4x4096x64, .i32⟩ : BufTy).Contents (Elt F)),
    unary main_v14 main_v18 (fptosi 32 : (⟨S4x4096x64, .f32⟩ : BufTy).Contents (Elt F) → (⟨S4x4096x64, .i32⟩ : BufTy).Contents (Elt F)),
    nullary main_cst_1 (constant S_ .f32 0x00000000#32),
    unary main_cst_1 main_v19 (broadcastInDim S4x4096x64 ![] bcast_S_S4x4096x64 : (⟨S_, .f32⟩ : BufTy).Contents (Elt F) → (⟨S4x4096x64, .f32⟩ : BufTy).Contents (Elt F)),
    nullary main_cst_2 (constant S_ .f32 0x00000000#32),
    unary main_cst_2 main_v20 (broadcastInDim S4x4096x64 ![] bcast_S_S4x4096x64 : (⟨S_, .f32⟩ : BufTy).Contents (Elt F) → (⟨S4x4096x64, .f32⟩ : BufTy).Contents (Elt F)),
    nullary main_cst_3 (constant S_ .f32 0x3F800000#32),
    unary main_cst_3 main_v21 (broadcastInDim S4x4096x64 ![] bcast_S_S4x4096x64 : (⟨S_, .f32⟩ : BufTy).Contents (Elt F) → (⟨S4x4096x64, .f32⟩ : BufTy).Contents (Elt F)),
    binary main_v21 main_v15 main_v22 (subf : (⟨S4x4096x64, .f32⟩ : BufTy).Contents (Elt F) → (⟨S4x4096x64, .f32⟩ : BufTy).Contents (Elt F) → (⟨S4x4096x64, .f32⟩ : BufTy).Contents (Elt F)),
    nullary main_cst_4 (constant S_ .f32 0x3F800000#32),
    unary main_cst_4 main_v23 (broadcastInDim S4x4096x64 ![] bcast_S_S4x4096x64 : (⟨S_, .f32⟩ : BufTy).Contents (Elt F) → (⟨S4x4096x64, .f32⟩ : BufTy).Contents (Elt F)),
    binary main_v23 main_v16 main_v24 (subf : (⟨S4x4096x64, .f32⟩ : BufTy).Contents (Elt F) → (⟨S4x4096x64, .f32⟩ : BufTy).Contents (Elt F) → (⟨S4x4096x64, .f32⟩ : BufTy).Contents (Elt F)),
    nullary main_c (constantI S_ 32 0#32),
    unary main_c main_v25 (broadcastInDim S4x4096x64 ![] bcast_S_S4x4096x64 : (⟨S_, .i32⟩ : BufTy).Contents (Elt F) → (⟨S4x4096x64, .i32⟩ : BufTy).Contents (Elt F)),
    binary main_v17 main_v25 main_v26 (addi : (⟨S4x4096x64, .i32⟩ : BufTy).Contents (Elt F) → (⟨S4x4096x64, .i32⟩ : BufTy).Contents (Elt F) → (⟨S4x4096x64, .i32⟩ : BufTy).Contents (Elt F)),
    nullary main_c_5 (constantI S_ 32 0#32),
    unary main_c_5 main_v27 (broadcastInDim S4x4096x64 ![] bcast_S_S4x4096x64 : (⟨S_, .i32⟩ : BufTy).Contents (Elt F) → (⟨S4x4096x64, .i32⟩ : BufTy).Contents (Elt F)),
    binary main_v18 main_v27 main_v28 (addi : (⟨S4x4096x64, .i32⟩ : BufTy).Contents (Elt F) → (⟨S4x4096x64, .i32⟩ : BufTy).Contents (Elt F) → (⟨S4x4096x64, .i32⟩ : BufTy).Contents (Elt F)),
    nullary main_c_6 (constantI S_ 32 0#32),
    unary main_c_6 main_v29 (broadcastInDim S4x4096x64 ![] bcast_S_S4x4096x64 : (⟨S_, .i32⟩ : BufTy).Contents (Elt F) → (⟨S4x4096x64, .i32⟩ : BufTy).Contents (Elt F)),
    binary main_v26 main_v29 main_v30 (cmpi .sge : (⟨S4x4096x64, .i32⟩ : BufTy).Contents (Elt F) → (⟨S4x4096x64, .i32⟩ : BufTy).Contents (Elt F) → (⟨S4x4096x64, .i1⟩ : BufTy).Contents (Elt F)),
    nullary main_c_7 (constantI S_ 32 64#32),
    unary main_c_7 main_v31 (broadcastInDim S4x4096x64 ![] bcast_S_S4x4096x64 : (⟨S_, .i32⟩ : BufTy).Contents (Elt F) → (⟨S4x4096x64, .i32⟩ : BufTy).Contents (Elt F)),
    binary main_v26 main_v31 main_v32 (cmpi .slt : (⟨S4x4096x64, .i32⟩ : BufTy).Contents (Elt F) → (⟨S4x4096x64, .i32⟩ : BufTy).Contents (Elt F) → (⟨S4x4096x64, .i1⟩ : BufTy).Contents (Elt F)),
    binary main_v30 main_v32 main_v33 (andi : (⟨S4x4096x64, .i1⟩ : BufTy).Contents (Elt F) → (⟨S4x4096x64, .i1⟩ : BufTy).Contents (Elt F) → (⟨S4x4096x64, .i1⟩ : BufTy).Contents (Elt F)),
    nullary main_c_8 (constantI S_ 32 0#32),
    unary main_c_8 main_v34 (broadcastInDim S4x4096x64 ![] bcast_S_S4x4096x64 : (⟨S_, .i32⟩ : BufTy).Contents (Elt F) → (⟨S4x4096x64, .i32⟩ : BufTy).Contents (Elt F)),
    binary main_v28 main_v34 main_v35 (cmpi .sge : (⟨S4x4096x64, .i32⟩ : BufTy).Contents (Elt F) → (⟨S4x4096x64, .i32⟩ : BufTy).Contents (Elt F) → (⟨S4x4096x64, .i1⟩ : BufTy).Contents (Elt F)),
    binary main_v33 main_v35 main_v36 (andi : (⟨S4x4096x64, .i1⟩ : BufTy).Contents (Elt F) → (⟨S4x4096x64, .i1⟩ : BufTy).Contents (Elt F) → (⟨S4x4096x64, .i1⟩ : BufTy).Contents (Elt F)),
    nullary main_c_9 (constantI S_ 32 64#32),
    unary main_c_9 main_v37 (broadcastInDim S4x4096x64 ![] bcast_S_S4x4096x64 : (⟨S_, .i32⟩ : BufTy).Contents (Elt F) → (⟨S4x4096x64, .i32⟩ : BufTy).Contents (Elt F)),
    binary main_v28 main_v37 main_v38 (cmpi .slt : (⟨S4x4096x64, .i32⟩ : BufTy).Contents (Elt F) → (⟨S4x4096x64, .i32⟩ : BufTy).Contents (Elt F) → (⟨S4x4096x64, .i1⟩ : BufTy).Contents (Elt F)),
    binary main_v36 main_v38 main_v39 (andi : (⟨S4x4096x64, .i1⟩ : BufTy).Contents (Elt F) → (⟨S4x4096x64, .i1⟩ : BufTy).Contents (Elt F) → (⟨S4x4096x64, .i1⟩ : BufTy).Contents (Elt F)),
    unary main_v39 main_v40 (uitofp .f32 : (⟨S4x4096x64, .i1⟩ : BufTy).Contents (Elt F) → (⟨S4x4096x64, .f32⟩ : BufTy).Contents (Elt F)),
    nullary main_c_10 (constantI S_ 32 0#32),
    nullary main_c_11 (constantI S_ 32 63#32),
    unary main_c_10 main_call0_v0 ((id) : (⟨S_, .i32⟩ : BufTy).Contents (Elt F) → (⟨S_, .i32⟩ : BufTy).Contents (Elt F)),
    unary main_call0_v0 main_call0_v1 (((broadcastInDim S4x4096x64 ![] bcast_S_S4x4096x64)) : (⟨S_, .i32⟩ : BufTy).Contents (Elt F) → (⟨S4x4096x64, .i32⟩ : BufTy).Contents (Elt F)),
    binary main_call0_v1 main_v28 main_call0_v2 ((maxsi) : (⟨S4x4096x64, .i32⟩ : BufTy).Contents (Elt F) → (⟨S4x4096x64, .i32⟩ : BufTy).Contents (Elt F) → (⟨S4x4096x64, .i32⟩ : BufTy).Contents (Elt F)),
    unary main_c_11 main_call0_v3 ((id) : (⟨S_, .i32⟩ : BufTy).Contents (Elt F) → (⟨S_, .i32⟩ : BufTy).Contents (Elt F)),
    unary main_call0_v3 main_call0_v4 (((broadcastInDim S4x4096x64 ![] bcast_S_S4x4096x64)) : (⟨S_, .i32⟩ : BufTy).Contents (Elt F) → (⟨S4x4096x64, .i32⟩ : BufTy).Contents (Elt F)),
    binary main_call0_v4 main_call0_v2 main_v41 ((minsi) : (⟨S4x4096x64, .i32⟩ : BufTy).Contents (Elt F) → (⟨S4x4096x64, .i32⟩ : BufTy).Contents (Elt F) → (⟨S4x4096x64, .i32⟩ : BufTy).Contents (Elt F)),
    nullary main_c_12 (constantI S_ 32 64#32),
    unary main_c_12 main_v42 (broadcastInDim S4x4096x64 ![] bcast_S_S4x4096x64 : (⟨S_, .i32⟩ : BufTy).Contents (Elt F) → (⟨S4x4096x64, .i32⟩ : BufTy).Contents (Elt F)),
    binary main_v41 main_v42 main_v43 (muli : (⟨S4x4096x64, .i32⟩ : BufTy).Contents (Elt F) → (⟨S4x4096x64, .i32⟩ : BufTy).Contents (Elt F) → (⟨S4x4096x64, .i32⟩ : BufTy).Contents (Elt F)),
    nullary main_c_13 (constantI S_ 32 0#32),
    nullary main_c_14 (constantI S_ 32 63#32),
    unary main_c_13 main_call1_v0 ((id) : (⟨S_, .i32⟩ : BufTy).Contents (Elt F) → (⟨S_, .i32⟩ : BufTy).Contents (Elt F)),
    unary main_call1_v0 main_call1_v1 (((broadcastInDim S4x4096x64 ![] bcast_S_S4x4096x64)) : (⟨S_, .i32⟩ : BufTy).Contents (Elt F) → (⟨S4x4096x64, .i32⟩ : BufTy).Contents (Elt F)),
    binary main_call1_v1 main_v26 main_call1_v2 ((maxsi) : (⟨S4x4096x64, .i32⟩ : BufTy).Contents (Elt F) → (⟨S4x4096x64, .i32⟩ : BufTy).Contents (Elt F) → (⟨S4x4096x64, .i32⟩ : BufTy).Contents (Elt F)),
    unary main_c_14 main_call1_v3 ((id) : (⟨S_, .i32⟩ : BufTy).Contents (Elt F) → (⟨S_, .i32⟩ : BufTy).Contents (Elt F)),
    unary main_call1_v3 main_call1_v4 (((broadcastInDim S4x4096x64 ![] bcast_S_S4x4096x64)) : (⟨S_, .i32⟩ : BufTy).Contents (Elt F) → (⟨S4x4096x64, .i32⟩ : BufTy).Contents (Elt F)),
    binary main_call1_v4 main_call1_v2 main_v44 ((minsi) : (⟨S4x4096x64, .i32⟩ : BufTy).Contents (Elt F) → (⟨S4x4096x64, .i32⟩ : BufTy).Contents (Elt F) → (⟨S4x4096x64, .i32⟩ : BufTy).Contents (Elt F)),
    binary main_v43 main_v44 main_v45 (addi : (⟨S4x4096x64, .i32⟩ : BufTy).Contents (Elt F) → (⟨S4x4096x64, .i32⟩ : BufTy).Contents (Elt F) → (⟨S4x4096x64, .i32⟩ : BufTy).Contents (Elt F)),
    nullary main_call2_c (((constantI S_ 32 0#32)) : (⟨S_, .i32⟩ : BufTy).Contents (Elt F)),
    unary main_call2_c main_call2_v0 (((broadcastInDim S4x4096x64 ![] bcast_S_S4x4096x64)) : (⟨S_, .i32⟩ : BufTy).Contents (Elt F) → (⟨S4x4096x64, .i32⟩ : BufTy).Contents (Elt F)),
    binary main_v45 main_call2_v0 main_call2_v1 (((cmpi .slt)) : (⟨S4x4096x64, .i32⟩ : BufTy).Contents (Elt F) → (⟨S4x4096x64, .i32⟩ : BufTy).Contents (Elt F) → (⟨S4x4096x64, .i1⟩ : BufTy).Contents (Elt F)),
    nullary main_call2_c_0 (((constantI S_ 32 4096#32)) : (⟨S_, .i32⟩ : BufTy).Contents (Elt F)),
    unary main_call2_c_0 main_call2_v2 (((broadcastInDim S4x4096x64 ![] bcast_S_S4x4096x64)) : (⟨S_, .i32⟩ : BufTy).Contents (Elt F) → (⟨S4x4096x64, .i32⟩ : BufTy).Contents (Elt F)),
    binary main_v45 main_call2_v2 main_call2_v3 ((addi) : (⟨S4x4096x64, .i32⟩ : BufTy).Contents (Elt F) → (⟨S4x4096x64, .i32⟩ : BufTy).Contents (Elt F) → (⟨S4x4096x64, .i32⟩ : BufTy).Contents (Elt F)),
    ternary main_call2_v1 main_call2_v3 main_v45 main_call2_v4 ((select) : (⟨S4x4096x64, .i1⟩ : BufTy).Contents (Elt F) → (⟨S4x4096x64, .i32⟩ : BufTy).Contents (Elt F) → (⟨S4x4096x64, .i32⟩ : BufTy).Contents (Elt F) → (⟨S4x4096x64, .i32⟩ : BufTy).Contents (Elt F)),
    reshape main_call2_v4 main_call2_v5 rfl shapeCasts_S4x4096x64_S4x4096x64x1,
    nullary main_call2_c_1 (((constantI S1 32 4095#32)) : (⟨S1, .i32⟩ : BufTy).Contents (Elt F)),
    nullary main_call2_c_2 (((constantI S_ 32 0#32)) : (⟨S_, .i32⟩ : BufTy).Contents (Elt F)),
    unary main_call2_c_2 main_call2_v6 (((broadcastInDim S4x4096x64x1 ![] bcast_S_S4x4096x64x1)) : (⟨S_, .i32⟩ : BufTy).Contents (Elt F) → (⟨S4x4096x64x1, .i32⟩ : BufTy).Contents (Elt F)),
    binary main_call2_v5 main_call2_v6 main_call2_v7 (((cmpi .sge)) : (⟨S4x4096x64x1, .i32⟩ : BufTy).Contents (Elt F) → (⟨S4x4096x64x1, .i32⟩ : BufTy).Contents (Elt F) → (⟨S4x4096x64x1, .i1⟩ : BufTy).Contents (Elt F)),
    unary main_call2_c_1 main_call2_v8 (((broadcastInDim S1x1x1x1 ![3] bcast_S1_S1x1x1x1_3)) : (⟨S1, .i32⟩ : BufTy).Contents (Elt F) → (⟨S1x1x1x1, .i32⟩ : BufTy).Contents (Elt F)),
    unary main_call2_v8 main_call2_v9 (((broadcastInDim S4x4096x64x1 ![0, 1, 2, 3] bcast_S1x1x1x1_S4x4096x64x1_0_1_2_3)) : (⟨S1x1x1x1, .i32⟩ : BufTy).Contents (Elt F) → (⟨S4x4096x64x1, .i32⟩ : BufTy).Contents (Elt F)),
    binary main_call2_v5 main_call2_v9 main_call2_v10 (((cmpi .sle)) : (⟨S4x4096x64x1, .i32⟩ : BufTy).Contents (Elt F) → (⟨S4x4096x64x1, .i32⟩ : BufTy).Contents (Elt F) → (⟨S4x4096x64x1, .i1⟩ : BufTy).Contents (Elt F)),
    binary main_call2_v7 main_call2_v10 main_call2_v11 ((andi) : (⟨S4x4096x64x1, .i1⟩ : BufTy).Contents (Elt F) → (⟨S4x4096x64x1, .i1⟩ : BufTy).Contents (Elt F) → (⟨S4x4096x64x1, .i1⟩ : BufTy).Contents (Elt F)),
    nullary main_call2_c_3 (((constantI S_ 1 1#1)) : (⟨S_, .i1⟩ : BufTy).Contents (Elt F)),
    binary main_call2_v11 main_call2_c_3 main_call2_v12 (((fun x v => Host.reduce IntOp.andi x v reducesTo_S4x4096x64x1_S4x4096x64_d3 h_S_)) : (⟨S4x4096x64x1, .i1⟩ : BufTy).Contents (Elt F) → (⟨S_, .i1⟩ : BufTy).Contents (Elt F) → (⟨S4x4096x64, .i1⟩ : BufTy).Contents (Elt F)),
    binary main_v2 main_call2_v5 main_call2_v13 (((fun x i => Host.gather gather_S4x4096x4096_S4x4096x64x1_S4x4096x64_n_2_01_01_2_3_111 x i)) : (⟨S4x4096x4096, .f32⟩ : BufTy).Contents (Elt F) → (⟨S4x4096x64x1, .i32⟩ : BufTy).Contents (Elt F) → (⟨S4x4096x64, .f32⟩ : BufTy).Contents (Elt F)),
    nullary main_call2_cst (((constant S_ .f32 0x7FC00000#32)) : (⟨S_, .f32⟩ : BufTy).Contents (Elt F)),
    unary main_call2_cst main_call2_v14 (((broadcastInDim S4x4096x64 ![] bcast_S_S4x4096x64)) : (⟨S_, .f32⟩ : BufTy).Contents (Elt F) → (⟨S4x4096x64, .f32⟩ : BufTy).Contents (Elt F)),
    ternary main_call2_v12 main_call2_v13 main_call2_v14 main_v46 ((select) : (⟨S4x4096x64, .i1⟩ : BufTy).Contents (Elt F) → (⟨S4x4096x64, .f32⟩ : BufTy).Contents (Elt F) → (⟨S4x4096x64, .f32⟩ : BufTy).Contents (Elt F) → (⟨S4x4096x64, .f32⟩ : BufTy).Contents (Elt F)),
    binary main_v22 main_v24 main_v47 (mulf : (⟨S4x4096x64, .f32⟩ : BufTy).Contents (Elt F) → (⟨S4x4096x64, .f32⟩ : BufTy).Contents (Elt F) → (⟨S4x4096x64, .f32⟩ : BufTy).Contents (Elt F)),
    binary main_v47 main_v40 main_v48 (mulf : (⟨S4x4096x64, .f32⟩ : BufTy).Contents (Elt F) → (⟨S4x4096x64, .f32⟩ : BufTy).Contents (Elt F) → (⟨S4x4096x64, .f32⟩ : BufTy).Contents (Elt F)),
    binary main_v48 main_v46 main_v49 (mulf : (⟨S4x4096x64, .f32⟩ : BufTy).Contents (Elt F) → (⟨S4x4096x64, .f32⟩ : BufTy).Contents (Elt F) → (⟨S4x4096x64, .f32⟩ : BufTy).Contents (Elt F)),
    binary main_v19 main_v49 main_v50 (addf : (⟨S4x4096x64, .f32⟩ : BufTy).Contents (Elt F) → (⟨S4x4096x64, .f32⟩ : BufTy).Contents (Elt F) → (⟨S4x4096x64, .f32⟩ : BufTy).Contents (Elt F)),
    binary main_v20 main_v48 main_v51 (addf : (⟨S4x4096x64, .f32⟩ : BufTy).Contents (Elt F) → (⟨S4x4096x64, .f32⟩ : BufTy).Contents (Elt F) → (⟨S4x4096x64, .f32⟩ : BufTy).Contents (Elt F)),
    nullary main_c_15 (constantI S_ 32 0#32),
    unary main_c_15 main_v52 (broadcastInDim S4x4096x64 ![] bcast_S_S4x4096x64 : (⟨S_, .i32⟩ : BufTy).Contents (Elt F) → (⟨S4x4096x64, .i32⟩ : BufTy).Contents (Elt F)),
    binary main_v17 main_v52 main_v53 (addi : (⟨S4x4096x64, .i32⟩ : BufTy).Contents (Elt F) → (⟨S4x4096x64, .i32⟩ : BufTy).Contents (Elt F) → (⟨S4x4096x64, .i32⟩ : BufTy).Contents (Elt F)),
    nullary main_c_16 (constantI S_ 32 1#32),
    unary main_c_16 main_v54 (broadcastInDim S4x4096x64 ![] bcast_S_S4x4096x64 : (⟨S_, .i32⟩ : BufTy).Contents (Elt F) → (⟨S4x4096x64, .i32⟩ : BufTy).Contents (Elt F)),
    binary main_v18 main_v54 main_v55 (addi : (⟨S4x4096x64, .i32⟩ : BufTy).Contents (Elt F) → (⟨S4x4096x64, .i32⟩ : BufTy).Contents (Elt F) → (⟨S4x4096x64, .i32⟩ : BufTy).Contents (Elt F)),
    nullary main_c_17 (constantI S_ 32 0#32),
    unary main_c_17 main_v56 (broadcastInDim S4x4096x64 ![] bcast_S_S4x4096x64 : (⟨S_, .i32⟩ : BufTy).Contents (Elt F) → (⟨S4x4096x64, .i32⟩ : BufTy).Contents (Elt F)),
    binary main_v53 main_v56 main_v57 (cmpi .sge : (⟨S4x4096x64, .i32⟩ : BufTy).Contents (Elt F) → (⟨S4x4096x64, .i32⟩ : BufTy).Contents (Elt F) → (⟨S4x4096x64, .i1⟩ : BufTy).Contents (Elt F)),
    nullary main_c_18 (constantI S_ 32 64#32),
    unary main_c_18 main_v58 (broadcastInDim S4x4096x64 ![] bcast_S_S4x4096x64 : (⟨S_, .i32⟩ : BufTy).Contents (Elt F) → (⟨S4x4096x64, .i32⟩ : BufTy).Contents (Elt F)),
    binary main_v53 main_v58 main_v59 (cmpi .slt : (⟨S4x4096x64, .i32⟩ : BufTy).Contents (Elt F) → (⟨S4x4096x64, .i32⟩ : BufTy).Contents (Elt F) → (⟨S4x4096x64, .i1⟩ : BufTy).Contents (Elt F)),
    binary main_v57 main_v59 main_v60 (andi : (⟨S4x4096x64, .i1⟩ : BufTy).Contents (Elt F) → (⟨S4x4096x64, .i1⟩ : BufTy).Contents (Elt F) → (⟨S4x4096x64, .i1⟩ : BufTy).Contents (Elt F)),
    nullary main_c_19 (constantI S_ 32 0#32),
    unary main_c_19 main_v61 (broadcastInDim S4x4096x64 ![] bcast_S_S4x4096x64 : (⟨S_, .i32⟩ : BufTy).Contents (Elt F) → (⟨S4x4096x64, .i32⟩ : BufTy).Contents (Elt F)),
    binary main_v55 main_v61 main_v62 (cmpi .sge : (⟨S4x4096x64, .i32⟩ : BufTy).Contents (Elt F) → (⟨S4x4096x64, .i32⟩ : BufTy).Contents (Elt F) → (⟨S4x4096x64, .i1⟩ : BufTy).Contents (Elt F)),
    binary main_v60 main_v62 main_v63 (andi : (⟨S4x4096x64, .i1⟩ : BufTy).Contents (Elt F) → (⟨S4x4096x64, .i1⟩ : BufTy).Contents (Elt F) → (⟨S4x4096x64, .i1⟩ : BufTy).Contents (Elt F)),
    nullary main_c_20 (constantI S_ 32 64#32),
    unary main_c_20 main_v64 (broadcastInDim S4x4096x64 ![] bcast_S_S4x4096x64 : (⟨S_, .i32⟩ : BufTy).Contents (Elt F) → (⟨S4x4096x64, .i32⟩ : BufTy).Contents (Elt F)),
    binary main_v55 main_v64 main_v65 (cmpi .slt : (⟨S4x4096x64, .i32⟩ : BufTy).Contents (Elt F) → (⟨S4x4096x64, .i32⟩ : BufTy).Contents (Elt F) → (⟨S4x4096x64, .i1⟩ : BufTy).Contents (Elt F)),
    binary main_v63 main_v65 main_v66 (andi : (⟨S4x4096x64, .i1⟩ : BufTy).Contents (Elt F) → (⟨S4x4096x64, .i1⟩ : BufTy).Contents (Elt F) → (⟨S4x4096x64, .i1⟩ : BufTy).Contents (Elt F)),
    unary main_v66 main_v67 (uitofp .f32 : (⟨S4x4096x64, .i1⟩ : BufTy).Contents (Elt F) → (⟨S4x4096x64, .f32⟩ : BufTy).Contents (Elt F)),
    nullary main_c_21 (constantI S_ 32 0#32),
    nullary main_c_22 (constantI S_ 32 63#32),
    unary main_c_21 main_call3_v0 ((id) : (⟨S_, .i32⟩ : BufTy).Contents (Elt F) → (⟨S_, .i32⟩ : BufTy).Contents (Elt F)),
    unary main_call3_v0 main_call3_v1 (((broadcastInDim S4x4096x64 ![] bcast_S_S4x4096x64)) : (⟨S_, .i32⟩ : BufTy).Contents (Elt F) → (⟨S4x4096x64, .i32⟩ : BufTy).Contents (Elt F)),
    binary main_call3_v1 main_v55 main_call3_v2 ((maxsi) : (⟨S4x4096x64, .i32⟩ : BufTy).Contents (Elt F) → (⟨S4x4096x64, .i32⟩ : BufTy).Contents (Elt F) → (⟨S4x4096x64, .i32⟩ : BufTy).Contents (Elt F)),
    unary main_c_22 main_call3_v3 ((id) : (⟨S_, .i32⟩ : BufTy).Contents (Elt F) → (⟨S_, .i32⟩ : BufTy).Contents (Elt F)),
    unary main_call3_v3 main_call3_v4 (((broadcastInDim S4x4096x64 ![] bcast_S_S4x4096x64)) : (⟨S_, .i32⟩ : BufTy).Contents (Elt F) → (⟨S4x4096x64, .i32⟩ : BufTy).Contents (Elt F)),
    binary main_call3_v4 main_call3_v2 main_v68 ((minsi) : (⟨S4x4096x64, .i32⟩ : BufTy).Contents (Elt F) → (⟨S4x4096x64, .i32⟩ : BufTy).Contents (Elt F) → (⟨S4x4096x64, .i32⟩ : BufTy).Contents (Elt F)),
    nullary main_c_23 (constantI S_ 32 64#32),
    unary main_c_23 main_v69 (broadcastInDim S4x4096x64 ![] bcast_S_S4x4096x64 : (⟨S_, .i32⟩ : BufTy).Contents (Elt F) → (⟨S4x4096x64, .i32⟩ : BufTy).Contents (Elt F)),
    binary main_v68 main_v69 main_v70 (muli : (⟨S4x4096x64, .i32⟩ : BufTy).Contents (Elt F) → (⟨S4x4096x64, .i32⟩ : BufTy).Contents (Elt F) → (⟨S4x4096x64, .i32⟩ : BufTy).Contents (Elt F)),
    nullary main_c_24 (constantI S_ 32 0#32),
    nullary main_c_25 (constantI S_ 32 63#32),
    unary main_c_24 main_call4_v0 ((id) : (⟨S_, .i32⟩ : BufTy).Contents (Elt F) → (⟨S_, .i32⟩ : BufTy).Contents (Elt F)),
    unary main_call4_v0 main_call4_v1 (((broadcastInDim S4x4096x64 ![] bcast_S_S4x4096x64)) : (⟨S_, .i32⟩ : BufTy).Contents (Elt F) → (⟨S4x4096x64, .i32⟩ : BufTy).Contents (Elt F)),
    binary main_call4_v1 main_v53 main_call4_v2 ((maxsi) : (⟨S4x4096x64, .i32⟩ : BufTy).Contents (Elt F) → (⟨S4x4096x64, .i32⟩ : BufTy).Contents (Elt F) → (⟨S4x4096x64, .i32⟩ : BufTy).Contents (Elt F)),
    unary main_c_25 main_call4_v3 ((id) : (⟨S_, .i32⟩ : BufTy).Contents (Elt F) → (⟨S_, .i32⟩ : BufTy).Contents (Elt F)),
    unary main_call4_v3 main_call4_v4 (((broadcastInDim S4x4096x64 ![] bcast_S_S4x4096x64)) : (⟨S_, .i32⟩ : BufTy).Contents (Elt F) → (⟨S4x4096x64, .i32⟩ : BufTy).Contents (Elt F)),
    binary main_call4_v4 main_call4_v2 main_v71 ((minsi) : (⟨S4x4096x64, .i32⟩ : BufTy).Contents (Elt F) → (⟨S4x4096x64, .i32⟩ : BufTy).Contents (Elt F) → (⟨S4x4096x64, .i32⟩ : BufTy).Contents (Elt F)),
    binary main_v70 main_v71 main_v72 (addi : (⟨S4x4096x64, .i32⟩ : BufTy).Contents (Elt F) → (⟨S4x4096x64, .i32⟩ : BufTy).Contents (Elt F) → (⟨S4x4096x64, .i32⟩ : BufTy).Contents (Elt F)),
    nullary main_call5_c (((constantI S_ 32 0#32)) : (⟨S_, .i32⟩ : BufTy).Contents (Elt F)),
    unary main_call5_c main_call5_v0 (((broadcastInDim S4x4096x64 ![] bcast_S_S4x4096x64)) : (⟨S_, .i32⟩ : BufTy).Contents (Elt F) → (⟨S4x4096x64, .i32⟩ : BufTy).Contents (Elt F)),
    binary main_v72 main_call5_v0 main_call5_v1 (((cmpi .slt)) : (⟨S4x4096x64, .i32⟩ : BufTy).Contents (Elt F) → (⟨S4x4096x64, .i32⟩ : BufTy).Contents (Elt F) → (⟨S4x4096x64, .i1⟩ : BufTy).Contents (Elt F)),
    nullary main_call5_c_0 (((constantI S_ 32 4096#32)) : (⟨S_, .i32⟩ : BufTy).Contents (Elt F)),
    unary main_call5_c_0 main_call5_v2 (((broadcastInDim S4x4096x64 ![] bcast_S_S4x4096x64)) : (⟨S_, .i32⟩ : BufTy).Contents (Elt F) → (⟨S4x4096x64, .i32⟩ : BufTy).Contents (Elt F)),
    binary main_v72 main_call5_v2 main_call5_v3 ((addi) : (⟨S4x4096x64, .i32⟩ : BufTy).Contents (Elt F) → (⟨S4x4096x64, .i32⟩ : BufTy).Contents (Elt F) → (⟨S4x4096x64, .i32⟩ : BufTy).Contents (Elt F)),
    ternary main_call5_v1 main_call5_v3 main_v72 main_call5_v4 ((select) : (⟨S4x4096x64, .i1⟩ : BufTy).Contents (Elt F) → (⟨S4x4096x64, .i32⟩ : BufTy).Contents (Elt F) → (⟨S4x4096x64, .i32⟩ : BufTy).Contents (Elt F) → (⟨S4x4096x64, .i32⟩ : BufTy).Contents (Elt F)),
    reshape main_call5_v4 main_call5_v5 rfl shapeCasts_S4x4096x64_S4x4096x64x1,
    nullary main_call5_c_1 (((constantI S1 32 4095#32)) : (⟨S1, .i32⟩ : BufTy).Contents (Elt F)),
    nullary main_call5_c_2 (((constantI S_ 32 0#32)) : (⟨S_, .i32⟩ : BufTy).Contents (Elt F)),
    unary main_call5_c_2 main_call5_v6 (((broadcastInDim S4x4096x64x1 ![] bcast_S_S4x4096x64x1)) : (⟨S_, .i32⟩ : BufTy).Contents (Elt F) → (⟨S4x4096x64x1, .i32⟩ : BufTy).Contents (Elt F)),
    binary main_call5_v5 main_call5_v6 main_call5_v7 (((cmpi .sge)) : (⟨S4x4096x64x1, .i32⟩ : BufTy).Contents (Elt F) → (⟨S4x4096x64x1, .i32⟩ : BufTy).Contents (Elt F) → (⟨S4x4096x64x1, .i1⟩ : BufTy).Contents (Elt F)),
    unary main_call5_c_1 main_call5_v8 (((broadcastInDim S1x1x1x1 ![3] bcast_S1_S1x1x1x1_3)) : (⟨S1, .i32⟩ : BufTy).Contents (Elt F) → (⟨S1x1x1x1, .i32⟩ : BufTy).Contents (Elt F)),
    unary main_call5_v8 main_call5_v9 (((broadcastInDim S4x4096x64x1 ![0, 1, 2, 3] bcast_S1x1x1x1_S4x4096x64x1_0_1_2_3)) : (⟨S1x1x1x1, .i32⟩ : BufTy).Contents (Elt F) → (⟨S4x4096x64x1, .i32⟩ : BufTy).Contents (Elt F)),
    binary main_call5_v5 main_call5_v9 main_call5_v10 (((cmpi .sle)) : (⟨S4x4096x64x1, .i32⟩ : BufTy).Contents (Elt F) → (⟨S4x4096x64x1, .i32⟩ : BufTy).Contents (Elt F) → (⟨S4x4096x64x1, .i1⟩ : BufTy).Contents (Elt F)),
    binary main_call5_v7 main_call5_v10 main_call5_v11 ((andi) : (⟨S4x4096x64x1, .i1⟩ : BufTy).Contents (Elt F) → (⟨S4x4096x64x1, .i1⟩ : BufTy).Contents (Elt F) → (⟨S4x4096x64x1, .i1⟩ : BufTy).Contents (Elt F)),
    nullary main_call5_c_3 (((constantI S_ 1 1#1)) : (⟨S_, .i1⟩ : BufTy).Contents (Elt F)),
    binary main_call5_v11 main_call5_c_3 main_call5_v12 (((fun x v => Host.reduce IntOp.andi x v reducesTo_S4x4096x64x1_S4x4096x64_d3 h_S_)) : (⟨S4x4096x64x1, .i1⟩ : BufTy).Contents (Elt F) → (⟨S_, .i1⟩ : BufTy).Contents (Elt F) → (⟨S4x4096x64, .i1⟩ : BufTy).Contents (Elt F)),
    binary main_v2 main_call5_v5 main_call5_v13 (((fun x i => Host.gather gather_S4x4096x4096_S4x4096x64x1_S4x4096x64_n_2_01_01_2_3_111 x i)) : (⟨S4x4096x4096, .f32⟩ : BufTy).Contents (Elt F) → (⟨S4x4096x64x1, .i32⟩ : BufTy).Contents (Elt F) → (⟨S4x4096x64, .f32⟩ : BufTy).Contents (Elt F)),
    nullary main_call5_cst (((constant S_ .f32 0x7FC00000#32)) : (⟨S_, .f32⟩ : BufTy).Contents (Elt F)),
    unary main_call5_cst main_call5_v14 (((broadcastInDim S4x4096x64 ![] bcast_S_S4x4096x64)) : (⟨S_, .f32⟩ : BufTy).Contents (Elt F) → (⟨S4x4096x64, .f32⟩ : BufTy).Contents (Elt F)),
    ternary main_call5_v12 main_call5_v13 main_call5_v14 main_v73 ((select) : (⟨S4x4096x64, .i1⟩ : BufTy).Contents (Elt F) → (⟨S4x4096x64, .f32⟩ : BufTy).Contents (Elt F) → (⟨S4x4096x64, .f32⟩ : BufTy).Contents (Elt F) → (⟨S4x4096x64, .f32⟩ : BufTy).Contents (Elt F)),
    binary main_v22 main_v16 main_v74 (mulf : (⟨S4x4096x64, .f32⟩ : BufTy).Contents (Elt F) → (⟨S4x4096x64, .f32⟩ : BufTy).Contents (Elt F) → (⟨S4x4096x64, .f32⟩ : BufTy).Contents (Elt F)),
    binary main_v74 main_v67 main_v75 (mulf : (⟨S4x4096x64, .f32⟩ : BufTy).Contents (Elt F) → (⟨S4x4096x64, .f32⟩ : BufTy).Contents (Elt F) → (⟨S4x4096x64, .f32⟩ : BufTy).Contents (Elt F)),
    binary main_v75 main_v73 main_v76 (mulf : (⟨S4x4096x64, .f32⟩ : BufTy).Contents (Elt F) → (⟨S4x4096x64, .f32⟩ : BufTy).Contents (Elt F) → (⟨S4x4096x64, .f32⟩ : BufTy).Contents (Elt F)),
    binary main_v50 main_v76 main_v77 (addf : (⟨S4x4096x64, .f32⟩ : BufTy).Contents (Elt F) → (⟨S4x4096x64, .f32⟩ : BufTy).Contents (Elt F) → (⟨S4x4096x64, .f32⟩ : BufTy).Contents (Elt F)),
    binary main_v51 main_v75 main_v78 (addf : (⟨S4x4096x64, .f32⟩ : BufTy).Contents (Elt F) → (⟨S4x4096x64, .f32⟩ : BufTy).Contents (Elt F) → (⟨S4x4096x64, .f32⟩ : BufTy).Contents (Elt F)),
    nullary main_cst_26 (constant S_ .f32 0x3F800000#32),
    unary main_cst_26 main_v79 (broadcastInDim S4x4096x64 ![] bcast_S_S4x4096x64 : (⟨S_, .f32⟩ : BufTy).Contents (Elt F) → (⟨S4x4096x64, .f32⟩ : BufTy).Contents (Elt F)),
    binary main_v79 main_v16 main_v80 (subf : (⟨S4x4096x64, .f32⟩ : BufTy).Contents (Elt F) → (⟨S4x4096x64, .f32⟩ : BufTy).Contents (Elt F) → (⟨S4x4096x64, .f32⟩ : BufTy).Contents (Elt F)),
    nullary main_c_27 (constantI S_ 32 1#32),
    unary main_c_27 main_v81 (broadcastInDim S4x4096x64 ![] bcast_S_S4x4096x64 : (⟨S_, .i32⟩ : BufTy).Contents (Elt F) → (⟨S4x4096x64, .i32⟩ : BufTy).Contents (Elt F)),
    binary main_v17 main_v81 main_v82 (addi : (⟨S4x4096x64, .i32⟩ : BufTy).Contents (Elt F) → (⟨S4x4096x64, .i32⟩ : BufTy).Contents (Elt F) → (⟨S4x4096x64, .i32⟩ : BufTy).Contents (Elt F)),
    nullary main_c_28 (constantI S_ 32 0#32),
    unary main_c_28 main_v83 (broadcastInDim S4x4096x64 ![] bcast_S_S4x4096x64 : (⟨S_, .i32⟩ : BufTy).Contents (Elt F) → (⟨S4x4096x64, .i32⟩ : BufTy).Contents (Elt F)),
    binary main_v18 main_v83 main_v84 (addi : (⟨S4x4096x64, .i32⟩ : BufTy).Contents (Elt F) → (⟨S4x4096x64, .i32⟩ : BufTy).Contents (Elt F) → (⟨S4x4096x64, .i32⟩ : BufTy).Contents (Elt F)),
    nullary main_c_29 (constantI S_ 32 0#32),
    unary main_c_29 main_v85 (broadcastInDim S4x4096x64 ![] bcast_S_S4x4096x64 : (⟨S_, .i32⟩ : BufTy).Contents (Elt F) → (⟨S4x4096x64, .i32⟩ : BufTy).Contents (Elt F)),
    binary main_v82 main_v85 main_v86 (cmpi .sge : (⟨S4x4096x64, .i32⟩ : BufTy).Contents (Elt F) → (⟨S4x4096x64, .i32⟩ : BufTy).Contents (Elt F) → (⟨S4x4096x64, .i1⟩ : BufTy).Contents (Elt F)),
    nullary main_c_30 (constantI S_ 32 64#32),
    unary main_c_30 main_v87 (broadcastInDim S4x4096x64 ![] bcast_S_S4x4096x64 : (⟨S_, .i32⟩ : BufTy).Contents (Elt F) → (⟨S4x4096x64, .i32⟩ : BufTy).Contents (Elt F)),
    binary main_v82 main_v87 main_v88 (cmpi .slt : (⟨S4x4096x64, .i32⟩ : BufTy).Contents (Elt F) → (⟨S4x4096x64, .i32⟩ : BufTy).Contents (Elt F) → (⟨S4x4096x64, .i1⟩ : BufTy).Contents (Elt F)),
    binary main_v86 main_v88 main_v89 (andi : (⟨S4x4096x64, .i1⟩ : BufTy).Contents (Elt F) → (⟨S4x4096x64, .i1⟩ : BufTy).Contents (Elt F) → (⟨S4x4096x64, .i1⟩ : BufTy).Contents (Elt F)),
    nullary main_c_31 (constantI S_ 32 0#32),
    unary main_c_31 main_v90 (broadcastInDim S4x4096x64 ![] bcast_S_S4x4096x64 : (⟨S_, .i32⟩ : BufTy).Contents (Elt F) → (⟨S4x4096x64, .i32⟩ : BufTy).Contents (Elt F)),
    binary main_v84 main_v90 main_v91 (cmpi .sge : (⟨S4x4096x64, .i32⟩ : BufTy).Contents (Elt F) → (⟨S4x4096x64, .i32⟩ : BufTy).Contents (Elt F) → (⟨S4x4096x64, .i1⟩ : BufTy).Contents (Elt F)),
    binary main_v89 main_v91 main_v92 (andi : (⟨S4x4096x64, .i1⟩ : BufTy).Contents (Elt F) → (⟨S4x4096x64, .i1⟩ : BufTy).Contents (Elt F) → (⟨S4x4096x64, .i1⟩ : BufTy).Contents (Elt F)),
    nullary main_c_32 (constantI S_ 32 64#32),
    unary main_c_32 main_v93 (broadcastInDim S4x4096x64 ![] bcast_S_S4x4096x64 : (⟨S_, .i32⟩ : BufTy).Contents (Elt F) → (⟨S4x4096x64, .i32⟩ : BufTy).Contents (Elt F)),
    binary main_v84 main_v93 main_v94 (cmpi .slt : (⟨S4x4096x64, .i32⟩ : BufTy).Contents (Elt F) → (⟨S4x4096x64, .i32⟩ : BufTy).Contents (Elt F) → (⟨S4x4096x64, .i1⟩ : BufTy).Contents (Elt F)),
    binary main_v92 main_v94 main_v95 (andi : (⟨S4x4096x64, .i1⟩ : BufTy).Contents (Elt F) → (⟨S4x4096x64, .i1⟩ : BufTy).Contents (Elt F) → (⟨S4x4096x64, .i1⟩ : BufTy).Contents (Elt F)),
    unary main_v95 main_v96 (uitofp .f32 : (⟨S4x4096x64, .i1⟩ : BufTy).Contents (Elt F) → (⟨S4x4096x64, .f32⟩ : BufTy).Contents (Elt F)),
    nullary main_c_33 (constantI S_ 32 0#32),
    nullary main_c_34 (constantI S_ 32 63#32),
    unary main_c_33 main_call6_v0 ((id) : (⟨S_, .i32⟩ : BufTy).Contents (Elt F) → (⟨S_, .i32⟩ : BufTy).Contents (Elt F)),
    unary main_call6_v0 main_call6_v1 (((broadcastInDim S4x4096x64 ![] bcast_S_S4x4096x64)) : (⟨S_, .i32⟩ : BufTy).Contents (Elt F) → (⟨S4x4096x64, .i32⟩ : BufTy).Contents (Elt F)),
    binary main_call6_v1 main_v84 main_call6_v2 ((maxsi) : (⟨S4x4096x64, .i32⟩ : BufTy).Contents (Elt F) → (⟨S4x4096x64, .i32⟩ : BufTy).Contents (Elt F) → (⟨S4x4096x64, .i32⟩ : BufTy).Contents (Elt F)),
    unary main_c_34 main_call6_v3 ((id) : (⟨S_, .i32⟩ : BufTy).Contents (Elt F) → (⟨S_, .i32⟩ : BufTy).Contents (Elt F)),
    unary main_call6_v3 main_call6_v4 (((broadcastInDim S4x4096x64 ![] bcast_S_S4x4096x64)) : (⟨S_, .i32⟩ : BufTy).Contents (Elt F) → (⟨S4x4096x64, .i32⟩ : BufTy).Contents (Elt F)),
    binary main_call6_v4 main_call6_v2 main_v97 ((minsi) : (⟨S4x4096x64, .i32⟩ : BufTy).Contents (Elt F) → (⟨S4x4096x64, .i32⟩ : BufTy).Contents (Elt F) → (⟨S4x4096x64, .i32⟩ : BufTy).Contents (Elt F)),
    nullary main_c_35 (constantI S_ 32 64#32),
    unary main_c_35 main_v98 (broadcastInDim S4x4096x64 ![] bcast_S_S4x4096x64 : (⟨S_, .i32⟩ : BufTy).Contents (Elt F) → (⟨S4x4096x64, .i32⟩ : BufTy).Contents (Elt F)),
    binary main_v97 main_v98 main_v99 (muli : (⟨S4x4096x64, .i32⟩ : BufTy).Contents (Elt F) → (⟨S4x4096x64, .i32⟩ : BufTy).Contents (Elt F) → (⟨S4x4096x64, .i32⟩ : BufTy).Contents (Elt F)),
    nullary main_c_36 (constantI S_ 32 0#32),
    nullary main_c_37 (constantI S_ 32 63#32),
    unary main_c_36 main_call7_v0 ((id) : (⟨S_, .i32⟩ : BufTy).Contents (Elt F) → (⟨S_, .i32⟩ : BufTy).Contents (Elt F)),
    unary main_call7_v0 main_call7_v1 (((broadcastInDim S4x4096x64 ![] bcast_S_S4x4096x64)) : (⟨S_, .i32⟩ : BufTy).Contents (Elt F) → (⟨S4x4096x64, .i32⟩ : BufTy).Contents (Elt F)),
    binary main_call7_v1 main_v82 main_call7_v2 ((maxsi) : (⟨S4x4096x64, .i32⟩ : BufTy).Contents (Elt F) → (⟨S4x4096x64, .i32⟩ : BufTy).Contents (Elt F) → (⟨S4x4096x64, .i32⟩ : BufTy).Contents (Elt F)),
    unary main_c_37 main_call7_v3 ((id) : (⟨S_, .i32⟩ : BufTy).Contents (Elt F) → (⟨S_, .i32⟩ : BufTy).Contents (Elt F)),
    unary main_call7_v3 main_call7_v4 (((broadcastInDim S4x4096x64 ![] bcast_S_S4x4096x64)) : (⟨S_, .i32⟩ : BufTy).Contents (Elt F) → (⟨S4x4096x64, .i32⟩ : BufTy).Contents (Elt F)),
    binary main_call7_v4 main_call7_v2 main_v100 ((minsi) : (⟨S4x4096x64, .i32⟩ : BufTy).Contents (Elt F) → (⟨S4x4096x64, .i32⟩ : BufTy).Contents (Elt F) → (⟨S4x4096x64, .i32⟩ : BufTy).Contents (Elt F)),
    binary main_v99 main_v100 main_v101 (addi : (⟨S4x4096x64, .i32⟩ : BufTy).Contents (Elt F) → (⟨S4x4096x64, .i32⟩ : BufTy).Contents (Elt F) → (⟨S4x4096x64, .i32⟩ : BufTy).Contents (Elt F)),
    nullary main_call8_c (((constantI S_ 32 0#32)) : (⟨S_, .i32⟩ : BufTy).Contents (Elt F)),
    unary main_call8_c main_call8_v0 (((broadcastInDim S4x4096x64 ![] bcast_S_S4x4096x64)) : (⟨S_, .i32⟩ : BufTy).Contents (Elt F) → (⟨S4x4096x64, .i32⟩ : BufTy).Contents (Elt F)),
    binary main_v101 main_call8_v0 main_call8_v1 (((cmpi .slt)) : (⟨S4x4096x64, .i32⟩ : BufTy).Contents (Elt F) → (⟨S4x4096x64, .i32⟩ : BufTy).Contents (Elt F) → (⟨S4x4096x64, .i1⟩ : BufTy).Contents (Elt F)),
    nullary main_call8_c_0 (((constantI S_ 32 4096#32)) : (⟨S_, .i32⟩ : BufTy).Contents (Elt F)),
    unary main_call8_c_0 main_call8_v2 (((broadcastInDim S4x4096x64 ![] bcast_S_S4x4096x64)) : (⟨S_, .i32⟩ : BufTy).Contents (Elt F) → (⟨S4x4096x64, .i32⟩ : BufTy).Contents (Elt F)),
    binary main_v101 main_call8_v2 main_call8_v3 ((addi) : (⟨S4x4096x64, .i32⟩ : BufTy).Contents (Elt F) → (⟨S4x4096x64, .i32⟩ : BufTy).Contents (Elt F) → (⟨S4x4096x64, .i32⟩ : BufTy).Contents (Elt F)),
    ternary main_call8_v1 main_call8_v3 main_v101 main_call8_v4 ((select) : (⟨S4x4096x64, .i1⟩ : BufTy).Contents (Elt F) → (⟨S4x4096x64, .i32⟩ : BufTy).Contents (Elt F) → (⟨S4x4096x64, .i32⟩ : BufTy).Contents (Elt F) → (⟨S4x4096x64, .i32⟩ : BufTy).Contents (Elt F)),
    reshape main_call8_v4 main_call8_v5 rfl shapeCasts_S4x4096x64_S4x4096x64x1,
    nullary main_call8_c_1 (((constantI S1 32 4095#32)) : (⟨S1, .i32⟩ : BufTy).Contents (Elt F)),
    nullary main_call8_c_2 (((constantI S_ 32 0#32)) : (⟨S_, .i32⟩ : BufTy).Contents (Elt F)),
    unary main_call8_c_2 main_call8_v6 (((broadcastInDim S4x4096x64x1 ![] bcast_S_S4x4096x64x1)) : (⟨S_, .i32⟩ : BufTy).Contents (Elt F) → (⟨S4x4096x64x1, .i32⟩ : BufTy).Contents (Elt F)),
    binary main_call8_v5 main_call8_v6 main_call8_v7 (((cmpi .sge)) : (⟨S4x4096x64x1, .i32⟩ : BufTy).Contents (Elt F) → (⟨S4x4096x64x1, .i32⟩ : BufTy).Contents (Elt F) → (⟨S4x4096x64x1, .i1⟩ : BufTy).Contents (Elt F)),
    unary main_call8_c_1 main_call8_v8 (((broadcastInDim S1x1x1x1 ![3] bcast_S1_S1x1x1x1_3)) : (⟨S1, .i32⟩ : BufTy).Contents (Elt F) → (⟨S1x1x1x1, .i32⟩ : BufTy).Contents (Elt F)),
    unary main_call8_v8 main_call8_v9 (((broadcastInDim S4x4096x64x1 ![0, 1, 2, 3] bcast_S1x1x1x1_S4x4096x64x1_0_1_2_3)) : (⟨S1x1x1x1, .i32⟩ : BufTy).Contents (Elt F) → (⟨S4x4096x64x1, .i32⟩ : BufTy).Contents (Elt F)),
    binary main_call8_v5 main_call8_v9 main_call8_v10 (((cmpi .sle)) : (⟨S4x4096x64x1, .i32⟩ : BufTy).Contents (Elt F) → (⟨S4x4096x64x1, .i32⟩ : BufTy).Contents (Elt F) → (⟨S4x4096x64x1, .i1⟩ : BufTy).Contents (Elt F)),
    binary main_call8_v7 main_call8_v10 main_call8_v11 ((andi) : (⟨S4x4096x64x1, .i1⟩ : BufTy).Contents (Elt F) → (⟨S4x4096x64x1, .i1⟩ : BufTy).Contents (Elt F) → (⟨S4x4096x64x1, .i1⟩ : BufTy).Contents (Elt F)),
    nullary main_call8_c_3 (((constantI S_ 1 1#1)) : (⟨S_, .i1⟩ : BufTy).Contents (Elt F)),
    binary main_call8_v11 main_call8_c_3 main_call8_v12 (((fun x v => Host.reduce IntOp.andi x v reducesTo_S4x4096x64x1_S4x4096x64_d3 h_S_)) : (⟨S4x4096x64x1, .i1⟩ : BufTy).Contents (Elt F) → (⟨S_, .i1⟩ : BufTy).Contents (Elt F) → (⟨S4x4096x64, .i1⟩ : BufTy).Contents (Elt F)),
    binary main_v2 main_call8_v5 main_call8_v13 (((fun x i => Host.gather gather_S4x4096x4096_S4x4096x64x1_S4x4096x64_n_2_01_01_2_3_111 x i)) : (⟨S4x4096x4096, .f32⟩ : BufTy).Contents (Elt F) → (⟨S4x4096x64x1, .i32⟩ : BufTy).Contents (Elt F) → (⟨S4x4096x64, .f32⟩ : BufTy).Contents (Elt F)),
    nullary main_call8_cst (((constant S_ .f32 0x7FC00000#32)) : (⟨S_, .f32⟩ : BufTy).Contents (Elt F)),
    unary main_call8_cst main_call8_v14 (((broadcastInDim S4x4096x64 ![] bcast_S_S4x4096x64)) : (⟨S_, .f32⟩ : BufTy).Contents (Elt F) → (⟨S4x4096x64, .f32⟩ : BufTy).Contents (Elt F)),
    ternary main_call8_v12 main_call8_v13 main_call8_v14 main_v102 ((select) : (⟨S4x4096x64, .i1⟩ : BufTy).Contents (Elt F) → (⟨S4x4096x64, .f32⟩ : BufTy).Contents (Elt F) → (⟨S4x4096x64, .f32⟩ : BufTy).Contents (Elt F) → (⟨S4x4096x64, .f32⟩ : BufTy).Contents (Elt F)),
    binary main_v15 main_v80 main_v103 (mulf : (⟨S4x4096x64, .f32⟩ : BufTy).Contents (Elt F) → (⟨S4x4096x64, .f32⟩ : BufTy).Contents (Elt F) → (⟨S4x4096x64, .f32⟩ : BufTy).Contents (Elt F)),
    binary main_v103 main_v96 main_v104 (mulf : (⟨S4x4096x64, .f32⟩ : BufTy).Contents (Elt F) → (⟨S4x4096x64, .f32⟩ : BufTy).Contents (Elt F) → (⟨S4x4096x64, .f32⟩ : BufTy).Contents (Elt F)),
    binary main_v104 main_v102 main_v105 (mulf : (⟨S4x4096x64, .f32⟩ : BufTy).Contents (Elt F) → (⟨S4x4096x64, .f32⟩ : BufTy).Contents (Elt F) → (⟨S4x4096x64, .f32⟩ : BufTy).Contents (Elt F)),
    binary main_v77 main_v105 main_v106 (addf : (⟨S4x4096x64, .f32⟩ : BufTy).Contents (Elt F) → (⟨S4x4096x64, .f32⟩ : BufTy).Contents (Elt F) → (⟨S4x4096x64, .f32⟩ : BufTy).Contents (Elt F)),
    binary main_v78 main_v104 main_v107 (addf : (⟨S4x4096x64, .f32⟩ : BufTy).Contents (Elt F) → (⟨S4x4096x64, .f32⟩ : BufTy).Contents (Elt F) → (⟨S4x4096x64, .f32⟩ : BufTy).Contents (Elt F)),
    nullary main_c_38 (constantI S_ 32 1#32),
    unary main_c_38 main_v108 (broadcastInDim S4x4096x64 ![] bcast_S_S4x4096x64 : (⟨S_, .i32⟩ : BufTy).Contents (Elt F) → (⟨S4x4096x64, .i32⟩ : BufTy).Contents (Elt F)),
    binary main_v17 main_v108 main_v109 (addi : (⟨S4x4096x64, .i32⟩ : BufTy).Contents (Elt F) → (⟨S4x4096x64, .i32⟩ : BufTy).Contents (Elt F) → (⟨S4x4096x64, .i32⟩ : BufTy).Contents (Elt F)),
    nullary main_c_39 (constantI S_ 32 1#32),
    unary main_c_39 main_v110 (broadcastInDim S4x4096x64 ![] bcast_S_S4x4096x64 : (⟨S_, .i32⟩ : BufTy).Contents (Elt F) → (⟨S4x4096x64, .i32⟩ : BufTy).Contents (Elt F)),
    binary main_v18 main_v110 main_v111 (addi : (⟨S4x4096x64, .i32⟩ : BufTy).Contents (Elt F) → (⟨S4x4096x64, .i32⟩ : BufTy).Contents (Elt F) → (⟨S4x4096x64, .i32⟩ : BufTy).Contents (Elt F)),
    nullary main_c_40 (constantI S_ 32 0#32),
    unary main_c_40 main_v112 (broadcastInDim S4x4096x64 ![] bcast_S_S4x4096x64 : (⟨S_, .i32⟩ : BufTy).Contents (Elt F) → (⟨S4x4096x64, .i32⟩ : BufTy).Contents (Elt F)),
    binary main_v109 main_v112 main_v113 (cmpi .sge : (⟨S4x4096x64, .i32⟩ : BufTy).Contents (Elt F) → (⟨S4x4096x64, .i32⟩ : BufTy).Contents (Elt F) → (⟨S4x4096x64, .i1⟩ : BufTy).Contents (Elt F)),
    nullary main_c_41 (constantI S_ 32 64#32),
    unary main_c_41 main_v114 (broadcastInDim S4x4096x64 ![] bcast_S_S4x4096x64 : (⟨S_, .i32⟩ : BufTy).Contents (Elt F) → (⟨S4x4096x64, .i32⟩ : BufTy).Contents (Elt F)),
    binary main_v109 main_v114 main_v115 (cmpi .slt : (⟨S4x4096x64, .i32⟩ : BufTy).Contents (Elt F) → (⟨S4x4096x64, .i32⟩ : BufTy).Contents (Elt F) → (⟨S4x4096x64, .i1⟩ : BufTy).Contents (Elt F)),
    binary main_v113 main_v115 main_v116 (andi : (⟨S4x4096x64, .i1⟩ : BufTy).Contents (Elt F) → (⟨S4x4096x64, .i1⟩ : BufTy).Contents (Elt F) → (⟨S4x4096x64, .i1⟩ : BufTy).Contents (Elt F)),
    nullary main_c_42 (constantI S_ 32 0#32),
    unary main_c_42 main_v117 (broadcastInDim S4x4096x64 ![] bcast_S_S4x4096x64 : (⟨S_, .i32⟩ : BufTy).Contents (Elt F) → (⟨S4x4096x64, .i32⟩ : BufTy).Contents (Elt F)),
    binary main_v111 main_v117 main_v118 (cmpi .sge : (⟨S4x4096x64, .i32⟩ : BufTy).Contents (Elt F) → (⟨S4x4096x64, .i32⟩ : BufTy).Contents (Elt F) → (⟨S4x4096x64, .i1⟩ : BufTy).Contents (Elt F)),
    binary main_v116 main_v118 main_v119 (andi : (⟨S4x4096x64, .i1⟩ : BufTy).Contents (Elt F) → (⟨S4x4096x64, .i1⟩ : BufTy).Contents (Elt F) → (⟨S4x4096x64, .i1⟩ : BufTy).Contents (Elt F)),
    nullary main_c_43 (constantI S_ 32 64#32),
    unary main_c_43 main_v120 (broadcastInDim S4x4096x64 ![] bcast_S_S4x4096x64 : (⟨S_, .i32⟩ : BufTy).Contents (Elt F) → (⟨S4x4096x64, .i32⟩ : BufTy).Contents (Elt F)),
    binary main_v111 main_v120 main_v121 (cmpi .slt : (⟨S4x4096x64, .i32⟩ : BufTy).Contents (Elt F) → (⟨S4x4096x64, .i32⟩ : BufTy).Contents (Elt F) → (⟨S4x4096x64, .i1⟩ : BufTy).Contents (Elt F)),
    binary main_v119 main_v121 main_v122 (andi : (⟨S4x4096x64, .i1⟩ : BufTy).Contents (Elt F) → (⟨S4x4096x64, .i1⟩ : BufTy).Contents (Elt F) → (⟨S4x4096x64, .i1⟩ : BufTy).Contents (Elt F)),
    unary main_v122 main_v123 (uitofp .f32 : (⟨S4x4096x64, .i1⟩ : BufTy).Contents (Elt F) → (⟨S4x4096x64, .f32⟩ : BufTy).Contents (Elt F)),
    nullary main_c_44 (constantI S_ 32 0#32),
    nullary main_c_45 (constantI S_ 32 63#32),
    unary main_c_44 main_call9_v0 ((id) : (⟨S_, .i32⟩ : BufTy).Contents (Elt F) → (⟨S_, .i32⟩ : BufTy).Contents (Elt F)),
    unary main_call9_v0 main_call9_v1 (((broadcastInDim S4x4096x64 ![] bcast_S_S4x4096x64)) : (⟨S_, .i32⟩ : BufTy).Contents (Elt F) → (⟨S4x4096x64, .i32⟩ : BufTy).Contents (Elt F)),
    binary main_call9_v1 main_v111 main_call9_v2 ((maxsi) : (⟨S4x4096x64, .i32⟩ : BufTy).Contents (Elt F) → (⟨S4x4096x64, .i32⟩ : BufTy).Contents (Elt F) → (⟨S4x4096x64, .i32⟩ : BufTy).Contents (Elt F)),
    unary main_c_45 main_call9_v3 ((id) : (⟨S_, .i32⟩ : BufTy).Contents (Elt F) → (⟨S_, .i32⟩ : BufTy).Contents (Elt F)),
    unary main_call9_v3 main_call9_v4 (((broadcastInDim S4x4096x64 ![] bcast_S_S4x4096x64)) : (⟨S_, .i32⟩ : BufTy).Contents (Elt F) → (⟨S4x4096x64, .i32⟩ : BufTy).Contents (Elt F)),
    binary main_call9_v4 main_call9_v2 main_v124 ((minsi) : (⟨S4x4096x64, .i32⟩ : BufTy).Contents (Elt F) → (⟨S4x4096x64, .i32⟩ : BufTy).Contents (Elt F) → (⟨S4x4096x64, .i32⟩ : BufTy).Contents (Elt F)),
    nullary main_c_46 (constantI S_ 32 64#32),
    unary main_c_46 main_v125 (broadcastInDim S4x4096x64 ![] bcast_S_S4x4096x64 : (⟨S_, .i32⟩ : BufTy).Contents (Elt F) → (⟨S4x4096x64, .i32⟩ : BufTy).Contents (Elt F)),
    binary main_v124 main_v125 main_v126 (muli : (⟨S4x4096x64, .i32⟩ : BufTy).Contents (Elt F) → (⟨S4x4096x64, .i32⟩ : BufTy).Contents (Elt F) → (⟨S4x4096x64, .i32⟩ : BufTy).Contents (Elt F)),
    nullary main_c_47 (constantI S_ 32 0#32),
    nullary main_c_48 (constantI S_ 32 63#32),
    unary main_c_47 main_call10_v0 ((id) : (⟨S_, .i32⟩ : BufTy).Contents (Elt F) → (⟨S_, .i32⟩ : BufTy).Contents (Elt F)),
    unary main_call10_v0 main_call10_v1 (((broadcastInDim S4x4096x64 ![] bcast_S_S4x4096x64)) : (⟨S_, .i32⟩ : BufTy).Contents (Elt F) → (⟨S4x4096x64, .i32⟩ : BufTy).Contents (Elt F)),
    binary main_call10_v1 main_v109 main_call10_v2 ((maxsi) : (⟨S4x4096x64, .i32⟩ : BufTy).Contents (Elt F) → (⟨S4x4096x64, .i32⟩ : BufTy).Contents (Elt F) → (⟨S4x4096x64, .i32⟩ : BufTy).Contents (Elt F)),
    unary main_c_48 main_call10_v3 ((id) : (⟨S_, .i32⟩ : BufTy).Contents (Elt F) → (⟨S_, .i32⟩ : BufTy).Contents (Elt F)),
    unary main_call10_v3 main_call10_v4 (((broadcastInDim S4x4096x64 ![] bcast_S_S4x4096x64)) : (⟨S_, .i32⟩ : BufTy).Contents (Elt F) → (⟨S4x4096x64, .i32⟩ : BufTy).Contents (Elt F)),
    binary main_call10_v4 main_call10_v2 main_v127 ((minsi) : (⟨S4x4096x64, .i32⟩ : BufTy).Contents (Elt F) → (⟨S4x4096x64, .i32⟩ : BufTy).Contents (Elt F) → (⟨S4x4096x64, .i32⟩ : BufTy).Contents (Elt F)),
    binary main_v126 main_v127 main_v128 (addi : (⟨S4x4096x64, .i32⟩ : BufTy).Contents (Elt F) → (⟨S4x4096x64, .i32⟩ : BufTy).Contents (Elt F) → (⟨S4x4096x64, .i32⟩ : BufTy).Contents (Elt F)),
    nullary main_call11_c (((constantI S_ 32 0#32)) : (⟨S_, .i32⟩ : BufTy).Contents (Elt F)),
    unary main_call11_c main_call11_v0 (((broadcastInDim S4x4096x64 ![] bcast_S_S4x4096x64)) : (⟨S_, .i32⟩ : BufTy).Contents (Elt F) → (⟨S4x4096x64, .i32⟩ : BufTy).Contents (Elt F)),
    binary main_v128 main_call11_v0 main_call11_v1 (((cmpi .slt)) : (⟨S4x4096x64, .i32⟩ : BufTy).Contents (Elt F) → (⟨S4x4096x64, .i32⟩ : BufTy).Contents (Elt F) → (⟨S4x4096x64, .i1⟩ : BufTy).Contents (Elt F)),
    nullary main_call11_c_0 (((constantI S_ 32 4096#32)) : (⟨S_, .i32⟩ : BufTy).Contents (Elt F)),
    unary main_call11_c_0 main_call11_v2 (((broadcastInDim S4x4096x64 ![] bcast_S_S4x4096x64)) : (⟨S_, .i32⟩ : BufTy).Contents (Elt F) → (⟨S4x4096x64, .i32⟩ : BufTy).Contents (Elt F)),
    binary main_v128 main_call11_v2 main_call11_v3 ((addi) : (⟨S4x4096x64, .i32⟩ : BufTy).Contents (Elt F) → (⟨S4x4096x64, .i32⟩ : BufTy).Contents (Elt F) → (⟨S4x4096x64, .i32⟩ : BufTy).Contents (Elt F)),
    ternary main_call11_v1 main_call11_v3 main_v128 main_call11_v4 ((select) : (⟨S4x4096x64, .i1⟩ : BufTy).Contents (Elt F) → (⟨S4x4096x64, .i32⟩ : BufTy).Contents (Elt F) → (⟨S4x4096x64, .i32⟩ : BufTy).Contents (Elt F) → (⟨S4x4096x64, .i32⟩ : BufTy).Contents (Elt F)),
    reshape main_call11_v4 main_call11_v5 rfl shapeCasts_S4x4096x64_S4x4096x64x1,
    nullary main_call11_c_1 (((constantI S1 32 4095#32)) : (⟨S1, .i32⟩ : BufTy).Contents (Elt F)),
    nullary main_call11_c_2 (((constantI S_ 32 0#32)) : (⟨S_, .i32⟩ : BufTy).Contents (Elt F)),
    unary main_call11_c_2 main_call11_v6 (((broadcastInDim S4x4096x64x1 ![] bcast_S_S4x4096x64x1)) : (⟨S_, .i32⟩ : BufTy).Contents (Elt F) → (⟨S4x4096x64x1, .i32⟩ : BufTy).Contents (Elt F)),
    binary main_call11_v5 main_call11_v6 main_call11_v7 (((cmpi .sge)) : (⟨S4x4096x64x1, .i32⟩ : BufTy).Contents (Elt F) → (⟨S4x4096x64x1, .i32⟩ : BufTy).Contents (Elt F) → (⟨S4x4096x64x1, .i1⟩ : BufTy).Contents (Elt F)),
    unary main_call11_c_1 main_call11_v8 (((broadcastInDim S1x1x1x1 ![3] bcast_S1_S1x1x1x1_3)) : (⟨S1, .i32⟩ : BufTy).Contents (Elt F) → (⟨S1x1x1x1, .i32⟩ : BufTy).Contents (Elt F)),
    unary main_call11_v8 main_call11_v9 (((broadcastInDim S4x4096x64x1 ![0, 1, 2, 3] bcast_S1x1x1x1_S4x4096x64x1_0_1_2_3)) : (⟨S1x1x1x1, .i32⟩ : BufTy).Contents (Elt F) → (⟨S4x4096x64x1, .i32⟩ : BufTy).Contents (Elt F)),
    binary main_call11_v5 main_call11_v9 main_call11_v10 (((cmpi .sle)) : (⟨S4x4096x64x1, .i32⟩ : BufTy).Contents (Elt F) → (⟨S4x4096x64x1, .i32⟩ : BufTy).Contents (Elt F) → (⟨S4x4096x64x1, .i1⟩ : BufTy).Contents (Elt F)),
    binary main_call11_v7 main_call11_v10 main_call11_v11 ((andi) : (⟨S4x4096x64x1, .i1⟩ : BufTy).Contents (Elt F) → (⟨S4x4096x64x1, .i1⟩ : BufTy).Contents (Elt F) → (⟨S4x4096x64x1, .i1⟩ : BufTy).Contents (Elt F)),
    nullary main_call11_c_3 (((constantI S_ 1 1#1)) : (⟨S_, .i1⟩ : BufTy).Contents (Elt F)),
    binary main_call11_v11 main_call11_c_3 main_call11_v12 (((fun x v => Host.reduce IntOp.andi x v reducesTo_S4x4096x64x1_S4x4096x64_d3 h_S_)) : (⟨S4x4096x64x1, .i1⟩ : BufTy).Contents (Elt F) → (⟨S_, .i1⟩ : BufTy).Contents (Elt F) → (⟨S4x4096x64, .i1⟩ : BufTy).Contents (Elt F)),
    binary main_v2 main_call11_v5 main_call11_v13 (((fun x i => Host.gather gather_S4x4096x4096_S4x4096x64x1_S4x4096x64_n_2_01_01_2_3_111 x i)) : (⟨S4x4096x4096, .f32⟩ : BufTy).Contents (Elt F) → (⟨S4x4096x64x1, .i32⟩ : BufTy).Contents (Elt F) → (⟨S4x4096x64, .f32⟩ : BufTy).Contents (Elt F)),
    nullary main_call11_cst (((constant S_ .f32 0x7FC00000#32)) : (⟨S_, .f32⟩ : BufTy).Contents (Elt F)),
    unary main_call11_cst main_call11_v14 (((broadcastInDim S4x4096x64 ![] bcast_S_S4x4096x64)) : (⟨S_, .f32⟩ : BufTy).Contents (Elt F) → (⟨S4x4096x64, .f32⟩ : BufTy).Contents (Elt F)),
    ternary main_call11_v12 main_call11_v13 main_call11_v14 main_v129 ((select) : (⟨S4x4096x64, .i1⟩ : BufTy).Contents (Elt F) → (⟨S4x4096x64, .f32⟩ : BufTy).Contents (Elt F) → (⟨S4x4096x64, .f32⟩ : BufTy).Contents (Elt F) → (⟨S4x4096x64, .f32⟩ : BufTy).Contents (Elt F)),
    binary main_v15 main_v16 main_v130 (mulf : (⟨S4x4096x64, .f32⟩ : BufTy).Contents (Elt F) → (⟨S4x4096x64, .f32⟩ : BufTy).Contents (Elt F) → (⟨S4x4096x64, .f32⟩ : BufTy).Contents (Elt F)),
    binary main_v130 main_v123 main_v131 (mulf : (⟨S4x4096x64, .f32⟩ : BufTy).Contents (Elt F) → (⟨S4x4096x64, .f32⟩ : BufTy).Contents (Elt F) → (⟨S4x4096x64, .f32⟩ : BufTy).Contents (Elt F)),
    binary main_v131 main_v129 main_v132 (mulf : (⟨S4x4096x64, .f32⟩ : BufTy).Contents (Elt F) → (⟨S4x4096x64, .f32⟩ : BufTy).Contents (Elt F) → (⟨S4x4096x64, .f32⟩ : BufTy).Contents (Elt F)),
    binary main_v106 main_v132 main_v133 (addf : (⟨S4x4096x64, .f32⟩ : BufTy).Contents (Elt F) → (⟨S4x4096x64, .f32⟩ : BufTy).Contents (Elt F) → (⟨S4x4096x64, .f32⟩ : BufTy).Contents (Elt F)),
    binary main_v107 main_v131 main_v134 (addf : (⟨S4x4096x64, .f32⟩ : BufTy).Contents (Elt F) → (⟨S4x4096x64, .f32⟩ : BufTy).Contents (Elt F) → (⟨S4x4096x64, .f32⟩ : BufTy).Contents (Elt F)),
    nullary main_cst_49 (constant S_ .f32 0x3F7FF972#32),
    unary main_cst_49 main_v135 (broadcastInDim S4x4096x64 ![] bcast_S_S4x4096x64 : (⟨S_, .f32⟩ : BufTy).Contents (Elt F) → (⟨S4x4096x64, .f32⟩ : BufTy).Contents (Elt F)),
    binary main_v134 main_v135 main_v136 (cmpf .olt : (⟨S4x4096x64, .f32⟩ : BufTy).Contents (Elt F) → (⟨S4x4096x64, .f32⟩ : BufTy).Contents (Elt F) → (⟨S4x4096x64, .i1⟩ : BufTy).Contents (Elt F)),
    nullary main_cst_50 (constant S_ .f32 0x00000000#32),
    nullary main_cst_51 (constant S_ .f32 0x3F800000#32),
    unary main_cst_50 main_call12_v0 (((broadcastInDim S4x4096x64 ![] bcast_S_S4x4096x64)) : (⟨S_, .f32⟩ : BufTy).Contents (Elt F) → (⟨S4x4096x64, .f32⟩ : BufTy).Contents (Elt F)),
    unary main_cst_51 main_call12_v1 (((broadcastInDim S4x4096x64 ![] bcast_S_S4x4096x64)) : (⟨S_, .f32⟩ : BufTy).Contents (Elt F) → (⟨S4x4096x64, .f32⟩ : BufTy).Contents (Elt F)),
    ternary main_v136 main_call12_v0 main_call12_v1 main_v137 ((select) : (⟨S4x4096x64, .i1⟩ : BufTy).Contents (Elt F) → (⟨S4x4096x64, .f32⟩ : BufTy).Contents (Elt F) → (⟨S4x4096x64, .f32⟩ : BufTy).Contents (Elt F) → (⟨S4x4096x64, .f32⟩ : BufTy).Contents (Elt F)),
    unary main_v137 main_v138 (id : (⟨S4x4096x64, .f32⟩ : BufTy).Contents (Elt F) → (⟨S4x4096x64, .f32⟩ : BufTy).Contents (Elt F)),
    binary main_v133 main_v138 main_v139 (mulf : (⟨S4x4096x64, .f32⟩ : BufTy).Contents (Elt F) → (⟨S4x4096x64, .f32⟩ : BufTy).Contents (Elt F) → (⟨S4x4096x64, .f32⟩ : BufTy).Contents (Elt F)),
    reshape main_v139 main_v140 rfl shapeCasts_S4x4096x64_S4x64x64x64,
    unary main_v140 main_v141 ((transpose S4x64x64x64 [0, 3, 1, 2] · transposes_S4x64x64x64_S4x64x64x64_0_3_1_2) : (⟨S4x64x64x64, .f32⟩ : BufTy).Contents (Elt F) → (⟨S4x64x64x64, .f32⟩ : BufTy).Contents (Elt F)),
    reshape main_v138 main_v142 rfl shapeCasts_S4x4096x64_S4x64x64x64,
    unary main_v142 main_v143 ((transpose S4x64x64x64 [0, 3, 1, 2] · transposes_S4x64x64x64_S4x64x64x64_0_3_1_2) : (⟨S4x64x64x64, .f32⟩ : BufTy).Contents (Elt F) → (⟨S4x64x64x64, .f32⟩ : BufTy).Contents (Elt F)),
    binary main_v141 main_arg3 main_v144 (mulf : (⟨S4x64x64x64, .f32⟩ : BufTy).Contents (Elt F) → (⟨S4x64x64x64, .f32⟩ : BufTy).Contents (Elt F) → (⟨S4x64x64x64, .f32⟩ : BufTy).Contents (Elt F)),
    binary main_v143 main_arg3 main_v145 (mulf : (⟨S4x64x64x64, .f32⟩ : BufTy).Contents (Elt F) → (⟨S4x64x64x64, .f32⟩ : BufTy).Contents (Elt F) → (⟨S4x64x64x64, .f32⟩ : BufTy).Contents (Elt F)) ]

set_option maxRecDepth 100000 in
set_option maxHeartbeats 40000000 in
/-- The printed list is that list, operation by operation. -/
theorem ops_eq : (ValueP.ops : List (HloOp τ sig (Elt F))) = opsPlain :=
  (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨TRef.unary_eq_plain _ _ _ _ HEq.rfl, (List.cons_eq_cons.mpr ⟨TRef.unary_eq_plain _ _ _ _ HEq.rfl, (List.cons_eq_cons.mpr ⟨TRef.binary_eq_plain _ _ _ _ _ HEq.rfl, (List.cons_eq_cons.mpr ⟨TRef.unary_eq_plain _ _ _ _ HEq.rfl, (List.cons_eq_cons.mpr ⟨TRef.unary_eq_plain _ _ _ _ HEq.rfl, (List.cons_eq_cons.mpr ⟨TRef.binary_eq_plain _ _ _ _ _ HEq.rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨TRef.unary_eq_plain _ _ _ _ HEq.rfl, (List.cons_eq_cons.mpr ⟨TRef.unary_eq_plain _ _ _ _ HEq.rfl, (List.cons_eq_cons.mpr ⟨TRef.binary_eq_plain _ _ _ _ _ HEq.rfl, (List.cons_eq_cons.mpr ⟨TRef.unary_eq_plain _ _ _ _ HEq.rfl, (List.cons_eq_cons.mpr ⟨TRef.unary_eq_plain _ _ _ _ HEq.rfl, (List.cons_eq_cons.mpr ⟨TRef.binary_eq_plain _ _ _ _ _ HEq.rfl, (List.cons_eq_cons.mpr ⟨rfl, (List.cons_eq_cons.mpr ⟨TRef.nullary_eq_plain _ _ _ HEq.rfl, (List.cons_eq_cons.mpr ⟨TRef.unary_eq_plain _ _ _ _ HEq.rfl, (List.cons_eq_cons.mpr ⟨TRef.binary_eq_plain _ _ _ _ _ HEq.rfl, (List.cons_eq_cons.mpr ⟨TRef.nullary_eq_plain _ _ _ HEq.rfl, (List.cons_eq_cons.mpr ⟨TRef.unary_eq_plain _ _ _ _ HEq.rfl, (List.cons_eq_cons.mpr ⟨TRef.binary_eq_plain _ _ _ _ _ HEq.rfl, (List.cons_eq_cons.mpr ⟨TRef.ternary_eq_plain _ _ _ _ _ _ HEq.rfl, (List.cons_eq_cons.mpr ⟨TRef.reshape_eq_plain _ _ _ _ _ _, (List.cons_eq_cons.mpr ⟨TRef.nullary_eq_plain _ _ _ HEq.rfl, (List.cons_eq_cons.mpr ⟨TRef.nullary_eq_plain _ _ _ HEq.rfl, (List.cons_eq_cons.mpr ⟨TRef.unary_eq_plain _ _ _ _ HEq.rfl, (List.cons_eq_cons.mpr ⟨TRef.binary_eq_plain _ _ _ _ _ HEq.rfl, (List.cons_eq_cons.mpr ⟨TRef.unary_eq_plain _ _ _ _ HEq.rfl, (List.cons_eq_cons.mpr ⟨TRef.unary_eq_plain _ _ _ _ HEq.rfl, (List.cons_eq_cons.mpr ⟨TRef.binary_eq_plain _ _ _ _ _ HEq.rfl, (List.cons_eq_cons.mpr ⟨TRef.binary_eq_plain _ _ _ _ _ HEq.rfl, (List.cons_eq_cons.mpr ⟨TRef.nullary_eq_plain _ _ _ HEq.rfl, (List.cons_eq_cons.mpr ⟨TRef.binary_eq_plain _ _ _ _ _ HEq.rfl, (List.cons_eq_cons.mpr ⟨TRef.binary_eq_plain _ _ _ _ _ HEq.rfl, (List.cons_eq_cons.mpr ⟨TRef.nullary_eq_plain _ _ _ HEq.rfl, (List.cons_eq_cons.mpr ⟨TRef.unary_eq_plain _ _ _ _ HEq.rfl, (List.cons_eq_cons.mpr ⟨TRef.ternary_eq_plain _ _ _ _ _ _ HEq.rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨TRef.unary_eq_plain _ _ _ _ HEq.rfl, (List.cons_eq_cons.mpr ⟨TRef.unary_eq_plain _ _ _ _ HEq.rfl, (List.cons_eq_cons.mpr ⟨TRef.binary_eq_plain _ _ _ _ _ HEq.rfl, (List.cons_eq_cons.mpr ⟨TRef.unary_eq_plain _ _ _ _ HEq.rfl, (List.cons_eq_cons.mpr ⟨TRef.unary_eq_plain _ _ _ _ HEq.rfl, (List.cons_eq_cons.mpr ⟨TRef.binary_eq_plain _ _ _ _ _ HEq.rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨TRef.unary_eq_plain _ _ _ _ HEq.rfl, (List.cons_eq_cons.mpr ⟨TRef.unary_eq_plain _ _ _ _ HEq.rfl, (List.cons_eq_cons.mpr ⟨TRef.binary_eq_plain _ _ _ _ _ HEq.rfl, (List.cons_eq_cons.mpr ⟨TRef.unary_eq_plain _ _ _ _ HEq.rfl, (List.cons_eq_cons.mpr ⟨TRef.unary_eq_plain _ _ _ _ HEq.rfl, (List.cons_eq_cons.mpr ⟨TRef.binary_eq_plain _ _ _ _ _ HEq.rfl, (List.cons_eq_cons.mpr ⟨rfl, (List.cons_eq_cons.mpr ⟨TRef.nullary_eq_plain _ _ _ HEq.rfl, (List.cons_eq_cons.mpr ⟨TRef.unary_eq_plain _ _ _ _ HEq.rfl, (List.cons_eq_cons.mpr ⟨TRef.binary_eq_plain _ _ _ _ _ HEq.rfl, (List.cons_eq_cons.mpr ⟨TRef.nullary_eq_plain _ _ _ HEq.rfl, (List.cons_eq_cons.mpr ⟨TRef.unary_eq_plain _ _ _ _ HEq.rfl, (List.cons_eq_cons.mpr ⟨TRef.binary_eq_plain _ _ _ _ _ HEq.rfl, (List.cons_eq_cons.mpr ⟨TRef.ternary_eq_plain _ _ _ _ _ _ HEq.rfl, (List.cons_eq_cons.mpr ⟨TRef.reshape_eq_plain _ _ _ _ _ _, (List.cons_eq_cons.mpr ⟨TRef.nullary_eq_plain _ _ _ HEq.rfl, (List.cons_eq_cons.mpr ⟨TRef.nullary_eq_plain _ _ _ HEq.rfl, (List.cons_eq_cons.mpr ⟨TRef.unary_eq_plain _ _ _ _ HEq.rfl, (List.cons_eq_cons.mpr ⟨TRef.binary_eq_plain _ _ _ _ _ HEq.rfl, (List.cons_eq_cons.mpr ⟨TRef.unary_eq_plain _ _ _ _ HEq.rfl, (List.cons_eq_cons.mpr ⟨TRef.unary_eq_plain _ _ _ _ HEq.rfl, (List.cons_eq_cons.mpr ⟨TRef.binary_eq_plain _ _ _ _ _ HEq.rfl, (List.cons_eq_cons.mpr ⟨TRef.binary_eq_plain _ _ _ _ _ HEq.rfl, (List.cons_eq_cons.mpr ⟨TRef.nullary_eq_plain _ _ _ HEq.rfl, (List.cons_eq_cons.mpr ⟨TRef.binary_eq_plain _ _ _ _ _ HEq.rfl, (List.cons_eq_cons.mpr ⟨TRef.binary_eq_plain _ _ _ _ _ HEq.rfl, (List.cons_eq_cons.mpr ⟨TRef.nullary_eq_plain _ _ _ HEq.rfl, (List.cons_eq_cons.mpr ⟨TRef.unary_eq_plain _ _ _ _ HEq.rfl, (List.cons_eq_cons.mpr ⟨TRef.ternary_eq_plain _ _ _ _ _ _ HEq.rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨TRef.unary_eq_plain _ _ _ _ HEq.rfl, (List.cons_eq_cons.mpr ⟨TRef.unary_eq_plain _ _ _ _ HEq.rfl, (List.cons_eq_cons.mpr ⟨TRef.binary_eq_plain _ _ _ _ _ HEq.rfl, (List.cons_eq_cons.mpr ⟨TRef.unary_eq_plain _ _ _ _ HEq.rfl, (List.cons_eq_cons.mpr ⟨TRef.unary_eq_plain _ _ _ _ HEq.rfl, (List.cons_eq_cons.mpr ⟨TRef.binary_eq_plain _ _ _ _ _ HEq.rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨TRef.unary_eq_plain _ _ _ _ HEq.rfl, (List.cons_eq_cons.mpr ⟨TRef.unary_eq_plain _ _ _ _ HEq.rfl, (List.cons_eq_cons.mpr ⟨TRef.binary_eq_plain _ _ _ _ _ HEq.rfl, (List.cons_eq_cons.mpr ⟨TRef.unary_eq_plain _ _ _ _ HEq.rfl, (List.cons_eq_cons.mpr ⟨TRef.unary_eq_plain _ _ _ _ HEq.rfl, (List.cons_eq_cons.mpr ⟨TRef.binary_eq_plain _ _ _ _ _ HEq.rfl, (List.cons_eq_cons.mpr ⟨rfl, (List.cons_eq_cons.mpr ⟨TRef.nullary_eq_plain _ _ _ HEq.rfl, (List.cons_eq_cons.mpr ⟨TRef.unary_eq_plain _ _ _ _ HEq.rfl, (List.cons_eq_cons.mpr ⟨TRef.binary_eq_plain _ _ _ _ _ HEq.rfl, (List.cons_eq_cons.mpr ⟨TRef.nullary_eq_plain _ _ _ HEq.rfl, (List.cons_eq_cons.mpr ⟨TRef.unary_eq_plain _ _ _ _ HEq.rfl, (List.cons_eq_cons.mpr ⟨TRef.binary_eq_plain _ _ _ _ _ HEq.rfl, (List.cons_eq_cons.mpr ⟨TRef.ternary_eq_plain _ _ _ _ _ _ HEq.rfl, (List.cons_eq_cons.mpr ⟨TRef.reshape_eq_plain _ _ _ _ _ _, (List.cons_eq_cons.mpr ⟨TRef.nullary_eq_plain _ _ _ HEq.rfl, (List.cons_eq_cons.mpr ⟨TRef.nullary_eq_plain _ _ _ HEq.rfl, (List.cons_eq_cons.mpr ⟨TRef.unary_eq_plain _ _ _ _ HEq.rfl, (List.cons_eq_cons.mpr ⟨TRef.binary_eq_plain _ _ _ _ _ HEq.rfl, (List.cons_eq_cons.mpr ⟨TRef.unary_eq_plain _ _ _ _ HEq.rfl, (List.cons_eq_cons.mpr ⟨TRef.unary_eq_plain _ _ _ _ HEq.rfl, (List.cons_eq_cons.mpr ⟨TRef.binary_eq_plain _ _ _ _ _ HEq.rfl, (List.cons_eq_cons.mpr ⟨TRef.binary_eq_plain _ _ _ _ _ HEq.rfl, (List.cons_eq_cons.mpr ⟨TRef.nullary_eq_plain _ _ _ HEq.rfl, (List.cons_eq_cons.mpr ⟨TRef.binary_eq_plain _ _ _ _ _ HEq.rfl, (List.cons_eq_cons.mpr ⟨TRef.binary_eq_plain _ _ _ _ _ HEq.rfl, (List.cons_eq_cons.mpr ⟨TRef.nullary_eq_plain _ _ _ HEq.rfl, (List.cons_eq_cons.mpr ⟨TRef.unary_eq_plain _ _ _ _ HEq.rfl, (List.cons_eq_cons.mpr ⟨TRef.ternary_eq_plain _ _ _ _ _ _ HEq.rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨TRef.unary_eq_plain _ _ _ _ HEq.rfl, (List.cons_eq_cons.mpr ⟨TRef.unary_eq_plain _ _ _ _ HEq.rfl, (List.cons_eq_cons.mpr ⟨TRef.binary_eq_plain _ _ _ _ _ HEq.rfl, (List.cons_eq_cons.mpr ⟨TRef.unary_eq_plain _ _ _ _ HEq.rfl, (List.cons_eq_cons.mpr ⟨TRef.unary_eq_plain _ _ _ _ HEq.rfl, (List.cons_eq_cons.mpr ⟨TRef.binary_eq_plain _ _ _ _ _ HEq.rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨TRef.unary_eq_plain _ _ _ _ HEq.rfl, (List.cons_eq_cons.mpr ⟨TRef.unary_eq_plain _ _ _ _ HEq.rfl, (List.cons_eq_cons.mpr ⟨TRef.binary_eq_plain _ _ _ _ _ HEq.rfl, (List.cons_eq_cons.mpr ⟨TRef.unary_eq_plain _ _ _ _ HEq.rfl, (List.cons_eq_cons.mpr ⟨TRef.unary_eq_plain _ _ _ _ HEq.rfl, (List.cons_eq_cons.mpr ⟨TRef.binary_eq_plain _ _ _ _ _ HEq.rfl, (List.cons_eq_cons.mpr ⟨rfl, (List.cons_eq_cons.mpr ⟨TRef.nullary_eq_plain _ _ _ HEq.rfl, (List.cons_eq_cons.mpr ⟨TRef.unary_eq_plain _ _ _ _ HEq.rfl, (List.cons_eq_cons.mpr ⟨TRef.binary_eq_plain _ _ _ _ _ HEq.rfl, (List.cons_eq_cons.mpr ⟨TRef.nullary_eq_plain _ _ _ HEq.rfl, (List.cons_eq_cons.mpr ⟨TRef.unary_eq_plain _ _ _ _ HEq.rfl, (List.cons_eq_cons.mpr ⟨TRef.binary_eq_plain _ _ _ _ _ HEq.rfl, (List.cons_eq_cons.mpr ⟨TRef.ternary_eq_plain _ _ _ _ _ _ HEq.rfl, (List.cons_eq_cons.mpr ⟨TRef.reshape_eq_plain _ _ _ _ _ _, (List.cons_eq_cons.mpr ⟨TRef.nullary_eq_plain _ _ _ HEq.rfl, (List.cons_eq_cons.mpr ⟨TRef.nullary_eq_plain _ _ _ HEq.rfl, (List.cons_eq_cons.mpr ⟨TRef.unary_eq_plain _ _ _ _ HEq.rfl, (List.cons_eq_cons.mpr ⟨TRef.binary_eq_plain _ _ _ _ _ HEq.rfl, (List.cons_eq_cons.mpr ⟨TRef.unary_eq_plain _ _ _ _ HEq.rfl, (List.cons_eq_cons.mpr ⟨TRef.unary_eq_plain _ _ _ _ HEq.rfl, (List.cons_eq_cons.mpr ⟨TRef.binary_eq_plain _ _ _ _ _ HEq.rfl, (List.cons_eq_cons.mpr ⟨TRef.binary_eq_plain _ _ _ _ _ HEq.rfl, (List.cons_eq_cons.mpr ⟨TRef.nullary_eq_plain _ _ _ HEq.rfl, (List.cons_eq_cons.mpr ⟨TRef.binary_eq_plain _ _ _ _ _ HEq.rfl, (List.cons_eq_cons.mpr ⟨TRef.binary_eq_plain _ _ _ _ _ HEq.rfl, (List.cons_eq_cons.mpr ⟨TRef.nullary_eq_plain _ _ _ HEq.rfl, (List.cons_eq_cons.mpr ⟨TRef.unary_eq_plain _ _ _ _ HEq.rfl, (List.cons_eq_cons.mpr ⟨TRef.ternary_eq_plain _ _ _ _ _ _ HEq.rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨TRef.unary_eq_plain _ _ _ _ HEq.rfl, (List.cons_eq_cons.mpr ⟨TRef.unary_eq_plain _ _ _ _ HEq.rfl, (List.cons_eq_cons.mpr ⟨TRef.ternary_eq_plain _ _ _ _ _ _ HEq.rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, (List.cons_eq_cons.mpr ⟨rfl, rfl⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)

end Cert.ReferenceIdeal.Plain

end
-- ==== Proof.ReferenceValue.lean ====
/-
  The reference's run, read back at the ideal values.

  The reference's 326 operations only ever read its four arguments and buffers that earlier operations wrote. Running them
  (in the form `opsPlain`, the same list with one builder throughout) from ANY contents `W` of the buffers therefore leaves, in the two result buffers, the operations composed in order over
  `W` at the arguments: `tailR0` / `tailR1` of the correlation product of arguments 0 and 1 (each reshaped to
  [4, 128, 4096]), the sampling grid (argument 2) and the mask (argument 3) — `ref_tail0`, `ref_tail1` — and leaves the
  four arguments as they were (`ref_arg0` … `ref_arg3`: no operation writes them). Every weakly fair execution of the
  reference from any memory with zero counters terminates with its buffers at that fold over the launch contents, hence
  with the results at those two terms of the launch arguments and the arguments unchanged (`run`).
-/
import proofs.«152563_j67370857005292_2_alg».proof.Proof.ReferenceRun
import proofs.«152563_j67370857005292_2_alg».proof.Proof.ReferencePlain
import proofs.«152563_j67370857005292_2_alg».proof.Proof.TailR
import Idealize.ShloMosaic.Lib.StableHlo.Run

noncomputable section

namespace Cert.ReferenceIdeal.RefValue

open Cert.ReferenceIdeal Cert.ReferenceIdeal.Gen Cert.ReferenceIdeal.ValueP Cert.ReferenceIdeal.Plain Idealize.ShloMosaic Idealize.ShloMosaic.TcCoe Idealize.SL.Sem Idealize.ShloMosaic.StableHlo

/-! ## The two results, from any contents -/

set_option maxRecDepth 1000000 in
set_option maxHeartbeats 400000000 in
/-- The reference's first result buffer after its operations, from any contents `W` of the buffers: the operations composed in
    order over `W` at the four arguments. -/
theorem ref_tail0 (W : Valuation τ sig (Elt Ideal)) :
    StableHlo.after (opsPlain (F := Ideal)) W (Proc.devRef .tc main_v144)
      = Cert.TailBridge.tailR0 (Host.dotGeneral dot_S4x128x4096_S4x128x4096_S4x4096x4096_1_1_2_2_0_0 none (shapeCast _ (W (Proc.devRef .tc main_arg0)) shapeCasts_S4x128x64x64_S4x128x4096 : FVec Ideal S4x128x4096 .f32) (shapeCast _ (W (Proc.devRef .tc main_arg1)) shapeCasts_S4x128x64x64_S4x128x4096 : FVec Ideal S4x128x4096 .f32))
          (W (Proc.devRef .tc main_arg2)) (W (Proc.devRef .tc main_arg3)) := by
  after_results_simp
  unfold Cert.TailBridge.tailR0
  conv_rhs => simp only [Cert.TailBridge.takeNarrow_printed]
  rfl

set_option maxRecDepth 1000000 in
set_option maxHeartbeats 400000000 in
/-- The reference's second result buffer after its operations, from any contents `W` of the buffers: the operations composed in
    order over `W` at the four arguments. -/
theorem ref_tail1 (W : Valuation τ sig (Elt Ideal)) :
    StableHlo.after (opsPlain (F := Ideal)) W (Proc.devRef .tc main_v145)
      = Cert.TailBridge.tailR1 (Host.dotGeneral dot_S4x128x4096_S4x128x4096_S4x4096x4096_1_1_2_2_0_0 none (shapeCast _ (W (Proc.devRef .tc main_arg0)) shapeCasts_S4x128x64x64_S4x128x4096 : FVec Ideal S4x128x4096 .f32) (shapeCast _ (W (Proc.devRef .tc main_arg1)) shapeCasts_S4x128x64x64_S4x128x4096 : FVec Ideal S4x128x4096 .f32))
          (W (Proc.devRef .tc main_arg2)) (W (Proc.devRef .tc main_arg3)) := by
  after_results_simp
  unfold Cert.TailBridge.tailR1
  rfl

/-! ## The arguments are not written -/

set_option maxRecDepth 1000000 in
set_option maxHeartbeats 400000000 in
/-- No operation writes argument 0. -/
theorem ref_arg0 (W : Valuation τ sig (Elt Ideal)) :
    StableHlo.after (opsPlain (F := Ideal)) W (Proc.devRef .tc main_arg0) = W (Proc.devRef .tc main_arg0) := by
  after_results_simp <;> rfl

set_option maxRecDepth 1000000 in
set_option maxHeartbeats 400000000 in
/-- No operation writes argument 1. -/
theorem ref_arg1 (W : Valuation τ sig (Elt Ideal)) :
    StableHlo.after (opsPlain (F := Ideal)) W (Proc.devRef .tc main_arg1) = W (Proc.devRef .tc main_arg1) := by
  after_results_simp <;> rfl

set_option maxRecDepth 1000000 in
set_option maxHeartbeats 400000000 in
/-- No operation writes argument 2. -/
theorem ref_arg2 (W : Valuation τ sig (Elt Ideal)) :
    StableHlo.after (opsPlain (F := Ideal)) W (Proc.devRef .tc main_arg2) = W (Proc.devRef .tc main_arg2) := by
  after_results_simp <;> rfl

set_option maxRecDepth 1000000 in
set_option maxHeartbeats 400000000 in
/-- No operation writes argument 3. -/
theorem ref_arg3 (W : Valuation τ sig (Elt Ideal)) :
    StableHlo.after (opsPlain (F := Ideal)) W (Proc.devRef .tc main_arg3) = W (Proc.devRef .tc main_arg3) := by
  after_results_simp <;> rfl

/-! ## The run -/

set_option maxRecDepth 8192 in
/-- On every device, from any memory with zero counters: every weakly fair execution of the reference terminates with
    each result at `tailR0` / `tailR1` of the launch arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v144)
          = Cert.TailBridge.tailR0 (Host.dotGeneral dot_S4x128x4096_S4x128x4096_S4x4096x4096_1_1_2_2_0_0 none (shapeCast _ (m ((c.tc : Thread nD τ).loc main_arg0)) shapeCasts_S4x128x64x64_S4x128x4096 : FVec Ideal S4x128x4096 .f32) (shapeCast _ (m ((c.tc : Thread nD τ).loc main_arg1)) shapeCasts_S4x128x64x64_S4x128x4096 : FVec Ideal S4x128x4096 .f32))
              (m ((c.tc : Thread nD τ).loc main_arg2)) (m ((c.tc : Thread nD τ).loc main_arg3))
      ∧ r.2.mem ((c.tc : Thread nD τ).loc main_v145)
          = Cert.TailBridge.tailR1 (Host.dotGeneral dot_S4x128x4096_S4x128x4096_S4x4096x4096_1_1_2_2_0_0 none (shapeCast _ (m ((c.tc : Thread nD τ).loc main_arg0)) shapeCasts_S4x128x64x64_S4x128x4096 : FVec Ideal S4x128x4096 .f32) (shapeCast _ (m ((c.tc : Thread nD τ).loc main_arg1)) shapeCasts_S4x128x64x64_S4x128x4096 : FVec Ideal S4x128x4096 .f32))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v144).trans ((congrArg (fun l => StableHlo.after l _ _) ops_eq).trans (ref_tail0 _)),
      (h c main_v145).trans ((congrArg (fun l => StableHlo.after l _ _) ops_eq).trans (ref_tail1 _)),
      (h c main_arg0).trans ((congrArg (fun l => StableHlo.after l _ _) ops_eq).trans (ref_arg0 _)),
      (h c main_arg1).trans ((congrArg (fun l => StableHlo.after l _ _) ops_eq).trans (ref_arg1 _)),
      (h c main_arg2).trans ((congrArg (fun l => StableHlo.after l _ _) ops_eq).trans (ref_arg2 _)),
      (h c main_arg3).trans ((congrArg (fun l => StableHlo.after l _ _) ops_eq).trans (ref_arg3 _))⟩)
    (run_seq scopedRefs_eq scopedSems_eq defs main (fun _ => ops) main_eq (fun _ => ops_sub) m ρ)

end Cert.ReferenceIdeal.RefValue

end
-- ==== Proof.lean ====
/-
  The certificate of a correlation-volume lookup: a Pallas kernel that builds the volume, with the bilinear lookup in host
  code, against its jnp reference.

  Both programs take two feature arrays a, b of shape [4, 128, 64, 64], a sampling grid [4, 64, 2, 64, 64] and a mask
  [4, 64, 64, 64]. Reshaped to [4, 128, 4096], the features' CORRELATION VOLUME is
      corr[n, P, q] = Σ_c a[n, c, P] · b[n, c, q]            (128 channels, 4096 × 4096 pairs of positions per batch).
  The reference computes it by one host product (a dot_general contracting the channel axis, batched over n). The kernel
  program narrows the features to a shorter float format — the identity on the extended reals —, and computes the volume
  in a kernel region on a grid of 4 × 16 points, point (n, i) multiplying the [128, 256] slab of a by the whole [128, 4096]
  batch of b; the 64 blocks tile the volume, so the region's result array is corr as well.
  Then both programs do the same bilinear lookup: from the grid they form, for each of the four corners of the sampling
  cell, a weight and a flat index into the volume's last axis, read the four taps, weight and sum them, and set the sum
  against the summed mask weights. Every operation of that arithmetic is the same in the two programs, applied to the same
  operands in the same order, EXCEPT how the taps are read: the reference gathers four times, the kernel program
  concatenates the four index arrays, gathers once and cuts the result in four. A take along an axis acts index word by
  index word, so the k-th slice of the one gather is the k-th gather (`Cert.FusedTake`). Hence the two results are equal,
  as extended reals, element by element. No law of arithmetic is used, so the precondition (finite inputs) is never opened.

  The frames: each kernel program runs its region to the end at every grid point (the body loads two blocks and stores one
  product) and its host lines write only their own result buffers, so the four arguments end as launched; the reference
  is host lines only. The kernel's idealization rewrote nothing, so `preserves` is trivial.
-/
import proofs.«152563_j67370857005292_2_alg».proof.Defs
import proofs.«152563_j67370857005292_2_alg».proof.Proof.Gen.Kernel
import proofs.«152563_j67370857005292_2_alg».proof.Proof.Gen.KernelIdeal
import proofs.«152563_j67370857005292_2_alg».proof.Proof.Gen.ReferenceIdeal
import proofs.«152563_j67370857005292_2_alg».proof.Proof.Gen.Pre_finite_inputs
import proofs.«152563_j67370857005292_2_alg».proof.Proof.KernelFrame
import proofs.«152563_j67370857005292_2_alg».proof.Proof.KernelIdealRun
import proofs.«152563_j67370857005292_2_alg».proof.Proof.TailBridge
import proofs.«152563_j67370857005292_2_alg».proof.Proof.ReferenceValue
import proofs.«152563_j67370857005292_2_alg».proof.Proof.CorrAtIndex
import Idealize.ShloMosaic.Adequacy
import Idealize.ShloMosaic.Init

set_option maxRecDepth 16384

noncomputable section

namespace Cert.Proof

open Idealize.ShloMosaic Idealize.ShloMosaic.TcCoe Idealize.SL.Sem
open Idealize.ShloMosaic.ValueIdx

/-- The reference's host product of two arrays [4, 128, 4096] (batched over the first axis, contracting the second) is
    their correlation volume, index by index. -/
theorem dot_eq_corr (l r : FVec Ideal Cert.ReferenceIdeal.S4x128x4096 .f32) :
    Host.dotGeneral (F := Ideal) Cert.ReferenceIdeal.dot_S4x128x4096_S4x128x4096_S4x4096x4096_1_1_2_2_0_0 none l r
      = Cert.KernelIdeal.Corr.corr l r := by
  funext i
  obtain ⟨n, p, q, rfl⟩ : ∃ (n : Fin 4) (p q : Fin 4096), i = ix3 n p q := ⟨i 0, i 1, i 2, eq_ix3 i⟩
  exact Cert.CorrAtIndex.ref_dotGeneral_apply l r n p q

theorem frame_k : Cert.frame_Kernel := fun m ρ _ => Cert.Kernel.Frm.frame m ρ
theorem frame_ki : Cert.frame_KernelIdeal := fun m ρ _ => Cert.KernelIdeal.Frm.frame m ρ
theorem frame_ri : Cert.frame_ReferenceIdeal := fun m ρ _ =>
  (θ_run Cert.ReferenceIdeal.defs _ _).mono (fun _ h c => (h c).2.2) (Cert.ReferenceIdeal.RefValue.run m ρ)

/-- The idealization rewrote no operation of the kernel program. -/
theorem preserves : Cert.preserves_Kernel_KernelIdeal := trivial

set_option maxHeartbeats 4000000 in
/-- From memories that agree on the four arguments the two idealized programs end with equal results: the kernel
    program's are the host arithmetic of the correlation volume the region leaves, the reference's the same arithmetic
    (with the taps gathered separately) of its host product, which is that volume. -/
theorem algebraic : Cert.algebraic_KernelIdeal_ReferenceIdeal := by
  intro m ρ m' ρ' _ hagree
  refine ⟨_, _, Cert.KernelIdeal.KRun.run m ρ, ?_⟩
  refine (θ_run Cert.ReferenceIdeal.defs _ _).mono
    (fun _ h c => ⟨?_, ?_, (h c).2.2.1, (h c).2.2.2.1, (h c).2.2.2.2.1, (h c).2.2.2.2.2⟩)
    (Cert.ReferenceIdeal.RefValue.run m' ρ')
  · rw [(h c).1, (hagree c).1, (hagree c).2.1, (hagree c).2.2.1, (hagree c).2.2.2,
      Cert.TailBridge.bridge0, Cert.KernelIdeal.KRun.V_main_v1, Cert.KernelIdeal.KRun.V_main_v3, dot_eq_corr]
  · rw [(h c).2.1, (hagree c).1, (hagree c).2.1, (hagree c).2.2.1, (hagree c).2.2.2,
      Cert.TailBridge.bridge1, Cert.KernelIdeal.KRun.V_main_v1, Cert.KernelIdeal.KRun.V_main_v3, dot_eq_corr]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
